-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x1024x1024 : Shape := ⟨3, ![32, 1024, 1024]⟩
abbrev S32x128 : Shape := ⟨2, ![32, 128]⟩
abbrev S8x256x1024 : Shape := ⟨3, ![8, 256, 1024]⟩
abbrev S8x128 : Shape := ⟨2, ![8, 128]⟩
abbrev S8x256 : Shape := ⟨2, ![8, 256]⟩
abbrev S8 : Shape := ⟨1, ![8]⟩
abbrev S8x1 : Shape := ⟨2, ![8, 1]⟩
abbrev S32x1 : Shape := ⟨2, ![32, 1]⟩
abbrev S32 : Shape := ⟨1, ![32]⟩
abbrev S_ : Shape := ⟨0, ![]⟩
abbrev S32x1024 : Shape := ⟨2, ![32, 1024]⟩
abbrev S8x1024 : Shape := ⟨2, ![8, 1024]⟩
abbrev S8x1x1 : Shape := ⟨3, ![8, 1, 1]⟩
abbrev S8x256x1 : Shape := ⟨3, ![8, 256, 1]⟩
abbrev S8x1x1024 : Shape := ⟨3, ![8, 1, 1024]⟩

abbrev nBuf : Space → Nat
  | .hbm => 117
  | .vmem => 34
  | .smem => 0
  | _ => 0

abbrev bufTy : (tb : Table) → Fin (tcTables nBuf tb) → BufTy
  | .hbm, ⟨0, _⟩ => ⟨S32x1x1024x1024, .f32⟩
  | .hbm, ⟨1, _⟩ => ⟨S32x1024x1024, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x1, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32x1024, .f32⟩
  | .hbm, ⟨17, _⟩ => ⟨S32x1024, .f32⟩
  | .hbm, ⟨18, _⟩ => ⟨S32x1024, .i32⟩
  | .hbm, ⟨19, _⟩ => ⟨S_, .i32⟩
  | .hbm, ⟨20, _⟩ => ⟨S_, .i32⟩
  | .hbm, ⟨21, _⟩ => ⟨S32x1024, .i32⟩
  | .hbm, ⟨22, _⟩ => ⟨S_, .i32⟩
  | .hbm, ⟨23, _⟩ => ⟨S32x1024, .i32⟩
  | .hbm, ⟨24, _⟩ => ⟨S32x1024, .i1⟩
  | .hbm, ⟨25, _⟩ => ⟨S32x1024, .f32⟩
  | .hbm, ⟨26, _⟩ => ⟨S32x1024, .i32⟩
  | .hbm, ⟨27, _⟩ => ⟨S_, .i32⟩
  | .hbm, ⟨28, _⟩ => ⟨S_, .i32⟩
  | .hbm, ⟨29, _⟩ => ⟨S32x1024, .i32⟩
  | .hbm, ⟨30, _⟩ => ⟨S32x1024, .i32⟩
  | .hbm, ⟨31, _⟩ => ⟨S_, .i32⟩
  | .hbm, ⟨32, _⟩ => ⟨S32x1024, .i32⟩
  | .hbm, ⟨33, _⟩ => ⟨S32x1024, .i1⟩
  | .hbm, ⟨34, _⟩ => ⟨S32x1024, .i1⟩
  | .hbm, ⟨35, _⟩ => ⟨S32x1024, .f32⟩
  | .hbm, ⟨36, _⟩ => ⟨S32x1024, .i32⟩
  | .hbm, ⟨37, _⟩ => ⟨S_, .i32⟩
  | .hbm, ⟨38, _⟩ => ⟨S_, .i32⟩
  | .hbm, ⟨39, _⟩ => ⟨S32x1024, .i32⟩
  | .hbm, ⟨40, _⟩ => ⟨S_, .i32⟩
  | .hbm, ⟨41, _⟩ => ⟨S32x1024, .i32⟩
  | .hbm, ⟨42, _⟩ => ⟨S32x1024, .i1⟩
  | .hbm, ⟨43, _⟩ => ⟨S32x1024, .f32⟩
  | .hbm, ⟨44, _⟩ => ⟨S32x1024, .i32⟩
  | .hbm, ⟨45, _⟩ => ⟨S_, .i32⟩
  | .hbm, ⟨46, _⟩ => ⟨S_, .i32⟩
  | .hbm, ⟨47, _⟩ => ⟨S32x1024, .i32⟩
  | .hbm, ⟨48, _⟩ => ⟨S32x1024, .i32⟩
  | .hbm, ⟨49, _⟩ => ⟨S_, .i32⟩
  | .hbm, ⟨50, _⟩ => ⟨S32x1024, .i32⟩
  | .hbm, ⟨51, _⟩ => ⟨S32x1024, .i1⟩
  | .hbm, ⟨52, _⟩ => ⟨S32x1024, .i1⟩
  | .hbm, ⟨53, _⟩ => ⟨S32x1024, .f32⟩
  | .hbm, ⟨54, _⟩ => ⟨S32x128, .f32⟩
  | .hbm, ⟨55, _⟩ => ⟨S32x128, .f32⟩
  | .hbm, ⟨56, _⟩ => ⟨S32x1, .f32⟩
  | .hbm, ⟨57, _⟩ => ⟨S32, .f32⟩
  | .hbm, ⟨58, _⟩ => ⟨S32x1, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .i1⟩
  | .hbm, ⟨66, _⟩ => ⟨S_, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .i1⟩
  | .hbm, ⟨71, _⟩ => ⟨S_, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .i1⟩
  | .hbm, ⟨81, _⟩ => ⟨S_, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S32, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .i1⟩
  | .hbm, ⟨91, _⟩ => ⟨S_, .f32⟩
  | .hbm, ⟨92, _⟩ => ⟨S32, .f32⟩
  | .hbm, ⟨93, _⟩ => ⟨S32, .i1⟩
  | .hbm, ⟨94, _⟩ => ⟨S32, .i1⟩
  | .hbm, ⟨95, _⟩ => ⟨S_, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S32, .f32⟩
  | .hbm, ⟨100, _⟩ => ⟨S32, .f32⟩
  | .hbm, ⟨101, _⟩ => ⟨S32, .f32⟩
  | .hbm, ⟨102, _⟩ => ⟨S32, .f32⟩
  | .hbm, ⟨103, _⟩ => ⟨S32, .f32⟩
  | .hbm, ⟨104, _⟩ => ⟨S_, .f32⟩
  | .hbm, ⟨105, _⟩ => ⟨S_, .f32⟩
  | .hbm, ⟨106, _⟩ => ⟨S32, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .i1⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .local _ .vmem, ⟨0, _⟩ => ⟨S8x256x1024, .f32⟩
  | .local _ .vmem, ⟨1, _⟩ => ⟨S8x256x1024, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x256x1024, .f32⟩
  | .local _ .vmem, ⟨11, _⟩ => ⟨S8x256x1024, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x256, .f32⟩
  | .local _ .vmem, ⟨17, _⟩ => ⟨S8x256, .f32⟩
  | .local _ .vmem, ⟨18, _⟩ => ⟨S8x1024, .f32⟩
  | .local _ .vmem, ⟨19, _⟩ => ⟨S8x1024, .f32⟩
  | .local _ .vmem, ⟨20, _⟩ => ⟨S8x256x1024, .f32⟩
  | .local _ .vmem, ⟨21, _⟩ => ⟨S8x256x1024, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x256, .f32⟩
  | .local _ .vmem, ⟨27, _⟩ => ⟨S8x256, .f32⟩
  | .local _ .vmem, ⟨28, _⟩ => ⟨S8x1024, .f32⟩
  | .local _ .vmem, ⟨29, _⟩ => ⟨S8x1024, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_call0_call0_c : Ref sig .tc := ⟨.hbm, 19, rfl⟩
abbrev main_call0_call0_v0 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_call0_c : Ref sig .tc := ⟨.hbm, 27, rfl⟩
abbrev main_call1_call0_v0 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_call0_c : Ref sig .tc := ⟨.hbm, 37, rfl⟩
abbrev main_call2_call0_v0 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call3_call0_c : Ref sig .tc := ⟨.hbm, 45, rfl⟩
abbrev main_call3_call0_v0 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_cst_9 : Ref sig .tc := ⟨.hbm, 72, rfl⟩
abbrev main_call4_v0 : Ref sig .tc := ⟨.hbm, 73, rfl⟩
abbrev main_call4_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_cst_12 : Ref sig .tc := ⟨.hbm, 82, rfl⟩
abbrev main_call5_v0 : Ref sig .tc := ⟨.hbm, 83, rfl⟩
abbrev main_call5_v1 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_cst_16 : Ref sig .tc := ⟨.hbm, 96, rfl⟩
abbrev main_call6_v0 : Ref sig .tc := ⟨.hbm, 97, rfl⟩
abbrev main_call6_v1 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_17 : Ref sig .tc := ⟨.hbm, 104, rfl⟩
abbrev main_v65 : Ref sig .tc := ⟨.hbm, 105, rfl⟩
abbrev main_v66 : Ref sig .tc := ⟨.hbm, 106, rfl⟩
abbrev main_cst_18 : Ref sig .tc := ⟨.hbm, 107, rfl⟩
abbrev main_v67 : Ref sig .tc := ⟨.hbm, 108, rfl⟩
abbrev main_cst_19 : Ref sig .tc := ⟨.hbm, 109, rfl⟩
abbrev main_v68 : Ref sig .tc := ⟨.hbm, 110, rfl⟩
abbrev main_cst_20 : Ref sig .tc := ⟨.hbm, 111, rfl⟩
abbrev main_v69 : Ref sig .tc := ⟨.hbm, 112, rfl⟩
abbrev main_v70 : Ref sig .tc := ⟨.hbm, 113, rfl⟩
abbrev main_cst_21 : Ref sig .tc := ⟨.hbm, 114, rfl⟩
abbrev main_call7_v0 : Ref sig .tc := ⟨.hbm, 115, rfl⟩
abbrev main_v71 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S32x1x1024x1024_S32x1024x1024 : S32x1x1024x1024.ShapeCasts S32x1024x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  reduces_S8x256_S8 : S8x256.Reduces [1] S8
  natLt_1_32 : 1 < 32
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S32x128_S32x1_0_0 : S32x128.Slices ![0, 0] S32x1
  shapeCasts_S32x1_S32 : S32x1.ShapeCasts S32
  bcast_S_S32 : S_.BroadcastsInDim S32 (![] : Fin 0 → Fin S32.rank)
  inb_S8x128_S8x1_0_0 : ∀ a, (![0, 0] : Fin 2 → Nat) a + S8x1.size a ≤ S8x128.size a
  h_S8x1 : 0 < S8x1.numel
  shapeCasts_S8x1_S8 : S8x1.ShapeCasts S8
  shapeCasts_S8_S8x1x1 : S8.ShapeCasts S8x1x1
  broadcasts_S8x1x1_S8x256x1024 : S8x1x1.Broadcasts S8x256x1024
  inb_S8x256_S8x256_0_0 : ∀ a, (![0, 0] : Fin 2 → Nat) a + S8x256.size a ≤ S8x256.size a
  h_S8x256 : 0 < S8x256.numel
  reduces_S8x256x1024_S8x1024 : S8x256x1024.Reduces [1] S8x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bcast_S_S_ : S_.BroadcastsInDim S_ (![] : Fin 0 → Fin S_.rank)
  reduceWindows_S32x1024_S32x1024_w1s1p0_0_w1024s1p1023_0 : S32x1024.ReduceWindows (![1, 1024] : Fin 2 → Nat) ![1, 1] ![0, 1023] ![0, 0] S32x1024
  h_S_ : 0 < S_.numel
  bcast_S_S32x1024 : S_.BroadcastsInDim S32x1024 (![] : Fin 0 → Fin S32x1024.rank)
  shapeCasts_S8x256_S8x256 : S8x256.ShapeCasts S8x256
  shapeCasts_S8x256_S8x256x1 : S8x256.ShapeCasts S8x256x1
  shapeCasts_S8x1024_S8x1x1024 : S8x1024.ShapeCasts S8x1x1024
  broadcasts_S8x256x1_S8x256x1024 : S8x256x1.Broadcasts S8x256x1024
  broadcasts_S8x1x1024_S8x256x1024 : S8x1x1024.Broadcasts S8x256x1024
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S32x1024x1024.size a
  hwx0_0 : ∀ i : grid0.Coords, EltTy.bits .f32 = 32 ∨ (Rect.block (s := S32x1024x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x128.size a
  hwx0_2 : ∀ i : grid0.Coords, EltTy.bits .f32 = 32 ∨ (Rect.block (s := S32x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S32x1024x1024.size a
  hwx1_0 : ∀ i : grid1.Coords, EltTy.bits .f32 = 32 ∨ (Rect.block (s := S32x1024x1024) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x128.size a
  hwx1_1 : ∀ i : grid1.Coords, EltTy.bits .f32 = 32 ∨ (Rect.block (s := S32x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S32x128.size a
  hwx1_2 : ∀ i : grid1.Coords, EltTy.bits .f32 = 32 ∨ (Rect.block (s := S32x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S32x1024.size a
  hwx1_3 : ∀ i : grid1.Coords, EltTy.bits .f32 = 32 ∨ (Rect.block (s := S32x1024) S8x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x1024.size a ≤ S32x1024.size a
  hwx1_4 : ∀ i : grid1.Coords, EltTy.bits .f32 = 32 ∨ (Rect.block (s := S32x1024) S8x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x1024.size a ≤ S32x1024x1024.size a
  hwx2_0 : ∀ i : grid2.Coords, EltTy.bits .f32 = 32 ∨ (Rect.block (s := S32x1024x1024) S8x256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S32x128.size a
  hwx2_1 : ∀ i : grid2.Coords, EltTy.bits .f32 = 32 ∨ (Rect.block (s := S32x128) S8x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S32x128.size a
  hwx2_2 : ∀ i : grid2.Coords, EltTy.bits .f32 = 32 ∨ (Rect.block (s := S32x128) S8x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x256.size a ≤ S32x1024.size a
  hwx2_3 : ∀ i : grid2.Coords, EltTy.bits .f32 = 32 ∨ (Rect.block (s := S32x1024) S8x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x1024.size a ≤ S32x1024.size a
  hwx2_4 : ∀ i : grid2.Coords, EltTy.bits .f32 = 32 ∨ (Rect.block (s := S32x1024) S8x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S32x128.size a
  hwx2_5 : ∀ i : grid2.Coords, EltTy.bits .f32 = 32 ∨ (Rect.block (s := S32x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S32x128.size a
  hwx2_6 : ∀ i : grid2.Coords, EltTy.bits .f32 = 32 ∨ (Rect.block (s := S32x128) S8x128.size (cc2_transform_6 i) (hinb2_6 i)).WholeWords (EltTy.packing .f32)

variable [Facts₀]

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_3) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S8x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S8x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S8x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S8x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S8x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34) S8x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v35_0) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35_1) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S32x1x1024x1024 : Shape := ⟨4, ![32, 1, 1024, 1024]⟩
abbrev S32x1024x1024 : Shape := ⟨3, ![32, 1024, 1024]⟩
abbrev S_ : Shape := ⟨0, ![]⟩
abbrev S32 : Shape := ⟨1, ![32]⟩
abbrev S32x1x1 : Shape := ⟨3, ![32, 1, 1]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 156
  | .vmem => 0
  | .smem => 0
  | _ => 0

abbrev hbmTy0_0 (i : Nat) : BufTy := match i % 128 with
  | 0 => ⟨S32x1x1024x1024, .f32⟩
  | 1 => ⟨S32x1024x1024, .f32⟩
  | 2 => ⟨S32x1024x1024, .f32⟩
  | 3 => ⟨S32x1024x1024, .f32⟩
  | 4 => ⟨S_, .f32⟩
  | 5 => ⟨S32x1024x1024, .f32⟩
  | 6 => ⟨S32x1024x1024, .f32⟩
  | 7 => ⟨S_, .f32⟩
  | 8 => ⟨S32x1024x1024, .f32⟩
  | 9 => ⟨S32x1024x1024, .f32⟩
  | 10 => ⟨S_, .f32⟩
  | 11 => ⟨S32x1024x1024, .f32⟩
  | 12 => ⟨S32x1024x1024, .f32⟩
  | 13 => ⟨S32x1024x1024, .f32⟩
  | 14 => ⟨S_, .f32⟩
  | 15 => ⟨S32, .f32⟩
  | 16 => ⟨S_, .f32⟩
  | 17 => ⟨S32, .f32⟩
  | 18 => ⟨S32, .f32⟩
  | 19 => ⟨S_, .f32⟩
  | 20 => ⟨S32x1024x1024, .f32⟩
  | 21 => ⟨S32x1024x1024, .i1⟩
  | 22 => ⟨S32x1024x1024, .f32⟩
  | 23 => ⟨S_, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .i1⟩
  | 31 => ⟨S_, .f32⟩
  | 32 => ⟨S_, .f32⟩
  | 33 => ⟨S32, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .i1⟩
  | 43 => ⟨S_, .f32⟩
  | 44 => ⟨S_, .f32⟩
  | 45 => ⟨S32, .f32⟩
  | 46 => ⟨S32, .f32⟩
  | 47 => ⟨S32, .f32⟩
  | 48 => ⟨S32, .f32⟩
  | 49 => ⟨S32, .f32⟩
  | 50 => ⟨S_, .f32⟩
  | 51 => ⟨S32, .f32⟩
  | 52 => ⟨S32, .i1⟩
  | 53 => ⟨S_, .f32⟩
  | 54 => ⟨S32, .f32⟩
  | 55 => ⟨S32, .i1⟩
  | 56 => ⟨S32, .i1⟩
  | 57 => ⟨S_, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .f32⟩
  | 65 => ⟨S32, .f32⟩
  | 66 => ⟨S_, .f32⟩
  | 67 => ⟨S32, .f32⟩
  | 68 => ⟨S32x1x1, .f32⟩
  | 69 => ⟨S32x1024x1024, .f32⟩
  | 70 => ⟨S32x1024x1024, .f32⟩
  | 71 => ⟨S32, .f32⟩
  | 72 => ⟨S_, .f32⟩
  | 73 => ⟨S32, .f32⟩
  | 74 => ⟨S32, .f32⟩
  | 75 => ⟨S32x1x1, .f32⟩
  | 76 => ⟨S32x1024x1024, .f32⟩
  | 77 => ⟨S32x1024x1024, .f32⟩
  | 78 => ⟨S_, .f32⟩
  | 79 => ⟨S32x1024x1024, .f32⟩
  | 80 => ⟨S32x1024x1024, .i1⟩
  | 81 => ⟨S_, .i1⟩
  | 82 => ⟨S32x1024, .i1⟩
  | 83 => ⟨S_, .i1⟩
  | 84 => ⟨S32x1024, .i1⟩
  | 85 => ⟨S32x1024, .i32⟩
  | 86 => ⟨S_, .i32⟩
  | 87 => ⟨S_, .i32⟩
  | 88 => ⟨S32x1024, .i32⟩
  | 89 => ⟨S_, .i32⟩
  | 90 => ⟨S32x1024, .i32⟩
  | 91 => ⟨S32x1024, .i1⟩
  | 92 => ⟨S32x1024, .i1⟩
  | 93 => ⟨S32x1024, .i32⟩
  | 94 => ⟨S_, .i32⟩
  | 95 => ⟨S_, .i32⟩
  | 96 => ⟨S32x1024, .i32⟩
  | 97 => ⟨S32x1024, .i32⟩
  | 98 => ⟨S_, .i32⟩
  | 99 => ⟨S32x1024, .i32⟩
  | 100 => ⟨S32x1024, .i1⟩
  | 101 => ⟨S32x1024, .i1⟩
  | 102 => ⟨S32x1024x1, .i1⟩
  | 103 => ⟨S32x1024, .i32⟩
  | 104 => ⟨S_, .i32⟩
  | 105 => ⟨S_, .i32⟩
  | 106 => ⟨S32x1024, .i32⟩
  | 107 => ⟨S_, .i32⟩
  | 108 => ⟨S32x1024, .i32⟩
  | 109 => ⟨S32x1024, .i1⟩
  | 110 => ⟨S32x1024, .i1⟩
  | 111 => ⟨S32x1024, .i32⟩
  | 112 => ⟨S_, .i32⟩
  | 113 => ⟨S_, .i32⟩
  | 114 => ⟨S32x1024, .i32⟩
  | 115 => ⟨S32x1024, .i32⟩
  | 116 => ⟨S_, .i32⟩
  | 117 => ⟨S32x1024, .i32⟩
  | 118 => ⟨S32x1024, .i1⟩
  | 119 => ⟨S32x1024, .i1⟩
  | 120 => ⟨S32x1x1024, .i1⟩
  | 121 => ⟨S32x1024x1024, .i1⟩
  | 122 => ⟨S32x1024x1024, .i1⟩
  | 123 => ⟨S32x1024x1024, .i1⟩
  | 124 => ⟨S_, .i1⟩
  | 125 => ⟨S32, .i1⟩
  | 126 => ⟨S32x1x1, .i1⟩
  | 127 => ⟨S32x1024x1024, .i1⟩
  | _ => ⟨S32x1x1024x1024, .f32⟩

abbrev hbmTy0_1 (i : Nat) : BufTy := match i % 128 with
  | 0 => ⟨S32x1024x1024, .i1⟩
  | 1 => ⟨S32x1024x1024, .i1⟩
  | 2 => ⟨S_, .i1⟩
  | 3 => ⟨S32, .i1⟩
  | 4 => ⟨S32x1024x1024, .f32⟩
  | 5 => ⟨S32x1024x1024, .f32⟩
  | 6 => ⟨S32x1024x1024, .f32⟩
  | 7 => ⟨S_, .f32⟩
  | 8 => ⟨S32, .f32⟩
  | 9 => ⟨S_, .f32⟩
  | 10 => ⟨S32, .f32⟩
  | 11 => ⟨S32, .f32⟩
  | 12 => ⟨S32, .f32⟩
  | 13 => ⟨S32, .f32⟩
  | 14 => ⟨S_, .f32⟩
  | 15 => ⟨S_, .f32⟩
  | 16 => ⟨S32, .f32⟩
  | 17 => ⟨S32, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_cst_9 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_cst_11 : Ref sig .tc := ⟨.hbm, 40, rfl⟩
abbrev main_v25 : Ref sig .tc := ⟨.hbm, 41, rfl⟩
abbrev main_v26 : Ref sig .tc := ⟨.hbm, 42, rfl⟩
abbrev main_cst_12 : Ref sig .tc := ⟨.hbm, 43, rfl⟩
abbrev main_cst_13 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_14 : Ref sig .tc := ⟨.hbm, 50, rfl⟩
abbrev main_v30 : Ref sig .tc := ⟨.hbm, 51, rfl⟩
abbrev main_v31 : Ref sig .tc := ⟨.hbm, 52, rfl⟩
abbrev main_cst_15 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_16 : Ref sig .tc := ⟨.hbm, 57, rfl⟩
abbrev main_cst_17 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_18 : Ref sig .tc := ⟨.hbm, 64, rfl⟩
abbrev main_v38 : Ref sig .tc := ⟨.hbm, 65, rfl⟩
abbrev main_cst_19 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_20 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_21 : Ref sig .tc := ⟨.hbm, 78, rfl⟩
abbrev main_v49 : Ref sig .tc := ⟨.hbm, 79, rfl⟩
abbrev main_v50 : Ref sig .tc := ⟨.hbm, 80, rfl⟩
abbrev main_c : Ref sig .tc := ⟨.hbm, 81, rfl⟩
abbrev main_v51 : Ref sig .tc := ⟨.hbm, 82, rfl⟩
abbrev main_c_22 : Ref sig .tc := ⟨.hbm, 83, rfl⟩
abbrev main_v52 : Ref sig .tc := ⟨.hbm, 84, rfl⟩
abbrev main_v53 : Ref sig .tc := ⟨.hbm, 85, rfl⟩
abbrev main_call3_call0_c : Ref sig .tc := ⟨.hbm, 86, rfl⟩
abbrev main_call3_call0_v0 : Ref sig .tc := ⟨.hbm, 87, rfl⟩
abbrev main_v54 : Ref sig .tc := ⟨.hbm, 88, rfl⟩
abbrev main_c_23 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call4_call0_c : Ref sig .tc := ⟨.hbm, 94, rfl⟩
abbrev main_call4_call0_v0 : Ref sig .tc := ⟨.hbm, 95, rfl⟩
abbrev main_v59 : Ref sig .tc := ⟨.hbm, 96, rfl⟩
abbrev main_v60 : Ref sig .tc := ⟨.hbm, 97, rfl⟩
abbrev main_c_24 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call5_call0_c : Ref sig .tc := ⟨.hbm, 104, rfl⟩
abbrev main_call5_call0_v0 : Ref sig .tc := ⟨.hbm, 105, rfl⟩
abbrev main_v66 : Ref sig .tc := ⟨.hbm, 106, rfl⟩
abbrev main_c_25 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call6_call0_c : Ref sig .tc := ⟨.hbm, 112, rfl⟩
abbrev main_call6_call0_v0 : Ref sig .tc := ⟨.hbm, 113, rfl⟩
abbrev main_v71 : Ref sig .tc := ⟨.hbm, 114, rfl⟩
abbrev main_v72 : Ref sig .tc := ⟨.hbm, 115, rfl⟩
abbrev main_c_26 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_27 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_28 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_29 : Ref sig .tc := ⟨.hbm, 135, rfl⟩
abbrev main_v89 : Ref sig .tc := ⟨.hbm, 136, rfl⟩
abbrev main_cst_30 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_31 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_32 : Ref sig .tc := ⟨.hbm, 146, rfl⟩
abbrev main_v97 : Ref sig .tc := ⟨.hbm, 147, rfl⟩
abbrev main_cst_33 : Ref sig .tc := ⟨.hbm, 148, rfl⟩
abbrev main_v98 : Ref sig .tc := ⟨.hbm, 149, rfl⟩
abbrev main_cst_34 : Ref sig .tc := ⟨.hbm, 150, rfl⟩
abbrev main_v99 : Ref sig .tc := ⟨.hbm, 151, rfl⟩
abbrev main_v100 : Ref sig .tc := ⟨.hbm, 152, rfl⟩
abbrev main_cst_35 : Ref sig .tc := ⟨.hbm, 153, rfl⟩
abbrev main_call7_v0 : Ref sig .tc := ⟨.hbm, 154, rfl⟩
abbrev main_v101 : Ref sig .tc := ⟨.hbm, 155, rfl⟩

abbrev nD : Nat := 1
abbrev τ : Topo := Topo.v7x

variable {F : FTy → Type} [FloatOps F]

class Facts₀ : Prop where
  shapeCasts_S32x1x1024x1024_S32x1024x1024 : S32x1x1024x1024.ShapeCasts S32x1024x1024
  bcast_S_S32x1024x1024 : S_.BroadcastsInDim S32x1024x1024 (![] : Fin 0 → Fin S32x1024x1024.rank)
  reducesTo_S32x1024x1024_S32_d1_2 : S32x1024x1024.ReducesTo [1, 2] S32
  h_S_ : 0 < S_.numel
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x1024x1024_0_1_2 : S32x1x1.BroadcastsInDim S32x1024x1024 (![0, 1, 2] : Fin 3 → Fin S32x1024x1024.rank)
  reducesTo_S32x1024x1024_S32x1024_d2 : S32x1024x1024.ReducesTo [2] S32x1024
  reducesTo_S32x1024x1024_S32x1024_d1 : S32x1024x1024.ReducesTo [1] S32x1024
  natLt_1_32 : 1 < 32
  bcast_S_S_ : S_.BroadcastsInDim S_ (![] : Fin 0 → Fin S_.rank)
  reduceWindows_S32x1024_S32x1024_w1s1p0_0_w1024s1p1023_0 : S32x1024.ReduceWindows (![1, 1024] : Fin 2 → Nat) ![1, 1] ![0, 1023] ![0, 0] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  reducesTo_S32_S_d0 : S32.ReducesTo [0] S_

variable [Facts₀]

class Facts : Prop extends Facts₀ where

variable [Facts]
-- ==== Proof.Spec.lean ====
/-
  The mathematics of the rectangle-fill loss, stated once over plain index types: a batch of 32 images of
  1024 × 1024 extended reals, per-sample minimum, maximum and two sums (a confidence and an area), the min–max
  normalisation, the thresholded mask, its row and column occupancy, the span of each occupancy vector (between its
  first and last occupied position, computed on 32-bit words by two running sums), the filled rectangle, the squared
  error against it, the "something changed" flag, and the batch average that ends the computation.  Two spellings of
  the middle part are given — one thresholds the raw entry against lo + ½·(hi − lo + ε) and multiplies 0/1 factors,
  the other thresholds the normalised entry against ½ and conjoins bits — and `outK`, `outR` are the two whole
  computations.  Nothing here mentions a program.
-/
import Idealize.ShloMosaic.PureOps.Ideal
import Idealize.ShloMosaic.PureOps
import Idealize.ShloMosaic.Lib.ValueIdx

noncomputable section

open scoped BigOperators

namespace Cert.RectFill

open Idealize.ShloMosaic Idealize.ShloMosaic.ValueIdx

/-- A batch of images by sample, row, column. -/
abbrev Img := Fin 32 → Fin 1024 → Fin 1024 → EReal
/-- One extended real per sample. -/
abbrev Vec32 := Fin 32 → EReal
/-- One extended real per sample and row (or per sample and column). -/
abbrev Rows := Fin 32 → Fin 1024 → EReal

abbrev S0 : Shape := ⟨0, ![]⟩
abbrev S32 : Shape := ⟨1, ![32]⟩
abbrev S2 : Shape := ⟨2, ![32, 1024]⟩

/-- The constant ½ (its f32 word). -/
def half : EReal := Ideal.ofBits .f32 0x3F000000#32
/-- The constant ε (the f32 word nearest 1e-8). -/
def eps : EReal := Ideal.ofBits .f32 0x322BCC77#32

open Classical in
/-- The 0/1 indicator of a proposition, as an extended real. -/
def ind (p : Prop) : EReal := if p then 1 else 0
open Classical in
/-- The one-bit word of a proposition. -/
def bit (p : Prop) : BitVec 1 := if p then 1#1 else 0#1
/-- A one-bit word as an extended real (0 or 1). -/
def bitE (b : BitVec 1) : EReal := ((b.toNat : ℝ) : EReal)
/-- |y| on the extended reals. -/
def absE (y : EReal) : EReal := max y (-y)

theorem ind_true {p : Prop} (h : p) : ind p = 1 := by unfold ind; exact if_pos h
theorem ind_false {p : Prop} (h : ¬p) : ind p = 0 := by unfold ind; exact if_neg h
theorem bit_true {p : Prop} (h : p) : bit p = 1#1 := by unfold bit; exact if_pos h
theorem bit_false {p : Prop} (h : ¬p) : bit p = 0#1 := by unfold bit; exact if_neg h

/-! ## Per-sample reductions of the raw image -/

/-- The least entry of sample `b`. -/
def lo (x : Img) (b : Fin 32) : EReal := ⨅ r : Fin 1024, ⨅ c : Fin 1024, x b r c
/-- The greatest entry of sample `b`. -/
def hi (x : Img) (b : Fin 32) : EReal := ⨆ r : Fin 1024, ⨆ c : Fin 1024, x b r c
/-- The logistic function 1 / (1 + e^(−v)). -/
def prob (v : EReal) : EReal := Ideal.logistic v
/-- Σ |σ(x) − ½| over sample `b`. -/
def confSum (x : Img) (b : Fin 32) : EReal := ∑ r : Fin 1024, ∑ c : Fin 1024, absE (prob (x b r c) - half)
/-- The number of entries of sample `b` with σ(x) > ½. -/
def areaSum (x : Img) (b : Fin 32) : EReal := ∑ r : Fin 1024, ∑ c : Fin 1024, ind (half < prob (x b r c))

/-! ## The normalised image and the mask, from given per-sample bounds `L`, `H` -/

/-- (x − L) / (H − L + ε). -/
def pn (x : Img) (L H : Vec32) (b : Fin 32) (r c : Fin 1024) : EReal := Ideal.div (x b r c - L b) (H b - L b + eps)
/-- L + ½ · (H − L + ε): the raw-entry threshold. -/
def thr (l h : EReal) : EReal := l + half * (h - l + eps)

/-- Row occupancy as 0/1 reals, the mask taken on the raw entry: the greatest indicator along the row. -/
def rowsK (x : Img) (L H : Vec32) : Rows := fun b r => ⨆ c : Fin 1024, ind (thr (L b) (H b) < x b r c)
/-- Column occupancy likewise. -/
def colsK (x : Img) (L H : Vec32) : Rows := fun b c => ⨆ r : Fin 1024, ind (thr (L b) (H b) < x b r c)
/-- Σ (pn − sr·sc)² over sample `b`, the rectangle given as a product of 0/1 row and column factors. -/
def mseK (x : Img) (L H : Vec32) (sr sc : Rows) (b : Fin 32) : EReal :=
  ∑ r : Fin 1024, ∑ c : Fin 1024, (pn x L H b r c - sr b r * sc b c) * (pn x L H b r c - sr b r * sc b c)
/-- Σ |[pn > ½] − sr·sc| over sample `b`. -/
def xorK (x : Img) (L H : Vec32) (sr sc : Rows) (b : Fin 32) : EReal :=
  ∑ r : Fin 1024, ∑ c : Fin 1024, absE (ind (half < pn x L H b r c) - sr b r * sc b c)

/-- The mask on the normalised entry. -/
def binP (x : Img) (L H : Vec32) (b : Fin 32) (r c : Fin 1024) : Prop := half < pn x L H b r c
def rowsP (x : Img) (L H : Vec32) (b : Fin 32) (r : Fin 1024) : Prop := ∃ c, binP x L H b r c
def colsP (x : Img) (L H : Vec32) (b : Fin 32) (c : Fin 1024) : Prop := ∃ r, binP x L H b r c
def anyP (x : Img) (L H : Vec32) (b : Fin 32) : Prop := ∃ r c, binP x L H b r c
/-- Σ (pn − [fl])² over sample `b`, the rectangle given as a predicate. -/
def mseR (x : Img) (L H : Vec32) (fl : Fin 32 → Fin 1024 → Fin 1024 → Prop) (b : Fin 32) : EReal :=
  ∑ r : Fin 1024, ∑ c : Fin 1024, (pn x L H b r c - ind (fl b r c)) * (pn x L H b r c - ind (fl b r c))
/-- The rectangle differs from the mask somewhere in sample `b`. -/
def validP (x : Img) (L H : Vec32) (fl : Fin 32 → Fin 1024 → Fin 1024 → Prop) (b : Fin 32) : Prop :=
  ∃ r c, ¬(fl b r c ↔ binP x L H b r c)

/-! ## The span of an occupancy vector, on 32-bit words -/

/-- An array over (sample, position) from a function of the two coordinates. -/
def at2 {α : Type} (f : Fin 32 → Fin 1024 → α) : S2.Idx → α := fun j => f (j 0) (j 1)
/-- A vector over samples from a function of the sample. -/
def vec {α : Type} (f : Fin 32 → α) : S32.Idx → α := fun j => f (j 0)

/-- Running sums along each sample's 1024 positions: a width-1024 window sum over the vector padded with 1023 zeros in front. -/
def cumsum (v : IVec S2 32) : IVec S2 32 :=
  Host.reduceWindow IntOp.addi ![1, 1024] ![1, 1] ![0, 1023] ![0, 0] v
    (broadcastInDim S0 ![] (by decide) (constantI S0 32 0#32)) (by decide) (by decide)
/-- Position p is in the span when the running sum up to p is positive and so is the running sum from the far end down to p. -/
def span (v : IVec S2 32) : IVec S2 1 :=
  andi (cmpi .sgt (cumsum v) (broadcastInDim S2 ![] (by decide) (constantI S0 32 0#32)))
    (cmpi .sgt (Host.reverse [1] (cumsum (Host.reverse [1] v))) (broadcastInDim S2 ![] (by decide) (constantI S0 32 0#32)))
/-- The span bit at (sample, position) of a word-valued occupancy. -/
def spanOf (w : Fin 32 → Fin 1024 → BitVec 32) (b : Fin 32) (p : Fin 1024) : BitVec 1 := span (at2 w) (ix2 b p)

/-! ## The closing average over the batch -/

/-- A splat f32 constant over the 32 samples. -/
def bc (w : BitVec 32) : FVec Ideal S32 .f32 := broadcastInDim S32 ![] (by decide) (constant (F := Ideal) S0 .f32 w)

/-- From the per-sample confidence, area and squared-error sums and the per-sample flag: each sum divided by 2^20, the
    adaptive weight 0.4 · (2 if conf < 0.3) · (1.5 if area < 0.05) · (0.5 if conf > 0.4 and area > 0.1), the weighted
    losses of the flagged samples summed and divided by max(#flagged, 1), or 0 when none is flagged. -/
def tail (confS areaS mseS : FVec Ideal S32 .f32) (valid : IVec S32 1) : FVec Ideal S0 .f32 :=
  let conf : FVec Ideal S32 .f32 := Host.divf confS (bc 0x49800000#32)
  let area : FVec Ideal S32 .f32 := Host.divf areaS (bc 0x49800000#32)
  let base : FVec Ideal S32 .f32 := Host.divf mseS (bc 0x49800000#32)
  let w1 : FVec Ideal S32 .f32 := mulf (bc 0x3ECCCCCD#32) (id (select (cmpf .olt conf (bc 0x3E99999A#32)) (bc 0x40000000#32) (bc 0x3F800000#32)))
  let w2 : FVec Ideal S32 .f32 := mulf w1 (id (select (cmpf .olt area (bc 0x3D4CCCCD#32)) (bc 0x3FC00000#32) (bc 0x3F800000#32)))
  let w3 : FVec Ideal S32 .f32 := mulf w2 (id (select (andi (cmpf .ogt conf (bc 0x3ECCCCCD#32)) (cmpf .ogt area (bc 0x3DCCCCCD#32))) (bc 0x3F000000#32) (bc 0x3F800000#32)))
  let loss : FVec Ideal S32 .f32 := mulf base w3
  let vf : FVec Ideal S32 .f32 := uitofp .f32 valid
  let n : FVec Ideal S0 .f32 := Host.reduceAdd (axes := [0]) vf (constant (F := Ideal) S0 .f32 0x00000000#32) (by decide) (by decide)
  let tot : FVec Ideal S0 .f32 := Host.reduceAdd (axes := [0]) (mulf loss vf) (constant (F := Ideal) S0 .f32 0x00000000#32) (by decide) (by decide)
  select (cmpf .ogt n (constant (F := Ideal) S0 .f32 0x00000000#32))
    (Host.divf tot (maximumf n (constant (F := Ideal) S0 .f32 0x3F800000#32)))
    (id (constant (F := Ideal) S0 .f32 0x00000000#32))

/-! ## The two whole computations -/

/-- Row occupancy words, first spelling: the 0/1 real truncated to a 32-bit integer. -/
def rowWordsK (x : Img) : Fin 32 → Fin 1024 → BitVec 32 := fun b r => Ideal.fptosi 32 (rowsK x (lo x) (hi x) b r)
def colWordsK (x : Img) : Fin 32 → Fin 1024 → BitVec 32 := fun b c => Ideal.fptosi 32 (colsK x (lo x) (hi x) b c)
/-- Row and column span factors, 0/1 reals. -/
def srK (x : Img) : Rows := fun b r => bitE (spanOf (rowWordsK x) b r)
def scK (x : Img) : Rows := fun b c => bitE (spanOf (colWordsK x) b c)
/-- The flag, first spelling: the absolute-difference sum exceeds ½. -/
def validK (x : Img) (b : Fin 32) : BitVec 1 := Ideal.cmp .ogt (xorK x (lo x) (hi x) (srK x) (scK x) b) half
/-- The first spelling of the whole computation. -/
def outK (x : Img) : FVec Ideal S0 .f32 :=
  tail (vec (confSum x)) (vec (areaSum x)) (vec (mseK x (lo x) (hi x) (srK x) (scK x))) (vec (validK x))

/-- Row occupancy words, second spelling: the occupancy bit widened to 32 bits. -/
def rowWordsR (x : Img) : Fin 32 → Fin 1024 → BitVec 32 := fun b r => (bit (rowsP x (lo x) (hi x) b r)).setWidth 32
def colWordsR (x : Img) : Fin 32 → Fin 1024 → BitVec 32 := fun b c => (bit (colsP x (lo x) (hi x) b c)).setWidth 32
def srR (x : Img) (b : Fin 32) (r : Fin 1024) : Prop := spanOf (rowWordsR x) b r = 1#1
def scR (x : Img) (b : Fin 32) (c : Fin 1024) : Prop := spanOf (colWordsR x) b c = 1#1
/-- The filled rectangle, second spelling: row span and column span, and the mask is not empty. -/
def fillR (x : Img) (b : Fin 32) (r c : Fin 1024) : Prop := (srR x b r ∧ scR x b c) ∧ anyP x (lo x) (hi x) b
/-- The second spelling of the whole computation. -/
def outR (x : Img) : FVec Ideal S0 .f32 :=
  tail (vec (confSum x)) (vec (areaSum x)) (vec (mseR x (lo x) (hi x) (fillR x)))
    (vec fun b => bit (validP x (lo x) (hi x) (fillR x) b))

/-! ## Reading a program's arrays by coordinates -/

/-- A [32,1024,1024] array as an image batch. -/
def img (X : (⟨3, ![32, 1024, 1024]⟩ : Shape).Idx → EReal) : Img := fun b r c => X (ix3 b r c)
/-- A [32,1,1024,1024] array as an image batch. -/
def img4 (X : (⟨4, ![32, 1, 1024, 1024]⟩ : Shape).Idx → EReal) : Img := fun b r c => X (ix4 b 0 r c)
/-- Column 0 of a [32,128] array. -/
def col0 (A : (⟨2, ![32, 128]⟩ : Shape).Idx → EReal) : Vec32 := fun b => A (ix2 b 0)
/-- A [32,1024] array by coordinates. -/
def rows2 (A : (⟨2, ![32, 1024]⟩ : Shape).Idx → EReal) : Rows := fun b r => A (ix2 b r)

end Cert.RectFill

end
-- ==== Proof.KernelHost.lean ====
/-
  The host operations around the three passes, read as functions of the buffer contents they start from: the reshape of
  the argument to a batch of images; after the first pass, column 0 of the two sum arrays divided by 2^20; between the
  second and third pass, each occupancy array truncated to 32-bit words and sent through the span computation (running
  sum positive from the near end and from the far end), the span bit converted back to 0/1 reals; after the third pass,
  the closing average over the batch.
-/
import proofs.«163302_j24532853195288_2_alg».proof.Proof.KernelRun
import proofs.«163302_j24532853195288_2_alg».proof.Proof.Spec
import Idealize.ShloMosaic.Lib.StableHlo.Run
import Idealize.ShloMosaic.Lib.Pipeline.Value

set_option maxRecDepth 16384

noncomputable section

namespace Cert.KernelIdeal.Glue

open Idealize.ShloMosaic Idealize.ShloMosaic.TcCoe Idealize.ShloMosaic.StableHlo Idealize.SL.Sem
open Idealize.ShloMosaic.ValueIdx
open Cert.KernelIdeal Cert.KernelIdeal.Gen

/-- Column 0 of a [32,128] array as a vector over the 32 samples: the slice [0:32, 0:1] reshaped. -/
def rs (A : FVec Ideal S32x128 .f32) : FVec Ideal S32 .f32 :=
  shapeCast S32 (extractStridedSlice S32x1 ![0, 0] A Facts₀.slices_S32x128_S32x1_0_0) Facts₀.shapeCasts_S32x1_S32

/-- Entry b of that vector is the array's entry (b, 0). -/
theorem rs_apply (A : FVec Ideal S32x128 .f32) (b : Fin 32) : rs A (ix1 b) = A (ix2 b 0) := by
  unfold rs
  rw [shapeCast_apply _ _ (ix1 b) (ix2 b (0 : Fin 1)) (by
    rw [Shape.rowMajor_val_two, Shape.rowMajor_val_one]
    show b.val * 1 + 0 = b.val
    omega)]
  exact extractStridedSlice_apply _ _ _ _ (ix2 b 0) (fun a => by
    match a with
    | ⟨0, _⟩ => show b.val = 0 + b.val; omega
    | ⟨1, _⟩ => rfl)

/-! ## After the third pass: the closing average -/

attribute [local irreducible] Host.reduceAdd in
theorem after_pass3 (W : Valuation τ sig (Elt Ideal)) (cS aS : FVec Ideal S32 .f32)
    (h5 : W (Proc.devRef .tc main_v5) = Host.divf cS (Cert.RectFill.bc 0x49800000#32))
    (h9 : W (Proc.devRef .tc main_v9) = Host.divf aS (Cert.RectFill.bc 0x49800000#32)) :
    StableHlo.after hostOps3_7 (StableHlo.after hostOps3_6 (StableHlo.after hostOps3_5 (StableHlo.after hostOps3_4
      (StableHlo.after hostOps3_3 (StableHlo.after hostOps3_2 (StableHlo.after hostOps3_1 (StableHlo.after hostOps3 W)))))))
      (Proc.devRef .tc main_v71)
    = Cert.RectFill.tail cS aS (rs (W (Proc.devRef .tc main_v35_0)))
        (cmpf .ogt (rs (W (Proc.devRef .tc main_v35_1))) (Cert.RectFill.bc 0x3F000000#32)) := by
  after_results_simp
  rw [h5, h9]
  rfl

/-! ## Between the second and third pass: the two span computations -/

/-- The eight stretches of host operations between the second and the third pass, folded. -/
abbrev mid (W : Valuation τ sig (Elt Ideal)) : Valuation τ sig (Elt Ideal) :=
  StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
      (StableHlo.after hostOps2 W))))))))

attribute [local irreducible] Host.reduceWindow in
theorem mid_rows (W : Valuation τ sig (Elt Ideal)) (R : FVec Ideal S32x1024 .f32) (hR : W (Proc.devRef .tc main_v10_0) = R) :
    (mid W (Proc.devRef .tc main_v22) : FVec Ideal S32x1024 .f32)
      = uitofp (F := Ideal) .f32 (Cert.RectFill.span (fptosi 32 R)) := by
  subst hR
  unfold mid
  after_results_simp
  rfl

attribute [local irreducible] Host.reduceWindow in
theorem mid_cols (W : Valuation τ sig (Elt Ideal)) (R : FVec Ideal S32x1024 .f32) (hR : W (Proc.devRef .tc main_v10_1) = R) :
    (mid W (Proc.devRef .tc main_v34) : FVec Ideal S32x1024 .f32)
      = uitofp (F := Ideal) .f32 (Cert.RectFill.span (fptosi 32 R)) := by
  subst hR
  unfold mid
  after_results_simp
  rfl

theorem mid_v0 (W : Valuation τ sig (Elt Ideal)) : mid W (Proc.devRef .tc main_v0) = W (Proc.devRef .tc main_v0) := by
  unfold mid; after_results_simp
theorem mid_v1_0 (W : Valuation τ sig (Elt Ideal)) : mid W (Proc.devRef .tc main_v1_0) = W (Proc.devRef .tc main_v1_0) := by
  unfold mid; after_results_simp
theorem mid_v1_1 (W : Valuation τ sig (Elt Ideal)) : mid W (Proc.devRef .tc main_v1_1) = W (Proc.devRef .tc main_v1_1) := by
  unfold mid; after_results_simp
theorem mid_v5 (W : Valuation τ sig (Elt Ideal)) : mid W (Proc.devRef .tc main_v5) = W (Proc.devRef .tc main_v5) := by
  unfold mid; after_results_simp
theorem mid_v9 (W : Valuation τ sig (Elt Ideal)) : mid W (Proc.devRef .tc main_v9) = W (Proc.devRef .tc main_v9) := by
  unfold mid; after_results_simp

/-! ## After the first pass: the two sums' column 0 divided by 2^20 -/

theorem after_pass1_v5 (W : Valuation τ sig (Elt Ideal)) :
    StableHlo.after hostOps1 W (Proc.devRef .tc main_v5)
      = Host.divf (rs (W (Proc.devRef .tc main_v1_2))) (Cert.RectFill.bc 0x49800000#32) := by
  after_results_simp
  rfl
theorem after_pass1_v9 (W : Valuation τ sig (Elt Ideal)) :
    StableHlo.after hostOps1 W (Proc.devRef .tc main_v9)
      = Host.divf (rs (W (Proc.devRef .tc main_v1_3))) (Cert.RectFill.bc 0x49800000#32) := by
  after_results_simp
  rfl
theorem after_pass1_v0 (W : Valuation τ sig (Elt Ideal)) :
    StableHlo.after hostOps1 W (Proc.devRef .tc main_v0) = W (Proc.devRef .tc main_v0) := by after_results_simp
theorem after_pass1_v1_0 (W : Valuation τ sig (Elt Ideal)) :
    StableHlo.after hostOps1 W (Proc.devRef .tc main_v1_0) = W (Proc.devRef .tc main_v1_0) := by after_results_simp
theorem after_pass1_v1_1 (W : Valuation τ sig (Elt Ideal)) :
    StableHlo.after hostOps1 W (Proc.devRef .tc main_v1_1) = W (Proc.devRef .tc main_v1_1) := by after_results_simp

/-! ## Before the first pass: the argument reshaped -/

theorem before_pass1_v0 (W : Valuation τ sig (Elt Ideal)) :
    StableHlo.after hostOps0 W (Proc.devRef .tc main_v0)
      = shapeCast S32x1024x1024 (W (Proc.devRef .tc main_arg0) : FVec Ideal S32x1x1024x1024 .f32)
          Facts₀.shapeCasts_S32x1x1024x1024_S32x1024x1024 := by
  after_results_simp
  rfl

/-- The reshaped argument read at (b, r, k) is the argument at (b, 0, r, k). -/
theorem img_reshape (A : FVec Ideal S32x1x1024x1024 .f32) :
    Cert.RectFill.img (shapeCast S32x1024x1024 A Facts₀.shapeCasts_S32x1x1024x1024_S32x1024x1024) = Cert.RectFill.img4 A := by
  funext b r k
  unfold Cert.RectFill.img Cert.RectFill.img4
  exact shapeCast_apply _ _ (ix3 b r k) (ix4 b 0 r k) (by
    rw [Shape.rowMajor_val_four, Shape.rowMajor_val_three]
    show ((b.val * 1 + 0) * 1024 + r.val) * 1024 + k.val = (b.val * 1024 + r.val) * 1024 + k.val
    omega)

end Cert.KernelIdeal.Glue

end
-- ==== Proof.KernelValue.lean ====
/-
  What the three-pass program computes: its result buffer ends at the first spelling of the rectangle-fill loss
  (`RectFill.outK`) of the argument read as a batch of images — given, per pass, what the pass leaves in its result
  arrays as a function of what it finds in its operand arrays.  The chain: the argument reshaped is the image batch every
  pass reads; pass 1 leaves per-sample minimum, maximum and the two sums in every lane of four [32,128] arrays; the host
  divides column 0 of the sums by 2^20; pass 2, reading column 0 of the minimum and maximum, leaves the row and column
  occupancies; the host turns each into its span factors; pass 3 leaves the squared-error and absolute-difference sums;
  the host closes with the batch average.
-/
import proofs.«163302_j24532853195288_2_alg».proof.Proof.KernelHost

set_option maxRecDepth 16384

noncomputable section

namespace Cert.KernelIdeal.Glue

open Idealize.ShloMosaic Idealize.ShloMosaic.TcCoe Idealize.ShloMosaic.StableHlo Idealize.SL.Sem
open Idealize.ShloMosaic.ValueIdx
open Idealize.ShloMosaic.Pipeline (Dat)
open Cert.KernelIdeal Cert.KernelIdeal.Gen

/-- What each pass leaves in its result arrays, for any contents `V` it is entered from. -/
structure Passes : Prop where
  lo : ∀ (V : (c : Dev nD) → (b : Ref sig .tc) → Buf (Elt Ideal) ((c : Thread nD τ).loc b)) (c : Dev nD) (b : Fin 32) (l : Fin 128),
    (dat0 (F := Ideal) V c).arrAt 1 cfg0.N (ix2 b l) = RectFill.lo (RectFill.img (V c main_v0)) b
  hi : ∀ (V : (c : Dev nD) → (b : Ref sig .tc) → Buf (Elt Ideal) ((c : Thread nD τ).loc b)) (c : Dev nD) (b : Fin 32) (l : Fin 128),
    (dat0 (F := Ideal) V c).arrAt 2 cfg0.N (ix2 b l) = RectFill.hi (RectFill.img (V c main_v0)) b
  conf : ∀ (V : (c : Dev nD) → (b : Ref sig .tc) → Buf (Elt Ideal) ((c : Thread nD τ).loc b)) (c : Dev nD) (b : Fin 32) (l : Fin 128),
    (dat0 (F := Ideal) V c).arrAt 3 cfg0.N (ix2 b l) = RectFill.confSum (RectFill.img (V c main_v0)) b
  area : ∀ (V : (c : Dev nD) → (b : Ref sig .tc) → Buf (Elt Ideal) ((c : Thread nD τ).loc b)) (c : Dev nD) (b : Fin 32) (l : Fin 128),
    (dat0 (F := Ideal) V c).arrAt 4 cfg0.N (ix2 b l) = RectFill.areaSum (RectFill.img (V c main_v0)) b
  rows : ∀ (V : (c : Dev nD) → (b : Ref sig .tc) → Buf (Elt Ideal) ((c : Thread nD τ).loc b)) (c : Dev nD) (b : Fin 32) (r : Fin 1024),
    (dat1 (F := Ideal) V c).arrAt 3 cfg1.N (ix2 b r)
      = RectFill.rowsK (RectFill.img (V c main_v0)) (RectFill.col0 (V c main_v1_0)) (RectFill.col0 (V c main_v1_1)) b r
  cols : ∀ (V : (c : Dev nD) → (b : Ref sig .tc) → Buf (Elt Ideal) ((c : Thread nD τ).loc b)) (c : Dev nD) (b : Fin 32) (k : Fin 1024),
    (dat1 (F := Ideal) V c).arrAt 4 cfg1.N (ix2 b k)
      = RectFill.colsK (RectFill.img (V c main_v0)) (RectFill.col0 (V c main_v1_0)) (RectFill.col0 (V c main_v1_1)) b k
  mse : ∀ (V : (c : Dev nD) → (b : Ref sig .tc) → Buf (Elt Ideal) ((c : Thread nD τ).loc b)) (c : Dev nD) (b : Fin 32) (l : Fin 128),
    (dat2 (F := Ideal) V c).arrAt 5 cfg2.N (ix2 b l)
      = RectFill.mseK (RectFill.img (V c main_v0)) (RectFill.col0 (V c main_v1_0)) (RectFill.col0 (V c main_v1_1))
          (RectFill.rows2 (V c main_v22)) (RectFill.rows2 (V c main_v34)) b
  xor : ∀ (V : (c : Dev nD) → (b : Ref sig .tc) → Buf (Elt Ideal) ((c : Thread nD τ).loc b)) (c : Dev nD) (b : Fin 32) (l : Fin 128),
    (dat2 (F := Ideal) V c).arrAt 6 cfg2.N (ix2 b l)
      = RectFill.xorK (RectFill.img (V c main_v0)) (RectFill.col0 (V c main_v1_0)) (RectFill.col0 (V c main_v1_1))
          (RectFill.rows2 (V c main_v22)) (RectFill.rows2 (V c main_v34)) b

variable (H : Passes)
variable (m : (ℓ : Loc nD τ sig) → Buf (Elt Ideal) ℓ) (ρ : Dev nD → PrngReg) (c : Dev nD)

/-- The argument as a batch of images. -/
abbrev X : RectFill.Img := RectFill.img4 (m ((c : Thread nD τ).loc main_arg0))

/-! ## Pass 1 -/

theorem x1 : RectFill.img (V1 m ρ c main_v0) = X m c := by
  show RectFill.img (StableHlo.after hostOps0 (W0 m ρ c) (Proc.devRef .tc main_v0)) = _
  rw [before_pass1_v0]
  exact img_reshape _

include H in
theorem w2_lo (b : Fin 32) (l : Fin 128) : W2 m ρ c (Proc.devRef .tc main_v1_0) (ix2 b l) = RectFill.lo (X m c) b := by
  rw [show W2 m ρ c (Proc.devRef .tc main_v1_0) = (dat0 (V1 m ρ) c).arrAt 1 cfg0.N from W2_arr m ρ c 1, H.lo, x1]
include H in
theorem w2_hi (b : Fin 32) (l : Fin 128) : W2 m ρ c (Proc.devRef .tc main_v1_1) (ix2 b l) = RectFill.hi (X m c) b := by
  rw [show W2 m ρ c (Proc.devRef .tc main_v1_1) = (dat0 (V1 m ρ) c).arrAt 2 cfg0.N from W2_arr m ρ c 2, H.hi, x1]
include H in
theorem w2_conf (b : Fin 32) (l : Fin 128) : W2 m ρ c (Proc.devRef .tc main_v1_2) (ix2 b l) = RectFill.confSum (X m c) b := by
  rw [show W2 m ρ c (Proc.devRef .tc main_v1_2) = (dat0 (V1 m ρ) c).arrAt 3 cfg0.N from W2_arr m ρ c 3, H.conf, x1]
include H in
theorem w2_area (b : Fin 32) (l : Fin 128) : W2 m ρ c (Proc.devRef .tc main_v1_3) (ix2 b l) = RectFill.areaSum (X m c) b := by
  rw [show W2 m ρ c (Proc.devRef .tc main_v1_3) = (dat0 (V1 m ρ) c).arrAt 4 cfg0.N from W2_arr m ρ c 4, H.area, x1]
theorem w2_v0 : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-! ## The sums divided, and what pass 2 reads -/

include H in
theorem w3_v5 : W3 m ρ c (Proc.devRef .tc main_v5)
    = Host.divf (RectFill.vec (RectFill.confSum (X m c))) (RectFill.bc 0x49800000#32) := by
  show StableHlo.after hostOps1 (W2 m ρ c) _ = _
  rw [after_pass1_v5]
  refine congrArg (fun v => Host.divf v (RectFill.bc 0x49800000#32)) (funext fun j => ?_)
  obtain ⟨b, rfl⟩ : ∃ b : Fin 32, j = ix1 b := ⟨j 0, eq_ix1 j⟩
  rw [rs_apply]
  exact w2_conf H m ρ c b 0
include H in
theorem w3_v9 : W3 m ρ c (Proc.devRef .tc main_v9)
    = Host.divf (RectFill.vec (RectFill.areaSum (X m c))) (RectFill.bc 0x49800000#32) := by
  show StableHlo.after hostOps1 (W2 m ρ c) _ = _
  rw [after_pass1_v9]
  refine congrArg (fun v => Host.divf v (RectFill.bc 0x49800000#32)) (funext fun j => ?_)
  obtain ⟨b, rfl⟩ : ∃ b : Fin 32, j = ix1 b := ⟨j 0, eq_ix1 j⟩
  rw [rs_apply]
  exact w2_area H m ρ c b 0

theorem x3 : RectFill.img (V3 m ρ c main_v0) = X m c := by
  show RectFill.img (StableHlo.after hostOps1 (W2 m ρ c) (Proc.devRef .tc main_v0)) = _
  rw [after_pass1_v0, w2_v0]
  exact x1 m ρ c
include H in
theorem lo3 : RectFill.col0 (V3 m ρ c main_v1_0) = RectFill.lo (X m c) := by
  funext b
  show StableHlo.after hostOps1 (W2 m ρ c) (Proc.devRef .tc main_v1_0) (ix2 b 0) = _
  rw [after_pass1_v1_0]
  exact w2_lo H m ρ c b 0
include H in
theorem hi3 : RectFill.col0 (V3 m ρ c main_v1_1) = RectFill.hi (X m c) := by
  funext b
  show StableHlo.after hostOps1 (W2 m ρ c) (Proc.devRef .tc main_v1_1) (ix2 b 0) = _
  rw [after_pass1_v1_1]
  exact w2_hi H m ρ c b 0

/-! ## Pass 2 -/

include H in
theorem w4_rows (b : Fin 32) (r : Fin 1024) : W4 m ρ c (Proc.devRef .tc main_v10_0) (ix2 b r)
    = RectFill.rowsK (X m c) (RectFill.lo (X m c)) (RectFill.hi (X m c)) b r := by
  rw [show W4 m ρ c (Proc.devRef .tc main_v10_0) = (dat1 (V3 m ρ) c).arrAt 3 cfg1.N from W4_arr m ρ c 3, H.rows, x3, lo3 H, hi3 H]
include H in
theorem w4_cols (b : Fin 32) (k : Fin 1024) : W4 m ρ c (Proc.devRef .tc main_v10_1) (ix2 b k)
    = RectFill.colsK (X m c) (RectFill.lo (X m c)) (RectFill.hi (X m c)) b k := by
  rw [show W4 m ρ c (Proc.devRef .tc main_v10_1) = (dat1 (V3 m ρ) c).arrAt 4 cfg1.N from W4_arr m ρ c 4, H.cols, x3, lo3 H, hi3 H]
theorem w4_v0 : W4 m ρ c (Proc.devRef .tc main_v0) = W3 m ρ c (Proc.devRef .tc main_v0) :=
  (W4_arr m ρ c 0).trans (((dat1 (V3 m ρ) c).arrAt_in 0 rfl _).trans (A_eq1 (V3 m ρ) c 0))
theorem w4_v1_0 : W4 m ρ c (Proc.devRef .tc main_v1_0) = W3 m ρ c (Proc.devRef .tc main_v1_0) :=
  (W4_arr m ρ c 1).trans (((dat1 (V3 m ρ) c).arrAt_in 1 rfl _).trans (A_eq1 (V3 m ρ) c 1))
theorem w4_v1_1 : W4 m ρ c (Proc.devRef .tc main_v1_1) = W3 m ρ c (Proc.devRef .tc main_v1_1) :=
  (W4_arr m ρ c 2).trans (((dat1 (V3 m ρ) c).arrAt_in 2 rfl _).trans (A_eq1 (V3 m ρ) c 2))
theorem w4_v5 : W4 m ρ c (Proc.devRef .tc main_v5) = W3 m ρ c (Proc.devRef .tc main_v5) := W4_of_ne m ρ c main_v5 (by decide)
theorem w4_v9 : W4 m ρ c (Proc.devRef .tc main_v9) = W3 m ρ c (Proc.devRef .tc main_v9) := W4_of_ne m ρ c main_v9 (by decide)

/-! ## The span factors, and what pass 3 reads -/

include H in
theorem sr13 : RectFill.rows2 (V13 m ρ c main_v22) = RectFill.srK (X m c) := by
  funext b r
  show (mid (W4 m ρ c) (Proc.devRef .tc main_v22) : FVec Ideal S32x1024 .f32) (ix2 b r) = _
  obtain ⟨R, hR⟩ : ∃ R : FVec Ideal S32x1024 .f32, W4 m ρ c (Proc.devRef .tc main_v10_0) = R := ⟨_, rfl⟩
  rw [mid_rows (W4 m ρ c) R hR]
  have e : fptosi 32 R = RectFill.at2 (RectFill.rowWordsK (X m c)) := by
    funext j
    obtain ⟨p, q, rfl⟩ : ∃ (p : Fin 32) (q : Fin 1024), j = ix2 p q := ⟨j 0, j 1, eq_ix2 j⟩
    show Ideal.fptosi 32 (R (ix2 p q)) = _
    rw [← hR, w4_rows H]
    rfl
  rw [e]
  rfl
include H in
theorem sc13 : RectFill.rows2 (V13 m ρ c main_v34) = RectFill.scK (X m c) := by
  funext b k
  show (mid (W4 m ρ c) (Proc.devRef .tc main_v34) : FVec Ideal S32x1024 .f32) (ix2 b k) = _
  obtain ⟨R, hR⟩ : ∃ R : FVec Ideal S32x1024 .f32, W4 m ρ c (Proc.devRef .tc main_v10_1) = R := ⟨_, rfl⟩
  rw [mid_cols (W4 m ρ c) R hR]
  have e : fptosi 32 R = RectFill.at2 (RectFill.colWordsK (X m c)) := by
    funext j
    obtain ⟨p, q, rfl⟩ : ∃ (p : Fin 32) (q : Fin 1024), j = ix2 p q := ⟨j 0, j 1, eq_ix2 j⟩
    show Ideal.fptosi 32 (R (ix2 p q)) = _
    rw [← hR, w4_cols H]
    rfl
  rw [e]
  rfl
theorem x13 : RectFill.img (V13 m ρ c main_v0) = X m c := by
  show RectFill.img (mid (W4 m ρ c) (Proc.devRef .tc main_v0)) = _
  rw [mid_v0, w4_v0]
  exact x3 m ρ c
include H in
theorem lo13 : RectFill.col0 (V13 m ρ c main_v1_0) = RectFill.lo (X m c) := by
  show RectFill.col0 (mid (W4 m ρ c) (Proc.devRef .tc main_v1_0)) = _
  rw [mid_v1_0, w4_v1_0]
  exact lo3 H m ρ c
include H in
theorem hi13 : RectFill.col0 (V13 m ρ c main_v1_1) = RectFill.hi (X m c) := by
  show RectFill.col0 (mid (W4 m ρ c) (Proc.devRef .tc main_v1_1)) = _
  rw [mid_v1_1, w4_v1_1]
  exact hi3 H m ρ c

/-! ## Pass 3, and the closing average -/

include H in
theorem w14_mse (b : Fin 32) (l : Fin 128) : W14 m ρ c (Proc.devRef .tc main_v35_0) (ix2 b l)
    = RectFill.mseK (X m c) (RectFill.lo (X m c)) (RectFill.hi (X m c)) (RectFill.srK (X m c)) (RectFill.scK (X m c)) b := by
  rw [show W14 m ρ c (Proc.devRef .tc main_v35_0) = (dat2 (V13 m ρ) c).arrAt 5 cfg2.N from W14_arr m ρ c 5, H.mse, x13, lo13 H, hi13 H,
    sr13 H, sc13 H]
include H in
theorem w14_xor (b : Fin 32) (l : Fin 128) : W14 m ρ c (Proc.devRef .tc main_v35_1) (ix2 b l)
    = RectFill.xorK (X m c) (RectFill.lo (X m c)) (RectFill.hi (X m c)) (RectFill.srK (X m c)) (RectFill.scK (X m c)) b := by
  rw [show W14 m ρ c (Proc.devRef .tc main_v35_1) = (dat2 (V13 m ρ) c).arrAt 6 cfg2.N from W14_arr m ρ c 6, H.xor, x13, lo13 H, hi13 H,
    sr13 H, sc13 H]
include H in
theorem w14_v5 : W14 m ρ c (Proc.devRef .tc main_v5)
    = Host.divf (RectFill.vec (RectFill.confSum (X m c))) (RectFill.bc 0x49800000#32) := by
  rw [W14_of_ne m ρ c main_v5 (by decide)]
  show mid (W4 m ρ c) (Proc.devRef .tc main_v5) = _
  rw [mid_v5, w4_v5]
  exact w3_v5 H m ρ c
include H in
theorem w14_v9 : W14 m ρ c (Proc.devRef .tc main_v9)
    = Host.divf (RectFill.vec (RectFill.areaSum (X m c))) (RectFill.bc 0x49800000#32) := by
  rw [W14_of_ne m ρ c main_v9 (by decide)]
  show mid (W4 m ρ c) (Proc.devRef .tc main_v9) = _
  rw [mid_v9, w4_v9]
  exact w3_v9 H m ρ c

include H in
/-- The result buffer's last contents: the first spelling of the loss, of the argument as a batch of images. -/
theorem last_value : W22 m ρ c (Proc.devRef .tc main_v71) = RectFill.outK (X m c) := by
  show StableHlo.after hostOps3_7 (StableHlo.after hostOps3_6 (StableHlo.after hostOps3_5 (StableHlo.after hostOps3_4
      (StableHlo.after hostOps3_3 (StableHlo.after hostOps3_2 (StableHlo.after hostOps3_1 (StableHlo.after hostOps3 (W14 m ρ c))))))))
      (Proc.devRef .tc main_v71) = _
  rw [after_pass3 (W14 m ρ c) _ _ (w14_v5 H m ρ c) (w14_v9 H m ρ c)]
  unfold RectFill.outK
  have e1 : rs (W14 m ρ c (Proc.devRef .tc main_v35_0))
      = RectFill.vec (RectFill.mseK (X m c) (RectFill.lo (X m c)) (RectFill.hi (X m c)) (RectFill.srK (X m c)) (RectFill.scK (X m c))) := by
    funext j
    obtain ⟨b, rfl⟩ : ∃ b : Fin 32, j = ix1 b := ⟨j 0, eq_ix1 j⟩
    rw [rs_apply]
    exact w14_mse H m ρ c b 0
  have e2 : cmpf .ogt (rs (W14 m ρ c (Proc.devRef .tc main_v35_1))) (RectFill.bc 0x3F000000#32) = RectFill.vec (RectFill.validK (X m c)) := by
    funext j
    obtain ⟨b, rfl⟩ : ∃ b : Fin 32, j = ix1 b := ⟨j 0, eq_ix1 j⟩
    rw [cmpf_apply, rs_apply, w14_xor H m ρ c b 0]
    rfl
  rw [e1, e2]

end Cert.KernelIdeal.Glue

end
-- ==== Proof.LibMinReduce.lean ====
/-
  Minima taken from +∞ along one axis, on the extended reals: they are infima.

  A float minimum-reduction starts from the word `0x7F800000`, which denotes +∞, and folds `min` over the entries
  that reduce to a result index. On the extended reals `x ≤ min a b` exactly when `x ≤ a` and `x ≤ b`, and +∞ bounds
  nothing, so the lower bounds of such a fold are the common lower bounds of the entries: the fold is their infimum,
  whatever order or grouping it was taken in. Stated for

    * a fold of `min` from +∞ over `Fin N`                                   (`le_fold_min_top`);
    * a kernel's `vector.multi_reduction <minimumf>` over one axis            (`multiReduction_minimumf_single`);
    * a host `stablehlo.reduce` with a `minimum` body over one axis from +∞  (`hostReduce_minimumf_single`);

  the last two at any rank, axis and extents, as the infimum over the dropped axis's coordinates `k` of the source at
  the result index with `k` inserted on that axis. (The library states the maximum's fold; this is the minimum's,
  already closed into an infimum.) Two quantities with the same lower bounds are equal (`eq_iInf_of_le_iff`), which is
  how a minimum accumulated piecewise — tile by tile, or carried across steps — is compared with one taken at once.
-/
import Idealize.ShloMosaic.PureOps.Ideal
import Idealize.ShloMosaic.PureOps.Ideal.Laws
import Idealize.ShloMosaic.PureOps.Reduce

noncomputable section

namespace Cert.LibMinReduce

open Idealize.ShloMosaic

/-- The f32 word `0x7F800000` denotes +∞. -/
theorem ofBits_top : Ideal.ofBits .f32 0x7F800000#32 = (⊤ : EReal) := by
  simp [Ideal.ofBits, Ideal.ieee]

/-- Below a minimum taken from +∞ over a finite family: below every member. -/
theorem le_fold_min_top {N : Nat} (f : Fin N → EReal) (x : EReal) :
    x ≤ (Finset.univ : Finset (Fin N)).fold min (Ideal.ofBits .f32 0x7F800000#32) f ↔ ∀ k, x ≤ f k := by
  rw [ofBits_top, Finset.le_fold_min]
  exact ⟨fun h k => h.2 k (Finset.mem_univ k), fun h => ⟨le_top, fun k _ => h k⟩⟩

/-- A quantity whose lower bounds are exactly the common lower bounds of a family is the family's infimum. -/
theorem eq_iInf_of_le_iff {ι : Type} (v : EReal) (f : ι → EReal) (h : ∀ x, x ≤ v ↔ ∀ k, x ≤ f k) : v = ⨅ k, f k :=
  eq_of_forall_le_iff fun x => by rw [h, le_iInf_iff]

/-- A kernel's float minimum-reduction over ONE axis, from +∞, read at a result index `j`: the infimum over that axis's
    coordinates of the source at `j` with the coordinate inserted. The accumulator's side condition is taken in the
    form a printed program carries it. -/
theorem multiReduction_minimumf_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  refine (multiReduction_minimumf_eq_fold src _ h hφ hacc j).trans ?_
  refine (h.fold_filter_drop_single _ _ src j).trans ?_
  exact eq_iInf_of_le_iff _ _ fun x => le_fold_min_top (N := s.size a) (src ∘ h.lift j) x

/-- A host reduction with a minimum body over ONE axis whose initial value is +∞, read at a result index `j`: the same
    infimum. -/
theorem hostReduce_minimumf_single {s t u : Shape} {a : Fin s.rank} (x : s.Idx → EReal) (init : u.Idx → EReal)
    (h' : s.ReducesTo [a] t) (h : s.Reduces [a] t) (hu : 0 < u.numel)
    (hinit : init (Shape.Idx.first hu) = Ideal.ofBits .f32 0x7F800000#32) (j : t.Idx) :
    Host.reduce (FloatOps.minimumf (F := Ideal) (φ := .f32)) x init h' hu j = ⨅ k : Fin (s.size a), x (h.lift j k) := by
  refine (Host.reduce_eq_fold_single (FloatOps.minimumf (F := Ideal) (φ := .f32)) x init h' h hu j).trans ?_
  rw [hinit]
  exact eq_iInf_of_le_iff _ _ fun y => le_fold_min_top (N := s.size a) (x ∘ h.lift j) y

end Cert.LibMinReduce

end
-- ==== Proof.LibMaxReduce.lean ====
import Idealize.ShloMosaic.PureOps.Ideal.Laws

/-!
# A maximum over one axis as a supremum

A fold of `max` over a finite set, started from `b`, is the larger of `b` and the supremum of the set; so a
`maximumf` reduction over one axis of a vector of extended reals, read at an index, is the larger of the
accumulator's value and the supremum over that axis's coordinates, and the supremum alone when the accumulator is `-∞`.
-/

noncomputable section

namespace Cert.Lib

open Idealize.ShloMosaic

/-- A fold of `max` from `b` over a finite set is `max b` of the supremum of the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih, max_left_comm]

/-- A `maximumf` reduction over ONE axis of a vector of extended reals, read at an index `j` of the result: the larger
    of the accumulator's value and the supremum, over the reduced axis's coordinates `k`, of the source at `j` with
    `k` inserted (`Shape.Reduces.lift`). -/
theorem multiReduction_maximumf_single_sup {s t : Shape} {a : Fin s.rank} {φ : FTy} (src : FVec Ideal s φ)
    (acc : BitVec φ.bits) (h : s.Reduces [a] t) (hφ : FKind.Formats φ) (hacc : acc = FKind.maximumf.neutral φ hφ)
    (j : t.Idx) :
    multiReduction .maximumf [a] t src acc h hφ hacc j
      = max (Ideal.ofBits φ acc) (Finset.univ.sup fun k : Fin (s.size a) => src (h.lift j k)) :=
  (Ideal.multiReduction_maximumf_single src acc h hφ hacc j).trans (fold_max_eq_max_sup _ _ _)

/-- The same when the accumulator's value is `-∞` (`hb`): the supremum alone. -/
theorem multiReduction_maximumf_single_sup_of_bot {s t : Shape} {a : Fin s.rank} {φ : FTy} (src : FVec Ideal s φ)
    (acc : BitVec φ.bits) (h : s.Reduces [a] t) (hφ : FKind.Formats φ) (hacc : acc = FKind.maximumf.neutral φ hφ)
    (hb : Ideal.ofBits φ acc = ⊥) (j : t.Idx) :
    multiReduction .maximumf [a] t src acc h hφ hacc j
      = Finset.univ.sup fun k : Fin (s.size a) => src (h.lift j k) := by
  rw [multiReduction_maximumf_single_sup, hb]
  exact max_eq_right bot_le

end Cert.Lib

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.Region0Min.lean ====
/-
  The first pass's running minimum and maximum, read as values.

  The pass walks a 4 × 4 grid: point t handles batch group t / 4 (8 samples) and row tile t % 4 (256 of the 1024
  rows). On the first tile of a group it sets the running minimum of each of the 8 samples to +∞ (the running
  maximum to −∞); on every tile it replaces the running value by the smaller (larger) of itself and the tile's
  minimum (maximum), taken first over the 1024 columns and then over the 256 rows, and it keeps the same value in all
  128 lanes of the sample's row; after the last tile of the group the 8 rows are written to the result.

  Over the extended reals a minimum taken from +∞ is an infimum, and an infimum is determined by its lower bounds. So
  the running minimum after point n is described by its lower bounds: they are the common lower bounds of the tiles
  of the run of points from 4·(n/4) to n (an induction on n: a reset forgets everything, a step adds one tile). At the
  last point of a group the run is the group's four tiles, whose rows 256·j + q (j < 4, q < 256) are exactly the
  sample's 1024 rows, so the value written is the sample's least entry. The maximum is the mirror image, by upper
  bounds. No finiteness of the entries is used anywhere.

  The statements hold for any contents of the buffers when the pass is entered.
-/
import proofs.«163302_j24532853195288_2_alg».proof.Proof.LibMinReduce
import proofs.«163302_j24532853195288_2_alg».proof.Proof.LibMaxReduce
import proofs.«163302_j24532853195288_2_alg».proof.Proof.LibColumnBroadcast
import proofs.«163302_j24532853195288_2_alg».proof.Proof.LibUnitAxisCasts
import proofs.«163302_j24532853195288_2_alg».proof.Proof.Gen.KernelIdeal.Frame
import proofs.«163302_j24532853195288_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region0Min

open Cert.KernelIdeal Cert.KernelIdeal.Gen Cert.RectFill

section Pieces
variable {F : FTy → Type} [FloatOps F]

/-- The zero offsets of a rank-2 block, as a constant function. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

/-- On a tile that is not the first of its group, the running minimum's buffer is left at the accumulate step of
    the tile and of what the buffer held. -/
theorem out_B_1 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x0 : Vec F S8x256x1024 .f32) (xo1 xo2 xo3 xo4 : Vec F S8x128 .f32) :
    out0_B_1 c i a2 h2 a3 h3 a4 h4 a5 h5 a6 h6 hc x0 xo1 xo2 xo3 xo4 = k0_pay13 x0 xo1 := by
  unfold out0_B_1
  rw [View.read_writes_eq_canon _ _ _ (cover0_B_1 c i a2 h2 a3 h3 a4 h4 a5 h5 a6 h6 hc x0 xo1 xo2 xo3 xo4)]
  unfold kernelRun0_B
  dsimp only
  rw [View.canon_unit_zero hz2]
  simp only [View.readAt_eq_ld, h2.read_unread, h3.read_unread, View.ld_unit_zero (S := S8x128) hz2,
    View.ld_unit_zero (S := S8x256x1024) hz3]

/-- Likewise the running maximum's buffer. -/
theorem out_B_2 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x0 : Vec F S8x256x1024 .f32) (xo1 xo2 xo3 xo4 : Vec F S8x128 .f32) :
    out0_B_2 c i a2 h2 a3 h3 a4 h4 a5 h5 a6 h6 hc x0 xo1 xo2 xo3 xo4 = k0_pay1 (k0_pay6 x0) xo2 := by
  unfold out0_B_2
  rw [View.read_writes_eq_canon _ _ _ (cover0_B_2 c i a2 h2 a3 h3 a4 h4 a5 h5 a6 h6 hc x0 xo1 xo2 xo3 xo4)]
  unfold kernelRun0_B
  dsimp only
  sl_unfold_words
  rw [View.canon_unit_zero hz2]
  simp only [View.readAt_eq_ld, h2.read_unread, h4.read_unread, View.ld_unit_zero (S := S8x128) hz2,
    View.ld_unit_zero (S := S8x256x1024) hz3]

/-- On the first tile of a group the buffer is first set to +∞ and read back: the accumulate step over +∞. -/
theorem out_A_1 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x0 : Vec F S8x256x1024 .f32) :
    out0_A_1 c i a2 h2 a3 h3 a4 h4 a5 h5 a6 h6 hc x0 = k0_pay13 x0 k0_pay9 := by
  unfold out0_A_1
  rw [View.read_writes_eq_canon _ _ _ (cover0_A_1 c i a2 h2 a3 h3 a4 h4 a5 h5 a6 h6 hc x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x256x1024) hz3]

/-- Likewise the running maximum, over −∞. -/
theorem out_A_2 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x0 : Vec F S8x256x1024 .f32) :
    out0_A_2 c i a2 h2 a3 h3 a4 h4 a5 h5 a6 h6 hc x0 = k0_pay1 (k0_pay6 x0) k0_pay10 := by
  unfold out0_A_2
  rw [View.read_writes_eq_canon _ _ _ (cover0_A_2 c i a2 h2 a3 h3 a4 h4 a5 h5 a6 h6 hc x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x256x1024) hz3]
end Pieces

section Payloads

/-- The word 0x7F800000 denotes +∞, -/
theorem ofBits_top : Ideal.ofBits .f32 0x7F800000#32 = (⊤ : EReal) := by simp [Ideal.ofBits, Ideal.ieee]
/-- and 0xFF800000 denotes −∞. -/
theorem ofBits_bot : Ideal.ofBits .f32 0xFF800000#32 = (⊥ : EReal) := by simp [Ideal.ofBits, Ideal.ieee]

/-- The minimum over the columns and then over the rows of an [8,256,1024] tile, read at sample `s`: the infimum over both. -/
theorem min_two_stage (x : FVec Ideal S8x256x1024 .f32) (h1 : S8x256x1024.Reduces [2] S8x256) (h2 : S8x256.Reduces [1] S8)
    (hφ1 : FKind.Formats .f32) (hacc1 : (0x7F800000#32 : BitVec 32) = FKind.minimumf.neutral .f32 hφ1)
    (hφ2 : FKind.Formats .f32) (hacc2 : (0x7F800000#32 : BitVec 32) = FKind.minimumf.neutral .f32 hφ2) (s : Fin 8) :
    multiReduction .minimumf [1] S8 (multiReduction .minimumf [2] S8x256 x 0x7F800000#32 h1 hφ1 hacc1) 0x7F800000#32 h2 hφ2 hacc2 (ix1 s)
      = ⨅ q : Fin 256, ⨅ c : Fin 1024, x (ix3 s q c) := by
  refine (Cert.LibMinReduce.multiReduction_minimumf_single _ h2 hφ2 hacc2 (ix1 s)).trans ?_
  refine iInf_congr fun q => ?_
  have e : h2.lift (ix1 s) q = ix2 s q := by
    funext a; match a with | ⟨0, _⟩ => rfl | ⟨1, _⟩ => rfl
  rw [e]
  refine (Cert.LibMinReduce.multiReduction_minimumf_single x h1 hφ1 hacc1 (ix2 s q)).trans ?_
  refine iInf_congr fun c => ?_
  exact congrArg x (by funext a; match a with | ⟨0, _⟩ => rfl | ⟨1, _⟩ => rfl | ⟨2, _⟩ => rfl)

/-- The maximum likewise: the supremum over both. -/
theorem max_two_stage (x : FVec Ideal S8x256x1024 .f32) (h1 : S8x256x1024.Reduces [2] S8x256) (h2 : S8x256.Reduces [1] S8)
    (hφ1 : FKind.Formats .f32) (hacc1 : (0xFF800000#32 : BitVec 32) = FKind.maximumf.neutral .f32 hφ1)
    (hφ2 : FKind.Formats .f32) (hacc2 : (0xFF800000#32 : BitVec 32) = FKind.maximumf.neutral .f32 hφ2) (s : Fin 8) :
    multiReduction .maximumf [1] S8 (multiReduction .maximumf [2] S8x256 x 0xFF800000#32 h1 hφ1 hacc1) 0xFF800000#32 h2 hφ2 hacc2 (ix1 s)
      = ⨆ q : Fin 256, ⨆ c : Fin 1024, x (ix3 s q c) := by
  refine (Cert.Lib.multiReduction_maximumf_single_sup_of_bot _ _ h2 hφ2 hacc2 ofBits_bot (ix1 s)).trans ?_
  refine (Finset.sup_univ_eq_iSup _).trans ?_
  refine iSup_congr fun q => ?_
  have e : h2.lift (ix1 s) q = ix2 s q := by
    funext a; match a with | ⟨0, _⟩ => rfl | ⟨1, _⟩ => rfl
  rw [e]
  refine (Cert.Lib.multiReduction_maximumf_single_sup_of_bot x _ h1 hφ1 hacc1 ofBits_bot (ix2 s q)).trans ?_
  refine (Finset.sup_univ_eq_iSup _).trans ?_
  refine iSup_congr fun c => ?_
  exact congrArg x (by funext a; match a with | ⟨0, _⟩ => rfl | ⟨1, _⟩ => rfl | ⟨2, _⟩ => rfl)

/-- A vector of 8 made a column and spread over 128 lanes reads, at (s, l), the vector at s. -/
theorem col_apply (v : FVec Ideal S8 .f32) (hc1 : S8.ShapeCasts S8x1) (hc2 : S8x1.ShapeCasts S8x1)
    (hb : S8x1.Broadcasts S8x128) (s : Fin 8) (l : Fin 128) :
    broadcastTo S8x128 (shapeCast S8x1 (shapeCast S8x1 v hc1) hc2) hb (ix2 s l) = v (ix1 s) := by
  refine (Cert.LibColumnBroadcast.broadcastTo_a1_ab_apply _ hb s l).trans ?_
  rw [shapeCast_self]
  exact Cert.LibUnitAxisCasts.shapeCast_a_a1_apply v hc1 s

/-- The accumulate step of the running minimum at (s, l): the smaller of what was there and the tile's infimum. -/
theorem pay13_apply (x0 : Vec Ideal S8x256x1024 .f32) (xo : Vec Ideal S8x128 .f32) (s : Fin 8) (l : Fin 128) :
    k0_pay13 (F := Ideal) x0 xo (ix2 s l) = min (xo (ix2 s l)) (⨅ q : Fin 256, ⨅ c : Fin 1024, x0 (ix3 s q c)) := by
  unfold k0_pay13 k0_pay4
  refine (minimumf_apply _ _ (ix2 s l)).trans ?_
  refine congrArg₂ min ?_ ?_
  · rw [shapeCast_self]
  · refine (col_apply _ _ _ _ s l).trans ?_
    refine (min_two_stage _ _ _ _ _ _ _ s).trans ?_
    rw [shapeCast_self]

/-- The accumulate step of the running maximum at (s, l). -/
theorem pay1_apply (x0 : Vec Ideal S8x256x1024 .f32) (xo : Vec Ideal S8x128 .f32) (s : Fin 8) (l : Fin 128) :
    k0_pay1 (F := Ideal) (k0_pay6 x0) xo (ix2 s l) = max (xo (ix2 s l)) (⨆ q : Fin 256, ⨆ c : Fin 1024, x0 (ix3 s q c)) := by
  unfold k0_pay1 k0_pay6 k0_pay4
  refine (maximumf_apply _ _ (ix2 s l)).trans ?_
  refine congrArg₂ max ?_ ?_
  · rw [shapeCast_self]
  · refine (col_apply _ _ _ _ s l).trans ?_
    refine (max_two_stage _ _ _ _ _ _ _ s).trans ?_
    rw [shapeCast_self]

/-- The reset value of the running minimum is +∞ everywhere, -/
theorem pay9_apply (s : Fin 8) (l : Fin 128) : k0_pay9 (F := Ideal) (ix2 s l) = (⊤ : EReal) := ofBits_top
/-- and that of the running maximum is −∞. -/
theorem pay10_apply (s : Fin 8) (l : Fin 128) : k0_pay10 (F := Ideal) (ix2 s l) = (⊥ : EReal) := ofBits_bot

end Payloads

section Runs

/-- A quantity that resets to `min ⊤ (T n)` at the multiples of 4 and steps by `min · (T n)` elsewhere has, at point `n`,
    exactly the common lower bounds of `T` over the run of points from `4·(n/4)` to `n`. -/
theorem le_run_min {N : ℕ} (f T : (n : ℕ) → n < N → EReal)
    (h0 : ∀ n (hn : n < N), n % 4 = 0 → f n hn = min ⊤ (T n hn))
    (hs : ∀ n (hn : n + 1 < N), ¬(n + 1) % 4 = 0 → f (n + 1) hn = min (f n (Nat.lt_of_succ_lt hn)) (T (n + 1) hn)) :
    ∀ n (hn : n < N) (y : EReal), y ≤ f n hn ↔ ∀ m (hm : m < N), 4 * (n / 4) ≤ m → m ≤ n → y ≤ T m hm
  | 0, hn, y => by
    rw [h0 0 hn rfl, min_top_left]
    constructor
    · intro h m hm _ h2
      obtain rfl : m = 0 := by omega
      exact h
    · intro h; exact h 0 hn (by omega) le_rfl
  | n + 1, hn, y => by
    by_cases hc : (n + 1) % 4 = 0
    · rw [h0 (n + 1) hn hc, min_top_left]
      constructor
      · intro h m hm h1 h2
        obtain rfl : m = n + 1 := by omega
        exact h
      · intro h; exact h (n + 1) hn (by omega) le_rfl
    · rw [hs n hn hc, le_min_iff, le_run_min f T h0 hs n (Nat.lt_of_succ_lt hn) y]
      constructor
      · rintro ⟨ha, hb⟩ m hm h1 h2
        rcases Nat.lt_or_ge m (n + 1) with h | h
        · exact ha m hm (by omega) (by omega)
        · obtain rfl : m = n + 1 := by omega
          exact hb
      · intro h
        exact ⟨fun m hm h1 h2 => h m hm (by omega) (by omega), h (n + 1) hn (by omega) le_rfl⟩

/-- The same for a running maximum from ⊥: its upper bounds. -/
theorem run_max_le {N : ℕ} (f T : (n : ℕ) → n < N → EReal)
    (h0 : ∀ n (hn : n < N), n % 4 = 0 → f n hn = max ⊥ (T n hn))
    (hs : ∀ n (hn : n + 1 < N), ¬(n + 1) % 4 = 0 → f (n + 1) hn = max (f n (Nat.lt_of_succ_lt hn)) (T (n + 1) hn)) :
    ∀ n (hn : n < N) (y : EReal), f n hn ≤ y ↔ ∀ m (hm : m < N), 4 * (n / 4) ≤ m → m ≤ n → T m hm ≤ y
  | 0, hn, y => by
    rw [h0 0 hn rfl, max_bot_left]
    constructor
    · intro h m hm _ h2
      obtain rfl : m = 0 := by omega
      exact h
    · intro h; exact h 0 hn (by omega) le_rfl
  | n + 1, hn, y => by
    by_cases hc : (n + 1) % 4 = 0
    · rw [h0 (n + 1) hn hc, max_bot_left]
      constructor
      · intro h m hm h1 h2
        obtain rfl : m = n + 1 := by omega
        exact h
      · intro h; exact h (n + 1) hn (by omega) le_rfl
    · rw [hs n hn hc, max_le_iff, run_max_le f T h0 hs n (Nat.lt_of_succ_lt hn) y]
      constructor
      · rintro ⟨ha, hb⟩ m hm h1 h2
        rcases Nat.lt_or_ge m (n + 1) with h | h
        · exact ha m hm (by omega) (by omega)
        · obtain rfl : m = n + 1 := by omega
          exact hb
      · intro h
        exact ⟨fun m hm h1 h2 => h m hm (by omega) (by omega), h (n + 1) hn (by omega) le_rfl⟩

end Runs

section Region

variable (V : (c : Dev nD) → (b : Ref sig .tc) → Buf (Elt Ideal) ((c : Thread nD τ).loc b)) (c : Dev nD)

/-- The reset point's running minimum: the accumulate step over +∞. -/
theorem min_A (t : Fin cfg0.N) (h0 : t.val % 4 = 0) :
    (outsAt0 (F := Ideal) V c t.val t.isLt).1 = k0_pay13 (iblk0 V c 0 t) (k0_pay9 (F := Ideal)) :=
  (congrArg Prod.fst (outsAt0_A V c t h0)).trans
    (out_A_1 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t))

/-- A later point's running minimum: the accumulate step over what the point before left. -/
theorem min_B (t : Fin cfg0.N) (h0 : ¬t.val % 4 = 0) :
    (outsAt0 (F := Ideal) V c t.val t.isLt).1 = k0_pay13 (iblk0 V c 0 t) (outsAt0 V c (t.val - 1) (Nat.lt_of_le_of_lt (Nat.sub_le _ _) t.isLt)).1 :=
  (congrArg Prod.fst (outsAt0_B V c t h0)).trans
    (out_B_1 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)

/-- The same two facts for the running maximum. -/
theorem max_A (t : Fin cfg0.N) (h0 : t.val % 4 = 0) :
    (outsAt0 (F := Ideal) V c t.val t.isLt).2.1 = k0_pay1 (k0_pay6 (iblk0 V c 0 t)) (k0_pay10 (F := Ideal)) :=
  (congrArg (fun p => p.2.1) (outsAt0_A V c t h0)).trans
    (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t))

theorem max_B (t : Fin cfg0.N) (h0 : ¬t.val % 4 = 0) :
    (outsAt0 (F := Ideal) V c t.val t.isLt).2.1 = k0_pay1 (k0_pay6 (iblk0 V c 0 t)) (outsAt0 V c (t.val - 1) (Nat.lt_of_le_of_lt (Nat.sub_le _ _) t.isLt)).2.1 :=
  (congrArg (fun p => p.2.1) (outsAt0_B V c t h0)).trans
    (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)

/-- The operand's block at point `m`, as a tile of 8 samples × 256 rows × 1024 columns. -/
def tile (m : ℕ) (hm : m < cfg0.N) : Vec Ideal S8x256x1024 .f32 := iblk0 V c 0 ⟨m, hm⟩

/-- The infimum of sample `s` of the tile at point `m`. -/
def tInf (m : ℕ) (hm : m < cfg0.N) (s : Fin 8) : EReal := ⨅ q : Fin 256, ⨅ k : Fin 1024, tile V c m hm (ix3 s q k)
/-- Its supremum. -/
def tSup (m : ℕ) (hm : m < cfg0.N) (s : Fin 8) : EReal := ⨆ q : Fin 256, ⨆ k : Fin 1024, tile V c m hm (ix3 s q k)

/-- What the running minimum holds after point `n`, by its lower bounds: those of the tiles of the run of points
    from `4·(n/4)` to `n`. -/
theorem le_min_at (s : Fin 8) (l : Fin 128) (n : ℕ) (hn : n < cfg0.N) (y : EReal) :
    y ≤ (outsAt0 (F := Ideal) V c n hn).1 (ix2 s l)
      ↔ ∀ m (hm : m < cfg0.N), 4 * (n / 4) ≤ m → m ≤ n → y ≤ tInf V c m hm s :=
  le_run_min (fun n hn => (outsAt0 (F := Ideal) V c n hn).1 (ix2 s l)) (fun m hm => tInf V c m hm s)
    (fun n hn h0 => by
      show (outsAt0 (F := Ideal) V c n hn).1 (ix2 s l) = min ⊤ (tInf V c n hn s)
      rw [min_A V c ⟨n, hn⟩ h0, pay13_apply, pay9_apply]; rfl)
    (fun n hn hc => by
      show (outsAt0 (F := Ideal) V c (n + 1) hn).1 (ix2 s l) = min ((outsAt0 (F := Ideal) V c n _).1 (ix2 s l)) (tInf V c (n + 1) hn s)
      rw [min_B V c ⟨n + 1, hn⟩ hc, pay13_apply]; rfl)
    n hn y

/-- What the running maximum holds after point `n`, by its upper bounds. -/
theorem max_at_le (s : Fin 8) (l : Fin 128) (n : ℕ) (hn : n < cfg0.N) (y : EReal) :
    (outsAt0 (F := Ideal) V c n hn).2.1 (ix2 s l) ≤ y
      ↔ ∀ m (hm : m < cfg0.N), 4 * (n / 4) ≤ m → m ≤ n → tSup V c m hm s ≤ y :=
  run_max_le (fun n hn => (outsAt0 (F := Ideal) V c n hn).2.1 (ix2 s l)) (fun m hm => tSup V c m hm s)
    (fun n hn h0 => by
      show (outsAt0 (F := Ideal) V c n hn).2.1 (ix2 s l) = max ⊥ (tSup V c n hn s)
      rw [max_A V c ⟨n, hn⟩ h0, pay1_apply, pay10_apply]; rfl)
    (fun n hn hc => by
      show (outsAt0 (F := Ideal) V c (n + 1) hn).2.1 (ix2 s l) = max ((outsAt0 (F := Ideal) V c n _).2.1 (ix2 s l)) (tSup V c (n + 1) hn s)
      rw [max_B V c ⟨n + 1, hn⟩ hc, pay1_apply]; rfl)
    n hn y

end Region

section Final

variable (V : (c : Dev nD) → (b : Ref sig .tc) → Buf (Elt Ideal) ((c : Thread nD τ).loc b)) (c : Dev nD)

/-- Point `t` of the 4 × 4 grid is (batch group `t / 4`, row tile `t % 4`); the operand's block index there is
    (t / 4, t % 4, 0) and each result's is (t / 4, 0): decided over the grid. -/
theorem idx_x : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_lo : ∀ t : Fin cfg0.N, win0_1.index t 0 = t.val / 4 ∧ win0_1.index t 1 = 0 :=
  (by decide +kernel : ∀ t : Fin grid0.N, win0_1.index t 0 = t.val / 4 ∧ win0_1.index t 1 = 0)
theorem idx_hi : ∀ t : Fin cfg0.N, win0_2.index t 0 = t.val / 4 ∧ win0_2.index t 1 = 0 :=
  (by decide +kernel : ∀ t : Fin grid0.N, win0_2.index t 0 = t.val / 4 ∧ win0_2.index t 1 = 0)

/-- The tile at point `m`, at (s, q, k), is the image's entry at sample 8·(m/4) + s, row 256·(m%4) + q, column k. -/
theorem tile_apply (m : ℕ) (hm : m < cfg0.N) (s : Fin 8) (q : Fin 256) (k : Fin 1024) (b : Fin 32) (r : Fin 1024)
    (hb : b.val = 8 * (m / 4) + s.val) (hr : r.val = 256 * (m % 4) + q.val) :
    tile V c m hm (ix3 s q k) = img (V c main_v0) b r k := by
  unfold tile iblk0 img
  rw [View.read_apply]
  show V c main_v0 _ = V c main_v0 _
  congr 1
  funext a
  apply Fin.ext
  have hi := idx_x ⟨m, hm⟩
  match a with
  | ⟨0, _⟩ => show win0_0.index ⟨m, hm⟩ 0 * 8 + 1 * s.val = b.val; rw [hi.1, hb]; show m / 4 * 8 + 1 * s.val = _; omega
  | ⟨1, _⟩ => show win0_0.index ⟨m, hm⟩ 1 * 256 + 1 * q.val = r.val; rw [hi.2.1, hr]; show m % 4 * 256 + 1 * q.val = _; omega
  | ⟨2, _⟩ => show win0_0.index ⟨m, hm⟩ 2 * 1024 + 1 * k.val = k.val; rw [hi.2.2]; omega

/-- At the last point of a batch group's run the running minimum of sample `s` is the sample's least entry: the four
    tiles' rows are the sample's 1024 rows. -/
theorem min_flush_val (t : Fin cfg0.N) (h3 : t.val % 4 = 3) (s : Fin 8) (l : Fin 128) (b : Fin 32)
    (hb : b.val = 8 * (t.val / 4) + s.val) :
    (outsAt0 (F := Ideal) V c t.val t.isLt).1 (ix2 s l) = lo (img (V c main_v0)) b := by
  have hN : cfg0.N = 16 := N_0
  have htN : t.val < 16 := lt_of_lt_of_eq t.isLt hN
  refine eq_of_forall_le_iff fun y => ?_
  rw [le_min_at V c s l t.val t.isLt y]
  unfold lo
  rw [le_iInf_iff]
  constructor
  · intro h r
    rw [le_iInf_iff]
    intro k
    have hr : r.val < 1024 := r.isLt
    have hm : 4 * (t.val / 4) + r.val / 256 < cfg0.N := lt_of_lt_of_eq (by omega : 4 * (t.val / 4) + r.val / 256 < 16) hN.symm
    have h1 := h _ hm (by omega) (by omega)
    unfold tInf at h1
    have h2 := (le_iInf_iff.mp ((le_iInf_iff.mp h1) ⟨r.val % 256, by omega⟩)) k
    rw [tile_apply V c _ hm s ⟨r.val % 256, by omega⟩ k b r (by rw [hb]; omega) (by show r.val = 256 * ((4 * (t.val / 4) + r.val / 256) % 4) + r.val % 256; omega)] at h2
    exact h2
  · intro h m hm h1 h2
    unfold tInf
    refine le_iInf fun q => le_iInf fun k => ?_
    have hq : q.val < 256 := q.isLt
    rw [tile_apply V c m hm s q k b ⟨256 * (m % 4) + q.val, by omega⟩ (by rw [hb]; omega) rfl]
    exact (le_iInf_iff.mp (h _)) k

/-- Likewise the running maximum is the sample's greatest entry. -/
theorem max_flush_val (t : Fin cfg0.N) (h3 : t.val % 4 = 3) (s : Fin 8) (l : Fin 128) (b : Fin 32)
    (hb : b.val = 8 * (t.val / 4) + s.val) :
    (outsAt0 (F := Ideal) V c t.val t.isLt).2.1 (ix2 s l) = hi (img (V c main_v0)) b := by
  have hN : cfg0.N = 16 := N_0
  have htN : t.val < 16 := lt_of_lt_of_eq t.isLt hN
  refine eq_of_forall_ge_iff fun y => ?_
  rw [max_at_le V c s l t.val t.isLt y]
  unfold hi
  rw [iSup_le_iff]
  constructor
  · intro h r
    rw [iSup_le_iff]
    intro k
    have hr : r.val < 1024 := r.isLt
    have hm : 4 * (t.val / 4) + r.val / 256 < cfg0.N := lt_of_lt_of_eq (by omega : 4 * (t.val / 4) + r.val / 256 < 16) hN.symm
    have h1 := h _ hm (by omega) (by omega)
    unfold tSup at h1
    have h2 := (iSup_le_iff.mp ((iSup_le_iff.mp h1) ⟨r.val % 256, by omega⟩)) k
    rw [tile_apply V c _ hm s ⟨r.val % 256, by omega⟩ k b r (by rw [hb]; omega) (by show r.val = 256 * ((4 * (t.val / 4) + r.val / 256) % 4) + r.val % 256; omega)] at h2
    exact h2
  · intro h m hm h1 h2
    unfold tSup
    refine iSup_le fun q => iSup_le fun k => ?_
    have hq : q.val < 256 := q.isLt
    rw [tile_apply V c m hm s q k b ⟨256 * (m % 4) + q.val, by omega⟩ (by rw [hb]; omega) rfl]
    exact (iSup_le_iff.mp (h _)) k

/-- The [32,128] array every lane of whose row b holds sample b's least entry, -/
def loArr : (⟨2, ![32, 128]⟩ : Shape).Idx → EReal := fun i => lo (img (V c main_v0)) ⟨(i 0).val, idx2_lt0 i⟩
/-- and the one holding its greatest. -/
def hiArr : (⟨2, ![32, 128]⟩ : Shape).Idx → EReal := fun i => hi (img (V c main_v0)) ⟨(i 0).val, idx2_lt0 i⟩

/-- What a write-back of the running minimum writes is its block of that array. -/
theorem flushed_min (t : Fin cfg0.N) (hf : (cfg0.win 1).flush t = true) :
    (dat0 (F := Ideal) V c).flushed 1 t = ((cfg0.win 1).blk t).view.read (Elt Ideal) (loArr V c) := by
  have h3 : t.val % 4 = 3 := (flush0_1 t).mp hf
  show (cfg0.win 1).cut (grid0.coords t) ((dat0 (F := Ideal) V c).after 1 t) = _
  rw [after0_1]
  funext y
  have hy0 : (y 0).val < 8 := (y 0).isLt
  have hy1 : (y 1).val < 128 := (y 1).isLt
  have e : win0_1.xinj (grid0.coords t) y = ix2 (⟨(y 0).val, hy0⟩ : Fin 8) (⟨(y 1).val, hy1⟩ : Fin 128) :=
    funext fun a => by match a with | ⟨0, _⟩ => rfl | ⟨1, _⟩ => rfl
  rw [View.read_apply]
  show (outsAt0 (F := Ideal) V c t.val t.isLt).1 (win0_1.xinj (grid0.coords t) y) = loArr V c _
  rw [e]
  unfold loArr
  refine min_flush_val V c t h3 _ _ _ ?_
  show win0_1.index t 0 * 8 + 1 * (y 0).val = 8 * (t.val / 4) + (y 0).val
  rw [(idx_lo t).1]; omega

/-- Likewise for the running maximum. -/
theorem flushed_max (t : Fin cfg0.N) (hf : (cfg0.win 2).flush t = true) :
    (dat0 (F := Ideal) V c).flushed 2 t = ((cfg0.win 2).blk t).view.read (Elt Ideal) (hiArr V c) := by
  have h3 : t.val % 4 = 3 := (flush0_2 t).mp hf
  show (cfg0.win 2).cut (grid0.coords t) ((dat0 (F := Ideal) V c).after 2 t) = _
  rw [after0_2]
  funext y
  have hy0 : (y 0).val < 8 := (y 0).isLt
  have hy1 : (y 1).val < 128 := (y 1).isLt
  have e : win0_2.xinj (grid0.coords t) y = ix2 (⟨(y 0).val, hy0⟩ : Fin 8) (⟨(y 1).val, hy1⟩ : Fin 128) :=
    funext fun a => by match a with | ⟨0, _⟩ => rfl | ⟨1, _⟩ => rfl
  rw [View.read_apply]
  show (outsAt0 (F := Ideal) V c t.val t.isLt).2.1 (win0_2.xinj (grid0.coords t) y) = hiArr V c _
  rw [e]
  unfold hiArr
  refine max_flush_val V c t h3 _ _ _ ?_
  show win0_2.index t 0 * 8 + 1 * (y 0).val = 8 * (t.val / 4) + (y 0).val
  rw [(idx_hi t).1]; omega

/-- Pass 1's first result: every lane of row b holds the least entry of sample b. -/
theorem lo_arr (b : Fin 32) (l : Fin 128) :
    (dat0 (F := Ideal) V c).arrAt 1 cfg0.N (ix2 b l) = lo (img (V c main_v0)) b := by
  have hN : cfg0.N = 16 := N_0
  have hb : b.val < 32 := b.isLt
  have hl : l.val < 128 := l.isLt
  have ht : 4 * (b.val / 8) + 3 < cfg0.N := lt_of_lt_of_eq (by omega : 4 * (b.val / 8) + 3 < 16) hN.symm
  refine ((dat0 (F := Ideal) V c).arrAt_apply_of_mem 1 (loArr V c) (flushed_min V c) cfg0.N ⟨4 * (b.val / 8) + 3, ht⟩
    (ix2 b l) ht ((flush0_1 _).mpr (by show (4 * (b.val / 8) + 3) % 4 = 3; omega)) ?_).trans rfl
  show ix2 b l ∈ ((View.whole main_v1_0).slice (win0_1.rect ⟨4 * (b.val / 8) + 3, ht⟩)).set
  rw [View.set_slice_whole, Rect.mem_set_unit]
  intro a
  have hi := idx_lo ⟨4 * (b.val / 8) + 3, ht⟩
  match a with
  | ⟨0, _⟩ =>
    show win0_1.index ⟨4 * (b.val / 8) + 3, ht⟩ 0 * 8 ≤ b.val ∧ b.val < win0_1.index ⟨4 * (b.val / 8) + 3, ht⟩ 0 * 8 + 8
    rw [hi.1]; show (4 * (b.val / 8) + 3) / 4 * 8 ≤ b.val ∧ b.val < (4 * (b.val / 8) + 3) / 4 * 8 + 8; omega
  | ⟨1, _⟩ =>
    show win0_1.index ⟨4 * (b.val / 8) + 3, ht⟩ 1 * 128 ≤ l.val ∧ l.val < win0_1.index ⟨4 * (b.val / 8) + 3, ht⟩ 1 * 128 + 128
    rw [hi.2]; omega

/-- Pass 1's second result: every lane of row b holds the greatest entry of sample b. -/
theorem hi_arr (b : Fin 32) (l : Fin 128) :
    (dat0 (F := Ideal) V c).arrAt 2 cfg0.N (ix2 b l) = hi (img (V c main_v0)) b := by
  have hN : cfg0.N = 16 := N_0
  have hb : b.val < 32 := b.isLt
  have hl : l.val < 128 := l.isLt
  have ht : 4 * (b.val / 8) + 3 < cfg0.N := lt_of_lt_of_eq (by omega : 4 * (b.val / 8) + 3 < 16) hN.symm
  refine ((dat0 (F := Ideal) V c).arrAt_apply_of_mem 2 (hiArr V c) (flushed_max V c) cfg0.N ⟨4 * (b.val / 8) + 3, ht⟩
    (ix2 b l) ht ((flush0_2 _).mpr (by show (4 * (b.val / 8) + 3) % 4 = 3; omega)) ?_).trans rfl
  show ix2 b l ∈ ((View.whole main_v1_1).slice (win0_2.rect ⟨4 * (b.val / 8) + 3, ht⟩)).set
  rw [View.set_slice_whole, Rect.mem_set_unit]
  intro a
  have hi := idx_hi ⟨4 * (b.val / 8) + 3, ht⟩
  match a with
  | ⟨0, _⟩ =>
    show win0_2.index ⟨4 * (b.val / 8) + 3, ht⟩ 0 * 8 ≤ b.val ∧ b.val < win0_2.index ⟨4 * (b.val / 8) + 3, ht⟩ 0 * 8 + 8
    rw [hi.1]; show (4 * (b.val / 8) + 3) / 4 * 8 ≤ b.val ∧ b.val < (4 * (b.val / 8) + 3) / 4 * 8 + 8; omega
  | ⟨1, _⟩ =>
    show win0_2.index ⟨4 * (b.val / 8) + 3, ht⟩ 1 * 128 ≤ l.val ∧ l.val < win0_2.index ⟨4 * (b.val / 8) + 3, ht⟩ 1 * 128 + 128
    rw [hi.2]; omega

end Final

end Cert.KernelIdeal.Region0Min

end
-- ==== Proof.Region0Sum.lean ====
/-
  The two sums of the first pass over the image batch, read off the pass's accumulation over its grid.

  The pass visits x : [32, 1024, 1024] in 16 steps: step t = 4g + r holds the block of samples 8g … 8g + 7, rows
  256r … 256r + 255, all 1024 columns. For each of the 8 samples of the block it forms two numbers — the sum of
  |σ(x) − ½| and the count of entries with σ(x) > ½ over the block's 256 × 1024 entries of that sample (a sum over the
  columns, then over the rows, kept as a column and spread over 128 lanes) — and adds them into two [8, 128] running
  blocks, which are set to zero at r = 0 and written to rows 8g … 8g + 7 of the two [32, 128] results after r = 3.

  So after the run of four steps 4g … 4g + 3 the running block holds, on every lane of row s,
      ((((0 + T₀) + T₁) + T₂) + T₃),   Tᵣ = Σ_{q < 256} Σ_{c < 1024} φ(x[8g + s, 256r + q, c]),
  and since row = 256·r + q runs over all 1024 rows exactly once, this is Σ_{row < 1024} Σ_{c < 1024} φ(x[8g + s, row, c]):
  the per-sample confidence sum (φ(v) = |σ(v) − ½|) and area count (φ(v) = [σ(v) > ½]). Addition on the extended reals
  is commutative and associative, so regrouping the 1024 rows into four tiles needs no finiteness. The four write-backs
  (g = 0 … 3) cover the 32 rows of each result, so each result array ends holding, on every lane of row b, sample b's sum.

  The statements hold for ANY contents of the buffers when the pass is entered (the parameter V), at the ideal values.
-/
import proofs.«163302_j24532853195288_2_alg».proof.Proof.Gen.KernelIdeal.Frame
import proofs.«163302_j24532853195288_2_alg».proof.Proof.Spec
import proofs.«163302_j24532853195288_2_alg».proof.Proof.LibColumnBroadcast
import proofs.«163302_j24532853195288_2_alg».proof.Proof.LibUnitAxisCasts
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Region0Sum

open Cert.KernelIdeal Cert.KernelIdeal.Gen Idealize.ShloMosaic Idealize.ShloMosaic.TcCoe Idealize.SL.Sem
open Idealize.ShloMosaic.ValueIdx Cert.RectFill
open Idealize.ShloMosaic.Pipeline (Dat)

/-! ## What one step leaves in the two running blocks

In the resetting case the step stores the zero block, reads it back and stores (that + the block's addend); in the
accumulating case it stores (what the buffer held + the block's addend). The addend is a function of the input block only. -/

section Pieces
variable {F : FTy → Type} [FloatOps F]

theorem hz3 : (![0, 0, 0] : Fin 3 → Nat) = fun _ => 0 := funext fun a => by fin_cases a <;> rfl

theorem hz : (![0, 0] : Fin 2 → Nat) = fun _ => 0 := funext fun a => by fin_cases a <;> rfl

theorem out_B_3 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x : Vec F S8x256x1024 .f32) (xo1 xo2 xo3 xo4 : Vec F S8x128 .f32) :
    out0_B_3 c i a2 h2 a3 h3 a4 h4 a5 h5 a6 h6 hc x xo1 xo2 xo3 xo4 = k0_pay2 (k0_pay7 x) xo3 := by
  unfold out0_B_3
  rw [View.read_writes_eq_canon _ _ _ (cover0_B_3 c i a2 h2 a3 h3 a4 h4 a5 h5 a6 h6 hc x xo1 xo2 xo3 xo4)]
  unfold kernelRun0_B
  dsimp only
  sl_unfold_words
  rw [View.canon_unit_zero hz]
  simp only [View.readAt_eq_ld, h2.read_unread, h5.read_unread, View.ld_unit_zero (S := S8x128) hz, View.ld_unit_zero (S := S8x256x1024) hz3]

theorem out_A_3 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x : Vec F S8x256x1024 .f32) :
    out0_A_3 c i a2 h2 a3 h3 a4 h4 a5 h5 a6 h6 hc x = k0_pay2 (k0_pay7 x) (k0_pay11 (F := F)) := by
  unfold out0_A_3
  rw [View.read_writes_eq_canon _ _ _ (cover0_A_3 c i a2 h2 a3 h3 a4 h4 a5 h5 a6 h6 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x128) hz, View.ld_unit_zero (S := S8x256x1024) hz3]

theorem out_B_4 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : ¬cond0_0 i) (x : Vec F S8x256x1024 .f32) (xo1 xo2 xo3 xo4 : Vec F S8x128 .f32) :
    out0_B_4 c i a2 h2 a3 h3 a4 h4 a5 h5 a6 h6 hc x xo1 xo2 xo3 xo4 = k0_pay3 (k0_pay8 x) xo4 := by
  unfold out0_B_4
  rw [View.read_writes_eq_canon _ _ _ (cover0_B_4 c i a2 h2 a3 h3 a4 h4 a5 h5 a6 h6 hc x xo1 xo2 xo3 xo4)]
  unfold kernelRun0_B
  dsimp only
  sl_unfold_words
  rw [View.canon_unit_zero hz]
  simp only [View.readAt_eq_ld, h2.read_unread, h6.read_unread, View.ld_unit_zero (S := S8x128) hz, View.ld_unit_zero (S := S8x256x1024) hz3]

theorem out_A_4 (c : Dev nD) (i : grid0.Coords) (a2 : Memref sig .tc .vmem S8x256x1024 .f32) (h2 : a2.IsWhole)
    (a3 : Memref sig .tc .vmem S8x128 .f32) (h3 : a3.IsWhole) (a4 : Memref sig .tc .vmem S8x128 .f32) (h4 : a4.IsWhole)
    (a5 : Memref sig .tc .vmem S8x128 .f32) (h5 : a5.IsWhole) (a6 : Memref sig .tc .vmem S8x128 .f32) (h6 : a6.IsWhole)
    (hc : cond0_0 i) (x : Vec F S8x256x1024 .f32) :
    out0_A_4 c i a2 h2 a3 h3 a4 h4 a5 h5 a6 h6 hc x = k0_pay3 (k0_pay8 x) (k0_pay12 (F := F)) := by
  unfold out0_A_4
  rw [View.read_writes_eq_canon _ _ _ (cover0_A_4 c i a2 h2 a3 h3 a4 h4 a5 h5 a6 h6 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x128) hz, View.ld_unit_zero (S := S8x256x1024) hz3]
end Pieces

/-! ## The running blocks along the grid: reset at r = 0, one addition at each later step -/

section RunFacts
variable {F : FTy → Type} [FloatOps F]
variable (V : (c : Dev nD) → (b : Ref sig .tc) → Buf (Elt F) ((c : Thread nD τ).loc b)) (c : Dev nD)

/-- At the first point of a run the confidence buffer is left at (zero + the block's addend); -/
theorem conf_reset (n : ℕ) (h : n < cfg0.N) (hm : n % 4 = 0) :
    (outsAt0 V c n h).2.2.1 = k0_pay2 (k0_pay7 (iblk0 V c 0 ⟨n, h⟩)) (k0_pay11 (F := F)) :=
  (congrArg (fun p => p.2.2.1) (outsAt0_A V c ⟨n, h⟩ hm)).trans
    (out_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩))

/-- at every later point it is what the point before left plus the block's addend. -/
theorem conf_step (n : ℕ) (h : n + 1 < cfg0.N) (hm : ¬(n + 1) % 4 = 0) :
    (outsAt0 V c (n + 1) h).2.2.1 = k0_pay2 (k0_pay7 (iblk0 V c 0 ⟨n + 1, h⟩)) (outsAt0 V c n (Nat.lt_of_succ_lt h)).2.2.1 :=
  (congrArg (fun p => p.2.2.1) (outsAt0_B V c ⟨n + 1, h⟩ hm)).trans
    (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hm ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2)

/-- The same two facts for the area buffer. -/
theorem area_reset (n : ℕ) (h : n < cfg0.N) (hm : n % 4 = 0) :
    (outsAt0 V c n h).2.2.2 = k0_pay3 (k0_pay8 (iblk0 V c 0 ⟨n, h⟩)) (k0_pay12 (F := F)) :=
  (congrArg (fun p => p.2.2.2) (outsAt0_A V c ⟨n, h⟩ hm)).trans
    (out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩))

theorem area_step (n : ℕ) (h : n + 1 < cfg0.N) (hm : ¬(n + 1) % 4 = 0) :
    (outsAt0 V c (n + 1) h).2.2.2 = k0_pay3 (k0_pay8 (iblk0 V c 0 ⟨n + 1, h⟩)) (outsAt0 V c n (Nat.lt_of_succ_lt h)).2.2.2 :=
  (congrArg (fun p => p.2.2.2) (outsAt0_B V c ⟨n + 1, h⟩ hm)).trans
    (out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hm ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2)

end RunFacts

/-! ## The addends at an entry, and the 1024 rows as four tiles of 256 -/

section Math

/-- The double lane reduction of a [8,256,1024] block (over columns, then over rows), kept as a column and spread over the
    128 lanes, reads at (s, l) the sum of the block's sample-s entries over its 256 rows and 1024 columns. -/
theorem colsum_apply (v : FVec Ideal S8x256x1024 .f32) (s : Fin 8) (l : Fin 128) :
    broadcastTo S8x128 (shapeCast S8x1 (shapeCast S8x1
        (multiReduction .add [1] S8 (multiReduction .add [2] S8x256 v 0x00000000#32 reduces_S8x256x1024_S8x256 (.inl rfl) rfl)
          0x00000000#32 reduces_S8x256_S8 (.inl rfl) rfl) shapeCasts_S8_S8x1) shapeCasts_S8x1_S8x1) broadcasts_S8x1_S8x128 (ix2 s l)
      = ∑ q : Fin 256, ∑ cc : Fin 1024, v (ix3 s q cc) := by
  refine (Cert.LibColumnBroadcast.broadcastTo_a1_ab_apply _ broadcasts_S8x1_S8x128 s l).trans ?_
  rw [shapeCast_self]
  refine (Cert.LibUnitAxisCasts.shapeCast_a_a1_apply _ shapeCasts_S8_S8x1 s).trans ?_
  refine (Ideal.multiReduction_add_single _ 0x00000000#32 reduces_S8x256_S8 (.inl rfl) rfl (ix1 s)).trans ?_
  refine Finset.sum_congr rfl fun q _ => ?_
  refine (Ideal.multiReduction_add_single v 0x00000000#32 reduces_S8x256x1024_S8x256 (.inl rfl) rfl _).trans ?_
  refine Finset.sum_congr rfl fun cc _ => ?_
  refine congrArg v (funext fun a => ?_)
  match a with
  | ⟨0, _⟩ => exact Fin.ext rfl
  | ⟨1, _⟩ => exact Fin.ext rfl
  | ⟨2, _⟩ => exact Fin.ext rfl

/-- The confidence addend of a block at (s, l): Σ |σ(x) − ½| over sample s's rows and columns in the block. -/
theorem pay7_apply (x : Vec Ideal S8x256x1024 .f32) (s : Fin 8) (l : Fin 128) :
    k0_pay7 (F := Ideal) x (ix2 s l) = ∑ q : Fin 256, ∑ cc : Fin 1024, absE (prob (x (ix3 s q cc)) - half) := by
  have e4 : k0_pay4 (F := Ideal) x = x := shapeCast_self x _
  unfold k0_pay7 k0_pay5
  rw [e4]
  exact (colsum_apply _ s l).trans (Finset.sum_congr rfl fun q _ => Finset.sum_congr rfl fun cc _ => rfl)

/-- A comparison bit widened to 32 bits and read as a signed integer is the 0/1 indicator of the comparison. -/
theorem ind_of_cmp (a : EReal) :
    (FloatOps.sitofp (F := Ideal) .f32 ((FloatOps.cmpf (F := Ideal) (φ := .f32) .ogt a half).setWidth 32) : EReal) = ind (half < a) := by
  show ((((Ideal.cmp .ogt a half).setWidth 32).toInt : ℝ) : EReal) = ind (half < a)
  unfold Ideal.cmp
  by_cases h : half < a
  · rw [ind_true h]; simp [h]
  · rw [ind_false h]; simp [h]

/-- The area addend of a block at (s, l): the number of sample s's entries in the block with σ(x) > ½. -/
theorem pay8_apply (x : Vec Ideal S8x256x1024 .f32) (s : Fin 8) (l : Fin 128) :
    k0_pay8 (F := Ideal) x (ix2 s l) = ∑ q : Fin 256, ∑ cc : Fin 1024, ind (half < prob (x (ix3 s q cc))) := by
  have e4 : k0_pay4 (F := Ideal) x = x := shapeCast_self x _
  unfold k0_pay8 k0_pay5
  rw [e4]
  exact (colsum_apply _ s l).trans (Finset.sum_congr rfl fun q _ => Finset.sum_congr rfl fun cc _ => ind_of_cmp _)

/-- A sum over m + n consecutive naturals splits after the first m. -/
theorem sum_split {M : Type} [AddCommMonoid M] (G : ℕ → M) (m n : ℕ) :
    ∑ r : Fin (m + n), G r.val = ∑ r : Fin m, G r.val + ∑ r : Fin n, G (m + r.val) := by
  rw [Fin.sum_univ_add]; rfl

/-- The 1024 rows are four tiles of 256 rows: row = 256 · tile + q. -/
theorem sum_tiles {M : Type} [AddCommMonoid M] (G : ℕ → M) :
    ∑ r : Fin 1024, G r.val
      = (((∑ q : Fin 256, G (256 * 0 + q.val)) + ∑ q : Fin 256, G (256 * 1 + q.val)) + ∑ q : Fin 256, G (256 * 2 + q.val))
          + ∑ q : Fin 256, G (256 * 3 + q.val) := by
  have h1 : ∑ r : Fin 1024, G r.val = ∑ r : Fin 768, G r.val + ∑ r : Fin 256, G (768 + r.val) := sum_split G 768 256
  have h2 : ∑ r : Fin 768, G r.val = ∑ r : Fin 512, G r.val + ∑ r : Fin 256, G (512 + r.val) := sum_split G 512 256
  have h3 : ∑ r : Fin 512, G r.val = ∑ r : Fin 256, G r.val + ∑ r : Fin 256, G (256 + r.val) := sum_split G 256 256
  rw [h1, h2, h3]
  simp only [Nat.mul_zero, Nat.zero_add, Nat.mul_one]

end Math

/-! ## The fold over a run of four steps -/

section Fold

/-- An entry of a [32,1024,1024] array by natural coordinates (0 outside the array): lets the run's arithmetic on
    sample and row numbers be done on naturals. -/
def entry (A : S32x1024x1024.Idx → EReal) (b r : ℕ) (cc : Fin 1024) : EReal :=
  if h : b < 32 ∧ r < 1024 then A (ix3 (⟨b, h.1⟩ : Fin 32) (⟨r, h.2⟩ : Fin 1024) cc) else 0

theorem entry_eq (A : S32x1024x1024.Idx → EReal) (b : Fin 32) (r : Fin 1024) (cc : Fin 1024) :
    entry A b.val r.val cc = A (ix3 b r cc) := by
  unfold entry; rw [dif_pos ⟨b.isLt, r.isLt⟩]

/-- THE RUN'S FOLD, for either sum. A point-indexed [8,128] quantity f that at the first point of each run of four is
    (zero + that point's addend) and at each later point adds the point's addend to what the point before left, where
    the addend of a block at (s, l) is Σ φ over sample s's 256 × 1024 entries in the block and point n's block holds
    samples 8·(n/4) … + 7, rows 256·(n%4) … + 255 of the array A: then after the run's last point 4k + 3 it holds at
    (s, l) the sum of φ over ALL 1024 × 1024 entries of sample 8k + s. Addition on the extended reals is associative and
    commutative, so no finiteness is involved. -/
theorem run_fold {N : ℕ} (A : S32x1024x1024.Idx → EReal)
    (X : (n : ℕ) → n < N → (S8x256x1024.Idx → EReal))
    (hX : ∀ n h (s : Fin 8) (q : Fin 256) (cc : Fin 1024),
      X n h (ix3 s q cc) = entry A (8 * (n / 4) + s.val) (256 * (n % 4) + q.val) cc)
    (P : (S8x256x1024.Idx → EReal) → (S8x128.Idx → EReal)) (φ : EReal → EReal)
    (hP : ∀ x (s : Fin 8) (l : Fin 128), P x (ix2 s l) = ∑ q : Fin 256, ∑ cc : Fin 1024, φ (x (ix3 s q cc)))
    (Z0 : S8x128.Idx → EReal) (hZ : ∀ i, Z0 i = 0)
    (step : (S8x128.Idx → EReal) → (S8x128.Idx → EReal) → (S8x128.Idx → EReal))
    (hstep : ∀ p acc i, step p acc i = acc i + p i)
    (f : (n : ℕ) → n < N → (S8x128.Idx → EReal))
    (h0 : ∀ (n : ℕ) (h : n < N), n % 4 = 0 → f n h = step (P (X n h)) Z0)
    (hs : ∀ (n : ℕ) (h : n + 1 < N), ¬(n + 1) % 4 = 0 → f (n + 1) h = step (P (X (n + 1) h)) (f n (Nat.lt_of_succ_lt h)))
    (k : ℕ) (hlt : 4 * k + 3 < N) (s : Fin 8) (l : Fin 128) :
    f (4 * k + 3) hlt (ix2 s l) = ∑ r : Fin 1024, ∑ cc : Fin 1024, φ (entry A (8 * k + s.val) r.val cc) := by
  have hfold := Pipeline.eq_accAt f 4 (fun m h => step (P (X m h)) Z0) (fun m h acc => step (P (X m h)) acc) h0 hs k 3
    (by omega) hlt
  rw [hfold]
  show step (P (X (4 * k + (2 + 1)) _)) (step (P (X (4 * k + (1 + 1)) _)) (step (P (X (4 * k + (0 + 1)) _))
    (step (P (X (4 * k) _)) Z0))) (ix2 s l) = _
  rw [hstep, hstep, hstep, hstep, hZ, hP, hP, hP, hP, zero_add]
  simp only [hX]
  have d0 : 4 * k / 4 = k := by omega
  have d1 : (4 * k + (0 + 1)) / 4 = k := by omega
  have d2 : (4 * k + (1 + 1)) / 4 = k := by omega
  have d3 : (4 * k + (2 + 1)) / 4 = k := by omega
  have m0 : 4 * k % 4 = 0 := by omega
  have m1 : (4 * k + (0 + 1)) % 4 = 1 := by omega
  have m2 : (4 * k + (1 + 1)) % 4 = 2 := by omega
  have m3 : (4 * k + (2 + 1)) % 4 = 3 := by omega
  rw [d0, d1, d2, d3, m0, m1, m2, m3]
  exact (sum_tiles fun r => ∑ cc : Fin 1024, φ (entry A (8 * k + s.val) r cc)).symm

end Fold

/-! ## The pass's blocks, and the running blocks after a run's last step -/

section Region
variable (V : (c : Dev nD) → (b : Ref sig .tc) → Buf (Elt Ideal) ((c : Thread nD τ).loc b)) (c : Dev nD)

/-- Point t = 4g + r reads block (g, r, 0) of x: -/
theorem idx_in : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- and writes block (g, 0) of each result. -/
theorem idx_conf : ∀ t : Fin cfg0.N, win0_3.index t 0 = t.val / 4 ∧ win0_3.index t 1 = 0 :=
  (by decide +kernel : ∀ t : Fin grid0.N, win0_3.index t 0 = t.val / 4 ∧ win0_3.index t 1 = 0)
theorem idx_area : ∀ t : Fin cfg0.N, win0_4.index t 0 = t.val / 4 ∧ win0_4.index t 1 = 0 :=
  (by decide +kernel : ∀ t : Fin grid0.N, win0_4.index t 0 = t.val / 4 ∧ win0_4.index t 1 = 0)

/-- The input block at point t, at (s, q, cc): x at sample 8·(t/4) + s, row 256·(t%4) + q, column cc. -/
theorem iblk_apply (t : Fin cfg0.N) (s : Fin 8) (q : Fin 256) (cc : Fin 1024) :
    (iblk0 (F := Ideal) V c 0 t : S8x256x1024.Idx → EReal) (ix3 s q cc)
      = entry (V c main_v0) (8 * (t.val / 4) + s.val) (256 * (t.val % 4) + q.val) cc := by
  have hN : t.val < 16 := lt_of_lt_of_eq t.isLt (show cfg0.N = 16 from N_0)
  have hb : 8 * (t.val / 4) + s.val < 32 := by have := s.isLt; omega
  have hr : 256 * (t.val % 4) + q.val < 1024 := by have := q.isLt; omega
  unfold entry; rw [dif_pos ⟨hb, hr⟩]
  unfold iblk0
  rw [View.read_apply]
  show V c main_v0 _ = V c main_v0 _
  refine congrArg (V c main_v0) (funext fun a => Fin.ext ?_)
  obtain ⟨i0, i1, i2⟩ := idx_in t
  match a with
  | ⟨0, _⟩ => show win0_0.index t 0 * 8 + 1 * s.val = 8 * (t.val / 4) + s.val; rw [i0]; omega
  | ⟨1, _⟩ => show win0_0.index t 1 * 256 + 1 * q.val = 256 * (t.val % 4) + q.val; rw [i1]; omega
  | ⟨2, _⟩ => show win0_0.index t 2 * 1024 + 1 * cc.val = cc.val; rw [i2]; omega

theorem pay11_zero (i : S8x128.Idx) : k0_pay11 (F := Ideal) i = 0 := Ideal.ofBits_zero_f32
theorem pay12_zero (i : S8x128.Idx) : k0_pay12 (F := Ideal) i = 0 := Ideal.ofBits_zero_f32
theorem pay2_apply (p acc : S8x128.Idx → EReal) (i : S8x128.Idx) : k0_pay2 (F := Ideal) p acc i = acc i + p i := by
  unfold k0_pay2; rw [shapeCast_self]; rfl
theorem pay3_apply (p acc : S8x128.Idx → EReal) (i : S8x128.Idx) : k0_pay3 (F := Ideal) p acc i = acc i + p i := by
  unfold k0_pay3; rw [shapeCast_self]; rfl

/-- After the last point of a run the confidence buffer holds, on every lane of row s, Σ |σ(x) − ½| over the whole of
    sample 8·(t/4) + s. -/
theorem conf_at (t : Fin cfg0.N) (h3 : t.val % 4 = 3) (s : Fin 8) (l : Fin 128) :
    (outsAt0 (F := Ideal) V c t.val t.isLt).2.2.1 (ix2 s l)
      = ∑ r : Fin 1024, ∑ cc : Fin 1024, absE (prob (entry (V c main_v0) (8 * (t.val / 4) + s.val) r.val cc) - half) := by
  obtain ⟨n, hn⟩ := t
  have e : 4 * (n / 4) + 3 = n := by dsimp only at h3; omega
  have hlt : 4 * (n / 4) + 3 < cfg0.N := by rw [e]; exact hn
  have same : ∀ (u : ℕ) (hu : u < cfg0.N), u = n →
      (outsAt0 (F := Ideal) V c u hu).2.2.1 = (outsAt0 (F := Ideal) V c n hn).2.2.1 := fun u hu e => by subst e; rfl
  refine (congrFun (same _ hlt e) _).symm.trans ?_
  exact run_fold (V c main_v0) (fun m h => iblk0 (F := Ideal) V c 0 ⟨m, h⟩) (fun m h s q cc => iblk_apply V c ⟨m, h⟩ s q cc)
    (k0_pay7 (F := Ideal)) (fun v => absE (prob v - half)) pay7_apply (k0_pay11 (F := Ideal)) pay11_zero
    (k0_pay2 (F := Ideal)) pay2_apply (fun m h => (outsAt0 (F := Ideal) V c m h).2.2.1)
    (conf_reset V c) (conf_step V c) (n / 4) hlt s l

theorem area_at (t : Fin cfg0.N) (h3 : t.val % 4 = 3) (s : Fin 8) (l : Fin 128) :
    (outsAt0 (F := Ideal) V c t.val t.isLt).2.2.2 (ix2 s l)
      = ∑ r : Fin 1024, ∑ cc : Fin 1024, ind (half < prob (entry (V c main_v0) (8 * (t.val / 4) + s.val) r.val cc)) := by
  obtain ⟨n, hn⟩ := t
  have e : 4 * (n / 4) + 3 = n := by dsimp only at h3; omega
  have hlt : 4 * (n / 4) + 3 < cfg0.N := by rw [e]; exact hn
  have same : ∀ (u : ℕ) (hu : u < cfg0.N), u = n →
      (outsAt0 (F := Ideal) V c u hu).2.2.2 = (outsAt0 (F := Ideal) V c n hn).2.2.2 := fun u hu e => by subst e; rfl
  refine (congrFun (same _ hlt e) _).symm.trans ?_
  exact run_fold (V c main_v0) (fun m h => iblk0 (F := Ideal) V c 0 ⟨m, h⟩) (fun m h s q cc => iblk_apply V c ⟨m, h⟩ s q cc)
    (k0_pay8 (F := Ideal)) (fun v => ind (half < prob v)) pay8_apply (k0_pay12 (F := Ideal)) pay12_zero
    (k0_pay3 (F := Ideal)) pay3_apply (fun m h => (outsAt0 (F := Ideal) V c m h).2.2.2)
    (area_reset V c) (area_step V c) (n / 4) hlt s l

end Region

/-! ## The two result arrays -/

section Final
variable (V : (c : Dev nD) → (b : Ref sig .tc) → Buf (Elt Ideal) ((c : Thread nD τ).loc b)) (c : Dev nD)

/-- The conf result array as it ends: every lane of row b holds sample b's conf sum. -/
def confG : Buf (Elt Ideal) ((c : Thread nD τ).loc main_v1_2) :=
  fun i => confSum (img (V c main_v0)) ((i : S32x128.Idx) 0)

/-- What the last point of a run writes back is its block of that array: rows 8·(t/4) … + 7. -/
theorem flushed_conf (t : Fin cfg0.N) (hf : (cfg0.win 3).flush t = true) :
    (dat0 (F := Ideal) V c).flushed 3 t = ((cfg0.win 3).blk t).view.read (Elt Ideal) (confG V c) := by
  have h3 : t.val % 4 = 3 := (flush0_3 t).mp hf
  have hN : t.val < 16 := lt_of_lt_of_eq t.isLt (show cfg0.N = 16 from N_0)
  funext y
  obtain ⟨s, l, rfl⟩ : ∃ (s : Fin 8) (l : Fin 128), y = ix2 s l := ⟨y 0, y 1, @eq_ix2 8 128 y⟩
  have hb : 8 * (t.val / 4) + s.val < 32 := by have := s.isLt; omega
  show (dat0 (F := Ideal) V c).after 3 t (ix2 s l) = _
  rw [after0_3, conf_at V c t h3 s l, View.read_apply]
  show _ = confSum (img (V c main_v0)) _
  have hrow : ((((cfg0.win 3).blk t).view.emb (ix2 s l) : S32x128.Idx) 0) = (⟨8 * (t.val / 4) + s.val, hb⟩ : Fin 32) := by
    apply Fin.ext
    show win0_3.index t 0 * 8 + 1 * s.val = 8 * (t.val / 4) + s.val
    rw [(idx_conf t).1]; omega
  rw [hrow]
  unfold confSum img
  refine Finset.sum_congr rfl fun r _ => Finset.sum_congr rfl fun cc _ => ?_
  rw [← entry_eq (V c main_v0) ⟨8 * (t.val / 4) + s.val, hb⟩ r cc]

/-- The four write-backs' blocks cover the array: row b lies in the block of the run of samples 8·(b/8) … + 7. -/
theorem cover_conf (i : S32x128.Idx) :
    ∃ t : Fin cfg0.N, (cfg0.win 3).flush t = true ∧ i ∈ ((cfg0.win 3).blk t).view.set := by
  have h0 : (i 0 : Nat) < 32 := (i 0).isLt
  have h1 : (i 1 : Nat) < 128 := (i 1).isLt
  have hN : cfg0.N = 16 := N_0
  have ht : 4 * ((i 0 : Nat) / 8) + 3 < cfg0.N := by rw [hN]; omega
  refine ⟨⟨4 * ((i 0 : Nat) / 8) + 3, ht⟩, (flush0_3 _).mpr (by dsimp only; omega), ?_⟩
  show i ∈ ((View.whole main_v1_2).slice (win0_3.rect ⟨4 * ((i 0 : Nat) / 8) + 3, ht⟩)).set
  rw [View.set_slice_whole, Rect.mem_set_unit]
  intro a
  obtain ⟨e0, e1⟩ := idx_conf ⟨4 * ((i 0 : Nat) / 8) + 3, ht⟩
  match a with
  | ⟨0, _⟩ =>
    show win0_3.index ⟨4 * ((i 0 : Nat) / 8) + 3, ht⟩ 0 * 8 ≤ (i 0 : Nat) ∧ (i 0 : Nat) < win0_3.index ⟨4 * ((i 0 : Nat) / 8) + 3, ht⟩ 0 * 8 + 8
    rw [e0]; dsimp only; omega
  | ⟨1, _⟩ =>
    show win0_3.index ⟨4 * ((i 0 : Nat) / 8) + 3, ht⟩ 1 * 128 ≤ (i 1 : Nat) ∧ (i 1 : Nat) < win0_3.index ⟨4 * ((i 0 : Nat) / 8) + 3, ht⟩ 1 * 128 + 128
    rw [e1]; omega

/-- The area result array as it ends: every lane of row b holds sample b's area sum. -/
def areaG : Buf (Elt Ideal) ((c : Thread nD τ).loc main_v1_3) :=
  fun i => areaSum (img (V c main_v0)) ((i : S32x128.Idx) 0)

/-- What the last point of a run writes back is its block of that array: rows 8·(t/4) … + 7. -/
theorem flushed_area (t : Fin cfg0.N) (hf : (cfg0.win 4).flush t = true) :
    (dat0 (F := Ideal) V c).flushed 4 t = ((cfg0.win 4).blk t).view.read (Elt Ideal) (areaG V c) := by
  have h3 : t.val % 4 = 3 := (flush0_4 t).mp hf
  have hN : t.val < 16 := lt_of_lt_of_eq t.isLt (show cfg0.N = 16 from N_0)
  funext y
  obtain ⟨s, l, rfl⟩ : ∃ (s : Fin 8) (l : Fin 128), y = ix2 s l := ⟨y 0, y 1, @eq_ix2 8 128 y⟩
  have hb : 8 * (t.val / 4) + s.val < 32 := by have := s.isLt; omega
  show (dat0 (F := Ideal) V c).after 4 t (ix2 s l) = _
  rw [after0_4, area_at V c t h3 s l, View.read_apply]
  show _ = areaSum (img (V c main_v0)) _
  have hrow : ((((cfg0.win 4).blk t).view.emb (ix2 s l) : S32x128.Idx) 0) = (⟨8 * (t.val / 4) + s.val, hb⟩ : Fin 32) := by
    apply Fin.ext
    show win0_4.index t 0 * 8 + 1 * s.val = 8 * (t.val / 4) + s.val
    rw [(idx_area t).1]; omega
  rw [hrow]
  unfold areaSum img
  refine Finset.sum_congr rfl fun r _ => Finset.sum_congr rfl fun cc _ => ?_
  rw [← entry_eq (V c main_v0) ⟨8 * (t.val / 4) + s.val, hb⟩ r cc]

/-- The four write-backs' blocks cover the array: row b lies in the block of the run of samples 8·(b/8) … + 7. -/
theorem cover_area (i : S32x128.Idx) :
    ∃ t : Fin cfg0.N, (cfg0.win 4).flush t = true ∧ i ∈ ((cfg0.win 4).blk t).view.set := by
  have h0 : (i 0 : Nat) < 32 := (i 0).isLt
  have h1 : (i 1 : Nat) < 128 := (i 1).isLt
  have hN : cfg0.N = 16 := N_0
  have ht : 4 * ((i 0 : Nat) / 8) + 3 < cfg0.N := by rw [hN]; omega
  refine ⟨⟨4 * ((i 0 : Nat) / 8) + 3, ht⟩, (flush0_4 _).mpr (by dsimp only; omega), ?_⟩
  show i ∈ ((View.whole main_v1_3).slice (win0_4.rect ⟨4 * ((i 0 : Nat) / 8) + 3, ht⟩)).set
  rw [View.set_slice_whole, Rect.mem_set_unit]
  intro a
  obtain ⟨e0, e1⟩ := idx_area ⟨4 * ((i 0 : Nat) / 8) + 3, ht⟩
  match a with
  | ⟨0, _⟩ =>
    show win0_4.index ⟨4 * ((i 0 : Nat) / 8) + 3, ht⟩ 0 * 8 ≤ (i 0 : Nat) ∧ (i 0 : Nat) < win0_4.index ⟨4 * ((i 0 : Nat) / 8) + 3, ht⟩ 0 * 8 + 8
    rw [e0]; dsimp only; omega
  | ⟨1, _⟩ =>
    show win0_4.index ⟨4 * ((i 0 : Nat) / 8) + 3, ht⟩ 1 * 128 ≤ (i 1 : Nat) ∧ (i 1 : Nat) < win0_4.index ⟨4 * ((i 0 : Nat) / 8) + 3, ht⟩ 1 * 128 + 128
    rw [e1]; omega

/-- PASS 1's CONFIDENCE RESULT, for any entry contents: every lane of row b ends at Σ |σ(x) − ½| over sample b. -/
theorem conf_arr (b : Fin 32) (l : Fin 128) :
    (dat0 (F := Ideal) V c).arrAt 3 cfg0.N (ix2 b l) = confSum (img (V c main_v0)) b :=
  congrFun ((dat0 (F := Ideal) V c).arrAt_eq_of_cover 3 (confG V c) (flushed_conf V c) (cover_conf)) (ix2 b l)

/-- PASS 1's AREA RESULT: every lane of row b ends at the number of entries of sample b with σ(x) > ½. -/
theorem area_arr (b : Fin 32) (l : Fin 128) :
    (dat0 (F := Ideal) V c).arrAt 4 cfg0.N (ix2 b l) = areaSum (img (V c main_v0)) b :=
  congrFun ((dat0 (F := Ideal) V c).arrAt_eq_of_cover 4 (areaG V c) (flushed_area V c) (cover_area)) (ix2 b l)

end Final

end Cert.KernelIdeal.Region0Sum
end
-- ==== Proof.Region1.lean ====
import proofs.«163302_j24532853195288_2_alg».proof.Proof.Gen.KernelIdeal.Frame
import proofs.«163302_j24532853195288_2_alg».proof.Proof.Spec
import Idealize.ShloMosaic.Lib.Pipeline.Value
import Idealize.ShloMosaic.Lib.ValueIdx
import Idealize.ShloMosaic.PureOps.Ideal.Laws
import Idealize.ShloMosaic.Lib.Tactic
import proofs.«163302_j24532853195288_2_alg».proof.Proof.LibMaxReduce

/-!
# The second pass: row and column occupancy of the thresholded mask

The pass walks the batch in 4 sample groups of 8 samples and, within a group, 4 row tiles of 256 rows.  At a point it reads
the tile x[8g…8g+7, 256r…256r+255, 0…1023] and column 0 of the groups' rows of the minimum and maximum arrays, forms the
0/1 mask  [x > lo + ½·((hi − lo) + ε)]  per element, and

* writes the mask's maximum along each row (from −∞: the supremum over the 1024 lanes) to the row-occupancy block, which is
  written back at every point — the sixteen blocks tile the [32,1024] array;
* keeps a column block per sample group: zero at the group's first tile, then its maximum with the tile's maximum along
  each column (from −∞: the supremum over the tile's 256 rows); the block is written back after the group's last tile.

Read at an index, the first array is  ⨆ₖ ind (thr (L b) (H b) < x b r k)  and the second  ⨆ᵣ ind (thr (L b) (H b) < x b r k):
for the second, the running maximum from zero over the four tiles is carried by its universal property (its upper bounds
are the non-negative upper bounds of every tile's indicators), and zero drops out because indicators are non-negative.
Everything is stated for arbitrary contents of the buffers when the pass is entered.
-/

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.RectFill

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one-column load of an [8,128] buffer. -/
abbrev colLd (x1 : Vec F S8x128 .f32) : Vec F S8x1 .f32 :=
  View.ld x1 (Rect.unit (s := S8x128) ![0, 0] S8x1.size inb_S8x128_S8x1_0_0)

theorem out_A_3 (c : Dev nD) (i : grid1.Coords) (arg2 : Memref sig .tc .vmem S8x256x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x256 .f32) (harg5 : arg5.IsWhole) (arg6 : Memref sig .tc .vmem S8x1024 .f32) (harg6 : arg6.IsWhole) (hc0 : cond1_0 i) (x0 : Vec F S8x256x1024 .f32) (x1 : Vec F S8x128 .f32) (x2 : Vec F S8x128 .f32) :
    out1_A_3 c i arg2 harg2 arg3 harg3 arg4 harg4 arg5 harg5 arg6 harg6 hc0 x0 x1 x2 = k1_pay2 x0 (colLd x1) (colLd x2) := by
  unfold out1_A_3
  rw [View.read_writes_eq_canon _ _ _ (cover1_A_3 c i arg2 harg2 arg3 harg3 arg4 harg4 arg5 harg5 arg6 harg6 hc0 x0 x1 x2)]
  unfold kernelRun1_A
  dsimp only
  rw [View.canon_unit_zero hz2]
  simp only [View.readAt_eq_ld, harg2.read_unread, harg3.read_unread, harg4.read_unread, View.ld_unit_zero (S := S8x256x1024) hz3]

theorem out_B_3 (c : Dev nD) (i : grid1.Coords) (arg2 : Memref sig .tc .vmem S8x256x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x256 .f32) (harg5 : arg5.IsWhole) (arg6 : Memref sig .tc .vmem S8x1024 .f32) (harg6 : arg6.IsWhole) (hc0 : ¬cond1_0 i) (x0 : Vec F S8x256x1024 .f32) (x1 : Vec F S8x128 .f32) (x2 : Vec F S8x128 .f32) (xo4 : Vec F S8x1024 .f32) :
    out1_B_3 c i arg2 harg2 arg3 harg3 arg4 harg4 arg5 harg5 arg6 harg6 hc0 x0 x1 x2 xo4 = k1_pay2 x0 (colLd x1) (colLd x2) := by
  unfold out1_B_3
  rw [View.read_writes_eq_canon _ _ _ (cover1_B_3 c i arg2 harg2 arg3 harg3 arg4 harg4 arg5 harg5 arg6 harg6 hc0 x0 x1 x2 xo4)]
  unfold kernelRun1_B
  dsimp only
  rw [View.canon_unit_zero hz2]
  simp only [View.readAt_eq_ld, harg2.read_unread, harg3.read_unread, harg4.read_unread, View.ld_unit_zero (S := S8x256x1024) hz3]

theorem out_A_4 (c : Dev nD) (i : grid1.Coords) (arg2 : Memref sig .tc .vmem S8x256x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x256 .f32) (harg5 : arg5.IsWhole) (arg6 : Memref sig .tc .vmem S8x1024 .f32) (harg6 : arg6.IsWhole) (hc0 : cond1_0 i) (x0 : Vec F S8x256x1024 .f32) (x1 : Vec F S8x128 .f32) (x2 : Vec F S8x128 .f32) :
    out1_A_4 c i arg2 harg2 arg3 harg3 arg4 harg4 arg5 harg5 arg6 harg6 hc0 x0 x1 x2 = k1_pay4 x0 (colLd x1) (colLd x2) k1_pay3 := by
  unfold out1_A_4
  rw [View.read_writes_eq_canon _ _ _ (cover1_A_4 c i arg2 harg2 arg3 harg3 arg4 harg4 arg5 harg5 arg6 harg6 hc0 x0 x1 x2)]
  unfold kernelRun1_A
  dsimp only
  sl_unfold_words
  rw [View.canon_cons_unit_zero (S := S8x1024) hz2, View.readCov_unit_zero (S := S8x1024) _ hz2]
  simp only [View.readAt_eq_ld, harg2.read_unread, harg3.read_unread, harg4.read_unread, View.ld_unit_zero (S := S8x256x1024) hz3]

theorem out_B_4 (c : Dev nD) (i : grid1.Coords) (arg2 : Memref sig .tc .vmem S8x256x1024 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x256 .f32) (harg5 : arg5.IsWhole) (arg6 : Memref sig .tc .vmem S8x1024 .f32) (harg6 : arg6.IsWhole) (hc0 : ¬cond1_0 i) (x0 : Vec F S8x256x1024 .f32) (x1 : Vec F S8x128 .f32) (x2 : Vec F S8x128 .f32) (xo4 : Vec F S8x1024 .f32) :
    out1_B_4 c i arg2 harg2 arg3 harg3 arg4 harg4 arg5 harg5 arg6 harg6 hc0 x0 x1 x2 xo4 = k1_pay4 x0 (colLd x1) (colLd x2) xo4 := by
  unfold out1_B_4
  rw [View.read_writes_eq_canon _ _ _ (cover1_B_4 c i arg2 harg2 arg3 harg3 arg4 harg4 arg5 harg5 arg6 harg6 hc0 x0 x1 x2 xo4)]
  unfold kernelRun1_B
  dsimp only
  rw [View.canon_unit_zero hz2]
  simp only [View.readAt_eq_ld, harg2.read_unread, harg3.read_unread, harg4.read_unread, harg6.read_unread, View.ld_unit_zero (S := S8x256x1024) hz3, View.ld_unit_zero (S := S8x1024) hz2]

end Pieces

section Payloads

/-- The one-column load of an [8,128] buffer, read at row s, is the buffer's column 0 at row s. -/
theorem ld_col (x1 : Vec Ideal S8x128 .f32) (s : Fin 8) : colLd x1 (ix2 s 0) = x1 (ix2 s 0) := by
  show x1 ((Rect.unit (s := S8x128) ![0, 0] S8x1.size inb_S8x128_S8x1_0_0).emb (ix2 s 0)) = _
  congr 1
  funext a
  apply Fin.ext
  rw [Rect.emb_apply]
  match a with
  | ⟨0, _⟩ => show 0 + 1 * s.val = s.val; omega
  | ⟨1, _⟩ => show 0 + 1 * 0 = 0; rfl

/-- A comparison bit widened to a word and converted to a float is the 0/1 indicator. -/
theorem sitofp_cmp_ogt (a b : EReal) :
    (FloatOps.sitofp (F := Ideal) .f32 ((Ideal.cmp .ogt a b).setWidth 32) : EReal) = ind (b < a) := by
  show (((BitVec.setWidth 32 (Ideal.cmp .ogt a b)).toInt : ℝ) : EReal) = _
  by_cases h : b < a
  · rw [ind_true h]; simp [Ideal.cmp, h]
  · rw [ind_false h]; simp [Ideal.cmp, h]

theorem col_cast (v2 : Vec Ideal S8x1 .f32) (s : Fin 8) :
    shapeCast S8x1x1 (shapeCast S8 v2 shapeCasts_S8x1_S8) shapeCasts_S8_S8x1x1 (ix3 s 0 0) = v2 (ix2 s 0) := by
  refine (shapeCast_apply _ _ (ix3 s 0 0) (ix1 s) ?_).trans ?_
  · simp [Shape.rowMajor_val_one, Shape.rowMajor_val_three]
  refine (shapeCast_apply _ _ (ix1 s) (ix2 s 0) ?_).trans rfl
  simp [Shape.rowMajor_val_one, Shape.rowMajor_val_two]

/-- The mask at an element. -/
theorem pay1_apply (x0 : Vec Ideal S8x256x1024 .f32) (v2 v4 : Vec Ideal S8x1 .f32) (s : Fin 8) (q : Fin 256) (k : Fin 1024) :
    k1_pay1 (F := Ideal) x0 v2 v4 (ix3 s q k) = ind (thr (v2 (ix2 s 0)) (v4 (ix2 s 0)) < x0 (ix3 s q k)) := by
  unfold k1_pay1
  rw [sitofp_apply, extui_apply, cmpf_apply, shapeCast_self]
  rw [broadcastTo_apply _ broadcasts_S8x1x1_S8x256x1024 (ix3 s q k) (ix3 s 0 0) (fun a => by
    match a with
    | ⟨0, _⟩ => rfl
    | ⟨1, _⟩ => rfl
    | ⟨2, _⟩ => rfl)]
  rw [addf_apply, mulf_apply, addf_apply, subf_apply, broadcast_apply, broadcast_apply, col_cast, col_cast]
  exact sitofp_cmp_ogt _ _

theorem bot_acc : Ideal.ofBits .f32 0xFF800000#32 = ⊥ := by simp [Ideal.ofBits, Ideal.ieee]
theorem zero_acc : Ideal.ofBits .f32 0x00000000#32 = 0 := by simp [Ideal.ofBits, Ideal.ieee]

theorem lift2 (s : Fin 8) (q : Fin 256) (k : Fin (S8x256x1024.size 2)) :
    reduces_S8x256x1024_S8x256.lift (ix2 s q) k = ix3 s q k := by
  funext a
  apply Fin.ext
  show Shape.Reduces.liftVal reduces_S8x256x1024_S8x256 (ix2 s q) k.val a = _
  unfold Shape.Reduces.liftVal
  match a with
  | ⟨0, _⟩ => rfl
  | ⟨1, _⟩ => rfl
  | ⟨2, _⟩ => rfl

theorem lift1 (s : Fin 8) (q : Fin (S8x256x1024.size 1)) (k : Fin 1024) :
    reduces_S8x256x1024_S8x1024.lift (ix2 s k) q = ix3 s q k := by
  funext a
  apply Fin.ext
  show Shape.Reduces.liftVal reduces_S8x256x1024_S8x1024 (ix2 s k) q.val a = _
  unfold Shape.Reduces.liftVal
  match a with
  | ⟨0, _⟩ => rfl
  | ⟨1, _⟩ => rfl
  | ⟨2, _⟩ => rfl

/-- A row's lane maximum from −∞ is the supremum over the row. -/
theorem rowmax_apply (src : FVec Ideal S8x256x1024 .f32) (s : Fin 8) (q : Fin 256) :
    multiReduction .maximumf [2] S8x256 src 0xFF800000#32 reduces_S8x256x1024_S8x256 (.inl rfl) rfl (ix2 s q)
      = ⨆ k : Fin 1024, src (ix3 s q k) := by
  refine (Cert.Lib.multiReduction_maximumf_single_sup_of_bot src _ reduces_S8x256x1024_S8x256 (.inl rfl) rfl bot_acc (ix2 s q)).trans ?_
  rw [Finset.sup_univ_eq_iSup]
  exact iSup_congr fun k => congrArg src (lift2 s q k)

/-- A column's maximum over the tile's rows from −∞ is the supremum over those rows. -/
theorem colmax_apply (src : FVec Ideal S8x256x1024 .f32) (s : Fin 8) (k : Fin 1024) :
    multiReduction .maximumf [1] S8x1024 src 0xFF800000#32 reduces_S8x256x1024_S8x1024 (.inl rfl) rfl (ix2 s k)
      = ⨆ q : Fin 256, src (ix3 s q k) := by
  refine (Cert.Lib.multiReduction_maximumf_single_sup_of_bot src _ reduces_S8x256x1024_S8x1024 (.inl rfl) rfl bot_acc (ix2 s k)).trans ?_
  rw [Finset.sup_univ_eq_iSup]
  exact iSup_congr fun q => congrArg src (lift1 s q k)

theorem pay2_apply (x0 : Vec Ideal S8x256x1024 .f32) (v2 v4 : Vec Ideal S8x1 .f32) (s : Fin 8) (q : Fin 256) :
    k1_pay2 (F := Ideal) x0 v2 v4 (ix2 s q) = ⨆ k : Fin 1024, ind (thr (v2 (ix2 s 0)) (v4 (ix2 s 0)) < x0 (ix3 s q k)) := by
  unfold k1_pay2
  refine (rowmax_apply _ s q).trans ?_
  exact iSup_congr fun k => pay1_apply x0 v2 v4 s q k

theorem pay4_apply (x0 : Vec Ideal S8x256x1024 .f32) (v2 v4 : Vec Ideal S8x1 .f32) (v24 : Vec Ideal S8x1024 .f32) (s : Fin 8) (k : Fin 1024) :
    k1_pay4 (F := Ideal) x0 v2 v4 v24 (ix2 s k)
      = max (v24 (ix2 s k)) (⨆ q : Fin 256, ind (thr (v2 (ix2 s 0)) (v4 (ix2 s 0)) < x0 (ix3 s q k))) := by
  unfold k1_pay4
  rw [maximumf_apply, shapeCast_self]
  refine congrArg (max (v24 (ix2 s k))) ?_
  refine (colmax_apply _ s k).trans ?_
  exact iSup_congr fun q => pay1_apply x0 v2 v4 s q k

theorem pay3_apply (s : Fin 8) (k : Fin 1024) : k1_pay3 (F := Ideal) (ix2 s k) = 0 := by
  unfold k1_pay3
  exact zero_acc

end Payloads

section Blocks
variable (V : (c : Dev nD) → (b : Ref sig .tc) → Buf (Elt Ideal) ((c : Thread nD τ).loc b)) (c : Dev nD)

/-- Where each window's block sits at point t = 4g + r: sample group g, row tile r. -/
theorem idx_facts : ∀ t : Fin cfg1.N,
    (win1_0.index t 0 = t.val / 4 ∧ win1_0.index t 1 = t.val % 4 ∧ win1_0.index t 2 = 0)
    ∧ (win1_1.index t 0 = t.val / 4 ∧ win1_1.index t 1 = 0)
    ∧ (win1_2.index t 0 = t.val / 4 ∧ win1_2.index t 1 = 0)
    ∧ (win1_3.index t 0 = t.val / 4 ∧ win1_3.index t 1 = t.val % 4)
    ∧ (win1_4.index t 0 = t.val / 4 ∧ win1_4.index t 1 = 0) :=
  (by decide +kernel : ∀ t : Fin grid1.N,
    (win1_0.index t 0 = t.val / 4 ∧ win1_0.index t 1 = t.val % 4 ∧ win1_0.index t 2 = 0)
    ∧ (win1_1.index t 0 = t.val / 4 ∧ win1_1.index t 1 = 0)
    ∧ (win1_2.index t 0 = t.val / 4 ∧ win1_2.index t 1 = 0)
    ∧ (win1_3.index t 0 = t.val / 4 ∧ win1_3.index t 1 = t.val % 4)
    ∧ (win1_4.index t 0 = t.val / 4 ∧ win1_4.index t 1 = 0))

theorem iblk0_apply (t : Fin cfg1.N) (s : Fin 8) (q : Fin 256) (k : Fin 1024)
    (hb : 8 * (t.val / 4) + s.val < 32) (hr : 256 * (t.val % 4) + q.val < 1024) :
    (iblk1 V c 0 t : Vec Ideal S8x256x1024 .f32) (ix3 s q k)
      = img (V c main_v0) ⟨8 * (t.val / 4) + s.val, hb⟩ ⟨256 * (t.val % 4) + q.val, hr⟩ k := by
  have hi := (idx_facts t).1
  unfold iblk1 img
  rw [View.read_apply]
  show V c main_v0 _ = V c main_v0 _
  congr 1
  funext a
  apply Fin.ext
  match a with
  | ⟨0, _⟩ => show win1_0.index t 0 * 8 + 1 * s.val = 8 * (t.val / 4) + s.val; rw [hi.1]; omega
  | ⟨1, _⟩ => show win1_0.index t 1 * 256 + 1 * q.val = 256 * (t.val % 4) + q.val; rw [hi.2.1]; omega
  | ⟨2, _⟩ => show win1_0.index t 2 * 1024 + 1 * k.val = k.val; rw [hi.2.2]; omega

theorem iblk1_apply (t : Fin cfg1.N) (s : Fin 8) (l : Fin 128) (hb : 8 * (t.val / 4) + s.val < 32) :
    (iblk1 V c 1 t : Vec Ideal S8x128 .f32) (ix2 s l) = V c main_v1_0 (ix2 ⟨8 * (t.val / 4) + s.val, hb⟩ l) := by
  have hi := (idx_facts t).2.1
  unfold iblk1
  rw [View.read_apply]
  show V c main_v1_0 _ = V c main_v1_0 _
  congr 1
  funext a
  apply Fin.ext
  match a with
  | ⟨0, _⟩ => show win1_1.index t 0 * 8 + 1 * s.val = 8 * (t.val / 4) + s.val; rw [hi.1]; omega
  | ⟨1, _⟩ => show win1_1.index t 1 * 128 + 1 * l.val = l.val; rw [hi.2]; omega

theorem iblk2_apply (t : Fin cfg1.N) (s : Fin 8) (l : Fin 128) (hb : 8 * (t.val / 4) + s.val < 32) :
    (iblk1 V c 2 t : Vec Ideal S8x128 .f32) (ix2 s l) = V c main_v1_1 (ix2 ⟨8 * (t.val / 4) + s.val, hb⟩ l) := by
  have hi := (idx_facts t).2.2.1
  unfold iblk1
  rw [View.read_apply]
  show V c main_v1_1 _ = V c main_v1_1 _
  congr 1
  funext a
  apply Fin.ext
  match a with
  | ⟨0, _⟩ => show win1_2.index t 0 * 8 + 1 * s.val = 8 * (t.val / 4) + s.val; rw [hi.1]; omega
  | ⟨1, _⟩ => show win1_2.index t 1 * 128 + 1 * l.val = l.val; rw [hi.2]; omega

end Blocks

section Rows
variable (V : (c : Dev nD) → (b : Ref sig .tc) → Buf (Elt Ideal) ((c : Thread nD τ).loc b)) (c : Dev nD)

/-- What the body leaves in the row-occupancy block at any point: the row maxima of the mask of the point's blocks. -/
theorem outs3_eq (t : Fin cfg1.N) :
    (outsAt1 V c t.val t.isLt).1 = k1_pay2 (iblk1 V c 0 t) (colLd (iblk1 V c 1 t)) (colLd (iblk1 V c 2 t)) := by
  by_cases h0 : t.val % 4 = 0
  · rw [outsAt1_A V c t h0]
    dsimp only
    exact out_A_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)
  · rw [outsAt1_B V c t h0]
    dsimp only
    exact out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2

/-- The mask of the point's blocks at an element, in the arrays' own coordinates. -/
theorem tile_mask (t : Fin cfg1.N) (s : Fin 8) (q : Fin 256) (k : Fin 1024)
    (hb : 8 * (t.val / 4) + s.val < 32) (hr : 256 * (t.val % 4) + q.val < 1024) :
    ind (thr (colLd (iblk1 V c 1 t) (ix2 s 0)) (colLd (iblk1 V c 2 t) (ix2 s 0)) < (iblk1 V c 0 t : Vec Ideal S8x256x1024 .f32) (ix3 s q k))
      = ind (thr (col0 (V c main_v1_0) ⟨8 * (t.val / 4) + s.val, hb⟩) (col0 (V c main_v1_1) ⟨8 * (t.val / 4) + s.val, hb⟩)
          < img (V c main_v0) ⟨8 * (t.val / 4) + s.val, hb⟩ ⟨256 * (t.val % 4) + q.val, hr⟩ k) := by
  rw [ld_col, ld_col, iblk0_apply V c t s q k hb hr, iblk1_apply V c t s 0 hb, iblk2_apply V c t s 0 hb]
  rfl

theorem rows_pt (t : Fin cfg1.N) (s : Fin 8) (q : Fin 256)
    (hb : 8 * (t.val / 4) + s.val < 32) (hr : 256 * (t.val % 4) + q.val < 1024) :
    (outsAt1 V c t.val t.isLt).1 (ix2 s q)
      = rowsK (img (V c main_v0)) (col0 (V c main_v1_0)) (col0 (V c main_v1_1)) ⟨8 * (t.val / 4) + s.val, hb⟩ ⟨256 * (t.val % 4) + q.val, hr⟩ := by
  rw [outs3_eq, pay2_apply]
  unfold rowsK
  exact iSup_congr fun k => tile_mask V c t s q k hb hr

/-- The row-occupancy array the region leaves. -/
def rowsG : Buf (Elt Ideal) ((c : Thread nD τ).loc main_v10_0) :=
  fun i : (⟨2, ![32, 1024]⟩ : Shape).Idx => rowsK (img (V c main_v0)) (col0 (V c main_v1_0)) (col0 (V c main_v1_1)) (i 0) (i 1)

theorem flushed3_eq (t : Fin cfg1.N) (hf : (cfg1.win 3).flush t = true) :
    (dat1 V c).flushed 3 t = ((cfg1.win 3).blk t).view.read (Elt Ideal) (rowsG V c) := by
  have hN : t.val < 16 := lt_of_lt_of_eq t.isLt (show cfg1.N = 16 from N_1)
  have hi := (idx_facts t).2.2.2.1
  refine funext fun (y : S8x256.Idx) => ?_
  obtain ⟨s, q, rfl⟩ : ∃ (s : Fin 8) (q : Fin 256), y = ix2 s q := ⟨y 0, y 1, eq_ix2 y⟩
  have hb : 8 * (t.val / 4) + s.val < 32 := by have := s.isLt; omega
  have hr : 256 * (t.val % 4) + q.val < 1024 := by have := q.isLt; omega
  show (outsAt1 V c t.val t.isLt).1 (ix2 s q) = _
  rw [rows_pt V c t s q hb hr, View.read_apply]
  show _ = rowsG V c _
  unfold rowsG
  congr 1
  · apply Fin.ext
    show 8 * (t.val / 4) + s.val = win1_3.index t 0 * 8 + 1 * s.val
    rw [hi.1]; omega
  · apply Fin.ext
    show 256 * (t.val % 4) + q.val = win1_3.index t 1 * 256 + 1 * q.val
    rw [hi.2]; omega

end Rows

section Cols
variable (V : (c : Dev nD) → (b : Ref sig .tc) → Buf (Elt Ideal) ((c : Thread nD τ).loc b)) (c : Dev nD)

/-- The mask of point t's blocks at an element of the tile. -/
def tileMask (t : Fin cfg1.N) (s : Fin 8) (q : Fin 256) (k : Fin 1024) : EReal :=
  ind (thr (colLd (iblk1 V c 1 t) (ix2 s 0)) (colLd (iblk1 V c 2 t) (ix2 s 0)) < (iblk1 V c 0 t : Vec Ideal S8x256x1024 .f32) (ix3 s q k))

/-- At the first row tile of a sample group the column block is reset to zero and then raised by the tile's column maxima. -/
theorem outs4_A (t : Fin cfg1.N) (h0 : t.val % 4 = 0) :
    (outsAt1 V c t.val t.isLt).2 = k1_pay4 (iblk1 V c 0 t) (colLd (iblk1 V c 1 t)) (colLd (iblk1 V c 2 t)) (k1_pay3 (F := Ideal)) := by
  rw [outsAt1_A V c t h0]
  dsimp only
  exact out_A_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)

/-- At every other row tile it is what the tile before left, raised by this tile's column maxima. -/
theorem outs4_B (t : Fin cfg1.N) (h0 : ¬t.val % 4 = 0) :
    (outsAt1 V c t.val t.isLt).2 = k1_pay4 (iblk1 V c 0 t) (colLd (iblk1 V c 1 t)) (colLd (iblk1 V c 2 t))
      (outsAt1 V c (t.val - 1) (Nat.lt_of_le_of_lt (Nat.sub_le _ _) t.isLt)).2 := by
  rw [outsAt1_B V c t h0]
  dsimp only
  exact out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2

theorem col_stepA (t : Fin cfg1.N) (h0 : t.val % 4 = 0) (s : Fin 8) (k : Fin 1024) (z : EReal) :
    (outsAt1 V c t.val t.isLt).2 (ix2 s k) ≤ z ↔ 0 ≤ z ∧ ∀ q : Fin 256, tileMask V c t s q k ≤ z := by
  rw [outs4_A V c t h0, pay4_apply, pay3_apply, max_le_iff, iSup_le_iff]
  exact Iff.rfl

theorem col_stepB (t : Fin cfg1.N) (h0 : ¬t.val % 4 = 0) (s : Fin 8) (k : Fin 1024) (z : EReal) :
    (outsAt1 V c t.val t.isLt).2 (ix2 s k) ≤ z ↔
      (outsAt1 V c (t.val - 1) (Nat.lt_of_le_of_lt (Nat.sub_le _ _) t.isLt)).2 (ix2 s k) ≤ z ∧ ∀ q : Fin 256, tileMask V c t s q k ≤ z := by
  rw [outs4_B V c t h0, pay4_apply, max_le_iff, iSup_le_iff]
  exact Iff.rfl

/-- The upper bounds of the column block's entry after point n are the non-negative upper bounds of the masks of the row
    tiles of n's sample group up to n: the running maximum from zero, carried by its universal property. -/
theorem cols_inv (s : Fin 8) (k : Fin 1024) (z : EReal) : ∀ (n : ℕ) (hn : n < cfg1.N),
    (outsAt1 V c n hn).2 (ix2 s k) ≤ z ↔
      0 ≤ z ∧ ∀ t' : Fin cfg1.N, t'.val / 4 = n / 4 → t'.val ≤ n → ∀ q : Fin 256, tileMask V c t' s q k ≤ z := by
  intro n
  induction n with
  | zero =>
    intro hn
    refine (col_stepA V c ⟨0, hn⟩ rfl s k z).trans (and_congr_right fun _ => ?_)
    constructor
    · intro h t' _ hle q
      obtain rfl : t' = ⟨0, hn⟩ := Fin.ext (Nat.le_zero.mp hle)
      exact h q
    · intro h q; exact h ⟨0, hn⟩ rfl le_rfl q
  | succ n ih =>
    intro hn
    by_cases h0 : (n + 1) % 4 = 0
    · refine (col_stepA V c ⟨n + 1, hn⟩ h0 s k z).trans (and_congr_right fun _ => ?_)
      constructor
      · intro h t' hd hle q
        obtain rfl : t' = ⟨n + 1, hn⟩ := Fin.ext (by show t'.val = n + 1; omega)
        exact h q
      · intro h q; exact h ⟨n + 1, hn⟩ rfl le_rfl q
    · refine (col_stepB V c ⟨n + 1, hn⟩ h0 s k z).trans ?_
      show (outsAt1 V c n (Nat.lt_of_succ_lt hn)).2 (ix2 s k) ≤ z ∧ _ ↔ _
      rw [ih (Nat.lt_of_succ_lt hn)]
      constructor
      · rintro ⟨⟨hz, h⟩, hq⟩
        refine ⟨hz, fun t' hd hle q => ?_⟩
        by_cases e : t'.val = n + 1
        · obtain rfl : t' = ⟨n + 1, hn⟩ := Fin.ext e
          exact hq q
        · exact h t' (by omega) (by omega) q
      · rintro ⟨hz, h⟩
        exact ⟨⟨hz, fun t' hd hle q => h t' (by omega) (by omega) q⟩, fun q => h ⟨n + 1, hn⟩ rfl le_rfl q⟩

theorem ind_nonneg (p : Prop) : 0 ≤ ind p := by
  by_cases h : p
  · rw [ind_true h]; exact zero_le_one
  · rw [ind_false h]

/-- The indicator depends on the coordinates' values only. -/
theorem mask_congr (x : Img) (L H : Vec32) {b b' : Fin 32} {r r' : Fin 1024} (k : Fin 1024)
    (hb : b.val = b'.val) (hr : r.val = r'.val) :
    ind (thr (L b) (H b) < x b r k) = ind (thr (L b') (H b') < x b' r' k) := by
  obtain rfl := Fin.ext hb; obtain rfl := Fin.ext hr; rfl

/-- After the last row tile of a sample group the column block holds the column occupancy over all 1024 rows: the
    maximum from zero of the four tiles' suprema is the supremum, every indicator being non-negative. -/
theorem cols_pt (t : Fin cfg1.N) (h3 : t.val % 4 = 3) (s : Fin 8) (k : Fin 1024) (hb : 8 * (t.val / 4) + s.val < 32) :
    (outsAt1 V c t.val t.isLt).2 (ix2 s k)
      = colsK (img (V c main_v0)) (col0 (V c main_v1_0)) (col0 (V c main_v1_1)) ⟨8 * (t.val / 4) + s.val, hb⟩ k := by
  have hN : cfg1.N = 16 := N_1
  have htN : t.val < 16 := lt_of_lt_of_eq t.isLt hN
  refine eq_of_forall_ge_iff fun z => ?_
  rw [cols_inv V c s k z t.val t.isLt]
  unfold colsK
  rw [iSup_le_iff]
  constructor
  · rintro ⟨-, h⟩ r
    have hr := r.isLt
    have ht' : 4 * (t.val / 4) + r.val / 256 < cfg1.N := lt_of_lt_of_eq (by omega) hN.symm
    have hq : r.val % 256 < 256 := Nat.mod_lt _ (by norm_num)
    have hb' : 8 * ((4 * (t.val / 4) + r.val / 256) / 4) + s.val < 32 := by omega
    have hr' : 256 * ((4 * (t.val / 4) + r.val / 256) % 4) + r.val % 256 < 1024 := by omega
    have key := h ⟨4 * (t.val / 4) + r.val / 256, ht'⟩ (by show (4 * (t.val / 4) + r.val / 256) / 4 = t.val / 4; omega)
      (by show 4 * (t.val / 4) + r.val / 256 ≤ t.val; omega) ⟨r.val % 256, hq⟩
    unfold tileMask at key
    rw [tile_mask V c ⟨4 * (t.val / 4) + r.val / 256, ht'⟩ s ⟨r.val % 256, hq⟩ k hb' hr'] at key
    refine le_of_eq_of_le (mask_congr _ _ _ k ?_ ?_) key
    · show 8 * (t.val / 4) + s.val = 8 * ((4 * (t.val / 4) + r.val / 256) / 4) + s.val; omega
    · show r.val = 256 * ((4 * (t.val / 4) + r.val / 256) % 4) + r.val % 256; omega
  · intro h
    refine ⟨(ind_nonneg _).trans (h 0), fun t' hd hle q => ?_⟩
    have hq := q.isLt
    have hb' : 8 * (t'.val / 4) + s.val < 32 := by omega
    have hr' : 256 * (t'.val % 4) + q.val < 1024 := by omega
    unfold tileMask
    rw [tile_mask V c t' s q k hb' hr']
    refine le_of_eq_of_le (mask_congr _ _ _ k ?_ rfl) (h ⟨256 * (t'.val % 4) + q.val, hr'⟩)
    show 8 * (t'.val / 4) + s.val = 8 * (t.val / 4) + s.val; omega

/-- The column-occupancy array the region leaves. -/
def colsG : Buf (Elt Ideal) ((c : Thread nD τ).loc main_v10_1) :=
  fun i : (⟨2, ![32, 1024]⟩ : Shape).Idx => colsK (img (V c main_v0)) (col0 (V c main_v1_0)) (col0 (V c main_v1_1)) (i 0) (i 1)

theorem flushed4_eq (t : Fin cfg1.N) (hf : (cfg1.win 4).flush t = true) :
    (dat1 V c).flushed 4 t = ((cfg1.win 4).blk t).view.read (Elt Ideal) (colsG V c) := by
  have hN : t.val < 16 := lt_of_lt_of_eq t.isLt (show cfg1.N = 16 from N_1)
  have h3 : t.val % 4 = 3 := (flush1_4 t).mp hf
  have hi := (idx_facts t).2.2.2.2
  refine funext fun (y : S8x1024.Idx) => ?_
  obtain ⟨s, k, rfl⟩ : ∃ (s : Fin 8) (k : Fin 1024), y = ix2 s k := ⟨y 0, y 1, eq_ix2 y⟩
  have hb : 8 * (t.val / 4) + s.val < 32 := by have := s.isLt; omega
  show (outsAt1 V c t.val t.isLt).2 (ix2 s k) = _
  rw [cols_pt V c t h3 s k hb, View.read_apply]
  show _ = colsG V c _
  unfold colsG
  congr 1
  · apply Fin.ext
    show 8 * (t.val / 4) + s.val = win1_4.index t 0 * 8 + 1 * s.val
    rw [hi.1]; omega
  · apply Fin.ext
    show k.val = win1_4.index t 1 * 1024 + 1 * k.val
    rw [hi.2]; omega

end Cols

section Arrays
variable (V : (c : Dev nD) → (b : Ref sig .tc) → Buf (Elt Ideal) ((c : Thread nD τ).loc b)) (c : Dev nD)

/-- The row occupancy: sample b, row r lies in the block of point 4·(b/8) + r/256, which writes it back. -/
theorem rows_arr (b : Fin 32) (r : Fin 1024) :
    (dat1 (F := Ideal) V c).arrAt 3 cfg1.N (ix2 b r)
      = rowsK (img (V c main_v0)) (col0 (V c main_v1_0)) (col0 (V c main_v1_1)) b r := by
  have hN : cfg1.N = 16 := N_1
  have hb := b.isLt
  have hr := r.isLt
  have ht : 4 * (b.val / 8) + r.val / 256 < cfg1.N := lt_of_lt_of_eq (by omega) hN.symm
  have hi := (idx_facts ⟨4 * (b.val / 8) + r.val / 256, ht⟩).2.2.2.1
  refine ((dat1 V c).arrAt_apply_of_mem 3 (rowsG V c) (flushed3_eq V c) cfg1.N ⟨4 * (b.val / 8) + r.val / 256, ht⟩ (ix2 b r) ht
    (flush1_3 _) ?_).trans rfl
  show ix2 b r ∈ ((View.whole main_v10_0).slice (win1_3.rect ⟨4 * (b.val / 8) + r.val / 256, ht⟩)).set
  rw [View.set_slice_whole, Rect.mem_set_unit]
  intro a
  match a with
  | ⟨0, _⟩ =>
    show win1_3.index ⟨4 * (b.val / 8) + r.val / 256, ht⟩ 0 * 8 ≤ b.val ∧ b.val < win1_3.index ⟨4 * (b.val / 8) + r.val / 256, ht⟩ 0 * 8 + 8
    rw [hi.1]
    show (4 * (b.val / 8) + r.val / 256) / 4 * 8 ≤ b.val ∧ b.val < (4 * (b.val / 8) + r.val / 256) / 4 * 8 + 8
    omega
  | ⟨1, _⟩ =>
    show win1_3.index ⟨4 * (b.val / 8) + r.val / 256, ht⟩ 1 * 256 ≤ r.val ∧ r.val < win1_3.index ⟨4 * (b.val / 8) + r.val / 256, ht⟩ 1 * 256 + 256
    rw [hi.2]
    show (4 * (b.val / 8) + r.val / 256) % 4 * 256 ≤ r.val ∧ r.val < (4 * (b.val / 8) + r.val / 256) % 4 * 256 + 256
    omega

/-- The column occupancy: sample b lies in the block of the last row tile of its group, point 4·(b/8) + 3, which writes it back. -/
theorem cols_arr (b : Fin 32) (k : Fin 1024) :
    (dat1 (F := Ideal) V c).arrAt 4 cfg1.N (ix2 b k)
      = colsK (img (V c main_v0)) (col0 (V c main_v1_0)) (col0 (V c main_v1_1)) b k := by
  have hN : cfg1.N = 16 := N_1
  have hb := b.isLt
  have hk := k.isLt
  have ht : 4 * (b.val / 8) + 3 < cfg1.N := lt_of_lt_of_eq (by omega) hN.symm
  have hi := (idx_facts ⟨4 * (b.val / 8) + 3, ht⟩).2.2.2.2
  refine ((dat1 V c).arrAt_apply_of_mem 4 (colsG V c) (flushed4_eq V c) cfg1.N ⟨4 * (b.val / 8) + 3, ht⟩ (ix2 b k) ht
    ((flush1_4 _).mpr (by show (4 * (b.val / 8) + 3) % 4 = 3; omega)) ?_).trans rfl
  show ix2 b k ∈ ((View.whole main_v10_1).slice (win1_4.rect ⟨4 * (b.val / 8) + 3, ht⟩)).set
  rw [View.set_slice_whole, Rect.mem_set_unit]
  intro a
  match a with
  | ⟨0, _⟩ =>
    show win1_4.index ⟨4 * (b.val / 8) + 3, ht⟩ 0 * 8 ≤ b.val ∧ b.val < win1_4.index ⟨4 * (b.val / 8) + 3, ht⟩ 0 * 8 + 8
    rw [hi.1]
    show (4 * (b.val / 8) + 3) / 4 * 8 ≤ b.val ∧ b.val < (4 * (b.val / 8) + 3) / 4 * 8 + 8
    omega
  | ⟨1, _⟩ =>
    show win1_4.index ⟨4 * (b.val / 8) + 3, ht⟩ 1 * 1024 ≤ k.val ∧ k.val < win1_4.index ⟨4 * (b.val / 8) + 3, ht⟩ 1 * 1024 + 1024
    rw [hi.2]
    omega

end Arrays

end Cert.KernelIdeal.Region1
end
-- ==== Proof.Region2.lean ====
/-
  What the third pass leaves in its two result arrays, for any contents of the buffers when the pass is entered,
  at the ideal instance (floats are extended reals, every operation exact).

  The pass walks 16 grid points; point t = 4g + r handles samples 8g … 8g+7 and rows 256r … 256r+255 of every column.
  Its body keeps two [8,128] accumulators, one row per sample of the block, every lane of a row holding the same value.
  At r = 0 both are set to zero; at every point each sample's tile sums

      Σ_{q<256} Σ_{k<1024} (pn − srow·scol)²      and      Σ_{q<256} Σ_{k<1024} |[pn > ½] − srow·scol|

  (pn = (x − lo)/(hi − lo + ε), lo and hi read from column 0 of the two bound arrays, srow and scol the row and column
  factors) are added to them; after r = 3 the two blocks are written to rows 8g … 8g+7 of the two result arrays.
  So row b of a result array ends holding 0 plus the four tile sums of sample b. Addition on the extended reals is
  commutative and associative, and the 1024 rows are the 4 tiles of 256 rows (row = 256·tile + q), so that is the sum
  over all rows and columns: `mseK … b` in the first array and `xorK … b` in the second (`mse_arr`, `xor_arr`).

  The order of the file: what each control case of the body leaves in an accumulator, as a term of the body's own
  arithmetic (`out_A_5` … `out_B_6`); that arithmetic read at an index (`pay5_apply` … `pay8_apply`); the blocks the
  windows hand the body, read at an element of their arrays (`iblk0_apply` … `iblk4_apply`); the accumulator after a
  point as the sum of its run's addends so far (`outs5_eq`, `outs6_eq`); an addend as a row tile of the per-sample sum
  (`M5_apply`, `M6_apply`) and the four tiles as the whole sum (`sum_rows`, `outs5_val`, `outs6_val`); the written-back
  block as a block of the per-sample sums (`flushed5_eq`, `flushed6_eq`); the result arrays.
-/
import proofs.«163302_j24532853195288_2_alg».proof.Proof.Gen.KernelIdeal.Frame
import proofs.«163302_j24532853195288_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open scoped BigOperators

namespace Cert.KernelIdeal.Region2

open Cert.KernelIdeal Cert.KernelIdeal.Gen Idealize.ShloMosaic.ValueIdx Cert.RectFill

/-! ## What each control case leaves in the two accumulators -/

variable {F : FTy → Type} [FloatOps F]

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Column 0 of an [8,128] buffer, as the [8,1] vector the body loads from it. -/
abbrev colOf (x : Vec F S8x128 .f32) : Vec F S8x1 .f32 := View.ld x (Rect.unit (s := S8x128) ![0, 0] S8x1.size inb_S8x128_S8x1_0_0)

/-- The tile's squared-error sums, one per sample of the block, along the 128 lanes. -/
abbrev sq (x0 : Vec F S8x256x1024 .f32) (x1 : Vec F S8x128 .f32) (x2 : Vec F S8x128 .f32) (x3 : Vec F S8x256 .f32) (x4 : Vec F S8x1024 .f32) : FVec F S8x128 .f32 := k2_pay7 x0 (colOf x1) (colOf x2) x3 x4
/-- The tile's absolute-difference sums, one per sample of the block, as a column. -/
abbrev ab (x0 : Vec F S8x256x1024 .f32) (x1 : Vec F S8x128 .f32) (x2 : Vec F S8x128 .f32) (x3 : Vec F S8x256 .f32) (x4 : Vec F S8x1024 .f32) : FVec F S8x1 .f32 := k2_pay8 x0 (colOf x1) (colOf x2) x3 x4

/-- At a point that does not reset, the first accumulator is left at what it held plus the tile's squared-error sums. -/
theorem out_B_5 (c : Dev nD) (i : grid2.Coords) (a0 : Memref sig .tc .vmem S8x256x1024 .f32) (h0 : a0.IsWhole) (a1 : Memref sig .tc .vmem S8x128 .f32) (h1 : a1.IsWhole) (a2 : Memref sig .tc .vmem S8x128 .f32) (h2 : a2.IsWhole) (a3 : Memref sig .tc .vmem S8x256 .f32) (h3 : a3.IsWhole) (a4 : Memref sig .tc .vmem S8x1024 .f32) (h4 : a4.IsWhole) (a5 : Memref sig .tc .vmem S8x128 .f32) (h5 : a5.IsWhole) (a6 : Memref sig .tc .vmem S8x128 .f32) (h6 : a6.IsWhole) (hc : ¬cond2_0 i) (x0 : Vec F S8x256x1024 .f32) (x1 : Vec F S8x128 .f32) (x2 : Vec F S8x128 .f32) (x3 : Vec F S8x256 .f32) (x4 : Vec F S8x1024 .f32) (xo5 xo6 : Vec F S8x128 .f32) :
    out2_B_5 c i a0 h0 a1 h1 a2 h2 a3 h3 a4 h4 a5 h5 a6 h6 hc x0 x1 x2 x3 x4 xo5 xo6 = k2_pay3 (sq x0 x1 x2 x3 x4) xo5 := by
  unfold out2_B_5
  rw [View.read_writes_eq_canon _ _ _ (cover2_B_5 c i a0 h0 a1 h1 a2 h2 a3 h3 a4 h4 a5 h5 a6 h6 hc x0 x1 x2 x3 x4 xo5 xo6)]
  unfold kernelRun2_B
  dsimp only
  sl_unfold_words
  rw [View.canon_unit_zero (S := S8x128) hz2]
  simp only [View.readAt_eq_ld, h0.read_unread, h1.read_unread, h2.read_unread, h3.read_unread, h4.read_unread, h5.read_unread,
    View.ld_unit_zero (S := S8x128) hz2, View.ld_unit_zero (S := S8x256x1024) hz3, View.ld_unit_zero (S := S8x256) hz2,
    View.ld_unit_zero (S := S8x1024) hz2]

/-- At a point that does not reset, the second accumulator is left at what it held plus the tile's absolute-difference sums. -/
theorem out_B_6 (c : Dev nD) (i : grid2.Coords) (a0 : Memref sig .tc .vmem S8x256x1024 .f32) (h0 : a0.IsWhole) (a1 : Memref sig .tc .vmem S8x128 .f32) (h1 : a1.IsWhole) (a2 : Memref sig .tc .vmem S8x128 .f32) (h2 : a2.IsWhole) (a3 : Memref sig .tc .vmem S8x256 .f32) (h3 : a3.IsWhole) (a4 : Memref sig .tc .vmem S8x1024 .f32) (h4 : a4.IsWhole) (a5 : Memref sig .tc .vmem S8x128 .f32) (h5 : a5.IsWhole) (a6 : Memref sig .tc .vmem S8x128 .f32) (h6 : a6.IsWhole) (hc : ¬cond2_0 i) (x0 : Vec F S8x256x1024 .f32) (x1 : Vec F S8x128 .f32) (x2 : Vec F S8x128 .f32) (x3 : Vec F S8x256 .f32) (x4 : Vec F S8x1024 .f32) (xo5 xo6 : Vec F S8x128 .f32) :
    out2_B_6 c i a0 h0 a1 h1 a2 h2 a3 h3 a4 h4 a5 h5 a6 h6 hc x0 x1 x2 x3 x4 xo5 xo6 = k2_pay4 (ab x0 x1 x2 x3 x4) xo6 := by
  unfold out2_B_6
  rw [View.read_writes_eq_canon _ _ _ (cover2_B_6 c i a0 h0 a1 h1 a2 h2 a3 h3 a4 h4 a5 h5 a6 h6 hc x0 x1 x2 x3 x4 xo5 xo6)]
  unfold kernelRun2_B
  dsimp only
  sl_unfold_words
  rw [View.canon_unit_zero (S := S8x128) hz2]
  simp only [View.readAt_eq_ld, h0.read_unread, h1.read_unread, h2.read_unread, h3.read_unread, h4.read_unread, h6.read_unread,
    View.ld_unit_zero (S := S8x128) hz2, View.ld_unit_zero (S := S8x256x1024) hz3, View.ld_unit_zero (S := S8x256) hz2,
    View.ld_unit_zero (S := S8x1024) hz2]

/-- At a point that resets, the first accumulator is left at the zero block plus the tile's squared-error sums. -/
theorem out_A_5 (c : Dev nD) (i : grid2.Coords) (a0 : Memref sig .tc .vmem S8x256x1024 .f32) (h0 : a0.IsWhole) (a1 : Memref sig .tc .vmem S8x128 .f32) (h1 : a1.IsWhole) (a2 : Memref sig .tc .vmem S8x128 .f32) (h2 : a2.IsWhole) (a3 : Memref sig .tc .vmem S8x256 .f32) (h3 : a3.IsWhole) (a4 : Memref sig .tc .vmem S8x1024 .f32) (h4 : a4.IsWhole) (a5 : Memref sig .tc .vmem S8x128 .f32) (h5 : a5.IsWhole) (a6 : Memref sig .tc .vmem S8x128 .f32) (h6 : a6.IsWhole) (hc : cond2_0 i) (x0 : Vec F S8x256x1024 .f32) (x1 : Vec F S8x128 .f32) (x2 : Vec F S8x128 .f32) (x3 : Vec F S8x256 .f32) (x4 : Vec F S8x1024 .f32) :
    out2_A_5 c i a0 h0 a1 h1 a2 h2 a3 h3 a4 h4 a5 h5 a6 h6 hc x0 x1 x2 x3 x4 = k2_pay3 (sq x0 x1 x2 x3 x4) k2_pay1 := by
  unfold out2_A_5
  rw [View.read_writes_eq_canon _ _ _ (cover2_A_5 c i a0 h0 a1 h1 a2 h2 a3 h3 a4 h4 a5 h5 a6 h6 hc x0 x1 x2 x3 x4)]
  unfold kernelRun2_A
  dsimp only
  sl_unfold_words
  rw [View.canon_cons_unit_zero (S := S8x128) hz2, View.readCov_unit_zero (S := S8x128) _ hz2]
  simp only [View.readAt_eq_ld, h0.read_unread, h1.read_unread, h2.read_unread, h3.read_unread, h4.read_unread,
    View.ld_unit_zero (S := S8x128) hz2, View.ld_unit_zero (S := S8x256x1024) hz3, View.ld_unit_zero (S := S8x256) hz2,
    View.ld_unit_zero (S := S8x1024) hz2]

/-- At a point that resets, the second accumulator is left at the zero block plus the tile's absolute-difference sums. -/
theorem out_A_6 (c : Dev nD) (i : grid2.Coords) (a0 : Memref sig .tc .vmem S8x256x1024 .f32) (h0 : a0.IsWhole) (a1 : Memref sig .tc .vmem S8x128 .f32) (h1 : a1.IsWhole) (a2 : Memref sig .tc .vmem S8x128 .f32) (h2 : a2.IsWhole) (a3 : Memref sig .tc .vmem S8x256 .f32) (h3 : a3.IsWhole) (a4 : Memref sig .tc .vmem S8x1024 .f32) (h4 : a4.IsWhole) (a5 : Memref sig .tc .vmem S8x128 .f32) (h5 : a5.IsWhole) (a6 : Memref sig .tc .vmem S8x128 .f32) (h6 : a6.IsWhole) (hc : cond2_0 i) (x0 : Vec F S8x256x1024 .f32) (x1 : Vec F S8x128 .f32) (x2 : Vec F S8x128 .f32) (x3 : Vec F S8x256 .f32) (x4 : Vec F S8x1024 .f32) :
    out2_A_6 c i a0 h0 a1 h1 a2 h2 a3 h3 a4 h4 a5 h5 a6 h6 hc x0 x1 x2 x3 x4 = k2_pay4 (ab x0 x1 x2 x3 x4) k2_pay2 := by
  unfold out2_A_6
  rw [View.read_writes_eq_canon _ _ _ (cover2_A_6 c i a0 h0 a1 h1 a2 h2 a3 h3 a4 h4 a5 h5 a6 h6 hc x0 x1 x2 x3 x4)]
  unfold kernelRun2_A
  dsimp only
  sl_unfold_words
  rw [View.canon_cons_unit_zero (S := S8x128) hz2, View.readCov_unit_zero (S := S8x128) _ hz2]
  simp only [View.readAt_eq_ld, h0.read_unread, h1.read_unread, h2.read_unread, h3.read_unread, h4.read_unread,
    View.ld_unit_zero (S := S8x128) hz2, View.ld_unit_zero (S := S8x256x1024) hz3, View.ld_unit_zero (S := S8x256) hz2,
    View.ld_unit_zero (S := S8x1024) hz2]

/-! ## The layout operations of the body, read at an index -/

section Layout
variable {α : Type}

theorem bcast_col (v : S8x1.Idx → α) (h : S8x1.Broadcasts S8x128) (s : Fin 8) (l : Fin 128) :
    broadcastTo S8x128 v h (ix2 s l) = v (ix2 s 0) :=
  broadcastTo_apply v h (ix2 s l) (ix2 s 0) fun a => match a with
    | ⟨0, _⟩ => rfl
    | ⟨1, _⟩ => rfl

theorem cast_col (v : S8.Idx → α) (h : S8.ShapeCasts S8x1) (s : Fin 8) :
    shapeCast S8x1 v h (ix2 s 0) = v (ix1 s) :=
  shapeCast_apply v h (ix2 s 0) (ix1 s) (by
    rw [Shape.rowMajor_val_one, Shape.rowMajor_val_two]; show s.val = s.val * 1 + 0; omega)

theorem cast_uncol (v : S8x1.Idx → α) (h : S8x1.ShapeCasts S8) (s : Fin 8) :
    shapeCast S8 v h (ix1 s) = v (ix2 s 0) :=
  shapeCast_apply v h (ix1 s) (ix2 s 0) (by
    rw [Shape.rowMajor_val_one, Shape.rowMajor_val_two]; show s.val * 1 + 0 = s.val; omega)

theorem cast_811 (v : S8.Idx → α) (h : S8.ShapeCasts S8x1x1) (s : Fin 8) :
    shapeCast S8x1x1 v h (ix3 s 0 0) = v (ix1 s) :=
  shapeCast_apply v h (ix3 s 0 0) (ix1 s) (by
    rw [Shape.rowMajor_val_one, Shape.rowMajor_val_three]; show s.val = (s.val * 1 + 0) * 1 + 0; omega)

theorem bcast_811 (v : S8x1x1.Idx → α) (h : S8x1x1.Broadcasts S8x256x1024) (s : Fin 8) (q : Fin 256) (k : Fin 1024) :
    broadcastTo S8x256x1024 v h (ix3 s q k) = v (ix3 s 0 0) :=
  broadcastTo_apply v h (ix3 s q k) (ix3 s 0 0) fun a => match a with
    | ⟨0, _⟩ => rfl
    | ⟨1, _⟩ => rfl
    | ⟨2, _⟩ => rfl

theorem bcast_rows (v : S8x256x1.Idx → α) (h : S8x256x1.Broadcasts S8x256x1024) (s : Fin 8) (q : Fin 256) (k : Fin 1024) :
    broadcastTo S8x256x1024 v h (ix3 s q k) = v (ix3 s q 0) :=
  broadcastTo_apply v h (ix3 s q k) (ix3 s q 0) fun a => match a with
    | ⟨0, _⟩ => rfl
    | ⟨1, _⟩ => rfl
    | ⟨2, _⟩ => rfl

theorem bcast_cols (v : S8x1x1024.Idx → α) (h : S8x1x1024.Broadcasts S8x256x1024) (s : Fin 8) (q : Fin 256) (k : Fin 1024) :
    broadcastTo S8x256x1024 v h (ix3 s q k) = v (ix3 s 0 k) :=
  broadcastTo_apply v h (ix3 s q k) (ix3 s 0 k) fun a => match a with
    | ⟨0, _⟩ => rfl
    | ⟨1, _⟩ => rfl
    | ⟨2, _⟩ => rfl

theorem cast_rows (v : S8x256.Idx → α) (h : S8x256.ShapeCasts S8x256x1) (s : Fin 8) (q : Fin 256) :
    shapeCast S8x256x1 v h (ix3 s q 0) = v (ix2 s q) :=
  shapeCast_apply v h (ix3 s q 0) (ix2 s q) (by
    rw [Shape.rowMajor_val_two, Shape.rowMajor_val_three]; show s.val * 256 + q.val = (s.val * 256 + q.val) * 1 + 0; omega)

theorem cast_cols (v : S8x1024.Idx → α) (h : S8x1024.ShapeCasts S8x1x1024) (s : Fin 8) (k : Fin 1024) :
    shapeCast S8x1x1024 v h (ix3 s 0 k) = v (ix2 s k) :=
  shapeCast_apply v h (ix3 s 0 k) (ix2 s k) (by
    rw [Shape.rowMajor_val_two, Shape.rowMajor_val_three]; show s.val * 1024 + k.val = (s.val * 1 + 0) * 1024 + k.val; omega)

end Layout

/-! ## The body's arithmetic at the ideal instance, at an index -/

/-- The sum over rows and columns of an [8,256,1024] block, kept as a column. -/
theorem sum2_apply (w : FVec Ideal S8x256x1024 .f32) (hφ : FKind.Formats .f32)
    (ha : (0x00000000#32 : BitVec 32) = FKind.add.neutral .f32 hφ) (h2 : S8x256x1024.Reduces [2] S8x256)
    (h1 : S8x256.Reduces [1] S8) (s : Fin 8) :
    multiReduction .add [1] S8 (multiReduction .add [2] S8x256 w 0x00000000#32 h2 hφ ha) 0x00000000#32 h1 hφ ha (ix1 s)
      = ∑ q : Fin 256, ∑ k : Fin 1024, w (ix3 s q k) := by
  refine (Ideal.multiReduction_add_single _ _ h1 hφ ha (ix1 s)).trans ?_
  refine Finset.sum_congr rfl fun q _ => ?_
  refine (Ideal.multiReduction_add_single w _ h2 hφ ha _).trans ?_
  refine Finset.sum_congr rfl fun k _ => congrArg w ?_
  funext a
  match a with
  | ⟨0, _⟩ => rfl
  | ⟨1, _⟩ => rfl
  | ⟨2, _⟩ => rfl

/-- The normalised entry as the body computes it, from the block, the two bound columns and the kernel's ε word. -/
def pnB (x0 : Vec Ideal S8x256x1024 .f32) (v2 v4 : Vec Ideal S8x1 .f32) (s : Fin 8) (q : Fin 256) (k : Fin 1024) : EReal :=
  Ideal.div (x0 (ix3 s q k) - v2 (ix2 s 0)) (v4 (ix2 s 0) - v2 (ix2 s 0) + Ideal.ofBits .f32 0x322BCC77#32)

theorem pay5_apply (x0 : Vec Ideal S8x256x1024 .f32) (v2 v4 : Vec Ideal S8x1 .f32) (s : Fin 8) (q : Fin 256) (k : Fin 1024) :
    k2_pay5 (F := Ideal) x0 v2 v4 (ix3 s q k) = pnB x0 v2 v4 s q k := by
  unfold k2_pay5 pnB
  rw [divf_apply, subf_apply, bcast_811, bcast_811, addf_apply, subf_apply, cast_811, cast_811, cast_uncol, cast_uncol,
    shapeCast_self, broadcast_apply]
  rfl

theorem pay6_apply (x3 : Vec Ideal S8x256 .f32) (x4 : Vec Ideal S8x1024 .f32) (s : Fin 8) (q : Fin 256) (k : Fin 1024) :
    k2_pay6 (F := Ideal) x3 x4 (ix3 s q k) = x3 (ix2 s q) * x4 (ix2 s k) := by
  unfold k2_pay6
  rw [mulf_apply, bcast_rows, bcast_cols, cast_rows, cast_cols, shapeCast_self, shapeCast_self]

theorem pay3_apply (v38 : FVec Ideal S8x128 .f32) (v45 : Vec Ideal S8x128 .f32) (j : S8x128.Idx) :
    k2_pay3 (F := Ideal) v38 v45 j = v45 j + v38 j := by
  unfold k2_pay3
  rw [addf_apply, shapeCast_self]

theorem pay4_apply (v40 : FVec Ideal S8x1 .f32) (v49 : Vec Ideal S8x128 .f32) (s : Fin 8) (l : Fin 128) :
    k2_pay4 (F := Ideal) v40 v49 (ix2 s l) = v49 (ix2 s l) + v40 (ix2 s 0) := by
  unfold k2_pay4
  rw [addf_apply, shapeCast_self, bcast_col]

theorem pay1_apply (j : S8x128.Idx) : k2_pay1 (F := Ideal) j = 0 := by
  unfold k2_pay1
  rw [broadcast_apply]
  exact Ideal.ofBits_zero_f32

theorem pay2_apply (j : S8x128.Idx) : k2_pay2 (F := Ideal) j = 0 := by
  unfold k2_pay2
  rw [broadcast_apply]
  exact Ideal.ofBits_zero_f32

/-- One element's squared error against the product of its row and column factors. -/
def sqT (x0 : Vec Ideal S8x256x1024 .f32) (v2 v4 : Vec Ideal S8x1 .f32) (x3 : Vec Ideal S8x256 .f32) (x4 : Vec Ideal S8x1024 .f32)
    (s : Fin 8) (q : Fin 256) (k : Fin 1024) : EReal :=
  (pnB x0 v2 v4 s q k - x3 (ix2 s q) * x4 (ix2 s k)) * (pnB x0 v2 v4 s q k - x3 (ix2 s q) * x4 (ix2 s k))

/-- One element's |[pn > ½] − row factor · column factor|. -/
def abT (x0 : Vec Ideal S8x256x1024 .f32) (v2 v4 : Vec Ideal S8x1 .f32) (x3 : Vec Ideal S8x256 .f32) (x4 : Vec Ideal S8x1024 .f32)
    (s : Fin 8) (q : Fin 256) (k : Fin 1024) : EReal :=
  absE (ind (half < pnB x0 v2 v4 s q k) - x3 (ix2 s q) * x4 (ix2 s k))

theorem pay7_apply (x0 : Vec Ideal S8x256x1024 .f32) (v2 v4 : Vec Ideal S8x1 .f32) (x3 : Vec Ideal S8x256 .f32) (x4 : Vec Ideal S8x1024 .f32)
    (s : Fin 8) (l : Fin 128) :
    k2_pay7 (F := Ideal) x0 v2 v4 x3 x4 (ix2 s l) = ∑ q : Fin 256, ∑ k : Fin 1024, sqT x0 v2 v4 x3 x4 s q k := by
  unfold k2_pay7
  dsimp only
  refine (bcast_col _ _ s l).trans ?_
  rw [shapeCast_self]
  refine (cast_col _ _ s).trans ?_
  refine (sum2_apply _ _ _ _ _ s).trans ?_
  refine Finset.sum_congr rfl fun q _ => Finset.sum_congr rfl fun k _ => ?_
  rw [mulf_apply, subf_apply, pay5_apply, pay6_apply]
  rfl

/-- The kernel's 0/1 float of a comparison: the indicator. -/
theorem ind_of_cmp (x : EReal) :
    (FloatOps.sitofp (F := Ideal) .f32 ((FloatOps.cmpf (F := Ideal) .ogt x (Ideal.ofBits .f32 0x3F000000#32)).setWidth 32) : EReal) = ind (half < x) := by
  show (((((Ideal.cmp .ogt x (Ideal.ofBits .f32 0x3F000000#32)).setWidth 32).toInt : ℝ)) : EReal) = _
  unfold Ideal.cmp half
  dsimp only
  by_cases h : Ideal.ofBits .f32 0x3F000000#32 < x
  · rw [decide_eq_true h, ind_true h]
    simp
  · rw [decide_eq_false h, ind_false h]
    simp

theorem pay8_apply (x0 : Vec Ideal S8x256x1024 .f32) (v2 v4 : Vec Ideal S8x1 .f32) (x3 : Vec Ideal S8x256 .f32) (x4 : Vec Ideal S8x1024 .f32)
    (s : Fin 8) :
    k2_pay8 (F := Ideal) x0 v2 v4 x3 x4 (ix2 s 0) = ∑ q : Fin 256, ∑ k : Fin 1024, abT x0 v2 v4 x3 x4 s q k := by
  unfold k2_pay8
  dsimp only
  rw [shapeCast_self]
  refine (cast_col _ _ s).trans ?_
  refine (sum2_apply _ _ _ _ _ s).trans ?_
  refine Finset.sum_congr rfl fun q _ => Finset.sum_congr rfl fun k _ => ?_
  show max _ (-_) = _
  rw [subf_apply, pay6_apply, sitofp_apply, extui_apply, cmpf_apply, pay5_apply, broadcast_apply]
  unfold abT absE
  rw [← ind_of_cmp]
  rfl

/-! ## The blocks the windows hand the body, read at an element -/

theorem idx2_0 : ∀ t : Fin cfg2.N, win2_0.index t 0 = t.val / 4 ∧ win2_0.index t 1 = t.val % 4 ∧ win2_0.index t 2 = 0 :=
  (by decide +kernel : ∀ t : Fin grid2.N, win2_0.index t 0 = t.val / 4 ∧ win2_0.index t 1 = t.val % 4 ∧ win2_0.index t 2 = 0)
theorem idx2_1 : ∀ t : Fin cfg2.N, win2_1.index t 0 = t.val / 4 ∧ win2_1.index t 1 = 0 :=
  (by decide +kernel : ∀ t : Fin grid2.N, win2_1.index t 0 = t.val / 4 ∧ win2_1.index t 1 = 0)
theorem idx2_2 : ∀ t : Fin cfg2.N, win2_2.index t 0 = t.val / 4 ∧ win2_2.index t 1 = 0 :=
  (by decide +kernel : ∀ t : Fin grid2.N, win2_2.index t 0 = t.val / 4 ∧ win2_2.index t 1 = 0)
theorem idx2_3 : ∀ t : Fin cfg2.N, win2_3.index t 0 = t.val / 4 ∧ win2_3.index t 1 = t.val % 4 :=
  (by decide +kernel : ∀ t : Fin grid2.N, win2_3.index t 0 = t.val / 4 ∧ win2_3.index t 1 = t.val % 4)
theorem idx2_4 : ∀ t : Fin cfg2.N, win2_4.index t 0 = t.val / 4 ∧ win2_4.index t 1 = 0 :=
  (by decide +kernel : ∀ t : Fin grid2.N, win2_4.index t 0 = t.val / 4 ∧ win2_4.index t 1 = 0)
theorem idx2_5 : ∀ t : Fin cfg2.N, win2_5.index t 0 = t.val / 4 ∧ win2_5.index t 1 = 0 :=
  (by decide +kernel : ∀ t : Fin grid2.N, win2_5.index t 0 = t.val / 4 ∧ win2_5.index t 1 = 0)
theorem idx2_6 : ∀ t : Fin cfg2.N, win2_6.index t 0 = t.val / 4 ∧ win2_6.index t 1 = 0 :=
  (by decide +kernel : ∀ t : Fin grid2.N, win2_6.index t 0 = t.val / 4 ∧ win2_6.index t 1 = 0)

section Region
variable (V : (c : Dev nD) → (b : Ref sig .tc) → Buf (Elt Ideal) ((c : Thread nD τ).loc b)) (c : Dev nD)

/-- The image block at point t: samples 8·(t/4)…, rows 256·(t%4)…, every column. -/
theorem iblk0_apply (t : Fin cfg2.N) (s : Fin 8) (q : Fin 256) (k : Fin 1024) (b : Fin 32) (r : Fin 1024)
    (hb : b.val = 8 * (t.val / 4) + s.val) (hr : r.val = 256 * (t.val % 4) + q.val) :
    (iblk2 V c 0 t : Vec Ideal S8x256x1024 .f32) (ix3 s q k) = V c main_v0 (ix3 b r k) := by
  have hi := idx2_0 t
  unfold iblk2
  rw [View.read_apply]
  show V c main_v0 _ = V c main_v0 _
  congr 1
  funext a
  apply Fin.ext
  match a with
  | ⟨0, _⟩ => show win2_0.index t 0 * 8 + 1 * s.val = b.val; rw [hi.1, hb]; omega
  | ⟨1, _⟩ => show win2_0.index t 1 * 256 + 1 * q.val = r.val; rw [hi.2.1, hr]; omega
  | ⟨2, _⟩ => show win2_0.index t 2 * 1024 + 1 * k.val = k.val; rw [hi.2.2]; omega

/-- The minimum array's block: its rows 8·(t/4)…, all 128 lanes. -/
theorem iblk1_apply (t : Fin cfg2.N) (s : Fin 8) (l : Fin 128) (b : Fin 32) (hb : b.val = 8 * (t.val / 4) + s.val) :
    (iblk2 V c 1 t : Vec Ideal S8x128 .f32) (ix2 s l) = V c main_v1_0 (ix2 b l) := by
  have hi := idx2_1 t
  unfold iblk2
  rw [View.read_apply]
  show V c main_v1_0 _ = V c main_v1_0 _
  congr 1
  funext a
  apply Fin.ext
  match a with
  | ⟨0, _⟩ => show win2_1.index t 0 * 8 + 1 * s.val = b.val; rw [hi.1, hb]; omega
  | ⟨1, _⟩ => show win2_1.index t 1 * 128 + 1 * l.val = l.val; rw [hi.2]; omega

theorem iblk2_apply (t : Fin cfg2.N) (s : Fin 8) (l : Fin 128) (b : Fin 32) (hb : b.val = 8 * (t.val / 4) + s.val) :
    (iblk2 V c 2 t : Vec Ideal S8x128 .f32) (ix2 s l) = V c main_v1_1 (ix2 b l) := by
  have hi := idx2_2 t
  unfold iblk2
  rw [View.read_apply]
  show V c main_v1_1 _ = V c main_v1_1 _
  congr 1
  funext a
  apply Fin.ext
  match a with
  | ⟨0, _⟩ => show win2_2.index t 0 * 8 + 1 * s.val = b.val; rw [hi.1, hb]; omega
  | ⟨1, _⟩ => show win2_2.index t 1 * 128 + 1 * l.val = l.val; rw [hi.2]; omega

theorem iblk3_apply (t : Fin cfg2.N) (s : Fin 8) (q : Fin 256) (b : Fin 32) (r : Fin 1024)
    (hb : b.val = 8 * (t.val / 4) + s.val) (hr : r.val = 256 * (t.val % 4) + q.val) :
    (iblk2 V c 3 t : Vec Ideal S8x256 .f32) (ix2 s q) = V c main_v22 (ix2 b r) := by
  have hi := idx2_3 t
  unfold iblk2
  rw [View.read_apply]
  show V c main_v22 _ = V c main_v22 _
  congr 1
  funext a
  apply Fin.ext
  match a with
  | ⟨0, _⟩ => show win2_3.index t 0 * 8 + 1 * s.val = b.val; rw [hi.1, hb]; omega
  | ⟨1, _⟩ => show win2_3.index t 1 * 256 + 1 * q.val = r.val; rw [hi.2, hr]; omega

theorem iblk4_apply (t : Fin cfg2.N) (s : Fin 8) (k : Fin 1024) (b : Fin 32) (hb : b.val = 8 * (t.val / 4) + s.val) :
    (iblk2 V c 4 t : Vec Ideal S8x1024 .f32) (ix2 s k) = V c main_v34 (ix2 b k) := by
  have hi := idx2_4 t
  unfold iblk2
  rw [View.read_apply]
  show V c main_v34 _ = V c main_v34 _
  congr 1
  funext a
  apply Fin.ext
  match a with
  | ⟨0, _⟩ => show win2_4.index t 0 * 8 + 1 * s.val = b.val; rw [hi.1, hb]; omega
  | ⟨1, _⟩ => show win2_4.index t 1 * 1024 + 1 * k.val = k.val; rw [hi.2]; omega

end Region

section Fold
variable (V : (c : Dev nD) → (b : Ref sig .tc) → Buf (Elt Ideal) ((c : Thread nD τ).loc b)) (c : Dev nD)

/-- Point n's addend to the squared-error accumulator (zero past the grid, where it is never used). -/
def M5 (n : Nat) (j : S8x128.Idx) : EReal :=
  if h : n < cfg2.N then
    sq (F := Ideal) (iblk2 V c 0 ⟨n, h⟩) (iblk2 V c 1 ⟨n, h⟩) (iblk2 V c 2 ⟨n, h⟩) (iblk2 V c 3 ⟨n, h⟩) (iblk2 V c 4 ⟨n, h⟩) j
  else 0

/-- Point n's addend to the absolute-difference accumulator. -/
def M6 (n : Nat) (j : S8x128.Idx) : EReal :=
  if h : n < cfg2.N then
    broadcastTo S8x128 (ab (F := Ideal) (iblk2 V c 0 ⟨n, h⟩) (iblk2 V c 1 ⟨n, h⟩) (iblk2 V c 2 ⟨n, h⟩) (iblk2 V c 3 ⟨n, h⟩) (iblk2 V c 4 ⟨n, h⟩))
      broadcasts_S8x1_S8x128 j
  else 0

theorem pay4_apply' (v40 : FVec Ideal S8x1 .f32) (v49 : Vec Ideal S8x128 .f32) (j : S8x128.Idx) :
    k2_pay4 (F := Ideal) v40 v49 j = v49 j + broadcastTo S8x128 v40 broadcasts_S8x1_S8x128 j := by
  unfold k2_pay4
  rw [addf_apply, shapeCast_self]

/-- Output 5's staging buffer after a reset point: zero plus the tile's sums. -/
theorem outs5_reset (n : Nat) (h : n < cfg2.N) (h0 : n % 4 = 0) :
    (outsAt2 V c n h).1 = k2_pay3 (sq (F := Ideal) (iblk2 V c 0 ⟨n, h⟩) (iblk2 V c 1 ⟨n, h⟩) (iblk2 V c 2 ⟨n, h⟩) (iblk2 V c 3 ⟨n, h⟩) (iblk2 V c 4 ⟨n, h⟩)) (k2_pay1 (F := Ideal)) := by
  have hA : (⟨n, h⟩ : Fin cfg2.N).val % 4 = 0 := h0
  rw [outsAt2_A V c ⟨n, h⟩ hA]
  exact out_A_5 (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩)
    (ms2_3 ⟨n, h⟩) (hs2_3 ⟨n, h⟩) (ms2_4 ⟨n, h⟩) (hs2_4 ⟨n, h⟩) (ms2_5 ⟨n, h⟩) (hs2_5 ⟨n, h⟩) (ms2_6 ⟨n, h⟩) (hs2_6 ⟨n, h⟩)
    ((hcond2_0 ⟨n, h⟩).mpr hA) (iblk2 V c 0 ⟨n, h⟩) (iblk2 V c 1 ⟨n, h⟩) (iblk2 V c 2 ⟨n, h⟩) (iblk2 V c 3 ⟨n, h⟩) (iblk2 V c 4 ⟨n, h⟩)

theorem outs6_reset (n : Nat) (h : n < cfg2.N) (h0 : n % 4 = 0) :
    (outsAt2 V c n h).2 = k2_pay4 (ab (F := Ideal) (iblk2 V c 0 ⟨n, h⟩) (iblk2 V c 1 ⟨n, h⟩) (iblk2 V c 2 ⟨n, h⟩) (iblk2 V c 3 ⟨n, h⟩) (iblk2 V c 4 ⟨n, h⟩)) (k2_pay2 (F := Ideal)) := by
  have hA : (⟨n, h⟩ : Fin cfg2.N).val % 4 = 0 := h0
  rw [outsAt2_A V c ⟨n, h⟩ hA]
  exact out_A_6 (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩)
    (ms2_3 ⟨n, h⟩) (hs2_3 ⟨n, h⟩) (ms2_4 ⟨n, h⟩) (hs2_4 ⟨n, h⟩) (ms2_5 ⟨n, h⟩) (hs2_5 ⟨n, h⟩) (ms2_6 ⟨n, h⟩) (hs2_6 ⟨n, h⟩)
    ((hcond2_0 ⟨n, h⟩).mpr hA) (iblk2 V c 0 ⟨n, h⟩) (iblk2 V c 1 ⟨n, h⟩) (iblk2 V c 2 ⟨n, h⟩) (iblk2 V c 3 ⟨n, h⟩) (iblk2 V c 4 ⟨n, h⟩)

/-- Output 5's staging buffer after any other point: what the point before left plus the tile's sums. -/
theorem outs5_step (n : Nat) (h : n + 1 < cfg2.N) (h0 : ¬(n + 1) % 4 = 0) :
    (outsAt2 V c (n + 1) h).1 = k2_pay3 (sq (F := Ideal) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩))
      (outsAt2 V c n (Nat.lt_of_succ_lt h)).1 := by
  have hB : ¬(⟨n + 1, h⟩ : Fin cfg2.N).val % 4 = 0 := h0
  rw [outsAt2_B V c ⟨n + 1, h⟩ hB]
  exact out_B_5 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
    (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩)
    (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
    (outsAt2 V c n (Nat.lt_of_succ_lt h)).1 (outsAt2 V c n (Nat.lt_of_succ_lt h)).2

theorem outs6_step (n : Nat) (h : n + 1 < cfg2.N) (h0 : ¬(n + 1) % 4 = 0) :
    (outsAt2 V c (n + 1) h).2 = k2_pay4 (ab (F := Ideal) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩))
      (outsAt2 V c n (Nat.lt_of_succ_lt h)).2 := by
  have hB : ¬(⟨n + 1, h⟩ : Fin cfg2.N).val % 4 = 0 := h0
  rw [outsAt2_B V c ⟨n + 1, h⟩ hB]
  exact out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
    (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩)
    (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
    (outsAt2 V c n (Nat.lt_of_succ_lt h)).1 (outsAt2 V c n (Nat.lt_of_succ_lt h)).2

/-- After point t, output 5's staging buffer holds the sum of the addends of its run's points so far. -/
theorem outs5_eq (t : Fin cfg2.N) (j : S8x128.Idx) :
    (outsAt2 V c t.val t.isLt).1 j = ∑ s ∈ Finset.range (t.val % 4 + 1), M5 V c (4 * (t.val / 4) + s) j := by
  have hN : cfg2.N = 16 := N_2
  have hdm := Nat.div_add_mod t.val 4
  have hlt := t.isLt
  have hm := Nat.mod_lt t.val (show 0 < 4 by decide)
  have key := Pipeline.eq_accAt_of_mod (N := cfg2.N) (fun n h => (outsAt2 V c n h).1) 4
    (fun n h => k2_pay3 (sq (F := Ideal) (iblk2 V c 0 ⟨n, h⟩) (iblk2 V c 1 ⟨n, h⟩) (iblk2 V c 2 ⟨n, h⟩) (iblk2 V c 3 ⟨n, h⟩) (iblk2 V c 4 ⟨n, h⟩)) (k2_pay1 (F := Ideal)))
    (fun n h acc => k2_pay3 (sq (F := Ideal) (iblk2 V c 0 ⟨n, h⟩) (iblk2 V c 1 ⟨n, h⟩) (iblk2 V c 2 ⟨n, h⟩) (iblk2 V c 3 ⟨n, h⟩) (iblk2 V c 4 ⟨n, h⟩)) acc)
    (fun n h h0 => outs5_reset V c n h h0) (fun n h h0 => outs5_step V c n h h0) (by decide) t.val t.isLt (by omega)
  refine (congrFun key j).trans ?_
  refine (Pipeline.accAt_add_apply _ _ (fun _ => 0) (M5 V c) (4 * (t.val / 4)) 3 ?_ ?_ (t.val % 4) (by omega) _ j).trans (zero_add _)
  · intro h i
    rw [pay3_apply, pay1_apply]
    unfold M5
    rw [dif_pos h]
  · intro n h acc i _ _
    rw [pay3_apply]
    unfold M5
    rw [dif_pos h]

theorem outs6_eq (t : Fin cfg2.N) (j : S8x128.Idx) :
    (outsAt2 V c t.val t.isLt).2 j = ∑ s ∈ Finset.range (t.val % 4 + 1), M6 V c (4 * (t.val / 4) + s) j := by
  have hN : cfg2.N = 16 := N_2
  have hdm := Nat.div_add_mod t.val 4
  have hlt := t.isLt
  have hm := Nat.mod_lt t.val (show 0 < 4 by decide)
  have key := Pipeline.eq_accAt_of_mod (N := cfg2.N) (fun n h => (outsAt2 V c n h).2) 4
    (fun n h => k2_pay4 (ab (F := Ideal) (iblk2 V c 0 ⟨n, h⟩) (iblk2 V c 1 ⟨n, h⟩) (iblk2 V c 2 ⟨n, h⟩) (iblk2 V c 3 ⟨n, h⟩) (iblk2 V c 4 ⟨n, h⟩)) (k2_pay2 (F := Ideal)))
    (fun n h acc => k2_pay4 (ab (F := Ideal) (iblk2 V c 0 ⟨n, h⟩) (iblk2 V c 1 ⟨n, h⟩) (iblk2 V c 2 ⟨n, h⟩) (iblk2 V c 3 ⟨n, h⟩) (iblk2 V c 4 ⟨n, h⟩)) acc)
    (fun n h h0 => outs6_reset V c n h h0) (fun n h h0 => outs6_step V c n h h0) (by decide) t.val t.isLt (by omega)
  refine (congrFun key j).trans ?_
  refine (Pipeline.accAt_add_apply _ _ (fun _ => 0) (M6 V c) (4 * (t.val / 4)) 3 ?_ ?_ (t.val % 4) (by omega) _ j).trans (zero_add _)
  · intro h i
    rw [pay4_apply', pay2_apply]
    unfold M6
    rw [dif_pos h]
  · intro n h acc i _ _
    rw [pay4_apply']
    unfold M6
    rw [dif_pos h]

end Fold

/-! ## Each point's addend is a row tile of the per-sample sum; the run's four tiles are the whole sum -/

theorem colOf_apply (x : Vec Ideal S8x128 .f32) (s : Fin 8) : colOf x (ix2 s 0) = x (ix2 s 0) := by
  show x ((Rect.unit (s := S8x128) ![0, 0] S8x1.size inb_S8x128_S8x1_0_0).emb (ix2 s 0)) = _
  congr 1
  funext a
  apply Fin.ext
  match a with
  | ⟨0, _⟩ => show 0 + 1 * s.val = s.val; omega
  | ⟨1, _⟩ => rfl

/-- A sum over 1024 rows, as 4 tiles of 256 rows. -/
theorem sum_rows (f : Fin 1024 → EReal) :
    ∑ r : Fin 1024, f r = ∑ s : Fin 4, ∑ q : Fin 256, f ⟨256 * s.val + q.val, by have := s.isLt; have := q.isLt; omega⟩ := by
  have e := Fintype.sum_equiv (finProdFinEquiv (m := 4) (n := 256)) (fun p => f (finProdFinEquiv (m := 4) (n := 256) p)) f (fun _ => rfl)
  rw [← e, Fintype.sum_prod_type]
  refine Finset.sum_congr rfl fun s _ => Finset.sum_congr rfl fun q _ => congrArg f (Fin.ext ?_)
  show q.val + 256 * s.val = 256 * s.val + q.val
  omega

section Final
variable (V : (c : Dev nD) → (b : Ref sig .tc) → Buf (Elt Ideal) ((c : Thread nD τ).loc b)) (c : Dev nD)

/-- The summand of the per-sample squared error. -/
def sqE (b : Fin 32) (r k : Fin 1024) : EReal :=
  (pn (img (V c main_v0)) (col0 (V c main_v1_0)) (col0 (V c main_v1_1)) b r k - rows2 (V c main_v22) b r * rows2 (V c main_v34) b k)
    * (pn (img (V c main_v0)) (col0 (V c main_v1_0)) (col0 (V c main_v1_1)) b r k - rows2 (V c main_v22) b r * rows2 (V c main_v34) b k)

/-- The summand of the per-sample absolute difference. -/
def abE (b : Fin 32) (r k : Fin 1024) : EReal :=
  absE (ind (half < pn (img (V c main_v0)) (col0 (V c main_v1_0)) (col0 (V c main_v1_1)) b r k) - rows2 (V c main_v22) b r * rows2 (V c main_v34) b k)

theorem pnB_eq (t : Fin cfg2.N) (s : Fin 8) (q : Fin 256) (k : Fin 1024) (b : Fin 32) (r : Fin 1024)
    (hb : b.val = 8 * (t.val / 4) + s.val) (hr : r.val = 256 * (t.val % 4) + q.val) :
    pnB (iblk2 V c 0 t) (colOf (iblk2 V c 1 t)) (colOf (iblk2 V c 2 t)) s q k
      = pn (img (V c main_v0)) (col0 (V c main_v1_0)) (col0 (V c main_v1_1)) b r k := by
  unfold pnB
  rw [colOf_apply, colOf_apply, iblk0_apply V c t s q k b r hb hr, iblk1_apply V c t s 0 b hb, iblk2_apply V c t s 0 b hb]
  rfl

theorem M5_apply (g r : Nat) (hg : g < 4) (hr : r < 4) (s : Fin 8) (l : Fin 128) (b : Fin 32) (hb : b.val = 8 * g + s.val) :
    M5 V c (4 * g + r) (ix2 s l)
      = ∑ q : Fin 256, ∑ k : Fin 1024, sqE V c b ⟨256 * r + q.val, by have := q.isLt; omega⟩ k := by
  have hn : 4 * g + r < cfg2.N := by rw [show cfg2.N = 16 from N_2]; omega
  unfold M5
  rw [dif_pos hn]
  refine (pay7_apply _ _ _ _ _ s l).trans ?_
  refine Finset.sum_congr rfl fun q _ => Finset.sum_congr rfl fun k _ => ?_
  have hd : (⟨4 * g + r, hn⟩ : Fin cfg2.N).val / 4 = g := by show (4 * g + r) / 4 = g; omega
  have hm : (⟨4 * g + r, hn⟩ : Fin cfg2.N).val % 4 = r := by show (4 * g + r) % 4 = r; omega
  unfold sqT sqE
  rw [pnB_eq V c ⟨4 * g + r, hn⟩ s q k b ⟨256 * r + q.val, by have := q.isLt; omega⟩ (by rw [hd]; exact hb) (by rw [hm]),
    iblk3_apply V c ⟨4 * g + r, hn⟩ s q b ⟨256 * r + q.val, by have := q.isLt; omega⟩ (by rw [hd]; exact hb) (by rw [hm]),
    iblk4_apply V c ⟨4 * g + r, hn⟩ s k b (by rw [hd]; exact hb)]
  rfl

theorem M6_apply (g r : Nat) (hg : g < 4) (hr : r < 4) (s : Fin 8) (l : Fin 128) (b : Fin 32) (hb : b.val = 8 * g + s.val) :
    M6 V c (4 * g + r) (ix2 s l)
      = ∑ q : Fin 256, ∑ k : Fin 1024, abE V c b ⟨256 * r + q.val, by have := q.isLt; omega⟩ k := by
  have hn : 4 * g + r < cfg2.N := by rw [show cfg2.N = 16 from N_2]; omega
  unfold M6
  rw [dif_pos hn]
  refine (bcast_col _ _ s l).trans ?_
  refine (pay8_apply _ _ _ _ _ s).trans ?_
  refine Finset.sum_congr rfl fun q _ => Finset.sum_congr rfl fun k _ => ?_
  have hd : (⟨4 * g + r, hn⟩ : Fin cfg2.N).val / 4 = g := by show (4 * g + r) / 4 = g; omega
  have hm : (⟨4 * g + r, hn⟩ : Fin cfg2.N).val % 4 = r := by show (4 * g + r) % 4 = r; omega
  unfold abT abE
  rw [pnB_eq V c ⟨4 * g + r, hn⟩ s q k b ⟨256 * r + q.val, by have := q.isLt; omega⟩ (by rw [hd]; exact hb) (by rw [hm]),
    iblk3_apply V c ⟨4 * g + r, hn⟩ s q b ⟨256 * r + q.val, by have := q.isLt; omega⟩ (by rw [hd]; exact hb) (by rw [hm]),
    iblk4_apply V c ⟨4 * g + r, hn⟩ s k b (by rw [hd]; exact hb)]
  rfl

/-- At a point that writes back, output 5's staging buffer holds, in row s of the block, sample 8·(t/4)+s's whole sum. -/
theorem outs5_val (t : Fin cfg2.N) (h3 : t.val % 4 = 3) (s : Fin 8) (l : Fin 128) (b : Fin 32) (hb : b.val = 8 * (t.val / 4) + s.val) :
    (outsAt2 V c t.val t.isLt).1 (ix2 s l)
      = mseK (img (V c main_v0)) (col0 (V c main_v1_0)) (col0 (V c main_v1_1)) (rows2 (V c main_v22)) (rows2 (V c main_v34)) b := by
  have hN : t.val < 16 := lt_of_lt_of_eq t.isLt (show cfg2.N = 16 from N_2)
  have h4 : t.val % 4 + 1 = 4 := by omega
  rw [outs5_eq, h4, Finset.sum_range]
  unfold mseK
  rw [sum_rows]
  refine Finset.sum_congr rfl fun r _ => ?_
  exact M5_apply V c (t.val / 4) r.val (by omega) r.isLt s l b hb

theorem outs6_val (t : Fin cfg2.N) (h3 : t.val % 4 = 3) (s : Fin 8) (l : Fin 128) (b : Fin 32) (hb : b.val = 8 * (t.val / 4) + s.val) :
    (outsAt2 V c t.val t.isLt).2 (ix2 s l)
      = xorK (img (V c main_v0)) (col0 (V c main_v1_0)) (col0 (V c main_v1_1)) (rows2 (V c main_v22)) (rows2 (V c main_v34)) b := by
  have hN : t.val < 16 := lt_of_lt_of_eq t.isLt (show cfg2.N = 16 from N_2)
  have h4 : t.val % 4 + 1 = 4 := by omega
  rw [outs6_eq, h4, Finset.sum_range]
  unfold xorK
  rw [sum_rows]
  refine Finset.sum_congr rfl fun r _ => ?_
  exact M6_apply V c (t.val / 4) r.val (by omega) r.isLt s l b hb

end Final

/-! ## The result arrays -/

section Result
variable (V : (c : Dev nD) → (b : Ref sig .tc) → Buf (Elt Ideal) ((c : Thread nD τ).loc b)) (c : Dev nD)

/-- The per-sample squared-error sums as contents of the [32,128] result array: every lane of row b holds sample b's sum. -/
def G5 : S32x128.Idx → EReal := fun i =>
  mseK (img (V c main_v0)) (col0 (V c main_v1_0)) (col0 (V c main_v1_1)) (rows2 (V c main_v22)) (rows2 (V c main_v34)) (i 0)

/-- The per-sample absolute-difference sums likewise. -/
def G6 : S32x128.Idx → EReal := fun i =>
  xorK (img (V c main_v0)) (col0 (V c main_v1_0)) (col0 (V c main_v1_1)) (rows2 (V c main_v22)) (rows2 (V c main_v34)) (i 0)

/-- What a write-back of output 5 writes is its block of those contents: rows 8·(t/4)… of the array. -/
theorem flushed5_eq (t : Fin cfg2.N) (hf : (cfg2.win 5).flush t = true) :
    (dat2 V c).flushed 5 t = ((cfg2.win 5).blk t).view.read (Elt Ideal) (G5 V c) := by
  have h3 : t.val % 4 = 3 := (flush2_5 t).mp hf
  have hN : t.val < 16 := lt_of_lt_of_eq t.isLt (show cfg2.N = 16 from N_2)
  have hi := idx2_5 t
  show (cfg2.win 5).cut (grid2.coords t) ((dat2 V c).after 5 t) = _
  rw [after2_5]
  funext (y : S8x128.Idx)
  have hy0 : (y 0).val < 8 := (y 0).isLt
  have hy1 : (y 1).val < 128 := (y 1).isLt
  refine Eq.trans ?_ ((outs5_val V c t h3 ⟨(y 0).val, hy0⟩ ⟨(y 1).val, hy1⟩ ⟨8 * (t.val / 4) + (y 0).val, by omega⟩ rfl).trans ?_)
  · refine congrArg (outsAt2 V c t.val t.isLt).1 (funext fun a => ?_)
    match a with
    | ⟨0, _⟩ => rfl
    | ⟨1, _⟩ => rfl
  · rw [View.read_apply]
    show mseK _ _ _ _ _ _ = mseK _ _ _ _ _ _
    congr 1
    apply Fin.ext
    show 8 * (t.val / 4) + (y 0).val = win2_5.index t 0 * 8 + 1 * (y 0).val
    rw [hi.1]; omega

theorem flushed6_eq (t : Fin cfg2.N) (hf : (cfg2.win 6).flush t = true) :
    (dat2 V c).flushed 6 t = ((cfg2.win 6).blk t).view.read (Elt Ideal) (G6 V c) := by
  have h3 : t.val % 4 = 3 := (flush2_6 t).mp hf
  have hN : t.val < 16 := lt_of_lt_of_eq t.isLt (show cfg2.N = 16 from N_2)
  have hi := idx2_6 t
  show (cfg2.win 6).cut (grid2.coords t) ((dat2 V c).after 6 t) = _
  rw [after2_6]
  funext (y : S8x128.Idx)
  have hy0 : (y 0).val < 8 := (y 0).isLt
  have hy1 : (y 1).val < 128 := (y 1).isLt
  refine Eq.trans ?_ ((outs6_val V c t h3 ⟨(y 0).val, hy0⟩ ⟨(y 1).val, hy1⟩ ⟨8 * (t.val / 4) + (y 0).val, by omega⟩ rfl).trans ?_)
  · refine congrArg (outsAt2 V c t.val t.isLt).2 (funext fun a => ?_)
    match a with
    | ⟨0, _⟩ => rfl
    | ⟨1, _⟩ => rfl
  · rw [View.read_apply]
    show xorK _ _ _ _ _ _ = xorK _ _ _ _ _ _
    congr 1
    apply Fin.ext
    show 8 * (t.val / 4) + (y 0).val = win2_6.index t 0 * 8 + 1 * (y 0).val
    rw [hi.1]; omega

/-- Pass 3's first result array: row b holds Σ (pn − srow·scol)² over sample b, in every lane. -/
theorem mse_arr (b : Fin 32) (l : Fin 128) :
    (dat2 (F := Ideal) V c).arrAt 5 cfg2.N (ix2 b l)
      = mseK (img (V c main_v0)) (col0 (V c main_v1_0)) (col0 (V c main_v1_1)) (rows2 (V c main_v22)) (rows2 (V c main_v34)) b := by
  have hN : cfg2.N = 16 := N_2
  have hb := b.isLt
  have hl := l.isLt
  obtain ⟨t, ht⟩ : ∃ t : Fin cfg2.N, t.val = 4 * (b.val / 8) + 3 := ⟨⟨4 * (b.val / 8) + 3, by omega⟩, rfl⟩
  have hf : (cfg2.win 5).flush t = true := (flush2_5 t).mpr (by omega)
  have hi := idx2_5 t
  refine ((dat2 V c).arrAt_apply_of_mem 5 (G5 V c) (flushed5_eq V c) cfg2.N t (ix2 b l) t.isLt hf ?_).trans rfl
  show ix2 b l ∈ ((View.whole main_v35_0).slice (win2_5.rect t)).set
  rw [View.set_slice_whole, Rect.mem_set_unit]
  intro a
  match a with
  | ⟨0, _⟩ =>
    show win2_5.index t 0 * 8 ≤ b.val ∧ b.val < win2_5.index t 0 * 8 + 8
    rw [hi.1]; omega
  | ⟨1, _⟩ =>
    show win2_5.index t 1 * 128 ≤ l.val ∧ l.val < win2_5.index t 1 * 128 + 128
    rw [hi.2]; omega

/-- Pass 3's second result array: row b holds Σ |[pn > ½] − srow·scol| over sample b, in every lane. -/
theorem xor_arr (b : Fin 32) (l : Fin 128) :
    (dat2 (F := Ideal) V c).arrAt 6 cfg2.N (ix2 b l)
      = xorK (img (V c main_v0)) (col0 (V c main_v1_0)) (col0 (V c main_v1_1)) (rows2 (V c main_v22)) (rows2 (V c main_v34)) b := by
  have hN : cfg2.N = 16 := N_2
  have hb := b.isLt
  have hl := l.isLt
  obtain ⟨t, ht⟩ : ∃ t : Fin cfg2.N, t.val = 4 * (b.val / 8) + 3 := ⟨⟨4 * (b.val / 8) + 3, by omega⟩, rfl⟩
  have hf : (cfg2.win 6).flush t = true := (flush2_6 t).mpr (by omega)
  have hi := idx2_6 t
  refine ((dat2 V c).arrAt_apply_of_mem 6 (G6 V c) (flushed6_eq V c) cfg2.N t (ix2 b l) t.isLt hf ?_).trans rfl
  show ix2 b l ∈ ((View.whole main_v35_1).slice (win2_6.rect t)).set
  rw [View.set_slice_whole, Rect.mem_set_unit]
  intro a
  match a with
  | ⟨0, _⟩ =>
    show win2_6.index t 0 * 8 ≤ b.val ∧ b.val < win2_6.index t 0 * 8 + 8
    rw [hi.1]; omega
  | ⟨1, _⟩ =>
    show win2_6.index t 1 * 128 ≤ l.val ∧ l.val < win2_6.index t 1 * 128 + 128
    rw [hi.2]; omega

end Result

end Cert.KernelIdeal.Region2
end
-- ==== Proof.Math.lean ====
/-
  Why the two spellings of the rectangle-fill computation agree on a batch of real entries.

  The per-sample bounds lo and hi are attained, hence real, and ε is a positive real, so the width d = hi − lo + ε is a
  positive real and dividing by it is ordinary division.  Then x > lo + ½·d holds exactly when (x − lo)/d > ½: the mask
  taken on the raw entry is the mask taken on the normalised entry.  The greatest of a row of 0/1 indicators is the
  indicator of "some entry of the row is in the mask", and truncating that 0/1 value to a 32-bit integer gives the
  one-bit word widened to 32 bits, so the occupancy words of the two spellings are the same and so are their spans.
  A product of two indicators is the indicator of the conjunction; and a sample whose occupancy words are all zero has
  an all-zero span, so "row in span and column in span" already implies that the mask is not empty: the product of the
  two span factors is the indicator of the filled rectangle.  The squared errors then agree term by term, each
  absolute difference of two indicators is the indicator of "exactly one holds", and a finite sum of indicators exceeds
  ½ exactly when one of them is 1, which turns the comparison against ½ into the flag bit.
-/
import proofs.«163302_j24532853195288_2_alg».proof.Proof.Spec
import Mathlib

open scoped BigOperators
namespace Cert.RectFill
open Idealize.ShloMosaic Idealize.ShloMosaic.ValueIdx

/-! ## The two constants -/

/-- The word 0x3F000000 is ½. -/
theorem half_eq : half = ((1 / 2 : ℝ) : EReal) := by
  unfold half
  simp [Ideal.ofBits, Ideal.ieee]
  rw [← EReal.coe_mul]
  norm_num

/-- The word 0x322BCC77 is a positive real. -/
theorem eps_pos : ∃ e : ℝ, 0 < e ∧ eps = (e : EReal) := by
  unfold eps
  simp [Ideal.ofBits, Ideal.ieee]
  rw [← EReal.coe_mul]
  exact ⟨_, by positivity, rfl⟩

/-! ## Indicators -/

theorem one_sub_one : (1 : EReal) - 1 = 0 := by
  rw [← EReal.coe_one, ← EReal.coe_sub]; simp

theorem neg_one_le_one : (-1 : EReal) ≤ 1 := by
  have h : ((-1 : ℝ) : EReal) ≤ ((1 : ℝ) : EReal) := EReal.coe_le_coe_iff.2 (by norm_num)
  simpa using h

theorem ind_nonneg (p : Prop) : 0 ≤ ind p := by
  by_cases h : p
  · rw [ind_true h]; exact zero_le_one
  · rw [ind_false h]

theorem ind_le_one (p : Prop) : ind p ≤ 1 := by
  by_cases h : p
  · rw [ind_true h]
  · rw [ind_false h]; exact zero_le_one

theorem ind_congr {p q : Prop} (h : p ↔ q) : ind p = ind q := by rw [propext h]

/-- The greatest of a family of indicators is the indicator of "some member holds". -/
theorem iSup_ind {ι : Type} [Nonempty ι] (P : ι → Prop) : (⨆ i, ind (P i)) = ind (∃ i, P i) := by
  by_cases h : ∃ i, P i
  · rw [ind_true h]
    obtain ⟨i, hi⟩ := h
    apply le_antisymm
    · exact iSup_le fun j => ind_le_one _
    · calc (1 : EReal) = ind (P i) := (ind_true hi).symm
        _ ≤ _ := le_iSup (fun i => ind (P i)) i
  · rw [ind_false h]
    have h0 : ∀ i, ind (P i) = 0 := fun i => ind_false fun hi => h ⟨i, hi⟩
    simp only [h0]
    exact iSup_const

theorem ind_mul_ind (p q : Prop) : ind p * ind q = ind (p ∧ q) := by
  by_cases hp : p <;> by_cases hq : q
  · rw [ind_true hp, ind_true hq, ind_true ⟨hp, hq⟩, one_mul]
  · rw [ind_false hq, mul_zero, ind_false (p := p ∧ q) (fun h => hq h.2)]
  · rw [ind_false hp, zero_mul, ind_false (p := p ∧ q) (fun h => hp h.1)]
  · rw [ind_false hp, zero_mul, ind_false (p := p ∧ q) (fun h => hp h.1)]

/-- |[p] − [q]| is 1 when exactly one of the two holds and 0 otherwise. -/
theorem absE_ind_sub (p q : Prop) : absE (ind p - ind q) = ind (¬(q ↔ p)) := by
  by_cases hp : p <;> by_cases hq : q
  · rw [ind_true hp, ind_true hq, ind_false (by tauto), one_sub_one]; simp [absE]
  · rw [ind_true hp, ind_false hq, ind_true (by tauto)]; simp [absE, neg_one_le_one]
  · rw [ind_false hp, ind_true hq, ind_true (by tauto)]; simp [absE, neg_one_le_one]
  · rw [ind_false hp, ind_false hq, ind_false (by tauto)]; simp [absE]

/-- Truncating the indicator to a 32-bit integer gives the one-bit word widened to 32 bits. -/
theorem fptosi_ind (p : Prop) : Ideal.fptosi 32 (ind p) = (bit p).setWidth 32 := by
  by_cases h : p
  · rw [ind_true h, bit_true h, ← EReal.coe_one]
    unfold Ideal.fptosi
    rw [Ideal.toIntClamped_coe]
    simp
  · rw [ind_false h, bit_false h, ← EReal.coe_zero]
    unfold Ideal.fptosi
    rw [Ideal.toIntClamped_coe]
    simp

/-- A one-bit word read as a real is the indicator of its being 1. -/
theorem bitE_eq_ind (w : BitVec 1) : bitE w = ind (w = 1#1) := by
  rcases BitVec.eq_zero_or_eq_one w with h | h
  · subst h; rw [ind_false (by decide)]; simp [bitE]
  · subst h; rw [ind_true rfl]; simp [bitE]

/-- A finite sum of indicators exceeds ½ exactly when one of the propositions holds. -/
theorem half_lt_sum_ind {ι κ : Type} [Fintype ι] [Fintype κ] (P : ι → κ → Prop) :
    half < ∑ r, ∑ c, ind (P r c) ↔ ∃ r c, P r c := by
  have hh : half < 1 := by
    rw [half_eq, ← EReal.coe_one, EReal.coe_lt_coe_iff]; norm_num
  have hh0 : ¬ half < 0 := by
    rw [half_eq, ← EReal.coe_zero, EReal.coe_lt_coe_iff]; norm_num
  constructor
  · intro h
    by_contra hn
    have h0 : ∀ r c, ind (P r c) = 0 := fun r c => ind_false fun hp => hn ⟨r, c, hp⟩
    simp only [h0, Finset.sum_const_zero] at h
    exact hh0 h
  · rintro ⟨r, c, hp⟩
    calc half < 1 := hh
      _ = ind (P r c) := (ind_true hp).symm
      _ ≤ ∑ c, ind (P r c) :=
          Finset.single_le_sum (f := fun c => ind (P r c)) (fun _ _ => ind_nonneg _) (Finset.mem_univ c)
      _ ≤ ∑ r, ∑ c, ind (P r c) :=
          Finset.single_le_sum (f := fun r => ∑ c, ind (P r c))
            (fun _ _ => Finset.sum_nonneg fun _ _ => ind_nonneg _) (Finset.mem_univ r)

/-! ## The bounds are real, and the two masks agree -/

/-- The least entry of a sample of real entries is one of them. -/
theorem lo_real (x : Img) (hfin : ∀ b r c, ∃ v : ℝ, x b r c = (v : EReal)) (b : Fin 32) :
    ∃ l : ℝ, lo x b = (l : EReal) := by
  obtain ⟨r, hr⟩ := exists_eq_ciInf_of_finite (f := fun r : Fin 1024 => ⨅ c : Fin 1024, x b r c)
  obtain ⟨c, hc⟩ := exists_eq_ciInf_of_finite (f := fun c : Fin 1024 => x b r c)
  obtain ⟨v, hv⟩ := hfin b r c
  exact ⟨v, hr.symm.trans (hc.symm.trans hv)⟩

/-- The greatest entry of a sample of real entries is one of them. -/
theorem hi_real (x : Img) (hfin : ∀ b r c, ∃ v : ℝ, x b r c = (v : EReal)) (b : Fin 32) :
    ∃ h : ℝ, hi x b = (h : EReal) := by
  obtain ⟨r, hr⟩ := exists_eq_ciSup_of_finite (f := fun r : Fin 1024 => ⨆ c : Fin 1024, x b r c)
  obtain ⟨c, hc⟩ := exists_eq_ciSup_of_finite (f := fun c : Fin 1024 => x b r c)
  obtain ⟨v, hv⟩ := hfin b r c
  exact ⟨v, hr.symm.trans (hc.symm.trans hv)⟩

theorem lo_le_hi (x : Img) (b : Fin 32) : lo x b ≤ hi x b := by
  calc lo x b ≤ ⨅ c : Fin 1024, x b 0 c := iInf_le (fun r : Fin 1024 => ⨅ c : Fin 1024, x b r c) 0
    _ ≤ x b 0 0 := iInf_le (fun c : Fin 1024 => x b 0 c) 0
    _ ≤ ⨆ c : Fin 1024, x b 0 c := le_iSup (fun c : Fin 1024 => x b 0 c) 0
    _ ≤ hi x b := le_iSup (fun r : Fin 1024 => ⨆ c : Fin 1024, x b r c) 0

/-- For real v, l ≤ h and ε > 0:  v > l + ½·(h − l + ε)  exactly when  (v − l)/(h − l + ε) > ½. -/
theorem mask_iff {v l h e : ℝ} (he : 0 < e) (hlh : l ≤ h) (heps : eps = (e : EReal)) :
    thr (l : EReal) (h : EReal) < (v : EReal) ↔
      half < Ideal.div ((v : EReal) - (l : EReal)) ((h : EReal) - (l : EReal) + eps) := by
  have hd : 0 < h - l + e := by linarith
  have e1 : (h : EReal) - (l : EReal) + eps = ((h - l + e : ℝ) : EReal) := by
    rw [heps, EReal.coe_add, EReal.coe_sub]
  have e2 : thr (l : EReal) (h : EReal) = ((l + 1 / 2 * (h - l + e) : ℝ) : EReal) := by
    unfold thr; rw [e1, half_eq, ← EReal.coe_mul, ← EReal.coe_add]
  rw [e2, e1, Ideal.div_coe (ne_of_gt hd), half_eq, ← EReal.coe_sub, ← EReal.coe_mul,
    EReal.coe_lt_coe_iff, EReal.coe_lt_coe_iff, mul_one_div, lt_div_iff₀ hd]
  constructor <;> intro h' <;> linarith

/-- On a batch of real entries the mask taken on the raw entry is the mask taken on the normalised entry. -/
theorem raw_mask_iff (x : Img) (hfin : ∀ b r c, ∃ v : ℝ, x b r c = (v : EReal)) (b : Fin 32) (r c : Fin 1024) :
    thr (lo x b) (hi x b) < x b r c ↔ binP x (lo x) (hi x) b r c := by
  obtain ⟨l, hl⟩ := lo_real x hfin b
  obtain ⟨h, hh⟩ := hi_real x hfin b
  obtain ⟨v, hv⟩ := hfin b r c
  obtain ⟨e, he, heps⟩ := eps_pos
  have hlh : l ≤ h := by
    have := lo_le_hi x b
    rw [hl, hh] at this
    exact EReal.coe_le_coe_iff.1 this
  unfold binP pn
  rw [hl, hh, hv]
  exact mask_iff he hlh heps

theorem rowsK_eq (x : Img) (hfin : ∀ b r c, ∃ v : ℝ, x b r c = (v : EReal)) (b : Fin 32) (r : Fin 1024) :
    rowsK x (lo x) (hi x) b r = ind (rowsP x (lo x) (hi x) b r) := by
  unfold rowsK rowsP
  rw [iSup_ind]
  exact ind_congr (exists_congr fun c => raw_mask_iff x hfin b r c)

theorem colsK_eq (x : Img) (hfin : ∀ b r c, ∃ v : ℝ, x b r c = (v : EReal)) (b : Fin 32) (c : Fin 1024) :
    colsK x (lo x) (hi x) b c = ind (colsP x (lo x) (hi x) b c) := by
  unfold colsK colsP
  rw [iSup_ind]
  exact ind_congr (exists_congr fun r => raw_mask_iff x hfin b r c)

theorem rowWordsK_eq (x : Img) (hfin : ∀ b r c, ∃ v : ℝ, x b r c = (v : EReal)) : rowWordsK x = rowWordsR x := by
  funext b r
  unfold rowWordsK rowWordsR
  rw [rowsK_eq x hfin, fptosi_ind]

theorem colWordsK_eq (x : Img) (hfin : ∀ b r c, ∃ v : ℝ, x b r c = (v : EReal)) : colWordsK x = colWordsR x := by
  funext b c
  unfold colWordsK colWordsR
  rw [colsK_eq x hfin, fptosi_ind]

theorem srK_eq (x : Img) (hfin : ∀ b r c, ∃ v : ℝ, x b r c = (v : EReal)) (b : Fin 32) (r : Fin 1024) :
    srK x b r = ind (srR x b r) := by
  unfold srK srR
  rw [rowWordsK_eq x hfin, bitE_eq_ind]

theorem scK_eq (x : Img) (hfin : ∀ b r c, ∃ v : ℝ, x b r c = (v : EReal)) (b : Fin 32) (c : Fin 1024) :
    scK x b c = ind (scR x b c) := by
  unfold scK scR
  rw [colWordsK_eq x hfin, bitE_eq_ind]

/-! ## The one fact about the span: an all-zero sample has an all-zero span -/

/-- A running integer sum of zeros from zero is zero. -/
theorem foldl_addi_zero {ι : Type} (l : List ι) (g : ι → BitVec 32) (hg : ∀ n, g n = 0#32) :
    l.foldl (fun r n => IntOp.addi r (g n)) 0#32 = 0#32 := by
  induction l with
  | nil => rfl
  | cons a t ih =>
    rw [List.foldl_cons, hg a]
    have h00 : IntOp.addi (0#32) (0#32) = 0#32 := rfl
    rw [h00]; exact ih

/-- The window of the running sum has extent one along the sample axis, so every term of the sum at a position of
    sample b is an entry of sample b (or the padding value zero): on an all-zero sample the running sum is zero. -/
theorem cumsum_zero_row (w : Fin 32 → Fin 1024 → BitVec 32) (b : Fin 32) (hz : ∀ q, w b q = 0#32)
    (j : S2.Idx) (hj : j 0 = b) : cumsum (at2 w) j = 0#32 := by
  have h0 : ∀ (i : S2.Idx), i 0 = b → at2 w i = 0#32 := fun i hi => by
    unfold at2; rw [hi]; exact hz _
  unfold cumsum Host.reduceWindow
  dsimp only
  apply foldl_addi_zero
  intro n
  split_ifs with hin
  · apply h0
    apply Fin.ext
    have hW : ((⟨2, ![1, 1024]⟩ : Shape).rowMajor.symm n 0).val = 0 := by
      have := ((⟨2, ![1, 1024]⟩ : Shape).rowMajor.symm n 0).isLt
      simpa using this
    show (j 0).val * 1 + ((⟨2, ![1, 1024]⟩ : Shape).rowMajor.symm n 0).val - 0 = b.val
    rw [hW, hj]; simp
  · rfl

/-- If every word of a sample is zero, every span bit of that sample is zero. -/
theorem spanOf_zero (w : Fin 32 → Fin 1024 → BitVec 32) (b : Fin 32) (hz : ∀ q, w b q = 0#32) (p : Fin 1024) :
    spanOf w b p = 0#1 := by
  unfold spanOf span andi cmpi
  rw [cumsum_zero_row w b hz (ix2 b p) rfl]
  have h1 : IntOp.cmpi .sgt (0#32) (broadcastInDim S2 ![] (by decide) (constantI S0 32 0#32) (ix2 b p)) = 0#1 := rfl
  rw [h1]
  simp [IntOp.andi]

/-- A row in the span forces the mask of its sample to be non-empty. -/
theorem srR_anyP (x : Img) (b : Fin 32) (r : Fin 1024) (h : srR x b r) : anyP x (lo x) (hi x) b := by
  by_contra hn
  have hz : ∀ q, rowWordsR x b q = 0#32 := by
    intro q
    unfold rowWordsR
    rw [bit_false (fun hq => hq.elim fun c hc => hn ⟨q, c, hc⟩)]
    rfl
  have h0 := spanOf_zero (rowWordsR x) b hz r
  unfold srR at h
  rw [h0] at h
  exact absurd h (by decide)

/-! ## The rectangle, the squared error and the flag -/

/-- The product of the two span factors is the indicator of the filled rectangle. -/
theorem srK_mul_scK (x : Img) (hfin : ∀ b r c, ∃ v : ℝ, x b r c = (v : EReal)) (b : Fin 32) (r c : Fin 1024) :
    srK x b r * scK x b c = ind (fillR x b r c) := by
  rw [srK_eq x hfin, scK_eq x hfin, ind_mul_ind]
  apply ind_congr
  unfold fillR
  exact ⟨fun h => ⟨h, srR_anyP x b r h.1⟩, fun h => h.1⟩

theorem mseK_eq (x : Img) (hfin : ∀ b r c, ∃ v : ℝ, x b r c = (v : EReal)) :
    mseK x (lo x) (hi x) (srK x) (scK x) = mseR x (lo x) (hi x) (fillR x) := by
  funext b
  unfold mseK mseR
  refine Finset.sum_congr rfl fun r _ => Finset.sum_congr rfl fun c _ => ?_
  rw [srK_mul_scK x hfin]

theorem validK_eq (x : Img) (hfin : ∀ b r c, ∃ v : ℝ, x b r c = (v : EReal)) (b : Fin 32) :
    validK x b = bit (validP x (lo x) (hi x) (fillR x) b) := by
  have hterm : ∀ r c, absE (ind (half < pn x (lo x) (hi x) b r c) - srK x b r * scK x b c)
      = ind (¬(fillR x b r c ↔ binP x (lo x) (hi x) b r c)) := by
    intro r c
    rw [srK_mul_scK x hfin, absE_ind_sub]
    rfl
  have hsum : xorK x (lo x) (hi x) (srK x) (scK x) b
      = ∑ r : Fin 1024, ∑ c : Fin 1024, ind (¬(fillR x b r c ↔ binP x (lo x) (hi x) b r c)) := by
    unfold xorK
    exact Finset.sum_congr rfl fun r _ => Finset.sum_congr rfl fun c _ => hterm r c
  have hiff := half_lt_sum_ind (fun r c : Fin 1024 => ¬(fillR x b r c ↔ binP x (lo x) (hi x) b r c))
  unfold validK
  rw [hsum]
  show BitVec.ofBool (decide (half < _)) = _
  by_cases hv : validP x (lo x) (hi x) (fillR x) b
  · rw [bit_true hv, decide_eq_true (hiff.2 hv)]; rfl
  · rw [bit_false hv, decide_eq_false (fun h => hv (hiff.1 h))]; rfl

/-- The two spellings of the whole computation agree on a batch of real entries. -/
theorem outK_eq_outR (x : Img) (hfin : ∀ b r c, ∃ v : ℝ, x b r c = (v : EReal)) : outK x = outR x := by
  have h4 : validK x = fun b => bit (validP x (lo x) (hi x) (fillR x) b) := funext fun b => validK_eq x hfin b
  unfold outK outR
  rw [mseK_eq x hfin, h4]

end Cert.RectFill
-- ==== Proof.Finite.lean ====
/-
  From the precondition to finiteness: the precondition says that the conjunction, over all entries, of |entry| < +∞ is
  true; so every entry's absolute value is below +∞, and an extended real with that property is a real number.
-/
import proofs.«163302_j24532853195288_2_alg».proof.Pre_finite_inputs
import proofs.«163302_j24532853195288_2_alg».proof.Proof.Gen.Pre_finite_inputs
import Idealize.ShloMosaic.PureOps.Ideal
import Idealize.ShloMosaic.Lib.ValueIdx
import Idealize.ShloMosaic.Lib.ReduceAll

noncomputable section

namespace Cert.Proof.Finite

open Idealize.ShloMosaic

instance : Subsingleton Cert.Pre_finite_inputs.S_.Idx := ⟨fun a b => funext fun d => d.elim0⟩

/-- The word 0x7F800000 is +∞. -/
theorem inf_eq : Ideal.ofBits .f32 0x7F800000#32 = (⊤ : EReal) := by
  simp [Ideal.ofBits, Ideal.ieee]

/-- An extended real whose absolute value is below +∞ is a real number. -/
theorem real_of_abs_lt (a : EReal) (h : max a (-a) < ⊤) : ∃ v : ℝ, a = (v : EReal) := by
  induction a using EReal.rec with
  | bot => exact absurd h (by simp)
  | coe v => exact ⟨v, rfl⟩
  | top => exact absurd h (by simp)

/-- Under the precondition every entry of the argument is a real number. -/
theorem finite_of_pre (A : FVec Ideal Cert.Pre_finite_inputs.S32x1x1024x1024 .f32)
    (h : Cert.Pre_finite_inputs.fn (F := Ideal) A = fun _ => 1#1) (i : Cert.Pre_finite_inputs.S32x1x1024x1024.Idx) :
    ∃ v : ℝ, A i = (v : EReal) := by
  have h0 := congrFun h ValueIdx.ix0
  dsimp only [Cert.Pre_finite_inputs.fn] at h0
  have hi := Host.reduce_andi_all _ _ _ _ _ h0 i
  have hc : Ideal.cmp .olt (max (A i) (-(A i))) (Ideal.ofBits .f32 0x7F800000#32) = 1#1 := hi
  refine real_of_abs_lt (A i) ?_
  rw [← inf_eq]
  by_contra hn
  have : Ideal.cmp .olt (max (A i) (-(A i))) (Ideal.ofBits .f32 0x7F800000#32) = 0#1 := by
    simp [Ideal.cmp, hn]
  rw [this] at hc
  exact absurd hc (by decide)

end Cert.Proof.Finite

end
-- ==== Proof.RefOps.lean ====
/- The reference computation written out twice from its printed text: ops, its host operations in program order with the
   three small called functions (a select between two splat scalars, a running sum along each sample's positions, a scalar
   select) spelled at every call over that call's own buffers; and, per buffer, res_<buffer>, the value the buffer holds
   as a function of the argument array: the operation that writes it applied to its operands' values. -/
import proofs.«163302_j24532853195288_2_alg».proof.ReferenceIdeal
import proofs.«163302_j24532853195288_2_alg».proof.Proof.Gen.ReferenceIdeal
import Idealize.ShloMosaic.Lib.StableHlo.Run

noncomputable section

namespace Cert.ReferenceIdeal.Stages

open Idealize.ShloMosaic Idealize.ShloMosaic.StableHlo Cert.ReferenceIdeal

variable {F : FTy → Type} [FloatOps F] [Facts]
open Facts₀ Facts

/-- The 155 host operations, in order. -/
abbrev ops : List (HloOp τ sig (Elt F)) :=
  [ StableHlo.reshape main_arg0 main_v0 rfl shapeCasts_S32x1x1024x1024_S32x1024x1024,
    StableHlo.unary main_v0 main_v1 (Host.negf : (⟨S32x1024x1024, .f32⟩ : BufTy).Contents (Elt F) → (⟨S32x1024x1024, .f32⟩ : BufTy).Contents (Elt F)),
    StableHlo.unary main_v1 main_v2 (Host.exp : (⟨S32x1024x1024, .f32⟩ : BufTy).Contents (Elt F) → (⟨S32x1024x1024, .f32⟩ : BufTy).Contents (Elt F)),
    StableHlo.nullary main_cst (constant S_ .f32 0x3F800000#32),
    StableHlo.unary main_cst main_v3 (broadcastInDim S32x1024x1024 ![] bcast_S_S32x1024x1024 : (⟨S_, .f32⟩ : BufTy).Contents (Elt F) → (⟨S32x1024x1024, .f32⟩ : BufTy).Contents (Elt F)),
    StableHlo.binary main_v3 main_v2 main_v4 (addf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_0 (constant S_ .f32 0x3F800000#32),
    StableHlo.unary main_cst_0 main_v5 (broadcastInDim S32x1024x1024 ![] bcast_S_S32x1024x1024 : (⟨S_, .f32⟩ : BufTy).Contents (Elt F) → (⟨S32x1024x1024, .f32⟩ : BufTy).Contents (Elt F)),
    StableHlo.binary main_v5 main_v4 main_v6 (Host.divf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_1 (constant S_ .f32 0x3F000000#32),
    StableHlo.unary main_cst_1 main_v7 (broadcastInDim S32x1024x1024 ![] bcast_S_S32x1024x1024 : (⟨S_, .f32⟩ : BufTy).Contents (Elt F) → (⟨S32x1024x1024, .f32⟩ : BufTy).Contents (Elt F)),
    StableHlo.binary main_v6 main_v7 main_v8 (subf : (⟨S32x1024x1024, .f32⟩ : BufTy).Contents (Elt F) → (⟨S32x1024x1024, .f32⟩ : BufTy).Contents (Elt F) → (⟨S32x1024x1024, .f32⟩ : BufTy).Contents (Elt F)),
    StableHlo.unary main_v8 main_v9 (Host.absf : (⟨S32x1024x1024, .f32⟩ : BufTy).Contents (Elt F) → (⟨S32x1024x1024, .f32⟩ : BufTy).Contents (Elt F)),
    StableHlo.nullary main_cst_2 (constant S_ .f32 0x00000000#32),
    StableHlo.binary main_v9 main_cst_2 main_v10 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_3 (constant S_ .f32 0x49800000#32),
    StableHlo.unary main_cst_3 main_v11 (broadcastInDim S32 ![] bcast_S_S32 : (⟨S_, .f32⟩ : BufTy).Contents (Elt F) → (⟨S32, .f32⟩ : BufTy).Contents (Elt F)),
    StableHlo.binary main_v10 main_v11 main_v12 (Host.divf : (⟨S32, .f32⟩ : BufTy).Contents (Elt F) → (⟨S32, .f32⟩ : BufTy).Contents (Elt F) → (⟨S32, .f32⟩ : BufTy).Contents (Elt F)),
    StableHlo.nullary main_cst_4 (constant S_ .f32 0x3F000000#32),
    StableHlo.unary main_cst_4 main_v13 (broadcastInDim S32x1024x1024 ![] bcast_S_S32x1024x1024 : (⟨S_, .f32⟩ : BufTy).Contents (Elt F) → (⟨S32x1024x1024, .f32⟩ : BufTy).Contents (Elt F)),
    StableHlo.binary main_v6 main_v13 main_v14 (cmpf .ogt : (⟨S32x1024x1024, .f32⟩ : BufTy).Contents (Elt F) → (⟨S32x1024x1024, .f32⟩ : BufTy).Contents (Elt F) → (⟨S32x1024x1024, .i1⟩ : BufTy).Contents (Elt F)),
    StableHlo.unary main_v14 main_v15 (uitofp .f32 : (⟨S32x1024x1024, .i1⟩ : BufTy).Contents (Elt F) → (⟨S32x1024x1024, .f32⟩ : BufTy).Contents (Elt F)),
    StableHlo.nullary main_cst_5 (constant S_ .f32 0x00000000#32),
    StableHlo.binary main_v15 main_cst_5 main_v16 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_6 (constant S_ .f32 0x49800000#32),
    StableHlo.unary main_cst_6 main_v17 (broadcastInDim S32 ![] bcast_S_S32 : (⟨S_, .f32⟩ : BufTy).Contents (Elt F) → (⟨S32, .f32⟩ : BufTy).Contents (Elt F)),
    StableHlo.binary main_v16 main_v17 main_v18 (Host.divf : (⟨S32, .f32⟩ : BufTy).Contents (Elt F) → (⟨S32, .f32⟩ : BufTy).Contents (Elt F) → (⟨S32, .f32⟩ : BufTy).Contents (Elt F)),
    StableHlo.nullary main_cst_7 (constant S_ .f32 0x3E99999A#32),
    StableHlo.unary main_cst_7 main_v19 (broadcastInDim S32 ![] bcast_S_S32 : (⟨S_, .f32⟩ : BufTy).Contents (Elt F) → (⟨S32, .f32⟩ : BufTy).Contents (Elt F)),
    StableHlo.binary main_v12 main_v19 main_v20 (cmpf .olt : (⟨S32, .f32⟩ : BufTy).Contents (Elt F) → (⟨S32, .f32⟩ : BufTy).Contents (Elt F) → (⟨S32, .i1⟩ : BufTy).Contents (Elt F)),
    StableHlo.nullary main_cst_8 (constant S_ .f32 0x40000000#32),
    StableHlo.nullary main_cst_9 (constant S_ .f32 0x3F800000#32),
    StableHlo.TRef.unary (.of main_cst_9 : StableHlo.TRef sig ⟨S_, .f32⟩) main_call0.v0 (broadcastInDim S32 ![] bcast_S_S32),
    StableHlo.TRef.unary (.of main_cst_8 : StableHlo.TRef sig ⟨S_, .f32⟩) main_call0.v1 (broadcastInDim S32 ![] bcast_S_S32),
    StableHlo.TRef.ternary (.of main_v20 : StableHlo.TRef sig ⟨S32, .i1⟩) main_call0.v1 main_call0.v0 main_call0.v2 select,
    StableHlo.unary main_v21 main_v22 (id : (⟨S32, .f32⟩ : BufTy).Contents (Elt F) → (⟨S32, .f32⟩ : BufTy).Contents (Elt F)),
    StableHlo.nullary main_cst_10 (constant S_ .f32 0x3ECCCCCD#32),
    StableHlo.unary main_cst_10 main_v23 (broadcastInDim S32 ![] bcast_S_S32 : (⟨S_, .f32⟩ : BufTy).Contents (Elt F) → (⟨S32, .f32⟩ : BufTy).Contents (Elt F)),
    StableHlo.binary main_v23 main_v22 main_v24 (mulf : (⟨S32, .f32⟩ : BufTy).Contents (Elt F) → (⟨S32, .f32⟩ : BufTy).Contents (Elt F) → (⟨S32, .f32⟩ : BufTy).Contents (Elt F)),
    StableHlo.nullary main_cst_11 (constant S_ .f32 0x3D4CCCCD#32),
    StableHlo.unary main_cst_11 main_v25 (broadcastInDim S32 ![] bcast_S_S32 : (⟨S_, .f32⟩ : BufTy).Contents (Elt F) → (⟨S32, .f32⟩ : BufTy).Contents (Elt F)),
    StableHlo.binary main_v18 main_v25 main_v26 (cmpf .olt : (⟨S32, .f32⟩ : BufTy).Contents (Elt F) → (⟨S32, .f32⟩ : BufTy).Contents (Elt F) → (⟨S32, .i1⟩ : BufTy).Contents (Elt F)),
    StableHlo.nullary main_cst_12 (constant S_ .f32 0x3FC00000#32),
    StableHlo.nullary main_cst_13 (constant S_ .f32 0x3F800000#32),
    StableHlo.TRef.unary (.of main_cst_13 : StableHlo.TRef sig ⟨S_, .f32⟩) main_call1.v0 (broadcastInDim S32 ![] bcast_S_S32),
    StableHlo.TRef.unary (.of main_cst_12 : StableHlo.TRef sig ⟨S_, .f32⟩) main_call1.v1 (broadcastInDim S32 ![] bcast_S_S32),
    StableHlo.TRef.ternary (.of main_v26 : StableHlo.TRef sig ⟨S32, .i1⟩) main_call1.v1 main_call1.v0 main_call1.v2 select,
    StableHlo.unary main_v27 main_v28 (id : (⟨S32, .f32⟩ : BufTy).Contents (Elt F) → (⟨S32, .f32⟩ : BufTy).Contents (Elt F)),
    StableHlo.binary main_v24 main_v28 main_v29 (mulf : (⟨S32, .f32⟩ : BufTy).Contents (Elt F) → (⟨S32, .f32⟩ : BufTy).Contents (Elt F) → (⟨S32, .f32⟩ : BufTy).Contents (Elt F)),
    StableHlo.nullary main_cst_14 (constant S_ .f32 0x3ECCCCCD#32),
    StableHlo.unary main_cst_14 main_v30 (broadcastInDim S32 ![] bcast_S_S32 : (⟨S_, .f32⟩ : BufTy).Contents (Elt F) → (⟨S32, .f32⟩ : BufTy).Contents (Elt F)),
    StableHlo.binary main_v12 main_v30 main_v31 (cmpf .ogt : (⟨S32, .f32⟩ : BufTy).Contents (Elt F) → (⟨S32, .f32⟩ : BufTy).Contents (Elt F) → (⟨S32, .i1⟩ : BufTy).Contents (Elt F)),
    StableHlo.nullary main_cst_15 (constant S_ .f32 0x3DCCCCCD#32),
    StableHlo.unary main_cst_15 main_v32 (broadcastInDim S32 ![] bcast_S_S32 : (⟨S_, .f32⟩ : BufTy).Contents (Elt F) → (⟨S32, .f32⟩ : BufTy).Contents (Elt F)),
    StableHlo.binary main_v18 main_v32 main_v33 (cmpf .ogt : (⟨S32, .f32⟩ : BufTy).Contents (Elt F) → (⟨S32, .f32⟩ : BufTy).Contents (Elt F) → (⟨S32, .i1⟩ : BufTy).Contents (Elt F)),
    StableHlo.binary main_v31 main_v33 main_v34 (andi : (⟨S32, .i1⟩ : BufTy).Contents (Elt F) → (⟨S32, .i1⟩ : BufTy).Contents (Elt F) → (⟨S32, .i1⟩ : BufTy).Contents (Elt F)),
    StableHlo.nullary main_cst_16 (constant S_ .f32 0x3F000000#32),
    StableHlo.nullary main_cst_17 (constant S_ .f32 0x3F800000#32),
    StableHlo.TRef.unary (.of main_cst_17 : StableHlo.TRef sig ⟨S_, .f32⟩) main_call2.v0 (broadcastInDim S32 ![] bcast_S_S32),
    StableHlo.TRef.unary (.of main_cst_16 : StableHlo.TRef sig ⟨S_, .f32⟩) main_call2.v1 (broadcastInDim S32 ![] bcast_S_S32),
    StableHlo.TRef.ternary (.of main_v34 : StableHlo.TRef sig ⟨S32, .i1⟩) main_call2.v1 main_call2.v0 main_call2.v2 select,
    StableHlo.unary main_v35 main_v36 (id : (⟨S32, .f32⟩ : BufTy).Contents (Elt F) → (⟨S32, .f32⟩ : BufTy).Contents (Elt F)),
    StableHlo.binary main_v29 main_v36 main_v37 (mulf : (⟨S32, .f32⟩ : BufTy).Contents (Elt F) → (⟨S32, .f32⟩ : BufTy).Contents (Elt F) → (⟨S32, .f32⟩ : BufTy).Contents (Elt F)),
    StableHlo.nullary main_cst_18 (constant S_ .f32 0x7F800000#32),
    StableHlo.binary main_v0 main_cst_18 main_v38 ((fun x v => Host.reduce FloatOps.minimumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_19 (constant S_ .f32 0xFF800000#32),
    StableHlo.binary main_v0 main_cst_19 main_v39 ((fun x v => Host.reduce FloatOps.maximumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.unary main_v38 main_v40 (broadcastInDim S32x1x1 ![0] bcast_S32_S32x1x1_0 : (⟨S32, .f32⟩ : BufTy).Contents (Elt F) → (⟨S32x1x1, .f32⟩ : BufTy).Contents (Elt F)),
    StableHlo.unary main_v40 main_v41 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    StableHlo.binary main_v0 main_v41 main_v42 (subf : (⟨S32x1024x1024, .f32⟩ : BufTy).Contents (Elt F) → (⟨S32x1024x1024, .f32⟩ : BufTy).Contents (Elt F) → (⟨S32x1024x1024, .f32⟩ : BufTy).Contents (Elt F)),
    StableHlo.binary main_v39 main_v38 main_v43 (subf : (⟨S32, .f32⟩ : BufTy).Contents (Elt F) → (⟨S32, .f32⟩ : BufTy).Contents (Elt F) → (⟨S32, .f32⟩ : BufTy).Contents (Elt F)),
    StableHlo.nullary main_cst_20 (constant S_ .f32 0x322BCC77#32),
    StableHlo.unary main_cst_20 main_v44 (broadcastInDim S32 ![] bcast_S_S32 : (⟨S_, .f32⟩ : BufTy).Contents (Elt F) → (⟨S32, .f32⟩ : BufTy).Contents (Elt F)),
    StableHlo.binary main_v43 main_v44 main_v45 (addf : (⟨S32, .f32⟩ : BufTy).Contents (Elt F) → (⟨S32, .f32⟩ : BufTy).Contents (Elt F) → (⟨S32, .f32⟩ : BufTy).Contents (Elt F)),
    StableHlo.unary main_v45 main_v46 (broadcastInDim S32x1x1 ![0] bcast_S32_S32x1x1_0 : (⟨S32, .f32⟩ : BufTy).Contents (Elt F) → (⟨S32x1x1, .f32⟩ : BufTy).Contents (Elt F)),
    StableHlo.unary main_v46 main_v47 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    StableHlo.binary main_v42 main_v47 main_v48 (Host.divf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_21 (constant S_ .f32 0x3F000000#32),
    StableHlo.unary main_cst_21 main_v49 (broadcastInDim S32x1024x1024 ![] bcast_S_S32x1024x1024 : (⟨S_, .f32⟩ : BufTy).Contents (Elt F) → (⟨S32x1024x1024, .f32⟩ : BufTy).Contents (Elt F)),
    StableHlo.binary main_v48 main_v49 main_v50 (cmpf .ogt : (⟨S32x1024x1024, .f32⟩ : BufTy).Contents (Elt F) → (⟨S32x1024x1024, .f32⟩ : BufTy).Contents (Elt F) → (⟨S32x1024x1024, .i1⟩ : BufTy).Contents (Elt F)),
    StableHlo.nullary main_c (constantI S_ 1 0#1),
    StableHlo.binary main_v50 main_c main_v51 ((fun x v => Host.reduce IntOp.ori x v reducesTo_S32x1024x1024_S32x1024_d2 h_S_) : (⟨S32x1024x1024, .i1⟩ : BufTy).Contents (Elt F) → (⟨S_, .i1⟩ : BufTy).Contents (Elt F) → (⟨S32x1024, .i1⟩ : BufTy).Contents (Elt F)),
    StableHlo.nullary main_c_22 (constantI S_ 1 0#1),
    StableHlo.binary main_v50 main_c_22 main_v52 ((fun x v => Host.reduce IntOp.ori x v reducesTo_S32x1024x1024_S32x1024_d1 h_S_) : (⟨S32x1024x1024, .i1⟩ : BufTy).Contents (Elt F) → (⟨S_, .i1⟩ : BufTy).Contents (Elt F) → (⟨S32x1024, .i1⟩ : BufTy).Contents (Elt F)),
    StableHlo.unary main_v51 main_v53 ((extui 32 · natLt_1_32) : (⟨S32x1024, .i1⟩ : BufTy).Contents (Elt F) → (⟨S32x1024, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v53 : StableHlo.TRef sig ⟨S32x1024, .i32⟩) main_call3.call0.v0 main_call3.call0.v1 (fun x v => Host.reduceWindow IntOp.addi ![1, 1024] ![1, 1] ![0, 1023] ![0, 0] x v reduceWindows_S32x1024_S32x1024_w1s1p0_0_w1024s1p1023_0 h_S_),
    StableHlo.nullary main_c_23 (constantI S_ 32 0#32),
    StableHlo.unary main_c_23 main_v55 (broadcastInDim S32x1024 ![] bcast_S_S32x1024 : (⟨S_, .i32⟩ : BufTy).Contents (Elt F) → (⟨S32x1024, .i32⟩ : BufTy).Contents (Elt F)),
    StableHlo.binary main_v54 main_v55 main_v56 (cmpi .sgt : (⟨S32x1024, .i32⟩ : BufTy).Contents (Elt F) → (⟨S32x1024, .i32⟩ : BufTy).Contents (Elt F) → (⟨S32x1024, .i1⟩ : BufTy).Contents (Elt F)),
    StableHlo.unary main_v51 main_v57 (Host.reverse [1] : (⟨S32x1024, .i1⟩ : BufTy).Contents (Elt F) → (⟨S32x1024, .i1⟩ : BufTy).Contents (Elt F)),
    StableHlo.unary main_v57 main_v58 ((extui 32 · natLt_1_32) : (⟨S32x1024, .i1⟩ : BufTy).Contents (Elt F) → (⟨S32x1024, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v58 : StableHlo.TRef sig ⟨S32x1024, .i32⟩) main_call4.call0.v0 main_call4.call0.v1 (fun x v => Host.reduceWindow IntOp.addi ![1, 1024] ![1, 1] ![0, 1023] ![0, 0] x v reduceWindows_S32x1024_S32x1024_w1s1p0_0_w1024s1p1023_0 h_S_),
    StableHlo.unary main_v59 main_v60 (Host.reverse [1] : (⟨S32x1024, .i32⟩ : BufTy).Contents (Elt F) → (⟨S32x1024, .i32⟩ : BufTy).Contents (Elt F)),
    StableHlo.nullary main_c_24 (constantI S_ 32 0#32),
    StableHlo.unary main_c_24 main_v61 (broadcastInDim S32x1024 ![] bcast_S_S32x1024 : (⟨S_, .i32⟩ : BufTy).Contents (Elt F) → (⟨S32x1024, .i32⟩ : BufTy).Contents (Elt F)),
    StableHlo.binary main_v60 main_v61 main_v62 (cmpi .sgt : (⟨S32x1024, .i32⟩ : BufTy).Contents (Elt F) → (⟨S32x1024, .i32⟩ : BufTy).Contents (Elt F) → (⟨S32x1024, .i1⟩ : BufTy).Contents (Elt F)),
    StableHlo.binary main_v56 main_v62 main_v63 (andi : (⟨S32x1024, .i1⟩ : BufTy).Contents (Elt F) → (⟨S32x1024, .i1⟩ : BufTy).Contents (Elt F) → (⟨S32x1024, .i1⟩ : BufTy).Contents (Elt F)),
    StableHlo.unary main_v63 main_v64 (broadcastInDim S32x1024x1 ![0, 1] bcast_S32x1024_S32x1024x1_0_1 : (⟨S32x1024, .i1⟩ : BufTy).Contents (Elt F) → (⟨S32x1024x1, .i1⟩ : BufTy).Contents (Elt F)),
    StableHlo.unary main_v52 main_v65 ((extui 32 · natLt_1_32) : (⟨S32x1024, .i1⟩ : BufTy).Contents (Elt F) → (⟨S32x1024, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v65 : StableHlo.TRef sig ⟨S32x1024, .i32⟩) main_call5.call0.v0 main_call5.call0.v1 (fun x v => Host.reduceWindow IntOp.addi ![1, 1024] ![1, 1] ![0, 1023] ![0, 0] x v reduceWindows_S32x1024_S32x1024_w1s1p0_0_w1024s1p1023_0 h_S_),
    StableHlo.nullary main_c_25 (constantI S_ 32 0#32),
    StableHlo.unary main_c_25 main_v67 (broadcastInDim S32x1024 ![] bcast_S_S32x1024 : (⟨S_, .i32⟩ : BufTy).Contents (Elt F) → (⟨S32x1024, .i32⟩ : BufTy).Contents (Elt F)),
    StableHlo.binary main_v66 main_v67 main_v68 (cmpi .sgt : (⟨S32x1024, .i32⟩ : BufTy).Contents (Elt F) → (⟨S32x1024, .i32⟩ : BufTy).Contents (Elt F) → (⟨S32x1024, .i1⟩ : BufTy).Contents (Elt F)),
    StableHlo.unary main_v52 main_v69 (Host.reverse [1] : (⟨S32x1024, .i1⟩ : BufTy).Contents (Elt F) → (⟨S32x1024, .i1⟩ : BufTy).Contents (Elt F)),
    StableHlo.unary main_v69 main_v70 ((extui 32 · natLt_1_32) : (⟨S32x1024, .i1⟩ : BufTy).Contents (Elt F) → (⟨S32x1024, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v70 : StableHlo.TRef sig ⟨S32x1024, .i32⟩) main_call6.call0.v0 main_call6.call0.v1 (fun x v => Host.reduceWindow IntOp.addi ![1, 1024] ![1, 1] ![0, 1023] ![0, 0] x v reduceWindows_S32x1024_S32x1024_w1s1p0_0_w1024s1p1023_0 h_S_),
    StableHlo.unary main_v71 main_v72 (Host.reverse [1] : (⟨S32x1024, .i32⟩ : BufTy).Contents (Elt F) → (⟨S32x1024, .i32⟩ : BufTy).Contents (Elt F)),
    StableHlo.nullary main_c_26 (constantI S_ 32 0#32),
    StableHlo.unary main_c_26 main_v73 (broadcastInDim S32x1024 ![] bcast_S_S32x1024 : (⟨S_, .i32⟩ : BufTy).Contents (Elt F) → (⟨S32x1024, .i32⟩ : BufTy).Contents (Elt F)),
    StableHlo.binary main_v72 main_v73 main_v74 (cmpi .sgt : (⟨S32x1024, .i32⟩ : BufTy).Contents (Elt F) → (⟨S32x1024, .i32⟩ : BufTy).Contents (Elt F) → (⟨S32x1024, .i1⟩ : BufTy).Contents (Elt F)),
    StableHlo.binary main_v68 main_v74 main_v75 (andi : (⟨S32x1024, .i1⟩ : BufTy).Contents (Elt F) → (⟨S32x1024, .i1⟩ : BufTy).Contents (Elt F) → (⟨S32x1024, .i1⟩ : BufTy).Contents (Elt F)),
    StableHlo.unary main_v75 main_v76 (broadcastInDim S32x1x1024 ![0, 2] bcast_S32x1024_S32x1x1024_0_2 : (⟨S32x1024, .i1⟩ : BufTy).Contents (Elt F) → (⟨S32x1x1024, .i1⟩ : BufTy).Contents (Elt F)),
    StableHlo.unary main_v64 main_v77 (broadcastInDim S32x1024x1024 ![0, 1, 2] bcast_S32x1024x1_S32x1024x1024_0_1_2 : (⟨S32x1024x1, .i1⟩ : BufTy).Contents (Elt F) → (⟨S32x1024x1024, .i1⟩ : BufTy).Contents (Elt F)),
    StableHlo.unary main_v76 main_v78 (broadcastInDim S32x1024x1024 ![0, 1, 2] bcast_S32x1x1024_S32x1024x1024_0_1_2 : (⟨S32x1x1024, .i1⟩ : BufTy).Contents (Elt F) → (⟨S32x1024x1024, .i1⟩ : BufTy).Contents (Elt F)),
    StableHlo.binary main_v77 main_v78 main_v79 (andi : (⟨S32x1024x1024, .i1⟩ : BufTy).Contents (Elt F) → (⟨S32x1024x1024, .i1⟩ : BufTy).Contents (Elt F) → (⟨S32x1024x1024, .i1⟩ : BufTy).Contents (Elt F)),
    StableHlo.nullary main_c_27 (constantI S_ 1 0#1),
    StableHlo.binary main_v50 main_c_27 main_v80 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    StableHlo.unary main_v80 main_v81 (broadcastInDim S32x1x1 ![0] bcast_S32_S32x1x1_0 : (⟨S32, .i1⟩ : BufTy).Contents (Elt F) → (⟨S32x1x1, .i1⟩ : BufTy).Contents (Elt F)),
    StableHlo.unary main_v81 main_v82 (broadcastInDim S32x1024x1024 ![0, 1, 2] bcast_S32x1x1_S32x1024x1024_0_1_2 : (⟨S32x1x1, .i1⟩ : BufTy).Contents (Elt F) → (⟨S32x1024x1024, .i1⟩ : BufTy).Contents (Elt F)),
    StableHlo.binary main_v79 main_v82 main_v83 (andi : (⟨S32x1024x1024, .i1⟩ : BufTy).Contents (Elt F) → (⟨S32x1024x1024, .i1⟩ : BufTy).Contents (Elt F) → (⟨S32x1024x1024, .i1⟩ : BufTy).Contents (Elt F)),
    StableHlo.binary main_v83 main_v50 main_v84 (cmpi .ne : (⟨S32x1024x1024, .i1⟩ : BufTy).Contents (Elt F) → (⟨S32x1024x1024, .i1⟩ : BufTy).Contents (Elt F) → (⟨S32x1024x1024, .i1⟩ : BufTy).Contents (Elt F)),
    StableHlo.nullary main_c_28 (constantI S_ 1 0#1),
    StableHlo.binary main_v84 main_c_28 main_v85 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    StableHlo.unary main_v83 main_v86 (uitofp .f32 : (⟨S32x1024x1024, .i1⟩ : BufTy).Contents (Elt F) → (⟨S32x1024x1024, .f32⟩ : BufTy).Contents (Elt F)),
    StableHlo.binary main_v48 main_v86 main_v87 (subf : (⟨S32x1024x1024, .f32⟩ : BufTy).Contents (Elt F) → (⟨S32x1024x1024, .f32⟩ : BufTy).Contents (Elt F) → (⟨S32x1024x1024, .f32⟩ : BufTy).Contents (Elt F)),
    StableHlo.binary main_v87 main_v87 main_v88 (mulf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_29 (constant S_ .f32 0x00000000#32),
    StableHlo.binary main_v88 main_cst_29 main_v89 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_30 (constant S_ .f32 0x49800000#32),
    StableHlo.unary main_cst_30 main_v90 (broadcastInDim S32 ![] bcast_S_S32 : (⟨S_, .f32⟩ : BufTy).Contents (Elt F) → (⟨S32, .f32⟩ : BufTy).Contents (Elt F)),
    StableHlo.binary main_v89 main_v90 main_v91 (Host.divf : (⟨S32, .f32⟩ : BufTy).Contents (Elt F) → (⟨S32, .f32⟩ : BufTy).Contents (Elt F) → (⟨S32, .f32⟩ : BufTy).Contents (Elt F)),
    StableHlo.binary main_v91 main_v37 main_v92 (mulf : (⟨S32, .f32⟩ : BufTy).Contents (Elt F) → (⟨S32, .f32⟩ : BufTy).Contents (Elt F) → (⟨S32, .f32⟩ : BufTy).Contents (Elt F)),
    StableHlo.unary main_v85 main_v93 (uitofp .f32 : (⟨S32, .i1⟩ : BufTy).Contents (Elt F) → (⟨S32, .f32⟩ : BufTy).Contents (Elt F)),
    StableHlo.nullary main_cst_31 (constant S_ .f32 0x00000000#32),
    StableHlo.binary main_v93 main_cst_31 main_v94 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.unary main_v85 main_v95 (uitofp .f32 : (⟨S32, .i1⟩ : BufTy).Contents (Elt F) → (⟨S32, .f32⟩ : BufTy).Contents (Elt F)),
    StableHlo.binary main_v92 main_v95 main_v96 (mulf : (⟨S32, .f32⟩ : BufTy).Contents (Elt F) → (⟨S32, .f32⟩ : BufTy).Contents (Elt F) → (⟨S32, .f32⟩ : BufTy).Contents (Elt F)),
    StableHlo.nullary main_cst_32 (constant S_ .f32 0x00000000#32),
    StableHlo.binary main_v96 main_cst_32 main_v97 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_33 (constant S_ .f32 0x00000000#32),
    StableHlo.binary main_v94 main_cst_33 main_v98 (cmpf .ogt : (⟨S_, .f32⟩ : BufTy).Contents (Elt F) → (⟨S_, .f32⟩ : BufTy).Contents (Elt F) → (⟨S_, .i1⟩ : BufTy).Contents (Elt F)),
    StableHlo.nullary main_cst_34 (constant S_ .f32 0x3F800000#32),
    StableHlo.binary main_v94 main_cst_34 main_v99 (maximumf : (⟨S_, .f32⟩ : BufTy).Contents (Elt F) → (⟨S_, .f32⟩ : BufTy).Contents (Elt F) → (⟨S_, .f32⟩ : BufTy).Contents (Elt F)),
    StableHlo.binary main_v97 main_v99 main_v100 (Host.divf : (⟨S_, .f32⟩ : BufTy).Contents (Elt F) → (⟨S_, .f32⟩ : BufTy).Contents (Elt F) → (⟨S_, .f32⟩ : BufTy).Contents (Elt F)),
    StableHlo.nullary main_cst_35 (constant S_ .f32 0x00000000#32),
    StableHlo.TRef.unary (.of main_cst_35 : StableHlo.TRef sig ⟨S_, .f32⟩) main_call7.v0 id,
    StableHlo.TRef.ternary (.of main_v98 : StableHlo.TRef sig ⟨S_, .i1⟩) (.of main_v100 : StableHlo.TRef sig ⟨S_, .f32⟩) main_call7.v0 main_call7.v1 select ]

def res_main_v0 (X : (⟨S32x1x1024x1024, .f32⟩ : BufTy).Contents (Elt F)) := shapeCast S32x1024x1024 X shapeCasts_S32x1x1024x1024_S32x1024x1024
def res_main_v1 (X : (⟨S32x1x1024x1024, .f32⟩ : BufTy).Contents (Elt F)) := (Host.negf : (⟨S32x1024x1024, .f32⟩ : BufTy).Contents (Elt F) → (⟨S32x1024x1024, .f32⟩ : BufTy).Contents (Elt F)) (res_main_v0 X)
def res_main_v2 (X : (⟨S32x1x1024x1024, .f32⟩ : BufTy).Contents (Elt F)) := (Host.exp : (⟨S32x1024x1024, .f32⟩ : BufTy).Contents (Elt F) → (⟨S32x1024x1024, .f32⟩ : BufTy).Contents (Elt F)) (res_main_v1 X)
def res_main_cst (X : (⟨S32x1x1024x1024, .f32⟩ : BufTy).Contents (Elt F)) : (⟨S_, .f32⟩ : BufTy).Contents (Elt F) := constant S_ .f32 0x3F800000#32
def res_main_v3 (X : (⟨S32x1x1024x1024, .f32⟩ : BufTy).Contents (Elt F)) := (broadcastInDim S32x1024x1024 ![] bcast_S_S32x1024x1024 : (⟨S_, .f32⟩ : BufTy).Contents (Elt F) → (⟨S32x1024x1024, .f32⟩ : BufTy).Contents (Elt F)) (res_main_cst X)
def res_main_v4 (X : (⟨S32x1x1024x1024, .f32⟩ : BufTy).Contents (Elt F)) := (addf : (⟨S32x1024x1024, .f32⟩ : BufTy).Contents (Elt F) → (⟨S32x1024x1024, .f32⟩ : BufTy).Contents (Elt F) → (⟨S32x1024x1024, .f32⟩ : BufTy).Contents (Elt F)) (res_main_v3 X) (res_main_v2 X)
def res_main_cst_0 (X : (⟨S32x1x1024x1024, .f32⟩ : BufTy).Contents (Elt F)) : (⟨S_, .f32⟩ : BufTy).Contents (Elt F) := constant S_ .f32 0x3F800000#32
def res_main_v5 (X : (⟨S32x1x1024x1024, .f32⟩ : BufTy).Contents (Elt F)) := (broadcastInDim S32x1024x1024 ![] bcast_S_S32x1024x1024 : (⟨S_, .f32⟩ : BufTy).Contents (Elt F) → (⟨S32x1024x1024, .f32⟩ : BufTy).Contents (Elt F)) (res_main_cst_0 X)
def res_main_v6 (X : (⟨S32x1x1024x1024, .f32⟩ : BufTy).Contents (Elt F)) := (Host.divf : (⟨S32x1024x1024, .f32⟩ : BufTy).Contents (Elt F) → (⟨S32x1024x1024, .f32⟩ : BufTy).Contents (Elt F) → (⟨S32x1024x1024, .f32⟩ : BufTy).Contents (Elt F)) (res_main_v5 X) (res_main_v4 X)
def res_main_cst_1 (X : (⟨S32x1x1024x1024, .f32⟩ : BufTy).Contents (Elt F)) : (⟨S_, .f32⟩ : BufTy).Contents (Elt F) := constant S_ .f32 0x3F000000#32
def res_main_v7 (X : (⟨S32x1x1024x1024, .f32⟩ : BufTy).Contents (Elt F)) := (broadcastInDim S32x1024x1024 ![] bcast_S_S32x1024x1024 : (⟨S_, .f32⟩ : BufTy).Contents (Elt F) → (⟨S32x1024x1024, .f32⟩ : BufTy).Contents (Elt F)) (res_main_cst_1 X)
def res_main_v8 (X : (⟨S32x1x1024x1024, .f32⟩ : BufTy).Contents (Elt F)) := (subf : (⟨S32x1024x1024, .f32⟩ : BufTy).Contents (Elt F) → (⟨S32x1024x1024, .f32⟩ : BufTy).Contents (Elt F) → (⟨S32x1024x1024, .f32⟩ : BufTy).Contents (Elt F)) (res_main_v6 X) (res_main_v7 X)
def res_main_v9 (X : (⟨S32x1x1024x1024, .f32⟩ : BufTy).Contents (Elt F)) := (Host.absf : (⟨S32x1024x1024, .f32⟩ : BufTy).Contents (Elt F) → (⟨S32x1024x1024, .f32⟩ : BufTy).Contents (Elt F)) (res_main_v8 X)
def res_main_cst_2 (X : (⟨S32x1x1024x1024, .f32⟩ : BufTy).Contents (Elt F)) : (⟨S_, .f32⟩ : BufTy).Contents (Elt F) := constant S_ .f32 0x00000000#32
def res_main_v10 (X : (⟨S32x1x1024x1024, .f32⟩ : BufTy).Contents (Elt F)) := ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)) (res_main_v9 X) (res_main_cst_2 X)
def res_main_cst_3 (X : (⟨S32x1x1024x1024, .f32⟩ : BufTy).Contents (Elt F)) : (⟨S_, .f32⟩ : BufTy).Contents (Elt F) := constant S_ .f32 0x49800000#32
def res_main_v11 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_3 X)
def res_main_v12 (X : (⟨S32x1x1024x1024, .f32⟩ : BufTy).Contents (Elt F)) := (Host.divf : (⟨S32, .f32⟩ : BufTy).Contents (Elt F) → (⟨S32, .f32⟩ : BufTy).Contents (Elt F) → (⟨S32, .f32⟩ : BufTy).Contents (Elt F)) (res_main_v10 X) (res_main_v11 X)
def res_main_cst_4 (X : (⟨S32x1x1024x1024, .f32⟩ : BufTy).Contents (Elt F)) : (⟨S_, .f32⟩ : BufTy).Contents (Elt F) := constant S_ .f32 0x3F000000#32
def res_main_v13 (X : (⟨S32x1x1024x1024, .f32⟩ : BufTy).Contents (Elt F)) := (broadcastInDim S32x1024x1024 ![] bcast_S_S32x1024x1024 : (⟨S_, .f32⟩ : BufTy).Contents (Elt F) → (⟨S32x1024x1024, .f32⟩ : BufTy).Contents (Elt F)) (res_main_cst_4 X)
def res_main_v14 (X : (⟨S32x1x1024x1024, .f32⟩ : BufTy).Contents (Elt F)) := (cmpf .ogt : (⟨S32x1024x1024, .f32⟩ : BufTy).Contents (Elt F) → (⟨S32x1024x1024, .f32⟩ : BufTy).Contents (Elt F) → (⟨S32x1024x1024, .i1⟩ : BufTy).Contents (Elt F)) (res_main_v6 X) (res_main_v13 X)
def res_main_v15 (X : (⟨S32x1x1024x1024, .f32⟩ : BufTy).Contents (Elt F)) := (uitofp .f32 : (⟨S32x1024x1024, .i1⟩ : BufTy).Contents (Elt F) → (⟨S32x1024x1024, .f32⟩ : BufTy).Contents (Elt F)) (res_main_v14 X)
def res_main_cst_5 (X : (⟨S32x1x1024x1024, .f32⟩ : BufTy).Contents (Elt F)) : (⟨S_, .f32⟩ : BufTy).Contents (Elt F) := constant S_ .f32 0x00000000#32
def res_main_v16 (X : (⟨S32x1x1024x1024, .f32⟩ : BufTy).Contents (Elt F)) := ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)) (res_main_v15 X) (res_main_cst_5 X)
def res_main_cst_6 (X : (⟨S32x1x1024x1024, .f32⟩ : BufTy).Contents (Elt F)) : (⟨S_, .f32⟩ : BufTy).Contents (Elt F) := constant S_ .f32 0x49800000#32
def res_main_v17 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_6 X)
def res_main_v18 (X : (⟨S32x1x1024x1024, .f32⟩ : BufTy).Contents (Elt F)) := (Host.divf : (⟨S32, .f32⟩ : BufTy).Contents (Elt F) → (⟨S32, .f32⟩ : BufTy).Contents (Elt F) → (⟨S32, .f32⟩ : BufTy).Contents (Elt F)) (res_main_v16 X) (res_main_v17 X)
def res_main_cst_7 (X : (⟨S32x1x1024x1024, .f32⟩ : BufTy).Contents (Elt F)) : (⟨S_, .f32⟩ : BufTy).Contents (Elt F) := constant S_ .f32 0x3E99999A#32
def res_main_v19 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_7 X)
def res_main_v20 (X : (⟨S32x1x1024x1024, .f32⟩ : BufTy).Contents (Elt F)) := (cmpf .olt : (⟨S32, .f32⟩ : BufTy).Contents (Elt F) → (⟨S32, .f32⟩ : BufTy).Contents (Elt F) → (⟨S32, .i1⟩ : BufTy).Contents (Elt F)) (res_main_v12 X) (res_main_v19 X)
def res_main_cst_8 (X : (⟨S32x1x1024x1024, .f32⟩ : BufTy).Contents (Elt F)) : (⟨S_, .f32⟩ : BufTy).Contents (Elt F) := constant S_ .f32 0x40000000#32
def res_main_cst_9 (X : (⟨S32x1x1024x1024, .f32⟩ : BufTy).Contents (Elt F)) : (⟨S_, .f32⟩ : BufTy).Contents (Elt F) := constant S_ .f32 0x3F800000#32
def res_main_call0_v0 (X : (⟨S32x1x1024x1024, .f32⟩ : BufTy).Contents (Elt F)) := (broadcastInDim S32 ![] bcast_S_S32) (res_main_cst_9 X)
def res_main_call0_v1 (X : (⟨S32x1x1024x1024, .f32⟩ : BufTy).Contents (Elt F)) := (broadcastInDim S32 ![] bcast_S_S32) (res_main_cst_8 X)
def res_main_v21 (X : (⟨S32x1x1024x1024, .f32⟩ : BufTy).Contents (Elt F)) := select (res_main_v20 X) (res_main_call0_v1 X) (res_main_call0_v0 X)
def res_main_v22 (X : (⟨S32x1x1024x1024, .f32⟩ : BufTy).Contents (Elt F)) := (id : (⟨S32, .f32⟩ : BufTy).Contents (Elt F) → (⟨S32, .f32⟩ : BufTy).Contents (Elt F)) (res_main_v21 X)
def res_main_cst_10 (X : (⟨S32x1x1024x1024, .f32⟩ : BufTy).Contents (Elt F)) : (⟨S_, .f32⟩ : BufTy).Contents (Elt F) := constant S_ .f32 0x3ECCCCCD#32
def res_main_v23 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_10 X)
def res_main_v24 (X : (⟨S32x1x1024x1024, .f32⟩ : BufTy).Contents (Elt F)) := (mulf : (⟨S32, .f32⟩ : BufTy).Contents (Elt F) → (⟨S32, .f32⟩ : BufTy).Contents (Elt F) → (⟨S32, .f32⟩ : BufTy).Contents (Elt F)) (res_main_v23 X) (res_main_v22 X)
def res_main_cst_11 (X : (⟨S32x1x1024x1024, .f32⟩ : BufTy).Contents (Elt F)) : (⟨S_, .f32⟩ : BufTy).Contents (Elt F) := constant S_ .f32 0x3D4CCCCD#32
def res_main_v25 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_11 X)
def res_main_v26 (X : (⟨S32x1x1024x1024, .f32⟩ : BufTy).Contents (Elt F)) := (cmpf .olt : (⟨S32, .f32⟩ : BufTy).Contents (Elt F) → (⟨S32, .f32⟩ : BufTy).Contents (Elt F) → (⟨S32, .i1⟩ : BufTy).Contents (Elt F)) (res_main_v18 X) (res_main_v25 X)
def res_main_cst_12 (X : (⟨S32x1x1024x1024, .f32⟩ : BufTy).Contents (Elt F)) : (⟨S_, .f32⟩ : BufTy).Contents (Elt F) := constant S_ .f32 0x3FC00000#32
def res_main_cst_13 (X : (⟨S32x1x1024x1024, .f32⟩ : BufTy).Contents (Elt F)) : (⟨S_, .f32⟩ : BufTy).Contents (Elt F) := constant S_ .f32 0x3F800000#32
def res_main_call1_v0 (X : (⟨S32x1x1024x1024, .f32⟩ : BufTy).Contents (Elt F)) := (broadcastInDim S32 ![] bcast_S_S32) (res_main_cst_13 X)
def res_main_call1_v1 (X : (⟨S32x1x1024x1024, .f32⟩ : BufTy).Contents (Elt F)) := (broadcastInDim S32 ![] bcast_S_S32) (res_main_cst_12 X)
def res_main_v27 (X : (⟨S32x1x1024x1024, .f32⟩ : BufTy).Contents (Elt F)) := select (res_main_v26 X) (res_main_call1_v1 X) (res_main_call1_v0 X)
def res_main_v28 (X : (⟨S32x1x1024x1024, .f32⟩ : BufTy).Contents (Elt F)) := (id : (⟨S32, .f32⟩ : BufTy).Contents (Elt F) → (⟨S32, .f32⟩ : BufTy).Contents (Elt F)) (res_main_v27 X)
def res_main_v29 (X : (⟨S32x1x1024x1024, .f32⟩ : BufTy).Contents (Elt F)) := (mulf : (⟨S32, .f32⟩ : BufTy).Contents (Elt F) → (⟨S32, .f32⟩ : BufTy).Contents (Elt F) → (⟨S32, .f32⟩ : BufTy).Contents (Elt F)) (res_main_v24 X) (res_main_v28 X)
def res_main_cst_14 (X : (⟨S32x1x1024x1024, .f32⟩ : BufTy).Contents (Elt F)) : (⟨S_, .f32⟩ : BufTy).Contents (Elt F) := constant S_ .f32 0x3ECCCCCD#32
def res_main_v30 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_14 X)
def res_main_v31 (X : (⟨S32x1x1024x1024, .f32⟩ : BufTy).Contents (Elt F)) := (cmpf .ogt : (⟨S32, .f32⟩ : BufTy).Contents (Elt F) → (⟨S32, .f32⟩ : BufTy).Contents (Elt F) → (⟨S32, .i1⟩ : BufTy).Contents (Elt F)) (res_main_v12 X) (res_main_v30 X)
def res_main_cst_15 (X : (⟨S32x1x1024x1024, .f32⟩ : BufTy).Contents (Elt F)) : (⟨S_, .f32⟩ : BufTy).Contents (Elt F) := constant S_ .f32 0x3DCCCCCD#32
def res_main_v32 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_15 X)
def res_main_v33 (X : (⟨S32x1x1024x1024, .f32⟩ : BufTy).Contents (Elt F)) := (cmpf .ogt : (⟨S32, .f32⟩ : BufTy).Contents (Elt F) → (⟨S32, .f32⟩ : BufTy).Contents (Elt F) → (⟨S32, .i1⟩ : BufTy).Contents (Elt F)) (res_main_v18 X) (res_main_v32 X)
def res_main_v34 (X : (⟨S32x1x1024x1024, .f32⟩ : BufTy).Contents (Elt F)) := (andi : (⟨S32, .i1⟩ : BufTy).Contents (Elt F) → (⟨S32, .i1⟩ : BufTy).Contents (Elt F) → (⟨S32, .i1⟩ : BufTy).Contents (Elt F)) (res_main_v31 X) (res_main_v33 X)
def res_main_cst_16 (X : (⟨S32x1x1024x1024, .f32⟩ : BufTy).Contents (Elt F)) : (⟨S_, .f32⟩ : BufTy).Contents (Elt F) := constant S_ .f32 0x3F000000#32
def res_main_cst_17 (X : (⟨S32x1x1024x1024, .f32⟩ : BufTy).Contents (Elt F)) : (⟨S_, .f32⟩ : BufTy).Contents (Elt F) := constant S_ .f32 0x3F800000#32
def res_main_call2_v0 (X : (⟨S32x1x1024x1024, .f32⟩ : BufTy).Contents (Elt F)) := (broadcastInDim S32 ![] bcast_S_S32) (res_main_cst_17 X)
def res_main_call2_v1 (X : (⟨S32x1x1024x1024, .f32⟩ : BufTy).Contents (Elt F)) := (broadcastInDim S32 ![] bcast_S_S32) (res_main_cst_16 X)
def res_main_v35 (X : (⟨S32x1x1024x1024, .f32⟩ : BufTy).Contents (Elt F)) := select (res_main_v34 X) (res_main_call2_v1 X) (res_main_call2_v0 X)
def res_main_v36 (X : (⟨S32x1x1024x1024, .f32⟩ : BufTy).Contents (Elt F)) := (id : (⟨S32, .f32⟩ : BufTy).Contents (Elt F) → (⟨S32, .f32⟩ : BufTy).Contents (Elt F)) (res_main_v35 X)
def res_main_v37 (X : (⟨S32x1x1024x1024, .f32⟩ : BufTy).Contents (Elt F)) := (mulf : (⟨S32, .f32⟩ : BufTy).Contents (Elt F) → (⟨S32, .f32⟩ : BufTy).Contents (Elt F) → (⟨S32, .f32⟩ : BufTy).Contents (Elt F)) (res_main_v29 X) (res_main_v36 X)
def res_main_cst_18 (X : (⟨S32x1x1024x1024, .f32⟩ : BufTy).Contents (Elt F)) : (⟨S_, .f32⟩ : BufTy).Contents (Elt F) := constant S_ .f32 0x7F800000#32
def res_main_v38 (X : (⟨S32x1x1024x1024, .f32⟩ : BufTy).Contents (Elt F)) := ((fun x v => Host.reduce FloatOps.minimumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)) (res_main_v0 X) (res_main_cst_18 X)
def res_main_cst_19 (X : (⟨S32x1x1024x1024, .f32⟩ : BufTy).Contents (Elt F)) : (⟨S_, .f32⟩ : BufTy).Contents (Elt F) := constant S_ .f32 0xFF800000#32
def res_main_v39 (X : (⟨S32x1x1024x1024, .f32⟩ : BufTy).Contents (Elt F)) := ((fun x v => Host.reduce FloatOps.maximumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)) (res_main_v0 X) (res_main_cst_19 X)
def res_main_v40 (X : (⟨S32x1x1024x1024, .f32⟩ : BufTy).Contents (Elt F)) := (broadcastInDim S32x1x1 ![0] bcast_S32_S32x1x1_0 : (⟨S32, .f32⟩ : BufTy).Contents (Elt F) → (⟨S32x1x1, .f32⟩ : BufTy).Contents (Elt F)) (res_main_v38 X)
def res_main_v41 (X : (⟨S32x1x1024x1024, .f32⟩ : BufTy).Contents (Elt F)) := (broadcastInDim S32x1024x1024 ![0, 1, 2] bcast_S32x1x1_S32x1024x1024_0_1_2 : (⟨S32x1x1, .f32⟩ : BufTy).Contents (Elt F) → (⟨S32x1024x1024, .f32⟩ : BufTy).Contents (Elt F)) (res_main_v40 X)
def res_main_v42 (X : (⟨S32x1x1024x1024, .f32⟩ : BufTy).Contents (Elt F)) := (subf : (⟨S32x1024x1024, .f32⟩ : BufTy).Contents (Elt F) → (⟨S32x1024x1024, .f32⟩ : BufTy).Contents (Elt F) → (⟨S32x1024x1024, .f32⟩ : BufTy).Contents (Elt F)) (res_main_v0 X) (res_main_v41 X)
def res_main_v43 (X : (⟨S32x1x1024x1024, .f32⟩ : BufTy).Contents (Elt F)) := (subf : (⟨S32, .f32⟩ : BufTy).Contents (Elt F) → (⟨S32, .f32⟩ : BufTy).Contents (Elt F) → (⟨S32, .f32⟩ : BufTy).Contents (Elt F)) (res_main_v39 X) (res_main_v38 X)
def res_main_cst_20 (X : (⟨S32x1x1024x1024, .f32⟩ : BufTy).Contents (Elt F)) : (⟨S_, .f32⟩ : BufTy).Contents (Elt F) := constant S_ .f32 0x322BCC77#32
def res_main_v44 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_20 X)
def res_main_v45 (X : (⟨S32x1x1024x1024, .f32⟩ : BufTy).Contents (Elt F)) := (addf : (⟨S32, .f32⟩ : BufTy).Contents (Elt F) → (⟨S32, .f32⟩ : BufTy).Contents (Elt F) → (⟨S32, .f32⟩ : BufTy).Contents (Elt F)) (res_main_v43 X) (res_main_v44 X)
def res_main_v46 (X : (⟨S32x1x1024x1024, .f32⟩ : BufTy).Contents (Elt F)) := (broadcastInDim S32x1x1 ![0] bcast_S32_S32x1x1_0 : (⟨S32, .f32⟩ : BufTy).Contents (Elt F) → (⟨S32x1x1, .f32⟩ : BufTy).Contents (Elt F)) (res_main_v45 X)
def res_main_v47 (X : (⟨S32x1x1024x1024, .f32⟩ : BufTy).Contents (Elt F)) := (broadcastInDim S32x1024x1024 ![0, 1, 2] bcast_S32x1x1_S32x1024x1024_0_1_2 : (⟨S32x1x1, .f32⟩ : BufTy).Contents (Elt F) → (⟨S32x1024x1024, .f32⟩ : BufTy).Contents (Elt F)) (res_main_v46 X)
def res_main_v48 (X : (⟨S32x1x1024x1024, .f32⟩ : BufTy).Contents (Elt F)) := (Host.divf : (⟨S32x1024x1024, .f32⟩ : BufTy).Contents (Elt F) → (⟨S32x1024x1024, .f32⟩ : BufTy).Contents (Elt F) → (⟨S32x1024x1024, .f32⟩ : BufTy).Contents (Elt F)) (res_main_v42 X) (res_main_v47 X)
def res_main_cst_21 (X : (⟨S32x1x1024x1024, .f32⟩ : BufTy).Contents (Elt F)) : (⟨S_, .f32⟩ : BufTy).Contents (Elt F) := constant S_ .f32 0x3F000000#32
def res_main_v49 (X : (⟨S32x1x1024x1024, .f32⟩ : BufTy).Contents (Elt F)) := (broadcastInDim S32x1024x1024 ![] bcast_S_S32x1024x1024 : (⟨S_, .f32⟩ : BufTy).Contents (Elt F) → (⟨S32x1024x1024, .f32⟩ : BufTy).Contents (Elt F)) (res_main_cst_21 X)
def res_main_v50 (X : (⟨S32x1x1024x1024, .f32⟩ : BufTy).Contents (Elt F)) := (cmpf .ogt : (⟨S32x1024x1024, .f32⟩ : BufTy).Contents (Elt F) → (⟨S32x1024x1024, .f32⟩ : BufTy).Contents (Elt F) → (⟨S32x1024x1024, .i1⟩ : BufTy).Contents (Elt F)) (res_main_v48 X) (res_main_v49 X)
def res_main_c (X : (⟨S32x1x1024x1024, .f32⟩ : BufTy).Contents (Elt F)) : (⟨S_, .i1⟩ : BufTy).Contents (Elt F) := constantI S_ 1 0#1
def res_main_v51 (X : (⟨S32x1x1024x1024, .f32⟩ : BufTy).Contents (Elt F)) := ((fun x v => Host.reduce IntOp.ori x v reducesTo_S32x1024x1024_S32x1024_d2 h_S_) : (⟨S32x1024x1024, .i1⟩ : BufTy).Contents (Elt F) → (⟨S_, .i1⟩ : BufTy).Contents (Elt F) → (⟨S32x1024, .i1⟩ : BufTy).Contents (Elt F)) (res_main_v50 X) (res_main_c X)
def res_main_c_22 (X : (⟨S32x1x1024x1024, .f32⟩ : BufTy).Contents (Elt F)) : (⟨S_, .i1⟩ : BufTy).Contents (Elt F) := constantI S_ 1 0#1
def res_main_v52 (X : (⟨S32x1x1024x1024, .f32⟩ : BufTy).Contents (Elt F)) := ((fun x v => Host.reduce IntOp.ori x v reducesTo_S32x1024x1024_S32x1024_d1 h_S_) : (⟨S32x1024x1024, .i1⟩ : BufTy).Contents (Elt F) → (⟨S_, .i1⟩ : BufTy).Contents (Elt F) → (⟨S32x1024, .i1⟩ : BufTy).Contents (Elt F)) (res_main_v50 X) (res_main_c_22 X)
def res_main_v53 (X : (⟨S32x1x1024x1024, .f32⟩ : BufTy).Contents (Elt F)) := ((extui 32 · natLt_1_32) : (⟨S32x1024, .i1⟩ : BufTy).Contents (Elt F) → (⟨S32x1024, .i32⟩ : BufTy).Contents (Elt F)) (res_main_v51 X)
def res_main_call3_call0_c (X : (⟨S32x1x1024x1024, .f32⟩ : BufTy).Contents (Elt F)) : (⟨S_, .i32⟩ : BufTy).Contents (Elt F) := constantI S_ 32 0#32
def res_main_call3_call0_v0 (X : (⟨S32x1x1024x1024, .f32⟩ : BufTy).Contents (Elt F)) := (broadcastInDim S_ ![] bcast_S_S_) (res_main_call3_call0_c X)
def res_main_v54 (X : (⟨S32x1x1024x1024, .f32⟩ : BufTy).Contents (Elt F)) := Host.reduceWindow IntOp.addi ![1, 1024] ![1, 1] ![0, 1023] ![0, 0] (res_main_v53 X) (res_main_call3_call0_v0 X) reduceWindows_S32x1024_S32x1024_w1s1p0_0_w1024s1p1023_0 h_S_
def res_main_c_23 (X : (⟨S32x1x1024x1024, .f32⟩ : BufTy).Contents (Elt F)) : (⟨S_, .i32⟩ : BufTy).Contents (Elt F) := constantI S_ 32 0#32
def res_main_v55 (X : (⟨S32x1x1024x1024, .f32⟩ : BufTy).Contents (Elt F)) := (broadcastInDim S32x1024 ![] bcast_S_S32x1024 : (⟨S_, .i32⟩ : BufTy).Contents (Elt F) → (⟨S32x1024, .i32⟩ : BufTy).Contents (Elt F)) (res_main_c_23 X)
def res_main_v56 (X : (⟨S32x1x1024x1024, .f32⟩ : BufTy).Contents (Elt F)) := (cmpi .sgt : (⟨S32x1024, .i32⟩ : BufTy).Contents (Elt F) → (⟨S32x1024, .i32⟩ : BufTy).Contents (Elt F) → (⟨S32x1024, .i1⟩ : BufTy).Contents (Elt F)) (res_main_v54 X) (res_main_v55 X)
def res_main_v57 (X : (⟨S32x1x1024x1024, .f32⟩ : BufTy).Contents (Elt F)) := (Host.reverse [1] : (⟨S32x1024, .i1⟩ : BufTy).Contents (Elt F) → (⟨S32x1024, .i1⟩ : BufTy).Contents (Elt F)) (res_main_v51 X)
def res_main_v58 (X : (⟨S32x1x1024x1024, .f32⟩ : BufTy).Contents (Elt F)) := ((extui 32 · natLt_1_32) : (⟨S32x1024, .i1⟩ : BufTy).Contents (Elt F) → (⟨S32x1024, .i32⟩ : BufTy).Contents (Elt F)) (res_main_v57 X)
def res_main_call4_call0_c (X : (⟨S32x1x1024x1024, .f32⟩ : BufTy).Contents (Elt F)) : (⟨S_, .i32⟩ : BufTy).Contents (Elt F) := constantI S_ 32 0#32
def res_main_call4_call0_v0 (X : (⟨S32x1x1024x1024, .f32⟩ : BufTy).Contents (Elt F)) := (broadcastInDim S_ ![] bcast_S_S_) (res_main_call4_call0_c X)
def res_main_v59 (X : (⟨S32x1x1024x1024, .f32⟩ : BufTy).Contents (Elt F)) := Host.reduceWindow IntOp.addi ![1, 1024] ![1, 1] ![0, 1023] ![0, 0] (res_main_v58 X) (res_main_call4_call0_v0 X) reduceWindows_S32x1024_S32x1024_w1s1p0_0_w1024s1p1023_0 h_S_
def res_main_v60 (X : (⟨S32x1x1024x1024, .f32⟩ : BufTy).Contents (Elt F)) := (Host.reverse [1] : (⟨S32x1024, .i32⟩ : BufTy).Contents (Elt F) → (⟨S32x1024, .i32⟩ : BufTy).Contents (Elt F)) (res_main_v59 X)
def res_main_c_24 (X : (⟨S32x1x1024x1024, .f32⟩ : BufTy).Contents (Elt F)) : (⟨S_, .i32⟩ : BufTy).Contents (Elt F) := constantI S_ 32 0#32
def res_main_v61 (X : (⟨S32x1x1024x1024, .f32⟩ : BufTy).Contents (Elt F)) := (broadcastInDim S32x1024 ![] bcast_S_S32x1024 : (⟨S_, .i32⟩ : BufTy).Contents (Elt F) → (⟨S32x1024, .i32⟩ : BufTy).Contents (Elt F)) (res_main_c_24 X)
def res_main_v62 (X : (⟨S32x1x1024x1024, .f32⟩ : BufTy).Contents (Elt F)) := (cmpi .sgt : (⟨S32x1024, .i32⟩ : BufTy).Contents (Elt F) → (⟨S32x1024, .i32⟩ : BufTy).Contents (Elt F) → (⟨S32x1024, .i1⟩ : BufTy).Contents (Elt F)) (res_main_v60 X) (res_main_v61 X)
def res_main_v63 (X : (⟨S32x1x1024x1024, .f32⟩ : BufTy).Contents (Elt F)) := (andi : (⟨S32x1024, .i1⟩ : BufTy).Contents (Elt F) → (⟨S32x1024, .i1⟩ : BufTy).Contents (Elt F) → (⟨S32x1024, .i1⟩ : BufTy).Contents (Elt F)) (res_main_v56 X) (res_main_v62 X)
def res_main_v64 (X : (⟨S32x1x1024x1024, .f32⟩ : BufTy).Contents (Elt F)) := (broadcastInDim S32x1024x1 ![0, 1] bcast_S32x1024_S32x1024x1_0_1 : (⟨S32x1024, .i1⟩ : BufTy).Contents (Elt F) → (⟨S32x1024x1, .i1⟩ : BufTy).Contents (Elt F)) (res_main_v63 X)
def res_main_v65 (X : (⟨S32x1x1024x1024, .f32⟩ : BufTy).Contents (Elt F)) := ((extui 32 · natLt_1_32) : (⟨S32x1024, .i1⟩ : BufTy).Contents (Elt F) → (⟨S32x1024, .i32⟩ : BufTy).Contents (Elt F)) (res_main_v52 X)
def res_main_call5_call0_c (X : (⟨S32x1x1024x1024, .f32⟩ : BufTy).Contents (Elt F)) : (⟨S_, .i32⟩ : BufTy).Contents (Elt F) := constantI S_ 32 0#32
def res_main_call5_call0_v0 (X : (⟨S32x1x1024x1024, .f32⟩ : BufTy).Contents (Elt F)) := (broadcastInDim S_ ![] bcast_S_S_) (res_main_call5_call0_c X)
def res_main_v66 (X : (⟨S32x1x1024x1024, .f32⟩ : BufTy).Contents (Elt F)) := Host.reduceWindow IntOp.addi ![1, 1024] ![1, 1] ![0, 1023] ![0, 0] (res_main_v65 X) (res_main_call5_call0_v0 X) reduceWindows_S32x1024_S32x1024_w1s1p0_0_w1024s1p1023_0 h_S_
def res_main_c_25 (X : (⟨S32x1x1024x1024, .f32⟩ : BufTy).Contents (Elt F)) : (⟨S_, .i32⟩ : BufTy).Contents (Elt F) := constantI S_ 32 0#32
def res_main_v67 (X : (⟨S32x1x1024x1024, .f32⟩ : BufTy).Contents (Elt F)) := (broadcastInDim S32x1024 ![] bcast_S_S32x1024 : (⟨S_, .i32⟩ : BufTy).Contents (Elt F) → (⟨S32x1024, .i32⟩ : BufTy).Contents (Elt F)) (res_main_c_25 X)
def res_main_v68 (X : (⟨S32x1x1024x1024, .f32⟩ : BufTy).Contents (Elt F)) := (cmpi .sgt : (⟨S32x1024, .i32⟩ : BufTy).Contents (Elt F) → (⟨S32x1024, .i32⟩ : BufTy).Contents (Elt F) → (⟨S32x1024, .i1⟩ : BufTy).Contents (Elt F)) (res_main_v66 X) (res_main_v67 X)
def res_main_v69 (X : (⟨S32x1x1024x1024, .f32⟩ : BufTy).Contents (Elt F)) := (Host.reverse [1] : (⟨S32x1024, .i1⟩ : BufTy).Contents (Elt F) → (⟨S32x1024, .i1⟩ : BufTy).Contents (Elt F)) (res_main_v52 X)
def res_main_v70 (X : (⟨S32x1x1024x1024, .f32⟩ : BufTy).Contents (Elt F)) := ((extui 32 · natLt_1_32) : (⟨S32x1024, .i1⟩ : BufTy).Contents (Elt F) → (⟨S32x1024, .i32⟩ : BufTy).Contents (Elt F)) (res_main_v69 X)
def res_main_call6_call0_c (X : (⟨S32x1x1024x1024, .f32⟩ : BufTy).Contents (Elt F)) : (⟨S_, .i32⟩ : BufTy).Contents (Elt F) := constantI S_ 32 0#32
def res_main_call6_call0_v0 (X : (⟨S32x1x1024x1024, .f32⟩ : BufTy).Contents (Elt F)) := (broadcastInDim S_ ![] bcast_S_S_) (res_main_call6_call0_c X)
def res_main_v71 (X : (⟨S32x1x1024x1024, .f32⟩ : BufTy).Contents (Elt F)) := Host.reduceWindow IntOp.addi ![1, 1024] ![1, 1] ![0, 1023] ![0, 0] (res_main_v70 X) (res_main_call6_call0_v0 X) reduceWindows_S32x1024_S32x1024_w1s1p0_0_w1024s1p1023_0 h_S_
def res_main_v72 (X : (⟨S32x1x1024x1024, .f32⟩ : BufTy).Contents (Elt F)) := (Host.reverse [1] : (⟨S32x1024, .i32⟩ : BufTy).Contents (Elt F) → (⟨S32x1024, .i32⟩ : BufTy).Contents (Elt F)) (res_main_v71 X)
def res_main_c_26 (X : (⟨S32x1x1024x1024, .f32⟩ : BufTy).Contents (Elt F)) : (⟨S_, .i32⟩ : BufTy).Contents (Elt F) := constantI S_ 32 0#32
def res_main_v73 (X : (⟨S32x1x1024x1024, .f32⟩ : BufTy).Contents (Elt F)) := (broadcastInDim S32x1024 ![] bcast_S_S32x1024 : (⟨S_, .i32⟩ : BufTy).Contents (Elt F) → (⟨S32x1024, .i32⟩ : BufTy).Contents (Elt F)) (res_main_c_26 X)
def res_main_v74 (X : (⟨S32x1x1024x1024, .f32⟩ : BufTy).Contents (Elt F)) := (cmpi .sgt : (⟨S32x1024, .i32⟩ : BufTy).Contents (Elt F) → (⟨S32x1024, .i32⟩ : BufTy).Contents (Elt F) → (⟨S32x1024, .i1⟩ : BufTy).Contents (Elt F)) (res_main_v72 X) (res_main_v73 X)
def res_main_v75 (X : (⟨S32x1x1024x1024, .f32⟩ : BufTy).Contents (Elt F)) := (andi : (⟨S32x1024, .i1⟩ : BufTy).Contents (Elt F) → (⟨S32x1024, .i1⟩ : BufTy).Contents (Elt F) → (⟨S32x1024, .i1⟩ : BufTy).Contents (Elt F)) (res_main_v68 X) (res_main_v74 X)
def res_main_v76 (X : (⟨S32x1x1024x1024, .f32⟩ : BufTy).Contents (Elt F)) := (broadcastInDim S32x1x1024 ![0, 2] bcast_S32x1024_S32x1x1024_0_2 : (⟨S32x1024, .i1⟩ : BufTy).Contents (Elt F) → (⟨S32x1x1024, .i1⟩ : BufTy).Contents (Elt F)) (res_main_v75 X)
def res_main_v77 (X : (⟨S32x1x1024x1024, .f32⟩ : BufTy).Contents (Elt F)) := (broadcastInDim S32x1024x1024 ![0, 1, 2] bcast_S32x1024x1_S32x1024x1024_0_1_2 : (⟨S32x1024x1, .i1⟩ : BufTy).Contents (Elt F) → (⟨S32x1024x1024, .i1⟩ : BufTy).Contents (Elt F)) (res_main_v64 X)
def res_main_v78 (X : (⟨S32x1x1024x1024, .f32⟩ : BufTy).Contents (Elt F)) := (broadcastInDim S32x1024x1024 ![0, 1, 2] bcast_S32x1x1024_S32x1024x1024_0_1_2 : (⟨S32x1x1024, .i1⟩ : BufTy).Contents (Elt F) → (⟨S32x1024x1024, .i1⟩ : BufTy).Contents (Elt F)) (res_main_v76 X)
def res_main_v79 (X : (⟨S32x1x1024x1024, .f32⟩ : BufTy).Contents (Elt F)) := (andi : (⟨S32x1024x1024, .i1⟩ : BufTy).Contents (Elt F) → (⟨S32x1024x1024, .i1⟩ : BufTy).Contents (Elt F) → (⟨S32x1024x1024, .i1⟩ : BufTy).Contents (Elt F)) (res_main_v77 X) (res_main_v78 X)
def res_main_c_27 (X : (⟨S32x1x1024x1024, .f32⟩ : BufTy).Contents (Elt F)) : (⟨S_, .i1⟩ : BufTy).Contents (Elt F) := constantI S_ 1 0#1
def res_main_v80 (X : (⟨S32x1x1024x1024, .f32⟩ : BufTy).Contents (Elt F)) := ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)) (res_main_v50 X) (res_main_c_27 X)
def res_main_v81 (X : (⟨S32x1x1024x1024, .f32⟩ : BufTy).Contents (Elt F)) := (broadcastInDim S32x1x1 ![0] bcast_S32_S32x1x1_0 : (⟨S32, .i1⟩ : BufTy).Contents (Elt F) → (⟨S32x1x1, .i1⟩ : BufTy).Contents (Elt F)) (res_main_v80 X)
def res_main_v82 (X : (⟨S32x1x1024x1024, .f32⟩ : BufTy).Contents (Elt F)) := (broadcastInDim S32x1024x1024 ![0, 1, 2] bcast_S32x1x1_S32x1024x1024_0_1_2 : (⟨S32x1x1, .i1⟩ : BufTy).Contents (Elt F) → (⟨S32x1024x1024, .i1⟩ : BufTy).Contents (Elt F)) (res_main_v81 X)
def res_main_v83 (X : (⟨S32x1x1024x1024, .f32⟩ : BufTy).Contents (Elt F)) := (andi : (⟨S32x1024x1024, .i1⟩ : BufTy).Contents (Elt F) → (⟨S32x1024x1024, .i1⟩ : BufTy).Contents (Elt F) → (⟨S32x1024x1024, .i1⟩ : BufTy).Contents (Elt F)) (res_main_v79 X) (res_main_v82 X)
def res_main_v84 (X : (⟨S32x1x1024x1024, .f32⟩ : BufTy).Contents (Elt F)) := (cmpi .ne : (⟨S32x1024x1024, .i1⟩ : BufTy).Contents (Elt F) → (⟨S32x1024x1024, .i1⟩ : BufTy).Contents (Elt F) → (⟨S32x1024x1024, .i1⟩ : BufTy).Contents (Elt F)) (res_main_v83 X) (res_main_v50 X)
def res_main_c_28 (X : (⟨S32x1x1024x1024, .f32⟩ : BufTy).Contents (Elt F)) : (⟨S_, .i1⟩ : BufTy).Contents (Elt F) := constantI S_ 1 0#1
def res_main_v85 (X : (⟨S32x1x1024x1024, .f32⟩ : BufTy).Contents (Elt F)) := ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)) (res_main_v84 X) (res_main_c_28 X)
def res_main_v86 (X : (⟨S32x1x1024x1024, .f32⟩ : BufTy).Contents (Elt F)) := (uitofp .f32 : (⟨S32x1024x1024, .i1⟩ : BufTy).Contents (Elt F) → (⟨S32x1024x1024, .f32⟩ : BufTy).Contents (Elt F)) (res_main_v83 X)
def res_main_v87 (X : (⟨S32x1x1024x1024, .f32⟩ : BufTy).Contents (Elt F)) := (subf : (⟨S32x1024x1024, .f32⟩ : BufTy).Contents (Elt F) → (⟨S32x1024x1024, .f32⟩ : BufTy).Contents (Elt F) → (⟨S32x1024x1024, .f32⟩ : BufTy).Contents (Elt F)) (res_main_v48 X) (res_main_v86 X)
def res_main_v88 (X : (⟨S32x1x1024x1024, .f32⟩ : BufTy).Contents (Elt F)) := (mulf : (⟨S32x1024x1024, .f32⟩ : BufTy).Contents (Elt F) → (⟨S32x1024x1024, .f32⟩ : BufTy).Contents (Elt F) → (⟨S32x1024x1024, .f32⟩ : BufTy).Contents (Elt F)) (res_main_v87 X) (res_main_v87 X)
def res_main_cst_29 (X : (⟨S32x1x1024x1024, .f32⟩ : BufTy).Contents (Elt F)) : (⟨S_, .f32⟩ : BufTy).Contents (Elt F) := constant S_ .f32 0x00000000#32
def res_main_v89 (X : (⟨S32x1x1024x1024, .f32⟩ : BufTy).Contents (Elt F)) := ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)) (res_main_v88 X) (res_main_cst_29 X)
def res_main_cst_30 (X : (⟨S32x1x1024x1024, .f32⟩ : BufTy).Contents (Elt F)) : (⟨S_, .f32⟩ : BufTy).Contents (Elt F) := constant S_ .f32 0x49800000#32
def res_main_v90 (X : (⟨S32x1x1024x1024, .f32⟩ : BufTy).Contents (Elt F)) := (broadcastInDim S32 ![] bcast_S_S32 : (⟨S_, .f32⟩ : BufTy).Contents (Elt F) → (⟨S32, .f32⟩ : BufTy).Contents (Elt F)) (res_main_cst_30 X)
def res_main_v91 (X : (⟨S32x1x1024x1024, .f32⟩ : BufTy).Contents (Elt F)) := (Host.divf : (⟨S32, .f32⟩ : BufTy).Contents (Elt F) → (⟨S32, .f32⟩ : BufTy).Contents (Elt F) → (⟨S32, .f32⟩ : BufTy).Contents (Elt F)) (res_main_v89 X) (res_main_v90 X)
def res_main_v92 (X : (⟨S32x1x1024x1024, .f32⟩ : BufTy).Contents (Elt F)) := (mulf : (⟨S32, .f32⟩ : BufTy).Contents (Elt F) → (⟨S32, .f32⟩ : BufTy).Contents (Elt F) → (⟨S32, .f32⟩ : BufTy).Contents (Elt F)) (res_main_v91 X) (res_main_v37 X)
def res_main_v93 (X : (⟨S32x1x1024x1024, .f32⟩ : BufTy).Contents (Elt F)) := (uitofp .f32 : (⟨S32, .i1⟩ : BufTy).Contents (Elt F) → (⟨S32, .f32⟩ : BufTy).Contents (Elt F)) (res_main_v85 X)
def res_main_cst_31 (X : (⟨S32x1x1024x1024, .f32⟩ : BufTy).Contents (Elt F)) : (⟨S_, .f32⟩ : BufTy).Contents (Elt F) := constant S_ .f32 0x00000000#32
def res_main_v94 (X : (⟨S32x1x1024x1024, .f32⟩ : BufTy).Contents (Elt F)) := ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) (res_main_v93 X) (res_main_cst_31 X)
def res_main_v95 (X : (⟨S32x1x1024x1024, .f32⟩ : BufTy).Contents (Elt F)) := (uitofp .f32 : (⟨S32, .i1⟩ : BufTy).Contents (Elt F) → (⟨S32, .f32⟩ : BufTy).Contents (Elt F)) (res_main_v85 X)
def res_main_v96 (X : (⟨S32x1x1024x1024, .f32⟩ : BufTy).Contents (Elt F)) := (mulf : (⟨S32, .f32⟩ : BufTy).Contents (Elt F) → (⟨S32, .f32⟩ : BufTy).Contents (Elt F) → (⟨S32, .f32⟩ : BufTy).Contents (Elt F)) (res_main_v92 X) (res_main_v95 X)
def res_main_cst_32 (X : (⟨S32x1x1024x1024, .f32⟩ : BufTy).Contents (Elt F)) : (⟨S_, .f32⟩ : BufTy).Contents (Elt F) := constant S_ .f32 0x00000000#32
def res_main_v97 (X : (⟨S32x1x1024x1024, .f32⟩ : BufTy).Contents (Elt F)) := ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) (res_main_v96 X) (res_main_cst_32 X)
def res_main_cst_33 (X : (⟨S32x1x1024x1024, .f32⟩ : BufTy).Contents (Elt F)) : (⟨S_, .f32⟩ : BufTy).Contents (Elt F) := constant S_ .f32 0x00000000#32
def res_main_v98 (X : (⟨S32x1x1024x1024, .f32⟩ : BufTy).Contents (Elt F)) := (cmpf .ogt : (⟨S_, .f32⟩ : BufTy).Contents (Elt F) → (⟨S_, .f32⟩ : BufTy).Contents (Elt F) → (⟨S_, .i1⟩ : BufTy).Contents (Elt F)) (res_main_v94 X) (res_main_cst_33 X)
def res_main_cst_34 (X : (⟨S32x1x1024x1024, .f32⟩ : BufTy).Contents (Elt F)) : (⟨S_, .f32⟩ : BufTy).Contents (Elt F) := constant S_ .f32 0x3F800000#32
def res_main_v99 (X : (⟨S32x1x1024x1024, .f32⟩ : BufTy).Contents (Elt F)) := (maximumf : (⟨S_, .f32⟩ : BufTy).Contents (Elt F) → (⟨S_, .f32⟩ : BufTy).Contents (Elt F) → (⟨S_, .f32⟩ : BufTy).Contents (Elt F)) (res_main_v94 X) (res_main_cst_34 X)
def res_main_v100 (X : (⟨S32x1x1024x1024, .f32⟩ : BufTy).Contents (Elt F)) := (Host.divf : (⟨S_, .f32⟩ : BufTy).Contents (Elt F) → (⟨S_, .f32⟩ : BufTy).Contents (Elt F) → (⟨S_, .f32⟩ : BufTy).Contents (Elt F)) (res_main_v97 X) (res_main_v99 X)
def res_main_cst_35 (X : (⟨S32x1x1024x1024, .f32⟩ : BufTy).Contents (Elt F)) : (⟨S_, .f32⟩ : BufTy).Contents (Elt F) := constant S_ .f32 0x00000000#32
def res_main_call7_v0 (X : (⟨S32x1x1024x1024, .f32⟩ : BufTy).Contents (Elt F)) := id (res_main_cst_35 X)
def res_main_v101 (X : (⟨S32x1x1024x1024, .f32⟩ : BufTy).Contents (Elt F)) := select (res_main_v98 X) (res_main_v100 X) (res_main_call7_v0 X)

end Cert.ReferenceIdeal.Stages

end
-- ==== Proof.RefRun.lean ====
/-
  The reference computation's run. Its entry function is one straight line of host tensor operations once the
  three small called functions (a select between two splat scalars, a running sum along each sample's positions, a
  scalar select) are read at their call sites: the line is cut where the printed text is cut, into three consecutive
  stretches, each stretch is shown to be the corresponding part of the entry function, and the contents of the few
  buffers that a later stretch still reads are computed stretch by stretch as functions of the argument array. The
  result buffer then holds the composed value `res_main_v101` of the argument, and the argument buffer is never written.
-/
import proofs.«163302_j24532853195288_2_alg».proof.Proof.RefOps
import proofs.«163302_j24532853195288_2_alg».proof.Proof.Gen.ReferenceIdeal
import proofs.«163302_j24532853195288_2_alg».proof.Defs
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

section Generic

variable {F : FTy → Type} [FloatOps F] [Facts]
open Facts₀ Facts

/-- The first stretch: the sigmoid statistics (mean distance from one half, mean of the above-half indicator), the
    three threshold factors multiplied together, and each sample's minimum. -/
abbrev ops0 : List (HloOp τ sig (Elt F)) :=
  [ StableHlo.reshape main_arg0 main_v0 rfl shapeCasts_S32x1x1024x1024_S32x1024x1024,
    StableHlo.unary main_v0 main_v1 (Host.negf : (⟨S32x1024x1024, .f32⟩ : BufTy).Contents (Elt F) → (⟨S32x1024x1024, .f32⟩ : BufTy).Contents (Elt F)),
    StableHlo.unary main_v1 main_v2 (Host.exp : (⟨S32x1024x1024, .f32⟩ : BufTy).Contents (Elt F) → (⟨S32x1024x1024, .f32⟩ : BufTy).Contents (Elt F)),
    StableHlo.nullary main_cst (constant S_ .f32 0x3F800000#32),
    StableHlo.unary main_cst main_v3 (broadcastInDim S32x1024x1024 ![] bcast_S_S32x1024x1024 : (⟨S_, .f32⟩ : BufTy).Contents (Elt F) → (⟨S32x1024x1024, .f32⟩ : BufTy).Contents (Elt F)),
    StableHlo.binary main_v3 main_v2 main_v4 (addf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_0 (constant S_ .f32 0x3F800000#32),
    StableHlo.unary main_cst_0 main_v5 (broadcastInDim S32x1024x1024 ![] bcast_S_S32x1024x1024 : (⟨S_, .f32⟩ : BufTy).Contents (Elt F) → (⟨S32x1024x1024, .f32⟩ : BufTy).Contents (Elt F)),
    StableHlo.binary main_v5 main_v4 main_v6 (Host.divf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_1 (constant S_ .f32 0x3F000000#32),
    StableHlo.unary main_cst_1 main_v7 (broadcastInDim S32x1024x1024 ![] bcast_S_S32x1024x1024 : (⟨S_, .f32⟩ : BufTy).Contents (Elt F) → (⟨S32x1024x1024, .f32⟩ : BufTy).Contents (Elt F)),
    StableHlo.binary main_v6 main_v7 main_v8 (subf : (⟨S32x1024x1024, .f32⟩ : BufTy).Contents (Elt F) → (⟨S32x1024x1024, .f32⟩ : BufTy).Contents (Elt F) → (⟨S32x1024x1024, .f32⟩ : BufTy).Contents (Elt F)),
    StableHlo.unary main_v8 main_v9 (Host.absf : (⟨S32x1024x1024, .f32⟩ : BufTy).Contents (Elt F) → (⟨S32x1024x1024, .f32⟩ : BufTy).Contents (Elt F)),
    StableHlo.nullary main_cst_2 (constant S_ .f32 0x00000000#32),
    StableHlo.binary main_v9 main_cst_2 main_v10 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_3 (constant S_ .f32 0x49800000#32),
    StableHlo.unary main_cst_3 main_v11 (broadcastInDim S32 ![] bcast_S_S32 : (⟨S_, .f32⟩ : BufTy).Contents (Elt F) → (⟨S32, .f32⟩ : BufTy).Contents (Elt F)),
    StableHlo.binary main_v10 main_v11 main_v12 (Host.divf : (⟨S32, .f32⟩ : BufTy).Contents (Elt F) → (⟨S32, .f32⟩ : BufTy).Contents (Elt F) → (⟨S32, .f32⟩ : BufTy).Contents (Elt F)),
    StableHlo.nullary main_cst_4 (constant S_ .f32 0x3F000000#32),
    StableHlo.unary main_cst_4 main_v13 (broadcastInDim S32x1024x1024 ![] bcast_S_S32x1024x1024 : (⟨S_, .f32⟩ : BufTy).Contents (Elt F) → (⟨S32x1024x1024, .f32⟩ : BufTy).Contents (Elt F)),
    StableHlo.binary main_v6 main_v13 main_v14 (cmpf .ogt : (⟨S32x1024x1024, .f32⟩ : BufTy).Contents (Elt F) → (⟨S32x1024x1024, .f32⟩ : BufTy).Contents (Elt F) → (⟨S32x1024x1024, .i1⟩ : BufTy).Contents (Elt F)),
    StableHlo.unary main_v14 main_v15 (uitofp .f32 : (⟨S32x1024x1024, .i1⟩ : BufTy).Contents (Elt F) → (⟨S32x1024x1024, .f32⟩ : BufTy).Contents (Elt F)),
    StableHlo.nullary main_cst_5 (constant S_ .f32 0x00000000#32),
    StableHlo.binary main_v15 main_cst_5 main_v16 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_6 (constant S_ .f32 0x49800000#32),
    StableHlo.unary main_cst_6 main_v17 (broadcastInDim S32 ![] bcast_S_S32 : (⟨S_, .f32⟩ : BufTy).Contents (Elt F) → (⟨S32, .f32⟩ : BufTy).Contents (Elt F)),
    StableHlo.binary main_v16 main_v17 main_v18 (Host.divf : (⟨S32, .f32⟩ : BufTy).Contents (Elt F) → (⟨S32, .f32⟩ : BufTy).Contents (Elt F) → (⟨S32, .f32⟩ : BufTy).Contents (Elt F)),
    StableHlo.nullary main_cst_7 (constant S_ .f32 0x3E99999A#32),
    StableHlo.unary main_cst_7 main_v19 (broadcastInDim S32 ![] bcast_S_S32 : (⟨S_, .f32⟩ : BufTy).Contents (Elt F) → (⟨S32, .f32⟩ : BufTy).Contents (Elt F)),
    StableHlo.binary main_v12 main_v19 main_v20 (cmpf .olt : (⟨S32, .f32⟩ : BufTy).Contents (Elt F) → (⟨S32, .f32⟩ : BufTy).Contents (Elt F) → (⟨S32, .i1⟩ : BufTy).Contents (Elt F)),
    StableHlo.nullary main_cst_8 (constant S_ .f32 0x40000000#32),
    StableHlo.nullary main_cst_9 (constant S_ .f32 0x3F800000#32),
    StableHlo.TRef.unary (.of main_cst_9 : StableHlo.TRef sig ⟨S_, .f32⟩) main_call0.v0 (broadcastInDim S32 ![] bcast_S_S32),
    StableHlo.TRef.unary (.of main_cst_8 : StableHlo.TRef sig ⟨S_, .f32⟩) main_call0.v1 (broadcastInDim S32 ![] bcast_S_S32),
    StableHlo.TRef.ternary (.of main_v20 : StableHlo.TRef sig ⟨S32, .i1⟩) main_call0.v1 main_call0.v0 main_call0.v2 select,
    StableHlo.unary main_v21 main_v22 (id : (⟨S32, .f32⟩ : BufTy).Contents (Elt F) → (⟨S32, .f32⟩ : BufTy).Contents (Elt F)),
    StableHlo.nullary main_cst_10 (constant S_ .f32 0x3ECCCCCD#32),
    StableHlo.unary main_cst_10 main_v23 (broadcastInDim S32 ![] bcast_S_S32 : (⟨S_, .f32⟩ : BufTy).Contents (Elt F) → (⟨S32, .f32⟩ : BufTy).Contents (Elt F)),
    StableHlo.binary main_v23 main_v22 main_v24 (mulf : (⟨S32, .f32⟩ : BufTy).Contents (Elt F) → (⟨S32, .f32⟩ : BufTy).Contents (Elt F) → (⟨S32, .f32⟩ : BufTy).Contents (Elt F)),
    StableHlo.nullary main_cst_11 (constant S_ .f32 0x3D4CCCCD#32),
    StableHlo.unary main_cst_11 main_v25 (broadcastInDim S32 ![] bcast_S_S32 : (⟨S_, .f32⟩ : BufTy).Contents (Elt F) → (⟨S32, .f32⟩ : BufTy).Contents (Elt F)),
    StableHlo.binary main_v18 main_v25 main_v26 (cmpf .olt : (⟨S32, .f32⟩ : BufTy).Contents (Elt F) → (⟨S32, .f32⟩ : BufTy).Contents (Elt F) → (⟨S32, .i1⟩ : BufTy).Contents (Elt F)),
    StableHlo.nullary main_cst_12 (constant S_ .f32 0x3FC00000#32),
    StableHlo.nullary main_cst_13 (constant S_ .f32 0x3F800000#32),
    StableHlo.TRef.unary (.of main_cst_13 : StableHlo.TRef sig ⟨S_, .f32⟩) main_call1.v0 (broadcastInDim S32 ![] bcast_S_S32),
    StableHlo.TRef.unary (.of main_cst_12 : StableHlo.TRef sig ⟨S_, .f32⟩) main_call1.v1 (broadcastInDim S32 ![] bcast_S_S32),
    StableHlo.TRef.ternary (.of main_v26 : StableHlo.TRef sig ⟨S32, .i1⟩) main_call1.v1 main_call1.v0 main_call1.v2 select,
    StableHlo.unary main_v27 main_v28 (id : (⟨S32, .f32⟩ : BufTy).Contents (Elt F) → (⟨S32, .f32⟩ : BufTy).Contents (Elt F)),
    StableHlo.binary main_v24 main_v28 main_v29 (mulf : (⟨S32, .f32⟩ : BufTy).Contents (Elt F) → (⟨S32, .f32⟩ : BufTy).Contents (Elt F) → (⟨S32, .f32⟩ : BufTy).Contents (Elt F)),
    StableHlo.nullary main_cst_14 (constant S_ .f32 0x3ECCCCCD#32),
    StableHlo.unary main_cst_14 main_v30 (broadcastInDim S32 ![] bcast_S_S32 : (⟨S_, .f32⟩ : BufTy).Contents (Elt F) → (⟨S32, .f32⟩ : BufTy).Contents (Elt F)),
    StableHlo.binary main_v12 main_v30 main_v31 (cmpf .ogt : (⟨S32, .f32⟩ : BufTy).Contents (Elt F) → (⟨S32, .f32⟩ : BufTy).Contents (Elt F) → (⟨S32, .i1⟩ : BufTy).Contents (Elt F)),
    StableHlo.nullary main_cst_15 (constant S_ .f32 0x3DCCCCCD#32),
    StableHlo.unary main_cst_15 main_v32 (broadcastInDim S32 ![] bcast_S_S32 : (⟨S_, .f32⟩ : BufTy).Contents (Elt F) → (⟨S32, .f32⟩ : BufTy).Contents (Elt F)),
    StableHlo.binary main_v18 main_v32 main_v33 (cmpf .ogt : (⟨S32, .f32⟩ : BufTy).Contents (Elt F) → (⟨S32, .f32⟩ : BufTy).Contents (Elt F) → (⟨S32, .i1⟩ : BufTy).Contents (Elt F)),
    StableHlo.binary main_v31 main_v33 main_v34 (andi : (⟨S32, .i1⟩ : BufTy).Contents (Elt F) → (⟨S32, .i1⟩ : BufTy).Contents (Elt F) → (⟨S32, .i1⟩ : BufTy).Contents (Elt F)),
    StableHlo.nullary main_cst_16 (constant S_ .f32 0x3F000000#32),
    StableHlo.nullary main_cst_17 (constant S_ .f32 0x3F800000#32),
    StableHlo.TRef.unary (.of main_cst_17 : StableHlo.TRef sig ⟨S_, .f32⟩) main_call2.v0 (broadcastInDim S32 ![] bcast_S_S32),
    StableHlo.TRef.unary (.of main_cst_16 : StableHlo.TRef sig ⟨S_, .f32⟩) main_call2.v1 (broadcastInDim S32 ![] bcast_S_S32),
    StableHlo.TRef.ternary (.of main_v34 : StableHlo.TRef sig ⟨S32, .i1⟩) main_call2.v1 main_call2.v0 main_call2.v2 select,
    StableHlo.unary main_v35 main_v36 (id : (⟨S32, .f32⟩ : BufTy).Contents (Elt F) → (⟨S32, .f32⟩ : BufTy).Contents (Elt F)),
    StableHlo.binary main_v29 main_v36 main_v37 (mulf : (⟨S32, .f32⟩ : BufTy).Contents (Elt F) → (⟨S32, .f32⟩ : BufTy).Contents (Elt F) → (⟨S32, .f32⟩ : BufTy).Contents (Elt F)),
    StableHlo.nullary main_cst_18 (constant S_ .f32 0x7F800000#32),
    StableHlo.binary main_v0 main_cst_18 main_v38 ((fun x v => Host.reduce FloatOps.minimumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_19 (constant S_ .f32 0xFF800000#32) ]

/-- The second stretch: each sample's maximum, the normalised image and its mask, the row and column occupancies, the
    four running sums that bound the occupied span, the filled rectangle, the validity flag and the squared error. -/
abbrev ops1 : List (HloOp τ sig (Elt F)) :=
  [ StableHlo.binary main_v0 main_cst_19 main_v39 ((fun x v => Host.reduce FloatOps.maximumf x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.unary main_v38 main_v40 (broadcastInDim S32x1x1 ![0] bcast_S32_S32x1x1_0 : (⟨S32, .f32⟩ : BufTy).Contents (Elt F) → (⟨S32x1x1, .f32⟩ : BufTy).Contents (Elt F)),
    StableHlo.unary main_v40 main_v41 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    StableHlo.binary main_v0 main_v41 main_v42 (subf : (⟨S32x1024x1024, .f32⟩ : BufTy).Contents (Elt F) → (⟨S32x1024x1024, .f32⟩ : BufTy).Contents (Elt F) → (⟨S32x1024x1024, .f32⟩ : BufTy).Contents (Elt F)),
    StableHlo.binary main_v39 main_v38 main_v43 (subf : (⟨S32, .f32⟩ : BufTy).Contents (Elt F) → (⟨S32, .f32⟩ : BufTy).Contents (Elt F) → (⟨S32, .f32⟩ : BufTy).Contents (Elt F)),
    StableHlo.nullary main_cst_20 (constant S_ .f32 0x322BCC77#32),
    StableHlo.unary main_cst_20 main_v44 (broadcastInDim S32 ![] bcast_S_S32 : (⟨S_, .f32⟩ : BufTy).Contents (Elt F) → (⟨S32, .f32⟩ : BufTy).Contents (Elt F)),
    StableHlo.binary main_v43 main_v44 main_v45 (addf : (⟨S32, .f32⟩ : BufTy).Contents (Elt F) → (⟨S32, .f32⟩ : BufTy).Contents (Elt F) → (⟨S32, .f32⟩ : BufTy).Contents (Elt F)),
    StableHlo.unary main_v45 main_v46 (broadcastInDim S32x1x1 ![0] bcast_S32_S32x1x1_0 : (⟨S32, .f32⟩ : BufTy).Contents (Elt F) → (⟨S32x1x1, .f32⟩ : BufTy).Contents (Elt F)),
    StableHlo.unary main_v46 main_v47 (broadcastInDim S32x1024x1024 ![0, 1, 2] bcast_S32x1x1_S32x1024x1024_0_1_2 : (⟨S32x1x1, .f32⟩ : BufTy).Contents (Elt F) → (⟨S32x1024x1024, .f32⟩ : BufTy).Contents (Elt F)),
    StableHlo.binary main_v42 main_v47 main_v48 (Host.divf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_21 (constant S_ .f32 0x3F000000#32),
    StableHlo.unary main_cst_21 main_v49 (broadcastInDim S32x1024x1024 ![] bcast_S_S32x1024x1024 : (⟨S_, .f32⟩ : BufTy).Contents (Elt F) → (⟨S32x1024x1024, .f32⟩ : BufTy).Contents (Elt F)),
    StableHlo.binary main_v48 main_v49 main_v50 (cmpf .ogt : (⟨S32x1024x1024, .f32⟩ : BufTy).Contents (Elt F) → (⟨S32x1024x1024, .f32⟩ : BufTy).Contents (Elt F) → (⟨S32x1024x1024, .i1⟩ : BufTy).Contents (Elt F)),
    StableHlo.nullary main_c (constantI S_ 1 0#1),
    StableHlo.binary main_v50 main_c main_v51 ((fun x v => Host.reduce IntOp.ori x v reducesTo_S32x1024x1024_S32x1024_d2 h_S_) : (⟨S32x1024x1024, .i1⟩ : BufTy).Contents (Elt F) → (⟨S_, .i1⟩ : BufTy).Contents (Elt F) → (⟨S32x1024, .i1⟩ : BufTy).Contents (Elt F)),
    StableHlo.nullary main_c_22 (constantI S_ 1 0#1),
    StableHlo.binary main_v50 main_c_22 main_v52 ((fun x v => Host.reduce IntOp.ori x v reducesTo_S32x1024x1024_S32x1024_d1 h_S_) : (⟨S32x1024x1024, .i1⟩ : BufTy).Contents (Elt F) → (⟨S_, .i1⟩ : BufTy).Contents (Elt F) → (⟨S32x1024, .i1⟩ : BufTy).Contents (Elt F)),
    StableHlo.unary main_v51 main_v53 ((extui 32 · natLt_1_32) : (⟨S32x1024, .i1⟩ : BufTy).Contents (Elt F) → (⟨S32x1024, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v53 : StableHlo.TRef sig ⟨S32x1024, .i32⟩) main_call3.call0.v0 main_call3.call0.v1 (fun x v => Host.reduceWindow IntOp.addi ![1, 1024] ![1, 1] ![0, 1023] ![0, 0] x v reduceWindows_S32x1024_S32x1024_w1s1p0_0_w1024s1p1023_0 h_S_),
    StableHlo.nullary main_c_23 (constantI S_ 32 0#32),
    StableHlo.unary main_c_23 main_v55 (broadcastInDim S32x1024 ![] bcast_S_S32x1024 : (⟨S_, .i32⟩ : BufTy).Contents (Elt F) → (⟨S32x1024, .i32⟩ : BufTy).Contents (Elt F)),
    StableHlo.binary main_v54 main_v55 main_v56 (cmpi .sgt : (⟨S32x1024, .i32⟩ : BufTy).Contents (Elt F) → (⟨S32x1024, .i32⟩ : BufTy).Contents (Elt F) → (⟨S32x1024, .i1⟩ : BufTy).Contents (Elt F)),
    StableHlo.unary main_v51 main_v57 (Host.reverse [1] : (⟨S32x1024, .i1⟩ : BufTy).Contents (Elt F) → (⟨S32x1024, .i1⟩ : BufTy).Contents (Elt F)),
    StableHlo.unary main_v57 main_v58 ((extui 32 · natLt_1_32) : (⟨S32x1024, .i1⟩ : BufTy).Contents (Elt F) → (⟨S32x1024, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v58 : StableHlo.TRef sig ⟨S32x1024, .i32⟩) main_call4.call0.v0 main_call4.call0.v1 (fun x v => Host.reduceWindow IntOp.addi ![1, 1024] ![1, 1] ![0, 1023] ![0, 0] x v reduceWindows_S32x1024_S32x1024_w1s1p0_0_w1024s1p1023_0 h_S_),
    StableHlo.unary main_v59 main_v60 (Host.reverse [1] : (⟨S32x1024, .i32⟩ : BufTy).Contents (Elt F) → (⟨S32x1024, .i32⟩ : BufTy).Contents (Elt F)),
    StableHlo.nullary main_c_24 (constantI S_ 32 0#32),
    StableHlo.unary main_c_24 main_v61 (broadcastInDim S32x1024 ![] bcast_S_S32x1024 : (⟨S_, .i32⟩ : BufTy).Contents (Elt F) → (⟨S32x1024, .i32⟩ : BufTy).Contents (Elt F)),
    StableHlo.binary main_v60 main_v61 main_v62 (cmpi .sgt : (⟨S32x1024, .i32⟩ : BufTy).Contents (Elt F) → (⟨S32x1024, .i32⟩ : BufTy).Contents (Elt F) → (⟨S32x1024, .i1⟩ : BufTy).Contents (Elt F)),
    StableHlo.binary main_v56 main_v62 main_v63 (andi : (⟨S32x1024, .i1⟩ : BufTy).Contents (Elt F) → (⟨S32x1024, .i1⟩ : BufTy).Contents (Elt F) → (⟨S32x1024, .i1⟩ : BufTy).Contents (Elt F)),
    StableHlo.unary main_v63 main_v64 (broadcastInDim S32x1024x1 ![0, 1] bcast_S32x1024_S32x1024x1_0_1 : (⟨S32x1024, .i1⟩ : BufTy).Contents (Elt F) → (⟨S32x1024x1, .i1⟩ : BufTy).Contents (Elt F)),
    StableHlo.unary main_v52 main_v65 ((extui 32 · natLt_1_32) : (⟨S32x1024, .i1⟩ : BufTy).Contents (Elt F) → (⟨S32x1024, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v65 : StableHlo.TRef sig ⟨S32x1024, .i32⟩) main_call5.call0.v0 main_call5.call0.v1 (fun x v => Host.reduceWindow IntOp.addi ![1, 1024] ![1, 1] ![0, 1023] ![0, 0] x v reduceWindows_S32x1024_S32x1024_w1s1p0_0_w1024s1p1023_0 h_S_),
    StableHlo.nullary main_c_25 (constantI S_ 32 0#32),
    StableHlo.unary main_c_25 main_v67 (broadcastInDim S32x1024 ![] bcast_S_S32x1024 : (⟨S_, .i32⟩ : BufTy).Contents (Elt F) → (⟨S32x1024, .i32⟩ : BufTy).Contents (Elt F)),
    StableHlo.binary main_v66 main_v67 main_v68 (cmpi .sgt : (⟨S32x1024, .i32⟩ : BufTy).Contents (Elt F) → (⟨S32x1024, .i32⟩ : BufTy).Contents (Elt F) → (⟨S32x1024, .i1⟩ : BufTy).Contents (Elt F)),
    StableHlo.unary main_v52 main_v69 (Host.reverse [1] : (⟨S32x1024, .i1⟩ : BufTy).Contents (Elt F) → (⟨S32x1024, .i1⟩ : BufTy).Contents (Elt F)),
    StableHlo.unary main_v69 main_v70 ((extui 32 · natLt_1_32) : (⟨S32x1024, .i1⟩ : BufTy).Contents (Elt F) → (⟨S32x1024, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v70 : StableHlo.TRef sig ⟨S32x1024, .i32⟩) main_call6.call0.v0 main_call6.call0.v1 (fun x v => Host.reduceWindow IntOp.addi ![1, 1024] ![1, 1] ![0, 1023] ![0, 0] x v reduceWindows_S32x1024_S32x1024_w1s1p0_0_w1024s1p1023_0 h_S_),
    StableHlo.unary main_v71 main_v72 (Host.reverse [1] : (⟨S32x1024, .i32⟩ : BufTy).Contents (Elt F) → (⟨S32x1024, .i32⟩ : BufTy).Contents (Elt F)),
    StableHlo.nullary main_c_26 (constantI S_ 32 0#32),
    StableHlo.unary main_c_26 main_v73 (broadcastInDim S32x1024 ![] bcast_S_S32x1024 : (⟨S_, .i32⟩ : BufTy).Contents (Elt F) → (⟨S32x1024, .i32⟩ : BufTy).Contents (Elt F)),
    StableHlo.binary main_v72 main_v73 main_v74 (cmpi .sgt : (⟨S32x1024, .i32⟩ : BufTy).Contents (Elt F) → (⟨S32x1024, .i32⟩ : BufTy).Contents (Elt F) → (⟨S32x1024, .i1⟩ : BufTy).Contents (Elt F)),
    StableHlo.binary main_v68 main_v74 main_v75 (andi : (⟨S32x1024, .i1⟩ : BufTy).Contents (Elt F) → (⟨S32x1024, .i1⟩ : BufTy).Contents (Elt F) → (⟨S32x1024, .i1⟩ : BufTy).Contents (Elt F)),
    StableHlo.unary main_v75 main_v76 (broadcastInDim S32x1x1024 ![0, 2] bcast_S32x1024_S32x1x1024_0_2 : (⟨S32x1024, .i1⟩ : BufTy).Contents (Elt F) → (⟨S32x1x1024, .i1⟩ : BufTy).Contents (Elt F)),
    StableHlo.unary main_v64 main_v77 (broadcastInDim S32x1024x1024 ![0, 1, 2] bcast_S32x1024x1_S32x1024x1024_0_1_2 : (⟨S32x1024x1, .i1⟩ : BufTy).Contents (Elt F) → (⟨S32x1024x1024, .i1⟩ : BufTy).Contents (Elt F)),
    StableHlo.unary main_v76 main_v78 (broadcastInDim S32x1024x1024 ![0, 1, 2] bcast_S32x1x1024_S32x1024x1024_0_1_2 : (⟨S32x1x1024, .i1⟩ : BufTy).Contents (Elt F) → (⟨S32x1024x1024, .i1⟩ : BufTy).Contents (Elt F)),
    StableHlo.binary main_v77 main_v78 main_v79 (andi : (⟨S32x1024x1024, .i1⟩ : BufTy).Contents (Elt F) → (⟨S32x1024x1024, .i1⟩ : BufTy).Contents (Elt F) → (⟨S32x1024x1024, .i1⟩ : BufTy).Contents (Elt F)),
    StableHlo.nullary main_c_27 (constantI S_ 1 0#1),
    StableHlo.binary main_v50 main_c_27 main_v80 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    StableHlo.unary main_v80 main_v81 (broadcastInDim S32x1x1 ![0] bcast_S32_S32x1x1_0 : (⟨S32, .i1⟩ : BufTy).Contents (Elt F) → (⟨S32x1x1, .i1⟩ : BufTy).Contents (Elt F)),
    StableHlo.unary main_v81 main_v82 (broadcastInDim S32x1024x1024 ![0, 1, 2] bcast_S32x1x1_S32x1024x1024_0_1_2 : (⟨S32x1x1, .i1⟩ : BufTy).Contents (Elt F) → (⟨S32x1024x1024, .i1⟩ : BufTy).Contents (Elt F)),
    StableHlo.binary main_v79 main_v82 main_v83 (andi : (⟨S32x1024x1024, .i1⟩ : BufTy).Contents (Elt F) → (⟨S32x1024x1024, .i1⟩ : BufTy).Contents (Elt F) → (⟨S32x1024x1024, .i1⟩ : BufTy).Contents (Elt F)),
    StableHlo.binary main_v83 main_v50 main_v84 (cmpi .ne : (⟨S32x1024x1024, .i1⟩ : BufTy).Contents (Elt F) → (⟨S32x1024x1024, .i1⟩ : BufTy).Contents (Elt F) → (⟨S32x1024x1024, .i1⟩ : BufTy).Contents (Elt F)),
    StableHlo.nullary main_c_28 (constantI S_ 1 0#1),
    StableHlo.binary main_v84 main_c_28 main_v85 ((fun x v => Host.reduce IntOp.ori x v reducesTo_S32x1024x1024_S32_d1_2 h_S_) : (⟨S32x1024x1024, .i1⟩ : BufTy).Contents (Elt F) → (⟨S_, .i1⟩ : BufTy).Contents (Elt F) → (⟨S32, .i1⟩ : BufTy).Contents (Elt F)),
    StableHlo.unary main_v83 main_v86 (uitofp .f32 : (⟨S32x1024x1024, .i1⟩ : BufTy).Contents (Elt F) → (⟨S32x1024x1024, .f32⟩ : BufTy).Contents (Elt F)),
    StableHlo.binary main_v48 main_v86 main_v87 (subf : (⟨S32x1024x1024, .f32⟩ : BufTy).Contents (Elt F) → (⟨S32x1024x1024, .f32⟩ : BufTy).Contents (Elt F) → (⟨S32x1024x1024, .f32⟩ : BufTy).Contents (Elt F)),
    StableHlo.binary main_v87 main_v87 main_v88 (mulf : (⟨S32x1024x1024, .f32⟩ : BufTy).Contents (Elt F) → (⟨S32x1024x1024, .f32⟩ : BufTy).Contents (Elt F) → (⟨S32x1024x1024, .f32⟩ : BufTy).Contents (Elt F)) ]

/-- The third stretch: the per-sample mean squared error weighted by the factors, masked by validity, summed over the
    samples and divided by the number of valid samples (at least one), zero when none is valid. -/
abbrev ops2 : List (HloOp τ sig (Elt F)) :=
  [ StableHlo.nullary main_cst_29 (constant S_ .f32 0x00000000#32),
    StableHlo.binary main_v88 main_cst_29 main_v89 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    StableHlo.nullary main_cst_30 (constant S_ .f32 0x49800000#32),
    StableHlo.unary main_cst_30 main_v90 (broadcastInDim S32 ![] bcast_S_S32 : (⟨S_, .f32⟩ : BufTy).Contents (Elt F) → (⟨S32, .f32⟩ : BufTy).Contents (Elt F)),
    StableHlo.binary main_v89 main_v90 main_v91 (Host.divf : (⟨S32, .f32⟩ : BufTy).Contents (Elt F) → (⟨S32, .f32⟩ : BufTy).Contents (Elt F) → (⟨S32, .f32⟩ : BufTy).Contents (Elt F)),
    StableHlo.binary main_v91 main_v37 main_v92 (mulf : (⟨S32, .f32⟩ : BufTy).Contents (Elt F) → (⟨S32, .f32⟩ : BufTy).Contents (Elt F) → (⟨S32, .f32⟩ : BufTy).Contents (Elt F)),
    StableHlo.unary main_v85 main_v93 (uitofp .f32 : (⟨S32, .i1⟩ : BufTy).Contents (Elt F) → (⟨S32, .f32⟩ : BufTy).Contents (Elt F)),
    StableHlo.nullary main_cst_31 (constant S_ .f32 0x00000000#32),
    StableHlo.binary main_v93 main_cst_31 main_v94 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.unary main_v85 main_v95 (uitofp .f32 : (⟨S32, .i1⟩ : BufTy).Contents (Elt F) → (⟨S32, .f32⟩ : BufTy).Contents (Elt F)),
    StableHlo.binary main_v92 main_v95 main_v96 (mulf : (⟨S32, .f32⟩ : BufTy).Contents (Elt F) → (⟨S32, .f32⟩ : BufTy).Contents (Elt F) → (⟨S32, .f32⟩ : BufTy).Contents (Elt F)),
    StableHlo.nullary main_cst_32 (constant S_ .f32 0x00000000#32),
    StableHlo.binary main_v96 main_cst_32 main_v97 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_33 (constant S_ .f32 0x00000000#32),
    StableHlo.binary main_v94 main_cst_33 main_v98 (cmpf .ogt : (⟨S_, .f32⟩ : BufTy).Contents (Elt F) → (⟨S_, .f32⟩ : BufTy).Contents (Elt F) → (⟨S_, .i1⟩ : BufTy).Contents (Elt F)),
    StableHlo.nullary main_cst_34 (constant S_ .f32 0x3F800000#32),
    StableHlo.binary main_v94 main_cst_34 main_v99 (maximumf : (⟨S_, .f32⟩ : BufTy).Contents (Elt F) → (⟨S_, .f32⟩ : BufTy).Contents (Elt F) → (⟨S_, .f32⟩ : BufTy).Contents (Elt F)),
    StableHlo.binary main_v97 main_v99 main_v100 (Host.divf : (⟨S_, .f32⟩ : BufTy).Contents (Elt F) → (⟨S_, .f32⟩ : BufTy).Contents (Elt F) → (⟨S_, .f32⟩ : BufTy).Contents (Elt F)),
    StableHlo.nullary main_cst_35 (constant S_ .f32 0x00000000#32),
    StableHlo.TRef.unary (.of main_cst_35 : StableHlo.TRef sig ⟨S_, .f32⟩) main_call7.v0 id,
    StableHlo.TRef.ternary (.of main_v98 : StableHlo.TRef sig ⟨S_, .i1⟩) (.of main_v100 : StableHlo.TRef sig ⟨S_, .f32⟩) main_call7.v0 main_call7.v1 select ]

/-- The whole line is the three stretches one after the other. -/
theorem ops_split : (Stages.ops : List (HloOp τ sig (Elt F))) = ops0 ++ (ops1 ++ ops2) := rfl

set_option maxRecDepth 8192 in
/-- Statements 1 to 60 are the first stretch: the called function's body stands at each call, and sequencing
    re-associates. -/
theorem part0_eq (c : Dev nD) : main_part0 (F := F) c = seq ops0 := rfl

set_option maxRecDepth 8192 in
/-- Statements 61 to 120 are the second stretch. -/
theorem part1_eq (c : Dev nD) : main_part1 (F := F) c = seq ops1 := rfl

set_option maxRecDepth 8192 in
/-- Statements 121 to 141 are the third stretch. -/
theorem part2_eq (c : Dev nD) : main_part2 (F := F) c = seq ops2 := rfl

/-- The entry function is the whole line run in order. -/
theorem main_eq (c : Dev nD) : main (F := F) c = seq Stages.ops := by
  rw [ops_split, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches buffers of the one core only. -/
theorem ops_sub : (Stages.ops : List (HloOp τ sig (Elt F))).Forall fun op => op.bufs ⊆ tcRefs τ sig :=
  ⟨reshape_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., ternary_bufs_sub .., unary_bufs_sub .., binary_bufs_sub .., nullary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., binary_bufs_sub .., unary_bufs_sub .., unary_bufs_sub .., unary_bufs_sub .., binary_bufs_sub .., nullary_bufs_sub .., binary_bufs_sub .., unary_bufs_sub .., unary_bufs_sub .., binary_bufs_sub .., binary_bufs_sub .., nullary_bufs_sub .., binary_bufs_sub .., unary_bufs_sub .., binary_bufs_sub .., binary_bufs_sub .., nullary_bufs_sub .., binary_bufs_sub .., nullary_bufs_sub .., unary_bufs_sub .., binary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., binary_bufs_sub .., nullary_bufs_sub .., unary_bufs_sub .., ternary_bufs_sub ..⟩

/-- Reading a buffer after two lines in a row: the second line read from what the first leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers' contents after the first stretch, after the first two, and after all three. -/
def val1 (V : Valuation τ sig (Elt F)) : Valuation τ sig (Elt F) := after ops0 V
def val2 (V : Valuation τ sig (Elt F)) : Valuation τ sig (Elt F) := after ops1 (val1 V)
def val3 (V : Valuation τ sig (Elt F)) : Valuation τ sig (Elt F) := after ops2 (val2 V)

theorem after_ops (V : Valuation τ sig (Elt F)) : after Stages.ops V = val3 V := by
  rw [ops_split, after_app, after_app]; rfl

attribute [local irreducible] Host.reduce Host.reduceAdd Host.reduceWindow Host.reverse in
set_option maxRecDepth 8192 in
set_option maxHeartbeats 1000000 in
/-- The argument array is not written by the first stretch. -/
theorem val1_main_arg0 (V : Valuation τ sig (Elt F)) :
    val1 V (no_index (Proc.devRef .tc main_arg0)) = V (Proc.devRef .tc main_arg0) := by
  unfold val1
  simp only [ops0]
  after_results_simp

attribute [local irreducible] Host.reduce Host.reduceAdd Host.reduceWindow Host.reverse in
set_option maxRecDepth 8192 in
set_option maxHeartbeats 1000000 in
/-- After the first stretch: the argument read as 32 images of 1024 by 1024. -/
theorem val1_main_v0 (V : Valuation τ sig (Elt F)) :
    val1 V (no_index (Proc.devRef .tc main_v0)) = Stages.res_main_v0 (V (Proc.devRef .tc main_arg0)) := by
  unfold val1
  simp only [ops0]
  after_results_simp
  all_goals rfl

attribute [local irreducible] Host.reduce Host.reduceAdd Host.reduceWindow Host.reverse in
set_option maxRecDepth 8192 in
set_option maxHeartbeats 1000000 in
/-- After the first stretch: the product of the three threshold factors, per sample. -/
theorem val1_main_v37 (V : Valuation τ sig (Elt F)) :
    val1 V (no_index (Proc.devRef .tc main_v37)) = Stages.res_main_v37 (V (Proc.devRef .tc main_arg0)) := by
  unfold val1
  simp only [ops0]
  after_results_simp
  all_goals rfl

attribute [local irreducible] Host.reduce Host.reduceAdd Host.reduceWindow Host.reverse in
set_option maxRecDepth 8192 in
set_option maxHeartbeats 1000000 in
/-- After the first stretch: each sample's minimum. -/
theorem val1_main_v38 (V : Valuation τ sig (Elt F)) :
    val1 V (no_index (Proc.devRef .tc main_v38)) = Stages.res_main_v38 (V (Proc.devRef .tc main_arg0)) := by
  unfold val1
  simp only [ops0]
  after_results_simp
  all_goals rfl

attribute [local irreducible] Host.reduce Host.reduceAdd Host.reduceWindow Host.reverse in
set_option maxRecDepth 8192 in
set_option maxHeartbeats 1000000 in
/-- After the first stretch: the scalar minus infinity the maximum starts from. -/
theorem val1_main_cst_19 (V : Valuation τ sig (Elt F)) :
    val1 V (no_index (Proc.devRef .tc main_cst_19)) = Stages.res_main_cst_19 (V (Proc.devRef .tc main_arg0)) := by
  unfold val1
  simp only [ops0]
  after_results_simp
  all_goals rfl

attribute [local irreducible] Host.reduce Host.reduceAdd Host.reduceWindow Host.reverse in
set_option maxRecDepth 8192 in
set_option maxHeartbeats 1000000 in
/-- The argument array is not written by the second stretch. -/
theorem val2_main_arg0 (V : Valuation τ sig (Elt F)) :
    val2 V (no_index (Proc.devRef .tc main_arg0)) = V (Proc.devRef .tc main_arg0) := by
  unfold val2
  simp only [ops1]
  after_results_simp
  exact val1_main_arg0 V

attribute [local irreducible] Host.reduce Host.reduceAdd Host.reduceWindow Host.reverse in
set_option maxRecDepth 8192 in
set_option maxHeartbeats 1000000 in
/-- The product of the factors is not written by the second stretch. -/
theorem val2_main_v37 (V : Valuation τ sig (Elt F)) :
    val2 V (no_index (Proc.devRef .tc main_v37)) = Stages.res_main_v37 (V (Proc.devRef .tc main_arg0)) := by
  unfold val2
  simp only [ops1]
  after_results_simp
  exact val1_main_v37 V

attribute [local irreducible] Host.reduce Host.reduceAdd Host.reduceWindow Host.reverse in
set_option maxRecDepth 8192 in
set_option maxHeartbeats 1000000 in
/-- After the second stretch: the validity flag (the filled rectangle differs from the mask somewhere), per sample. -/
theorem val2_main_v85 (V : Valuation τ sig (Elt F)) :
    val2 V (no_index (Proc.devRef .tc main_v85)) = Stages.res_main_v85 (V (Proc.devRef .tc main_arg0)) := by
  unfold val2
  simp only [ops1]
  after_results_simp
  simp only [val1_main_v38, val1_main_cst_19, val1_main_v0] <;> rfl

attribute [local irreducible] Host.reduce Host.reduceAdd Host.reduceWindow Host.reverse in
set_option maxRecDepth 8192 in
set_option maxHeartbeats 1000000 in
/-- After the second stretch: the squared difference between the normalised image and the filled rectangle. -/
theorem val2_main_v88 (V : Valuation τ sig (Elt F)) :
    val2 V (no_index (Proc.devRef .tc main_v88)) = Stages.res_main_v88 (V (Proc.devRef .tc main_arg0)) := by
  unfold val2
  simp only [ops1]
  after_results_simp
  simp only [val1_main_v38, val1_main_cst_19, val1_main_v0] <;> rfl

attribute [local irreducible] Host.reduce Host.reduceAdd Host.reduceWindow Host.reverse in
set_option maxRecDepth 8192 in
set_option maxHeartbeats 1000000 in
/-- The argument array is not written by the third stretch. -/
theorem val3_main_arg0 (V : Valuation τ sig (Elt F)) :
    val3 V (no_index (Proc.devRef .tc main_arg0)) = V (Proc.devRef .tc main_arg0) := by
  unfold val3
  simp only [ops2]
  after_results_simp
  exact val2_main_arg0 V

attribute [local irreducible] Host.reduce Host.reduceAdd Host.reduceWindow Host.reverse in
set_option maxRecDepth 8192 in
set_option maxHeartbeats 1000000 in
/-- After the third stretch: the result. -/
theorem val3_main_v101 (V : Valuation τ sig (Elt F)) :
    val3 V (no_index (Proc.devRef .tc main_v101)) = Stages.res_main_v101 (V (Proc.devRef .tc main_arg0)) := by
  unfold val3
  simp only [ops2]
  after_results_simp
  simp only [val2_main_v85, val2_main_v37, val2_main_v88] <;> rfl

/-- The result buffer after the whole line: the composed value of the argument array. -/
theorem out_eq (V : Valuation τ sig (Elt F)) :
    after Stages.ops V (main_v101 : DevRef τ sig) = Stages.res_main_v101 (V (main_arg0 : DevRef τ sig)) := by
  rw [after_ops]; exact val3_main_v101 V

/-- The argument buffer after the whole line: unchanged. -/
theorem arg0_eq (V : Valuation τ sig (Elt F)) :
    after Stages.ops V (main_arg0 : DevRef τ sig) = V (main_arg0 : DevRef τ sig) := by
  rw [after_ops]; exact val3_main_arg0 V

/-- From any memory with zero counters, for any float values: every weakly fair execution of the entry function
    terminates, with the result buffer at the composed value of the argument array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = Stages.res_main_v101 (m ((c.tc : Thread nD τ).loc main_arg0))
      ∧ r.2.mem ((c.tc : Thread nD τ).loc main_arg0) = m ((c.tc : Thread nD τ).loc main_arg0) :=
  (θ_run defs _ _).mono (fun _ h c => ⟨(h c main_v101).trans (out_eq (launchContents m c)),
      (h c main_arg0).trans (arg0_eq (launchContents m c))⟩)
    (run_seq scopedRefs_eq scopedSems_eq defs main (fun _ => Stages.ops) main_eq (fun _ => ops_sub) m ρ)

end Generic

/-- At exact arithmetic, under the stated precondition: the reference runs and leaves its argument unchanged. -/
theorem frame [hPre : Cert.Pre_finite_inputs.Facts] :
    Cert.frame_ReferenceIdeal (hReferenceIdeal := Cert.ReferenceIdeal.Gen.facts) (hPre_finite_inputs := hPre) :=
  fun m ρ _ => (θ_run Cert.ReferenceIdeal.defs _ _).mono (fun _ h c => (h c).2) (run (F := Ideal) m ρ)

end Cert.ReferenceIdeal.RefRun

end
-- ==== Proof.RefRead2.lean ====
/-
  Reductions of a three-axis array read at an index, on plain index types.

  A reduction of an array over (sample, row, column) along some of its axes folds an operation over the entries whose
  index drops to a given result index. For a commutative and associative operation the fold runs over the SET of those
  entries, and that set is the image of the reduced coordinates under "insert them into the result index". So a sum
  becomes a sum over the reduced coordinates, a minimum from +∞ their infimum, a maximum from −∞ their supremum, and
  an OR of one-bit words from 0 the bit of "some entry is 1". Stated once for an arbitrary injective insertion, then
  for the three insertions this computation uses: rows and columns of a sample, the columns of a row, the rows of a
  column.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReferenceIdeal.RefRead

open Idealize.ShloMosaic Idealize.ShloMosaic.ValueIdx

/-! ## The set of indices that drop to a result index, as an image -/

/-- When every inserted index drops to \`j\` and every index dropping to \`j\` is an inserted one, the indices that drop
    to \`j\` are the image of the insertion. -/
theorem filter_eq_map {ι : Type} [Fintype ι] {s t : Shape} (drop : s.Idx → t.Idx) (j : t.Idx) (e : ι ↪ s.Idx)
    [DecidablePred fun i => drop i = j] (h1 : ∀ k, drop (e k) = j) (h2 : ∀ i, drop i = j → ∃ k, e k = i) :
    (Finset.univ.filter fun i => drop i = j) = Finset.univ.map e := by
  ext i
  simp only [Finset.mem_filter, Finset.mem_univ, true_and, Finset.mem_map]
  constructor
  · intro hi
    obtain ⟨k, hk⟩ := h2 i hi
    exact ⟨k, hk⟩
  · rintro ⟨k, rfl⟩
    exact h1 k

/-- A fold of \`min\` from +∞ over a finite set is the infimum over the set. -/
theorem fold_min_top {ι : Type} (S : Finset ι) (f : ι → EReal) : S.fold min ⊤ f = ⨅ k ∈ S, f k := by
  refine eq_of_forall_le_iff fun x => ?_
  rw [Finset.le_fold_min]
  simp only [le_top, true_and, le_iInf_iff]

/-- A fold of \`max\` from −∞ over a finite set is the supremum over the set. -/
theorem fold_max_bot {ι : Type} (S : Finset ι) (f : ι → EReal) : S.fold max ⊥ f = ⨆ k ∈ S, f k := by
  refine eq_of_forall_ge_iff fun x => ?_
  rw [Finset.fold_max_le]
  simp only [bot_le, true_and, iSup_le_iff]

/-- A fold of OR from the zero bit over a finite set of one-bit words is 1 exactly when some word is 1. -/
theorem fold_ori_zero {ι : Type} (S : Finset ι) (f : ι → BitVec 1) :
    S.fold IntOp.ori 0#1 f = 1#1 ↔ ∃ k ∈ S, f k = 1#1 := by
  classical
  induction S using Finset.induction_on with
  | empty => simp
  | insert a S ha ih =>
    rw [Finset.fold_insert ha]
    have hor : ∀ x y : BitVec 1, IntOp.ori x y = 1#1 ↔ x = 1#1 ∨ y = 1#1 := by decide
    rw [hor, ih]
    simp only [Finset.mem_insert, exists_eq_or_imp]

/-! ## The three insertions -/

/-- (row, column) ↦ (b, row, column). -/
def ins12 (b : Fin 32) : Fin 1024 × Fin 1024 ↪ (⟨3, ![32, 1024, 1024]⟩ : Shape).Idx :=
  ⟨fun p => ix3 b p.1 p.2, fun _ _ hpq => Prod.ext (congrFun hpq 1) (congrFun hpq 2)⟩
/-- column ↦ (b, r, column). -/
def ins2 (b : Fin 32) (r : Fin 1024) : Fin 1024 ↪ (⟨3, ![32, 1024, 1024]⟩ : Shape).Idx :=
  ⟨fun c => ix3 b r c, fun _ _ hpq => congrFun hpq 2⟩
/-- row ↦ (b, row, c). -/
def ins1 (b : Fin 32) (c : Fin 1024) : Fin 1024 ↪ (⟨3, ![32, 1024, 1024]⟩ : Shape).Idx :=
  ⟨fun r => ix3 b r c, fun _ _ hpq => congrFun hpq 1⟩

/-- The indices of sample \`b\`: those that drop to \`b\` when rows and columns are reduced. -/
theorem filter_drop12 (h : (⟨3, ![32, 1024, 1024]⟩ : Shape).ReducesTo [1, 2] ⟨1, ![32]⟩) (b : Fin 32)
    [DecidablePred fun i => h.drop i = ix1 b] :
    (Finset.univ.filter fun i => h.drop i = ix1 b) = Finset.univ.map (ins12 b) := by
  refine filter_eq_map h.drop (ix1 b) (ins12 b) (fun p => ?_) (fun i hi => ?_)
  · funext d
    match d with
    | ⟨0, _⟩ => exact Fin.ext (h.drop_apply_val_of_eq (ins12 b p) ⟨0, by decide⟩ 0)
  · have h0 : i 0 = b := Fin.ext (by
      rw [← h.drop_apply_val_of_eq i ⟨0, by decide⟩ 0]; exact congrArg (fun f => (f ⟨0, by decide⟩).val) hi)
    subst h0
    exact ⟨(i 1, i 2), (eq_ix3 i).symm⟩

/-- The indices of row \`r\` of sample \`b\`: those that drop to (b, r) when columns are reduced. -/
theorem filter_drop2 (h : (⟨3, ![32, 1024, 1024]⟩ : Shape).ReducesTo [2] ⟨2, ![32, 1024]⟩) (b : Fin 32) (r : Fin 1024)
    [DecidablePred fun i => h.drop i = ix2 b r] :
    (Finset.univ.filter fun i => h.drop i = ix2 b r) = Finset.univ.map (ins2 b r) := by
  refine filter_eq_map h.drop (ix2 b r) (ins2 b r) (fun p => ?_) (fun i hi => ?_)
  · funext d
    match d with
    | ⟨0, _⟩ => exact Fin.ext (h.drop_apply_val_of_eq (ins2 b r p) ⟨0, by decide⟩ 0)
    | ⟨1, _⟩ => exact Fin.ext (h.drop_apply_val_of_eq (ins2 b r p) ⟨1, by decide⟩ 1)
  · have h0 : i 0 = b := Fin.ext (by
      rw [← h.drop_apply_val_of_eq i ⟨0, by decide⟩ 0]; exact congrArg (fun f => (f ⟨0, by decide⟩).val) hi)
    have h1 : i 1 = r := Fin.ext (by
      rw [← h.drop_apply_val_of_eq i ⟨1, by decide⟩ 1]; exact congrArg (fun f => (f ⟨1, by decide⟩).val) hi)
    subst h0; subst h1
    exact ⟨i 2, (eq_ix3 i).symm⟩

/-- The indices of column \`c\` of sample \`b\`: those that drop to (b, c) when rows are reduced. -/
theorem filter_drop1 (h : (⟨3, ![32, 1024, 1024]⟩ : Shape).ReducesTo [1] ⟨2, ![32, 1024]⟩) (b : Fin 32) (c : Fin 1024)
    [DecidablePred fun i => h.drop i = ix2 b c] :
    (Finset.univ.filter fun i => h.drop i = ix2 b c) = Finset.univ.map (ins1 b c) := by
  refine filter_eq_map h.drop (ix2 b c) (ins1 b c) (fun p => ?_) (fun i hi => ?_)
  · funext d
    match d with
    | ⟨0, _⟩ => exact Fin.ext (h.drop_apply_val_of_eq (ins1 b c p) ⟨0, by decide⟩ 0)
    | ⟨1, _⟩ => exact Fin.ext (h.drop_apply_val_of_eq (ins1 b c p) ⟨1, by decide⟩ 2)
  · have h0 : i 0 = b := Fin.ext (by
      rw [← h.drop_apply_val_of_eq i ⟨0, by decide⟩ 0]; exact congrArg (fun f => (f ⟨0, by decide⟩).val) hi)
    have h1 : i 2 = c := Fin.ext (by
      rw [← h.drop_apply_val_of_eq i ⟨1, by decide⟩ 2]; exact congrArg (fun f => (f ⟨1, by decide⟩).val) hi)
    subst h0; subst h1
    exact ⟨i 1, (eq_ix3 i).symm⟩

/-! ## Host reductions of a [32,1024,1024] array read at an index -/

/-- A host sum over rows and columns, at sample \`b\`: the initial value plus the double sum. -/
theorem hostReduceAdd12 (x : (⟨3, ![32, 1024, 1024]⟩ : Shape).Idx → EReal) (init : EReal)
    (h : (⟨3, ![32, 1024, 1024]⟩ : Shape).ReducesTo [1, 2] ⟨1, ![32]⟩) (b : Fin 32) :
    Ideal.hostReduceAdd h x init (ix1 b) = init + ∑ r : Fin 1024, ∑ c : Fin 1024, x (ix3 b r c) := by
  unfold Ideal.hostReduceAdd
  rw [filter_drop12 h b, Finset.sum_map, Fintype.sum_prod_type]
  rfl

/-- A host minimum over rows and columns from +∞, at sample \`b\`: the infimum. -/
theorem hostReduce_min12 {u : Shape} (x : (⟨3, ![32, 1024, 1024]⟩ : Shape).Idx → EReal) (init : u.Idx → EReal)
    (h : (⟨3, ![32, 1024, 1024]⟩ : Shape).ReducesTo [1, 2] ⟨1, ![32]⟩) (hu : 0 < u.numel)
    (hinit : init (Shape.Idx.first hu) = ⊤) (b : Fin 32) :
    Host.reduce (FloatOps.minimumf (F := Ideal) (φ := .f32)) x init h hu (ix1 b)
      = ⨅ r : Fin 1024, ⨅ c : Fin 1024, x (ix3 b r c) := by
  rw [Host.reduce_eq_fold, filter_drop12 h b, hinit, Finset.fold_map]
  refine (fold_min_top _ _).trans ?_
  simp only [Finset.mem_univ, iInf_pos]
  exact iInf_prod

/-- A host maximum over rows and columns from −∞, at sample \`b\`: the supremum. -/
theorem hostReduce_max12 {u : Shape} (x : (⟨3, ![32, 1024, 1024]⟩ : Shape).Idx → EReal) (init : u.Idx → EReal)
    (h : (⟨3, ![32, 1024, 1024]⟩ : Shape).ReducesTo [1, 2] ⟨1, ![32]⟩) (hu : 0 < u.numel)
    (hinit : init (Shape.Idx.first hu) = ⊥) (b : Fin 32) :
    Host.reduce (FloatOps.maximumf (F := Ideal) (φ := .f32)) x init h hu (ix1 b)
      = ⨆ r : Fin 1024, ⨆ c : Fin 1024, x (ix3 b r c) := by
  rw [Host.reduce_eq_fold, filter_drop12 h b, hinit, Finset.fold_map]
  refine (fold_max_bot _ _).trans ?_
  simp only [Finset.mem_univ, iSup_pos]
  exact iSup_prod

/-- A host OR over rows and columns from the zero bit, at sample \`b\`: 1 exactly when some entry is 1. -/
theorem hostReduce_or12 {u : Shape} (x : (⟨3, ![32, 1024, 1024]⟩ : Shape).Idx → BitVec 1) (init : u.Idx → BitVec 1)
    (h : (⟨3, ![32, 1024, 1024]⟩ : Shape).ReducesTo [1, 2] ⟨1, ![32]⟩) (hu : 0 < u.numel)
    (hinit : init (Shape.Idx.first hu) = 0#1) (b : Fin 32) :
    Host.reduce IntOp.ori x init h hu (ix1 b) = 1#1 ↔ ∃ r c, x (ix3 b r c) = 1#1 := by
  rw [Host.reduce_eq_fold, filter_drop12 h b, hinit, Finset.fold_map, fold_ori_zero]
  simp only [Finset.mem_univ, true_and, Function.comp]
  exact Prod.exists

/-- A host OR over columns, at (sample, row). -/
theorem hostReduce_or2 {u : Shape} (x : (⟨3, ![32, 1024, 1024]⟩ : Shape).Idx → BitVec 1) (init : u.Idx → BitVec 1)
    (h : (⟨3, ![32, 1024, 1024]⟩ : Shape).ReducesTo [2] ⟨2, ![32, 1024]⟩) (hu : 0 < u.numel)
    (hinit : init (Shape.Idx.first hu) = 0#1) (b : Fin 32) (r : Fin 1024) :
    Host.reduce IntOp.ori x init h hu (ix2 b r) = 1#1 ↔ ∃ c, x (ix3 b r c) = 1#1 := by
  rw [Host.reduce_eq_fold, filter_drop2 h b r, hinit, Finset.fold_map, fold_ori_zero]
  simp only [Finset.mem_univ, true_and, Function.comp]
  rfl

/-- A host OR over rows, at (sample, column). -/
theorem hostReduce_or1 {u : Shape} (x : (⟨3, ![32, 1024, 1024]⟩ : Shape).Idx → BitVec 1) (init : u.Idx → BitVec 1)
    (h : (⟨3, ![32, 1024, 1024]⟩ : Shape).ReducesTo [1] ⟨2, ![32, 1024]⟩) (hu : 0 < u.numel)
    (hinit : init (Shape.Idx.first hu) = 0#1) (b : Fin 32) (c : Fin 1024) :
    Host.reduce IntOp.ori x init h hu (ix2 b c) = 1#1 ↔ ∃ r, x (ix3 b r c) = 1#1 := by
  rw [Host.reduce_eq_fold, filter_drop1 h b c, hinit, Finset.fold_map, fold_ori_zero]
  simp only [Finset.mem_univ, true_and, Function.comp]
  rfl

end Cert.ReferenceIdeal.RefRead

end
-- ==== Proof.RefRead3.lean ====
/-
  The reference computation's arrays read by coordinates.

  Each intermediate array of the reference is an operation applied to earlier arrays. Read at an index, an elementwise
  operation is the scalar operation on the operands' entries, a broadcast repeats an entry, the leading reshape drops a
  unit axis, and a reduction over rows, columns or both is a sum, an infimum, a supremum or an "exists" over the
  reduced coordinates. Composing these readings, the four arrays that enter the closing average are the per-sample
  confidence sum, area sum, squared-error sum and "the rectangle differs from the mask" flag of the image batch.
-/
import proofs.«163302_j24532853195288_2_alg».proof.Proof.RefOps
import proofs.«163302_j24532853195288_2_alg».proof.Proof.Spec
import proofs.«163302_j24532853195288_2_alg».proof.Proof.Gen.ReferenceIdeal
import proofs.«163302_j24532853195288_2_alg».proof.Proof.RefRead2
import proofs.«163302_j24532853195288_2_alg».proof.Proof.LibMinReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Stages

/-! ## Scalars -/

/-- The f32 word \`0x3F800000\` denotes 1. -/
theorem ofBits_one : Ideal.ofBits .f32 0x3F800000#32 = (1 : EReal) := by
  simp [Ideal.ofBits, Ideal.ieee, -EReal.coe_mul]
  norm_num
/-- The f32 word \`0xFF800000\` denotes −∞. -/
theorem ofBits_bot : Ideal.ofBits .f32 0xFF800000#32 = (⊥ : EReal) := by
  simp [Ideal.ofBits, Ideal.ieee]

/-- The comparison bit of a decidable proposition is the proposition's bit. -/
theorem ofBool_decide_eq_bit (p : Prop) [Decidable p] : BitVec.ofBool (decide p) = RectFill.bit p := by
  by_cases hp : p
  · rw [RectFill.bit_true hp, decide_eq_true hp]; rfl
  · rw [RectFill.bit_false hp, decide_eq_false hp]; rfl

/-- "greater than", as a bit. -/
theorem cmp_ogt (a h : EReal) : Ideal.cmp .ogt a h = RectFill.bit (h < a) := ofBool_decide_eq_bit _

/-- The bit of a proposition, as an extended real, is its indicator. -/
theorem bitE_bit (p : Prop) : RectFill.bitE (RectFill.bit p) = RectFill.ind p := by
  by_cases hp : p
  · rw [RectFill.bit_true hp, RectFill.ind_true hp]; simp [RectFill.bitE]
  · rw [RectFill.bit_false hp, RectFill.ind_false hp]; simp [RectFill.bitE]

/-- A one-bit word is the bit of "it is 1". -/
theorem eq_bit_of_iff {w : BitVec 1} {p : Prop} (h : w = 1#1 ↔ p) : w = RectFill.bit p := by
  by_cases hp : p
  · rw [RectFill.bit_true hp]; exact h.2 hp
  · rw [RectFill.bit_false hp]; exact eq_zero_of_ne_one fun hw => hp (h.1 hw)

theorem bit_eq_one_iff (p : Prop) : RectFill.bit p = 1#1 ↔ p := by
  by_cases hp : p
  · rw [RectFill.bit_true hp]; exact ⟨fun _ => hp, fun _ => rfl⟩
  · rw [RectFill.bit_false hp]; exact ⟨fun h => absurd h (by decide), fun h => absurd h hp⟩

/-- A host float sum at the exact instance is the exact sum. -/
theorem hostReduceAdd_eq {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

variable (X : (⟨S32x1x1024x1024, .f32⟩ : BufTy).Contents (Elt Ideal))

/-! ## The image, its logistic, and the two sums -/

/-- The reshaped argument at (b, r, c) is the argument at (b, 0, r, c). -/
theorem v0_at (b : Fin 32) (r c : Fin 1024) : res_main_v0 (F := Ideal) X (ix3 b r c) = RectFill.img4 X b r c := by
  unfold res_main_v0
  exact shapeCast_apply X _ _ (ix4 b 0 r c) (by
    rw [Shape.rowMajor_val_four, Shape.rowMajor_val_three]
    show ((b.val * 1 + 0) * 1024 + r.val) * 1024 + c.val = (b.val * 1024 + r.val) * 1024 + c.val
    omega)

/-- 1 / (1 + exp (−x)) entrywise is the logistic function. -/
theorem v6_at (i : S32x1024x1024.Idx) :
    res_main_v6 (F := Ideal) X i = RectFill.prob (res_main_v0 (F := Ideal) X i) := by
  show Ideal.div (Ideal.ofBits .f32 0x3F800000#32)
      (Ideal.ofBits .f32 0x3F800000#32 + Ideal.exp (-(res_main_v0 (F := Ideal) X i))) = _
  rw [ofBits_one]; rfl

theorem v9_at (i : S32x1024x1024.Idx) :
    res_main_v9 (F := Ideal) X i = RectFill.absE (RectFill.prob (res_main_v0 (F := Ideal) X i) - RectFill.half) := by
  show max (res_main_v6 (F := Ideal) X i - Ideal.ofBits .f32 0x3F000000#32)
      (-(res_main_v6 (F := Ideal) X i - Ideal.ofBits .f32 0x3F000000#32)) = _
  rw [v6_at]; rfl

theorem v10_eq : res_main_v10 (F := Ideal) X = RectFill.vec (RectFill.confSum (RectFill.img4 X)) := by
  funext j
  obtain ⟨b, rfl⟩ : ∃ b : Fin 32, j = ix1 b := ⟨j 0, eq_ix1 j⟩
  unfold res_main_v10
  dsimp only
  rw [hostReduceAdd_eq, hostReduceAdd12]
  show Ideal.ofBits .f32 0x00000000#32 + _ = _
  rw [Ideal.ofBits_zero_f32, zero_add]
  show _ = ∑ r : Fin 1024, ∑ c : Fin 1024, RectFill.absE (RectFill.prob (RectFill.img4 X b r c) - RectFill.half)
  refine Finset.sum_congr rfl fun r _ => Finset.sum_congr rfl fun c _ => ?_
  rw [v9_at, v0_at]

theorem v15_at (i : S32x1024x1024.Idx) :
    res_main_v15 (F := Ideal) X i = RectFill.ind (RectFill.half < RectFill.prob (res_main_v0 (F := Ideal) X i)) := by
  show RectFill.bitE (Ideal.cmp .ogt (res_main_v6 (F := Ideal) X i) (Ideal.ofBits .f32 0x3F000000#32)) = _
  rw [cmp_ogt, bitE_bit, v6_at]; rfl

theorem v16_eq : res_main_v16 (F := Ideal) X = RectFill.vec (RectFill.areaSum (RectFill.img4 X)) := by
  funext j
  obtain ⟨b, rfl⟩ : ∃ b : Fin 32, j = ix1 b := ⟨j 0, eq_ix1 j⟩
  unfold res_main_v16
  dsimp only
  rw [hostReduceAdd_eq, hostReduceAdd12]
  show Ideal.ofBits .f32 0x00000000#32 + _ = _
  rw [Ideal.ofBits_zero_f32, zero_add]
  show _ = ∑ r : Fin 1024, ∑ c : Fin 1024, RectFill.ind (RectFill.half < RectFill.prob (RectFill.img4 X b r c))
  refine Finset.sum_congr rfl fun r _ => Finset.sum_congr rfl fun c _ => ?_
  rw [v15_at, v0_at]

/-! ## The per-sample bounds -/

theorem v38_eq : res_main_v38 (F := Ideal) X = RectFill.vec (RectFill.lo (RectFill.img4 X)) := by
  funext j
  obtain ⟨b, rfl⟩ : ∃ b : Fin 32, j = ix1 b := ⟨j 0, eq_ix1 j⟩
  unfold res_main_v38
  dsimp only
  refine (hostReduce_min12 _ _ _ _ Cert.LibMinReduce.ofBits_top b).trans ?_
  exact iInf_congr fun r => iInf_congr fun c => v0_at X b r c

theorem v39_eq : res_main_v39 (F := Ideal) X = RectFill.vec (RectFill.hi (RectFill.img4 X)) := by
  funext j
  obtain ⟨b, rfl⟩ : ∃ b : Fin 32, j = ix1 b := ⟨j 0, eq_ix1 j⟩
  unfold res_main_v39
  dsimp only
  refine (hostReduce_max12 _ _ _ _ ofBits_bot b).trans ?_
  exact iSup_congr fun r => iSup_congr fun c => v0_at X b r c

/-! ## Operations read at an index, over variables -/

theorem hostDivf_at {s : Shape} (a d : FVec Ideal s .f32) (i : s.Idx) : Host.divf a d i = Ideal.div (a i) (d i) := rfl

theorem bcast_const_at {s : Shape} (w : BitVec 32) (h : S_.BroadcastsInDim s (![] : Fin 0 → Fin s.rank)) (i : s.Idx) :
    broadcastInDim s ![] h (constant (F := Ideal) S_ .f32 w) i = Ideal.ofBits .f32 w := rfl

theorem uitofp_at {s : Shape} (w : IVec s 1) (i : s.Idx) :
    (uitofp .f32 w : FVec Ideal s .f32) i = RectFill.bitE (w i) := rfl

theorem cmpf_ogt_at {s : Shape} (a h : FVec Ideal s .f32) (i : s.Idx) :
    cmpf .ogt a h i = RectFill.bit (h i < a i) := cmp_ogt _ _

/-! ## The normalised image and the mask -/

/-- A per-sample vector broadcast to [32,1,1] and then to [32,1024,1024], read at (b, r, c), is the vector at b. -/
theorem bcast_sample {α : Type} (v : S32.Idx → α) (h1 : S32.BroadcastsInDim S32x1x1 (![0] : Fin 1 → Fin S32x1x1.rank))
    (h2 : S32x1x1.BroadcastsInDim S32x1024x1024 (![0, 1, 2] : Fin 3 → Fin S32x1024x1024.rank))
    (b : Fin 32) (r c : Fin 1024) :
    broadcastInDim S32x1024x1024 ![0, 1, 2] h2 (broadcastInDim S32x1x1 ![0] h1 v) (ix3 b r c) = v (ix1 b) := by
  rw [broadcastInDim_apply _ h2 _ (ix3 b r c) (ix3 b 0 0) (fun a => by fin_cases a <;> rfl)]
  exact broadcastInDim_apply _ h1 v (ix3 b 0 0) (ix1 b) (fun a => by fin_cases a; rfl)

theorem v41_at (b : Fin 32) (r c : Fin 1024) :
    res_main_v41 (F := Ideal) X (ix3 b r c) = RectFill.lo (RectFill.img4 X) b := by
  unfold res_main_v41 res_main_v40
  rw [bcast_sample, v38_eq]; rfl

/-- hi − lo + ε, per sample. -/
theorem v45_eq : res_main_v45 (F := Ideal) X = RectFill.vec fun b =>
    RectFill.hi (RectFill.img4 X) b - RectFill.lo (RectFill.img4 X) b + RectFill.eps := by
  unfold res_main_v45 res_main_v43 res_main_v44 res_main_cst_20
  rw [v38_eq, v39_eq]; rfl

theorem v47_at (b : Fin 32) (r c : Fin 1024) :
    res_main_v47 (F := Ideal) X (ix3 b r c)
      = RectFill.hi (RectFill.img4 X) b - RectFill.lo (RectFill.img4 X) b + RectFill.eps := by
  unfold res_main_v47 res_main_v46
  rw [bcast_sample, v45_eq]; rfl

theorem v48_at (b : Fin 32) (r c : Fin 1024) :
    res_main_v48 (F := Ideal) X (ix3 b r c)
      = RectFill.pn (RectFill.img4 X) (RectFill.lo (RectFill.img4 X)) (RectFill.hi (RectFill.img4 X)) b r c := by
  unfold res_main_v48 res_main_v42
  rw [hostDivf_at, subf_apply, v0_at, v41_at, v47_at]; rfl

theorem v50_at (b : Fin 32) (r c : Fin 1024) :
    res_main_v50 (F := Ideal) X (ix3 b r c)
      = RectFill.bit (RectFill.binP (RectFill.img4 X) (RectFill.lo (RectFill.img4 X)) (RectFill.hi (RectFill.img4 X)) b r c) := by
  unfold res_main_v50 res_main_v49 res_main_cst_21
  rw [cmpf_ogt_at, bcast_const_at, v48_at]; rfl
/-! ## Row, column and whole-sample occupancy -/

theorem v51_at (b : Fin 32) (r : Fin 1024) :
    res_main_v51 (F := Ideal) X (ix2 b r)
      = RectFill.bit (RectFill.rowsP (RectFill.img4 X) (RectFill.lo (RectFill.img4 X)) (RectFill.hi (RectFill.img4 X)) b r) := by
  unfold res_main_v51
  dsimp only
  refine eq_bit_of_iff ((hostReduce_or2 _ _ _ _ rfl b r).trans ?_)
  exact exists_congr fun c => by rw [v50_at, bit_eq_one_iff]

theorem v52_at (b : Fin 32) (c : Fin 1024) :
    res_main_v52 (F := Ideal) X (ix2 b c)
      = RectFill.bit (RectFill.colsP (RectFill.img4 X) (RectFill.lo (RectFill.img4 X)) (RectFill.hi (RectFill.img4 X)) b c) := by
  unfold res_main_v52
  dsimp only
  refine eq_bit_of_iff ((hostReduce_or1 _ _ _ _ rfl b c).trans ?_)
  exact exists_congr fun r => by rw [v50_at, bit_eq_one_iff]

theorem v80_at (b : Fin 32) :
    res_main_v80 (F := Ideal) X (ix1 b)
      = RectFill.bit (RectFill.anyP (RectFill.img4 X) (RectFill.lo (RectFill.img4 X)) (RectFill.hi (RectFill.img4 X)) b) := by
  unfold res_main_v80
  dsimp only
  refine eq_bit_of_iff ((hostReduce_or12 _ _ _ _ rfl b).trans ?_)
  exact exists_congr fun r => exists_congr fun c => by rw [v50_at, bit_eq_one_iff]

/-- The row occupancy widened to 32-bit words. -/
theorem v53_eq : res_main_v53 (F := Ideal) X = RectFill.at2 (RectFill.rowWordsR (RectFill.img4 X)) := by
  funext j
  obtain ⟨b, r, rfl⟩ : ∃ (b : Fin 32) (r : Fin 1024), j = ix2 b r := ⟨j 0, j 1, eq_ix2 j⟩
  unfold res_main_v53
  dsimp only
  rw [extui_apply, v51_at]; rfl

/-- The column occupancy widened to 32-bit words. -/
theorem v65_eq : res_main_v65 (F := Ideal) X = RectFill.at2 (RectFill.colWordsR (RectFill.img4 X)) := by
  funext j
  obtain ⟨b, c, rfl⟩ : ∃ (b : Fin 32) (c : Fin 1024), j = ix2 b c := ⟨j 0, j 1, eq_ix2 j⟩
  unfold res_main_v65
  dsimp only
  rw [extui_apply, v52_at]; rfl

/-! ## The spans and the filled rectangle -/

/-- The row span array is the span of the row occupancy words. -/
theorem v63_eq : res_main_v63 (F := Ideal) X = RectFill.span (res_main_v53 (F := Ideal) X) := rfl

/-- The column span array is the span of the column occupancy words. -/
theorem v75_eq : res_main_v75 (F := Ideal) X = RectFill.span (res_main_v65 (F := Ideal) X) := rfl

theorem v63_at (b : Fin 32) (r : Fin 1024) :
    res_main_v63 (F := Ideal) X (ix2 b r) = RectFill.spanOf (RectFill.rowWordsR (RectFill.img4 X)) b r := by
  rw [v63_eq, v53_eq]; rfl

theorem v75_at (b : Fin 32) (c : Fin 1024) :
    res_main_v75 (F := Ideal) X (ix2 b c) = RectFill.spanOf (RectFill.colWordsR (RectFill.img4 X)) b c := by
  rw [v75_eq, v65_eq]; rfl

/-- A (sample, row) array broadcast along columns, read at (b, r, c). -/
theorem bcast_rows {α : Type} (v : S32x1024.Idx → α)
    (h1 : S32x1024.BroadcastsInDim S32x1024x1 (![0, 1] : Fin 2 → Fin S32x1024x1.rank))
    (h2 : S32x1024x1.BroadcastsInDim S32x1024x1024 (![0, 1, 2] : Fin 3 → Fin S32x1024x1024.rank))
    (b : Fin 32) (r c : Fin 1024) :
    broadcastInDim S32x1024x1024 ![0, 1, 2] h2 (broadcastInDim S32x1024x1 ![0, 1] h1 v) (ix3 b r c) = v (ix2 b r) := by
  rw [broadcastInDim_apply _ h2 _ (ix3 b r c) (ix3 b r 0) (fun a => by fin_cases a <;> rfl)]
  exact broadcastInDim_apply _ h1 v (ix3 b r 0) (ix2 b r) (fun a => by fin_cases a <;> rfl)

/-- A (sample, column) array broadcast along rows, read at (b, r, c). -/
theorem bcast_cols {α : Type} (v : S32x1024.Idx → α)
    (h1 : S32x1024.BroadcastsInDim S32x1x1024 (![0, 2] : Fin 2 → Fin S32x1x1024.rank))
    (h2 : S32x1x1024.BroadcastsInDim S32x1024x1024 (![0, 1, 2] : Fin 3 → Fin S32x1024x1024.rank))
    (b : Fin 32) (r c : Fin 1024) :
    broadcastInDim S32x1024x1024 ![0, 1, 2] h2 (broadcastInDim S32x1x1024 ![0, 2] h1 v) (ix3 b r c) = v (ix2 b c) := by
  rw [broadcastInDim_apply _ h2 _ (ix3 b r c) (ix3 b 0 c) (fun a => by fin_cases a <;> rfl)]
  exact broadcastInDim_apply _ h1 v (ix3 b 0 c) (ix2 b c) (fun a => by fin_cases a <;> rfl)

theorem andi_at {s : Shape} (x y : IVec s 1) (i : s.Idx) : andi x y i = IntOp.andi (x i) (y i) := rfl

theorem cmpi_at {s : Shape} (p : CmpIPredicate) (x y : IVec s 1) (i : s.Idx) :
    cmpi p x y i = IntOp.cmpi p (x i) (y i) := rfl

theorem andi_eq_one_iff (u v : BitVec 1) : IntOp.andi u v = 1#1 ↔ u = 1#1 ∧ v = 1#1 := by
  revert u v; decide

/-- The filled rectangle: row span and column span and "the mask is not empty". -/
theorem v83_at (b : Fin 32) (r c : Fin 1024) :
    res_main_v83 (F := Ideal) X (ix3 b r c) = RectFill.bit (RectFill.fillR (RectFill.img4 X) b r c) := by
  unfold res_main_v83 res_main_v79 res_main_v77 res_main_v64 res_main_v78 res_main_v76 res_main_v82 res_main_v81
  rw [andi_at, andi_at, bcast_rows, bcast_cols, bcast_sample, v63_at, v75_at, v80_at]
  refine eq_bit_of_iff ?_
  rw [andi_eq_one_iff, andi_eq_one_iff, bit_eq_one_iff]
  rfl

theorem cmpi_ne_bit (p q : Prop) : IntOp.cmpi .ne (RectFill.bit p) (RectFill.bit q) = RectFill.bit (¬(p ↔ q)) := by
  by_cases hp : p <;> by_cases hq : q
  · rw [RectFill.bit_true hp, RectFill.bit_true hq, RectFill.bit_false (by tauto)]; rfl
  · rw [RectFill.bit_true hp, RectFill.bit_false hq, RectFill.bit_true (by tauto)]; rfl
  · rw [RectFill.bit_false hp, RectFill.bit_true hq, RectFill.bit_true (by tauto)]; rfl
  · rw [RectFill.bit_false hp, RectFill.bit_false hq, RectFill.bit_false (by tauto)]; rfl

theorem v84_at (b : Fin 32) (r c : Fin 1024) :
    res_main_v84 (F := Ideal) X (ix3 b r c) = RectFill.bit (¬(RectFill.fillR (RectFill.img4 X) b r c ↔
      RectFill.binP (RectFill.img4 X) (RectFill.lo (RectFill.img4 X)) (RectFill.hi (RectFill.img4 X)) b r c)) := by
  unfold res_main_v84
  rw [cmpi_at, v83_at, v50_at, cmpi_ne_bit]

/-- The flag: the rectangle differs from the mask somewhere in the sample. -/
theorem v85_eq : res_main_v85 (F := Ideal) X = RectFill.vec fun b =>
    RectFill.bit (RectFill.validP (RectFill.img4 X) (RectFill.lo (RectFill.img4 X)) (RectFill.hi (RectFill.img4 X))
      (RectFill.fillR (RectFill.img4 X)) b) := by
  funext j
  obtain ⟨b, rfl⟩ : ∃ b : Fin 32, j = ix1 b := ⟨j 0, eq_ix1 j⟩
  unfold res_main_v85
  dsimp only
  refine (eq_bit_of_iff ((hostReduce_or12 _ _ _ _ rfl b).trans ?_))
  exact exists_congr fun r => exists_congr fun c => by rw [v84_at, bit_eq_one_iff]

theorem v88_at (b : Fin 32) (r c : Fin 1024) :
    res_main_v88 (F := Ideal) X (ix3 b r c)
      = (RectFill.pn (RectFill.img4 X) (RectFill.lo (RectFill.img4 X)) (RectFill.hi (RectFill.img4 X)) b r c
          - RectFill.ind (RectFill.fillR (RectFill.img4 X) b r c))
        * (RectFill.pn (RectFill.img4 X) (RectFill.lo (RectFill.img4 X)) (RectFill.hi (RectFill.img4 X)) b r c
          - RectFill.ind (RectFill.fillR (RectFill.img4 X) b r c)) := by
  unfold res_main_v88 res_main_v87 res_main_v86
  rw [mulf_apply, subf_apply, uitofp_at, v48_at, v83_at, bitE_bit]

/-- The squared error against the filled rectangle, summed over the sample. -/
theorem v89_eq : res_main_v89 (F := Ideal) X = RectFill.vec
    (RectFill.mseR (RectFill.img4 X) (RectFill.lo (RectFill.img4 X)) (RectFill.hi (RectFill.img4 X))
      (RectFill.fillR (RectFill.img4 X))) := by
  funext j
  obtain ⟨b, rfl⟩ : ∃ b : Fin 32, j = ix1 b := ⟨j 0, eq_ix1 j⟩
  unfold res_main_v89
  dsimp only
  rw [hostReduceAdd_eq, hostReduceAdd12]
  show Ideal.ofBits .f32 0x00000000#32 + _ = _
  rw [Ideal.ofBits_zero_f32, zero_add]
  show _ = ∑ r : Fin 1024, ∑ c : Fin 1024,
    (RectFill.pn (RectFill.img4 X) (RectFill.lo (RectFill.img4 X)) (RectFill.hi (RectFill.img4 X)) b r c
        - RectFill.ind (RectFill.fillR (RectFill.img4 X) b r c))
      * (RectFill.pn (RectFill.img4 X) (RectFill.lo (RectFill.img4 X)) (RectFill.hi (RectFill.img4 X)) b r c
        - RectFill.ind (RectFill.fillR (RectFill.img4 X) b r c))
  exact Finset.sum_congr rfl fun r _ => Finset.sum_congr rfl fun c _ => v88_at X b r c

end Cert.ReferenceIdeal.RefRead

end
-- ==== Proof.RefRead.lean ====
/-
  The reference computation's result as a function of its argument.

  The reference ends with a select between an average and zero, computed from four per-sample arrays. Those four arrays
  are the per-sample confidence sum, area sum, squared-error sum against the filled rectangle, and the flag "the
  rectangle differs from the mask"; the operations after them are, one for one, the closing average of the
  mathematical statement. So the result is the second spelling of the whole computation on the argument read as a
  batch of images.
-/
import proofs.«163302_j24532853195288_2_alg».proof.Proof.RefRead3

noncomputable section

namespace Cert.ReferenceIdeal.RefRead

open Idealize.ShloMosaic Idealize.ShloMosaic.ValueIdx Cert.ReferenceIdeal Cert.ReferenceIdeal.Stages

variable (X : (⟨S32x1x1024x1024, .f32⟩ : BufTy).Contents (Elt Ideal))

/-! ## The closing average -/

/-- The result is the closing average of the four per-sample arrays. -/
theorem v101_tail : res_main_v101 (F := Ideal) X
    = RectFill.tail (res_main_v10 (F := Ideal) X) (res_main_v16 (F := Ideal) X) (res_main_v89 (F := Ideal) X)
        (res_main_v85 (F := Ideal) X) := rfl

/-- The reference's result is the second spelling of the whole computation on the argument read as an image batch. -/
theorem res_eq : res_main_v101 (F := Ideal) X = RectFill.outR (RectFill.img4 X) := by
  rw [v101_tail, v10_eq, v16_eq, v89_eq, v85_eq]; rfl

end Cert.ReferenceIdeal.RefRead

end
-- ==== Proof.lean ====
/-
  The certificate's five claims.  The three frames: the two kernel programs' are their generated frame proofs; the
  reference's is its run with the result dropped.  The idealization rewrote nothing, so the fourth claim is trivial.
  The fifth: at the ideal instance the three-pass program's result buffer ends at the first spelling of the
  rectangle-fill loss of the argument read as a batch of images (the chain of buffer contents through the passes and the
  host operations, with what each pass leaves in its result arrays), the reference's at the second spelling (its
  operations read one at a time), and under the precondition — every entry a real number — the two spellings are equal:
  thresholding x against lo + ½(hi − lo + ε) is thresholding (x − lo)/(hi − lo + ε) against ½ because hi − lo + ε > 0;
  a product of 0/1 span factors is the conjunction of the span bits, and "the mask is not empty" is implied by a row
  span bit; a sum of |difference of indicators| exceeds ½ exactly when some pair of indicators differs; sums, minima
  and maxima over row tiles regroup freely on the extended reals.
-/
import proofs.«163302_j24532853195288_2_alg».proof.Defs
import proofs.«163302_j24532853195288_2_alg».proof.Proof.Gen.Kernel
import proofs.«163302_j24532853195288_2_alg».proof.Proof.Gen.Kernel.Skeleton
import proofs.«163302_j24532853195288_2_alg».proof.Proof.Gen.Kernel.Launch
import proofs.«163302_j24532853195288_2_alg».proof.Proof.Gen.Kernel.Points
import proofs.«163302_j24532853195288_2_alg».proof.Proof.Gen.Kernel.Frame
import proofs.«163302_j24532853195288_2_alg».proof.Proof.Gen.KernelIdeal
import proofs.«163302_j24532853195288_2_alg».proof.Proof.Gen.KernelIdeal.Skeleton
import proofs.«163302_j24532853195288_2_alg».proof.Proof.Gen.KernelIdeal.Launch
import proofs.«163302_j24532853195288_2_alg».proof.Proof.Gen.KernelIdeal.Points
import proofs.«163302_j24532853195288_2_alg».proof.Proof.Gen.KernelIdeal.Frame
import proofs.«163302_j24532853195288_2_alg».proof.Proof.Gen.ReferenceIdeal
import proofs.«163302_j24532853195288_2_alg».proof.Proof.Gen.Pre_finite_inputs
import proofs.«163302_j24532853195288_2_alg».proof.Proof.KernelValue
import proofs.«163302_j24532853195288_2_alg».proof.Proof.Region0Min
import proofs.«163302_j24532853195288_2_alg».proof.Proof.Region0Sum
import proofs.«163302_j24532853195288_2_alg».proof.Proof.Region1
import proofs.«163302_j24532853195288_2_alg».proof.Proof.Region2
import proofs.«163302_j24532853195288_2_alg».proof.Proof.Math
import proofs.«163302_j24532853195288_2_alg».proof.Proof.Finite
import proofs.«163302_j24532853195288_2_alg».proof.Proof.RefRun
import proofs.«163302_j24532853195288_2_alg».proof.Proof.RefRead
import Idealize.ShloMosaic.Adequacy
import Idealize.ShloMosaic.Init

noncomputable section

namespace Cert.Proof

open Idealize.ShloMosaic Idealize.SL.Sem

/-- What each of the three passes leaves in its result arrays. -/
theorem passes : Cert.KernelIdeal.Glue.Passes where
  lo := Cert.KernelIdeal.Region0Min.lo_arr
  hi := Cert.KernelIdeal.Region0Min.hi_arr
  conf := Cert.KernelIdeal.Region0Sum.conf_arr
  area := Cert.KernelIdeal.Region0Sum.area_arr
  rows := Cert.KernelIdeal.Region1.rows_arr
  cols := Cert.KernelIdeal.Region1.cols_arr
  mse := Cert.KernelIdeal.Region2.mse_arr
  xor := Cert.KernelIdeal.Region2.xor_arr

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs run, the kernel program's result at the first spelling of the loss, the reference's at the
    second, of arguments that agree; under the precondition the spellings are equal. -/
theorem algebraic : Cert.algebraic_KernelIdeal_ReferenceIdeal := by
  intro m ρ m' ρ' hpre hagree
  refine ⟨fun c => Cert.RectFill.outK (Cert.KernelIdeal.Glue.X m c), ?_, ?_⟩
  · exact (θ_run Cert.KernelIdeal.defs _ _).mono
      (fun _ h c => ⟨(h c).1.trans (Cert.KernelIdeal.Glue.last_value passes m ρ c), (h c).2⟩)
      (Cert.KernelIdeal.Glue.run_last m ρ)
  · refine (θ_run Cert.ReferenceIdeal.defs _ _).mono (fun _ h c => ⟨(h c).1.trans ?_, (h c).2⟩)
      (Cert.ReferenceIdeal.RefRun.run (F := Ideal) m' ρ')
    rw [Cert.ReferenceIdeal.RefRead.res_eq, hagree c]
    exact (Cert.RectFill.outK_eq_outR _ (fun b r k => Cert.Proof.Finite.finite_of_pre _ (hpre c) _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
